-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1 : Shape := ⟨2, ![16384, 1]⟩
abbrev S512x128000 : Shape := ⟨2, ![512, 128000]⟩
abbrev S_ : Shape := ⟨0, ![]⟩

class Facts : Prop where
  bcast_S_S512x128000 : S_.BroadcastsInDim S512x128000 (![] : Fin 0 → Fin S512x128000.rank)
  reducesTo_S512x128000_S_d0_1 : S512x128000.ReducesTo [0, 1] S_
  h_S_ : 0 < S_.numel
  bcast_S_S16384x1 : S_.BroadcastsInDim S16384x1 (![] : Fin 0 → Fin S16384x1.rank)
  reducesTo_S16384x1_S_d0_1 : S16384x1.ReducesTo [0, 1] S_

variable [Facts]

def fn {F : FTy → Type} [FloatOps F] (main_arg0 : IVec S16384x1 32) (main_arg1 : FVec F S512x128000 .f32) : IVec S_ 1 :=
  let main_v0 : FVec F S512x128000 .f32 := Host.absf main_arg1
  let main_cst : FVec F S_ .f32 := constant S_ .f32 0x7F800000#32
  let main_v1 : FVec F S512x128000 .f32 := broadcastInDim S512x128000 ![] bcast_S_S512x128000 main_cst
  let main_v2 : IVec S512x128000 1 := cmpf .olt main_v0 main_v1
  let main_c : IVec S_ 1 := constantI S_ 1 1#1
  let main_v3 : IVec S_ 1 := (fun x v => Host.reduce IntOp.andi x v reducesTo_S512x128000_S_d0_1 h_S_) main_v2 main_c
  let main_c_0 : IVec S_ 32 := constantI S_ 32 0#32
  let main_v4 : IVec S16384x1 32 := broadcastInDim S16384x1 ![] bcast_S_S16384x1 main_c_0
  let main_v5 : IVec S16384x1 1 := cmpi .sge main_arg0 main_v4
  let main_c_1 : IVec S_ 32 := constantI S_ 32 128000#32
  let main_v6 : IVec S16384x1 32 := broadcastInDim S16384x1 ![] bcast_S_S16384x1 main_c_1
  let main_v7 : IVec S16384x1 1 := cmpi .slt main_arg0 main_v6
  let main_v8 : IVec S16384x1 1 := andi main_v5 main_v7
  let main_c_2 : IVec S_ 1 := constantI S_ 1 1#1
  let main_v9 : IVec S_ 1 := (fun x v => Host.reduce IntOp.andi x v reducesTo_S16384x1_S_d0_1 h_S_) main_v8 main_c_2
  let main_v10 : IVec S_ 1 := andi main_v3 main_v9
  main_v10
-- ==== Kernel.lean ====
abbrev S16384x1 : Shape := ⟨2, ![16384, 1]⟩
abbrev S512x128000 : Shape := ⟨2, ![512, 128000]⟩
abbrev S16384 : Shape := ⟨1, ![16384]⟩
abbrev S128000x512 : Shape := ⟨2, ![128000, 512]⟩
abbrev S16384x512 : Shape := ⟨2, ![16384, 512]⟩
abbrev S64x512 : Shape := ⟨2, ![64, 512]⟩
abbrev S64 : Shape := ⟨1, ![64]⟩
abbrev S1 : Shape := ⟨1, ![1]⟩
abbrev S_ : Shape := ⟨0, ![]⟩
abbrev S1x512 : Shape := ⟨2, ![1, 512]⟩
abbrev S512 : Shape := ⟨1, ![512]⟩
abbrev S16384x1x512 : Shape := ⟨3, ![16384, 1, 512]⟩

abbrev nBuf : Space → Nat
  | .hbm => 5
  | .vmem => 2
  | .smem => 1
  | _ => 0

abbrev bufTy : (tb : Table) → Fin (tcTables nBuf tb) → BufTy
  | .hbm, ⟨0, _⟩ => ⟨S16384x1, .i32⟩
  | .hbm, ⟨1, _⟩ => ⟨S512x128000, .f32⟩
  | .hbm, ⟨2, _⟩ => ⟨S128000x512, .f32⟩
  | .hbm, ⟨3, _⟩ => ⟨S16384x512, .f32⟩
  | .hbm, ⟨4, _⟩ => ⟨S16384x1x512, .f32⟩
  | .local _ .vmem, ⟨0, _⟩ => ⟨S64x512, .f32⟩
  | .local _ .vmem, ⟨1, _⟩ => ⟨S64x512, .f32⟩
  | .local _ .smem, ⟨0, _⟩ => ⟨S16384, .i32⟩
  | _, _ => ⟨S16384x1, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![256], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c64_i32 : BitVec 32 := 64#32
  let v0 : BitVec 32 := Scalar.muli arg0 c64_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_off3 (i : grid0.Coords) : Fin 1 → Nat :=
  let arg0 : BitVec 32 := BitVec.ofNat 32 (i 0).val
  let c64_i32 : BitVec 32 := 64#32
  let v0 : BitVec 32 := Scalar.muli arg0 c64_i32
  let c1_i32 : BitVec 32 := 1#32
  let v10 : BitVec 32 := Scalar.addi v0 c1_i32
  let v11 : Index := Scalar.indexCast v10
  ![v11.toNat]
def k0_off4 (v12 : BitVec 32) : Fin 2 → Nat :=
  let c0_i32_7 : BitVec 32 := 0#32
  ![v12.toNat, 0]

def k0_off5 (i : grid0.Coords) : Fin 1 → Nat :=
  let arg0 : BitVec 32 := BitVec.ofNat 32 (i 0).val
  let c64_i32 : BitVec 32 := 64#32
  let v0 : BitVec 32 := Scalar.muli arg0 c64_i32
  let c2_i32 : BitVec 32 := 2#32
  let v19 : BitVec 32 := Scalar.addi v0 c2_i32
  let v20 : Index := Scalar.indexCast v19
  ![v20.toNat]
def k0_off6 (v21 : BitVec 32) : Fin 2 → Nat :=
  let c0_i32_11 : BitVec 32 := 0#32
  ![v21.toNat, 0]

def k0_off7 (i : grid0.Coords) : Fin 1 → Nat :=
  let arg0 : BitVec 32 := BitVec.ofNat 32 (i 0).val
  let c64_i32 : BitVec 32 := 64#32
  let v0 : BitVec 32 := Scalar.muli arg0 c64_i32
  let c3_i32 : BitVec 32 := 3#32
  let v28 : BitVec 32 := Scalar.addi v0 c3_i32
  let v29 : Index := Scalar.indexCast v28
  ![v29.toNat]
def k0_off8 (v30 : BitVec 32) : Fin 2 → Nat :=
  let c0_i32_15 : BitVec 32 := 0#32
  ![v30.toNat, 0]

def k0_off9 (i : grid0.Coords) : Fin 1 → Nat :=
  let arg0 : BitVec 32 := BitVec.ofNat 32 (i 0).val
  let c64_i32 : BitVec 32 := 64#32
  let v0 : BitVec 32 := Scalar.muli arg0 c64_i32
  let c4_i32 : BitVec 32 := 4#32
  let v37 : BitVec 32 := Scalar.addi v0 c4_i32
  let v38 : Index := Scalar.indexCast v37
  ![v38.toNat]
def k0_off10 (v39 : BitVec 32) : Fin 2 → Nat :=
  let c0_i32_19 : BitVec 32 := 0#32
  ![v39.toNat, 0]

def k0_off11 (i : grid0.Coords) : Fin 1 → Nat :=
  let arg0 : BitVec 32 := BitVec.ofNat 32 (i 0).val
  let c64_i32 : BitVec 32 := 64#32
  let v0 : BitVec 32 := Scalar.muli arg0 c64_i32
  let c5_i32 : BitVec 32 := 5#32
  let v46 : BitVec 32 := Scalar.addi v0 c5_i32
  let v47 : Index := Scalar.indexCast v46
  ![v47.toNat]
def k0_off12 (v48 : BitVec 32) : Fin 2 → Nat :=
  let c0_i32_23 : BitVec 32 := 0#32
  ![v48.toNat, 0]

def k0_off13 (i : grid0.Coords) : Fin 1 → Nat :=
  let arg0 : BitVec 32 := BitVec.ofNat 32 (i 0).val
  let c64_i32 : BitVec 32 := 64#32
  let v0 : BitVec 32 := Scalar.muli arg0 c64_i32
  let c6_i32 : BitVec 32 := 6#32
  let v55 : BitVec 32 := Scalar.addi v0 c6_i32
  let v56 : Index := Scalar.indexCast v55
  ![v56.toNat]
def k0_off14 (v57 : BitVec 32) : Fin 2 → Nat :=
  let c0_i32_27 : BitVec 32 := 0#32
  ![v57.toNat, 0]

def k0_off15 (i : grid0.Coords) : Fin 1 → Nat :=
  let arg0 : BitVec 32 := BitVec.ofNat 32 (i 0).val
  let c64_i32 : BitVec 32 := 64#32
  let v0 : BitVec 32 := Scalar.muli arg0 c64_i32
  let c7_i32 : BitVec 32 := 7#32
  let v64 : BitVec 32 := Scalar.addi v0 c7_i32
  let v65 : Index := Scalar.indexCast v64
  ![v65.toNat]
def k0_off16 (v66 : BitVec 32) : Fin 2 → Nat :=
  let c0_i32_31 : BitVec 32 := 0#32
  ![v66.toNat, 0]

def k0_off17 (i : grid0.Coords) : Fin 1 → Nat :=
  let arg0 : BitVec 32 := BitVec.ofNat 32 (i 0).val
  let c64_i32 : BitVec 32 := 64#32
  let v0 : BitVec 32 := Scalar.muli arg0 c64_i32
  let c8_i32 : BitVec 32 := 8#32
  let v73 : BitVec 32 := Scalar.addi v0 c8_i32
  let v74 : Index := Scalar.indexCast v73
  ![v74.toNat]
def k0_off18 (v75 : BitVec 32) : Fin 2 → Nat :=
  let c0_i32_35 : BitVec 32 := 0#32
  ![v75.toNat, 0]

def k0_off19 (i : grid0.Coords) : Fin 1 → Nat :=
  let arg0 : BitVec 32 := BitVec.ofNat 32 (i 0).val
  let c64_i32 : BitVec 32 := 64#32
  let v0 : BitVec 32 := Scalar.muli arg0 c64_i32
  let c9_i32 : BitVec 32 := 9#32
  let v82 : BitVec 32 := Scalar.addi v0 c9_i32
  let v83 : Index := Scalar.indexCast v82
  ![v83.toNat]
def k0_off20 (v84 : BitVec 32) : Fin 2 → Nat :=
  let c0_i32_39 : BitVec 32 := 0#32
  ![v84.toNat, 0]

def k0_off21 (i : grid0.Coords) : Fin 1 → Nat :=
  let arg0 : BitVec 32 := BitVec.ofNat 32 (i 0).val
  let c64_i32 : BitVec 32 := 64#32
  let v0 : BitVec 32 := Scalar.muli arg0 c64_i32
  let c10_i32 : BitVec 32 := 10#32
  let v91 : BitVec 32 := Scalar.addi v0 c10_i32
  let v92 : Index := Scalar.indexCast v91
  ![v92.toNat]
def k0_off22 (v93 : BitVec 32) : Fin 2 → Nat :=
  let c0_i32_43 : BitVec 32 := 0#32
  ![v93.toNat, 0]

def k0_off23 (i : grid0.Coords) : Fin 1 → Nat :=
  let arg0 : BitVec 32 := BitVec.ofNat 32 (i 0).val
  let c64_i32 : BitVec 32 := 64#32
  let v0 : BitVec 32 := Scalar.muli arg0 c64_i32
  let c11_i32 : BitVec 32 := 11#32
  let v100 : BitVec 32 := Scalar.addi v0 c11_i32
  let v101 : Index := Scalar.indexCast v100
  ![v101.toNat]
def k0_off24 (v102 : BitVec 32) : Fin 2 → Nat :=
  let c0_i32_47 : BitVec 32 := 0#32
  ![v102.toNat, 0]

def k0_off25 (i : grid0.Coords) : Fin 1 → Nat :=
  let arg0 : BitVec 32 := BitVec.ofNat 32 (i 0).val
  let c64_i32 : BitVec 32 := 64#32
  let v0 : BitVec 32 := Scalar.muli arg0 c64_i32
  let c12_i32 : BitVec 32 := 12#32
  let v109 : BitVec 32 := Scalar.addi v0 c12_i32
  let v110 : Index := Scalar.indexCast v109
  ![v110.toNat]
def k0_off26 (v111 : BitVec 32) : Fin 2 → Nat :=
  let c0_i32_51 : BitVec 32 := 0#32
  ![v111.toNat, 0]

def k0_off27 (i : grid0.Coords) : Fin 1 → Nat :=
  let arg0 : BitVec 32 := BitVec.ofNat 32 (i 0).val
  let c64_i32 : BitVec 32 := 64#32
  let v0 : BitVec 32 := Scalar.muli arg0 c64_i32
  let c13_i32 : BitVec 32 := 13#32
  let v118 : BitVec 32 := Scalar.addi v0 c13_i32
  let v119 : Index := Scalar.indexCast v118
  ![v119.toNat]
def k0_off28 (v120 : BitVec 32) : Fin 2 → Nat :=
  let c0_i32_55 : BitVec 32 := 0#32
  ![v120.toNat, 0]

def k0_off29 (i : grid0.Coords) : Fin 1 → Nat :=
  let arg0 : BitVec 32 := BitVec.ofNat 32 (i 0).val
  let c64_i32 : BitVec 32 := 64#32
  let v0 : BitVec 32 := Scalar.muli arg0 c64_i32
  let c14_i32 : BitVec 32 := 14#32
  let v127 : BitVec 32 := Scalar.addi v0 c14_i32
  let v128 : Index := Scalar.indexCast v127
  ![v128.toNat]
def k0_off30 (v129 : BitVec 32) : Fin 2 → Nat :=
  let c0_i32_59 : BitVec 32 := 0#32
  ![v129.toNat, 0]

def k0_off31 (i : grid0.Coords) : Fin 1 → Nat :=
  let arg0 : BitVec 32 := BitVec.ofNat 32 (i 0).val
  let c64_i32 : BitVec 32 := 64#32
  let v0 : BitVec 32 := Scalar.muli arg0 c64_i32
  let c15_i32 : BitVec 32 := 15#32
  let v136 : BitVec 32 := Scalar.addi v0 c15_i32
  let v137 : Index := Scalar.indexCast v136
  ![v137.toNat]
def k0_off32 (v138 : BitVec 32) : Fin 2 → Nat :=
  let c0_i32_63 : BitVec 32 := 0#32
  ![v138.toNat, 0]

def k0_off33 (i : grid0.Coords) : Fin 1 → Nat :=
  let arg0 : BitVec 32 := BitVec.ofNat 32 (i 0).val
  let c64_i32 : BitVec 32 := 64#32
  let v0 : BitVec 32 := Scalar.muli arg0 c64_i32
  let c16_i32 : BitVec 32 := 16#32
  let v145 : BitVec 32 := Scalar.addi v0 c16_i32
  let v146 : Index := Scalar.indexCast v145
  ![v146.toNat]
def k0_off34 (v147 : BitVec 32) : Fin 2 → Nat :=
  let c0_i32_67 : BitVec 32 := 0#32
  ![v147.toNat, 0]

def k0_off35 (i : grid0.Coords) : Fin 1 → Nat :=
  let arg0 : BitVec 32 := BitVec.ofNat 32 (i 0).val
  let c64_i32 : BitVec 32 := 64#32
  let v0 : BitVec 32 := Scalar.muli arg0 c64_i32
  let c17_i32 : BitVec 32 := 17#32
  let v154 : BitVec 32 := Scalar.addi v0 c17_i32
  let v155 : Index := Scalar.indexCast v154
  ![v155.toNat]
def k0_off36 (v156 : BitVec 32) : Fin 2 → Nat :=
  let c0_i32_71 : BitVec 32 := 0#32
  ![v156.toNat, 0]

def k0_off37 (i : grid0.Coords) : Fin 1 → Nat :=
  let arg0 : BitVec 32 := BitVec.ofNat 32 (i 0).val
  let c64_i32 : BitVec 32 := 64#32
  let v0 : BitVec 32 := Scalar.muli arg0 c64_i32
  let c18_i32 : BitVec 32 := 18#32
  let v163 : BitVec 32 := Scalar.addi v0 c18_i32
  let v164 : Index := Scalar.indexCast v163
  ![v164.toNat]
def k0_off38 (v165 : BitVec 32) : Fin 2 → Nat :=
  let c0_i32_75 : BitVec 32 := 0#32
  ![v165.toNat, 0]

def k0_off39 (i : grid0.Coords) : Fin 1 → Nat :=
  let arg0 : BitVec 32 := BitVec.ofNat 32 (i 0).val
  let c64_i32 : BitVec 32 := 64#32
  let v0 : BitVec 32 := Scalar.muli arg0 c64_i32
  let c19_i32 : BitVec 32 := 19#32
  let v172 : BitVec 32 := Scalar.addi v0 c19_i32
  let v173 : Index := Scalar.indexCast v172
  ![v173.toNat]
def k0_off40 (v174 : BitVec 32) : Fin 2 → Nat :=
  let c0_i32_79 : BitVec 32 := 0#32
  ![v174.toNat, 0]

def k0_off41 (i : grid0.Coords) : Fin 1 → Nat :=
  let arg0 : BitVec 32 := BitVec.ofNat 32 (i 0).val
  let c64_i32 : BitVec 32 := 64#32
  let v0 : BitVec 32 := Scalar.muli arg0 c64_i32
  let c20_i32 : BitVec 32 := 20#32
  let v181 : BitVec 32 := Scalar.addi v0 c20_i32
  let v182 : Index := Scalar.indexCast v181
  ![v182.toNat]
def k0_off42 (v183 : BitVec 32) : Fin 2 → Nat :=
  let c0_i32_83 : BitVec 32 := 0#32
  ![v183.toNat, 0]

def k0_off43 (i : grid0.Coords) : Fin 1 → Nat :=
  let arg0 : BitVec 32 := BitVec.ofNat 32 (i 0).val
  let c64_i32 : BitVec 32 := 64#32
  let v0 : BitVec 32 := Scalar.muli arg0 c64_i32
  let c21_i32 : BitVec 32 := 21#32
  let v190 : BitVec 32 := Scalar.addi v0 c21_i32
  let v191 : Index := Scalar.indexCast v190
  ![v191.toNat]
def k0_off44 (v192 : BitVec 32) : Fin 2 → Nat :=
  let c0_i32_87 : BitVec 32 := 0#32
  ![v192.toNat, 0]

def k0_off45 (i : grid0.Coords) : Fin 1 → Nat :=
  let arg0 : BitVec 32 := BitVec.ofNat 32 (i 0).val
  let c64_i32 : BitVec 32 := 64#32
  let v0 : BitVec 32 := Scalar.muli arg0 c64_i32
  let c22_i32 : BitVec 32 := 22#32
  let v199 : BitVec 32 := Scalar.addi v0 c22_i32
  let v200 : Index := Scalar.indexCast v199
  ![v200.toNat]
def k0_off46 (v201 : BitVec 32) : Fin 2 → Nat :=
  let c0_i32_91 : BitVec 32 := 0#32
  ![v201.toNat, 0]

def k0_off47 (i : grid0.Coords) : Fin 1 → Nat :=
  let arg0 : BitVec 32 := BitVec.ofNat 32 (i 0).val
  let c64_i32 : BitVec 32 := 64#32
  let v0 : BitVec 32 := Scalar.muli arg0 c64_i32
  let c23_i32 : BitVec 32 := 23#32
  let v208 : BitVec 32 := Scalar.addi v0 c23_i32
  let v209 : Index := Scalar.indexCast v208
  ![v209.toNat]
def k0_off48 (v210 : BitVec 32) : Fin 2 → Nat :=
  let c0_i32_95 : BitVec 32 := 0#32
  ![v210.toNat, 0]

def k0_off49 (i : grid0.Coords) : Fin 1 → Nat :=
  let arg0 : BitVec 32 := BitVec.ofNat 32 (i 0).val
  let c64_i32 : BitVec 32 := 64#32
  let v0 : BitVec 32 := Scalar.muli arg0 c64_i32
  let c24_i32 : BitVec 32 := 24#32
  let v217 : BitVec 32 := Scalar.addi v0 c24_i32
  let v218 : Index := Scalar.indexCast v217
  ![v218.toNat]
def k0_off50 (v219 : BitVec 32) : Fin 2 → Nat :=
  let c0_i32_99 : BitVec 32 := 0#32
  ![v219.toNat, 0]

def k0_off51 (i : grid0.Coords) : Fin 1 → Nat :=
  let arg0 : BitVec 32 := BitVec.ofNat 32 (i 0).val
  let c64_i32 : BitVec 32 := 64#32
  let v0 : BitVec 32 := Scalar.muli arg0 c64_i32
  let c25_i32 : BitVec 32 := 25#32
  let v226 : BitVec 32 := Scalar.addi v0 c25_i32
  let v227 : Index := Scalar.indexCast v226
  ![v227.toNat]
def k0_off52 (v228 : BitVec 32) : Fin 2 → Nat :=
  let c0_i32_103 : BitVec 32 := 0#32
  ![v228.toNat, 0]

def k0_off53 (i : grid0.Coords) : Fin 1 → Nat :=
  let arg0 : BitVec 32 := BitVec.ofNat 32 (i 0).val
  let c64_i32 : BitVec 32 := 64#32
  let v0 : BitVec 32 := Scalar.muli arg0 c64_i32
  let c26_i32 : BitVec 32 := 26#32
  let v235 : BitVec 32 := Scalar.addi v0 c26_i32
  let v236 : Index := Scalar.indexCast v235
  ![v236.toNat]
def k0_off54 (v237 : BitVec 32) : Fin 2 → Nat :=
  let c0_i32_107 : BitVec 32 := 0#32
  ![v237.toNat, 0]

def k0_off55 (i : grid0.Coords) : Fin 1 → Nat :=
  let arg0 : BitVec 32 := BitVec.ofNat 32 (i 0).val
  let c64_i32 : BitVec 32 := 64#32
  let v0 : BitVec 32 := Scalar.muli arg0 c64_i32
  let c27_i32 : BitVec 32 := 27#32
  let v244 : BitVec 32 := Scalar.addi v0 c27_i32
  let v245 : Index := Scalar.indexCast v244
  ![v245.toNat]
def k0_off56 (v246 : BitVec 32) : Fin 2 → Nat :=
  let c0_i32_111 : BitVec 32 := 0#32
  ![v246.toNat, 0]

def k0_off57 (i : grid0.Coords) : Fin 1 → Nat :=
  let arg0 : BitVec 32 := BitVec.ofNat 32 (i 0).val
  let c64_i32 : BitVec 32 := 64#32
  let v0 : BitVec 32 := Scalar.muli arg0 c64_i32
  let c28_i32 : BitVec 32 := 28#32
  let v253 : BitVec 32 := Scalar.addi v0 c28_i32
  let v254 : Index := Scalar.indexCast v253
  ![v254.toNat]
def k0_off58 (v255 : BitVec 32) : Fin 2 → Nat :=
  let c0_i32_115 : BitVec 32 := 0#32
  ![v255.toNat, 0]

def k0_off59 (i : grid0.Coords) : Fin 1 → Nat :=
  let arg0 : BitVec 32 := BitVec.ofNat 32 (i 0).val
  let c64_i32 : BitVec 32 := 64#32
  let v0 : BitVec 32 := Scalar.muli arg0 c64_i32
  let c29_i32 : BitVec 32 := 29#32
  let v262 : BitVec 32 := Scalar.addi v0 c29_i32
  let v263 : Index := Scalar.indexCast v262
  ![v263.toNat]
def k0_off60 (v264 : BitVec 32) : Fin 2 → Nat :=
  let c0_i32_119 : BitVec 32 := 0#32
  ![v264.toNat, 0]

def k0_off61 (i : grid0.Coords) : Fin 1 → Nat :=
  let arg0 : BitVec 32 := BitVec.ofNat 32 (i 0).val
  let c64_i32 : BitVec 32 := 64#32
  let v0 : BitVec 32 := Scalar.muli arg0 c64_i32
  let c30_i32 : BitVec 32 := 30#32
  let v271 : BitVec 32 := Scalar.addi v0 c30_i32
  let v272 : Index := Scalar.indexCast v271
  ![v272.toNat]
def k0_off62 (v273 : BitVec 32) : Fin 2 → Nat :=
  let c0_i32_123 : BitVec 32 := 0#32
  ![v273.toNat, 0]

def k0_off63 (i : grid0.Coords) : Fin 1 → Nat :=
  let arg0 : BitVec 32 := BitVec.ofNat 32 (i 0).val
  let c64_i32 : BitVec 32 := 64#32
  let v0 : BitVec 32 := Scalar.muli arg0 c64_i32
  let c31_i32 : BitVec 32 := 31#32
  let v280 : BitVec 32 := Scalar.addi v0 c31_i32
  let v281 : Index := Scalar.indexCast v280
  ![v281.toNat]
def k0_off64 (v282 : BitVec 32) : Fin 2 → Nat :=
  let c0_i32_127 : BitVec 32 := 0#32
  ![v282.toNat, 0]

def k0_off65 (i : grid0.Coords) : Fin 1 → Nat :=
  let arg0 : BitVec 32 := BitVec.ofNat 32 (i 0).val
  let c64_i32 : BitVec 32 := 64#32
  let v0 : BitVec 32 := Scalar.muli arg0 c64_i32
  let c32_i32 : BitVec 32 := 32#32
  let v289 : BitVec 32 := Scalar.addi v0 c32_i32
  let v290 : Index := Scalar.indexCast v289
  ![v290.toNat]
def k0_off66 (v291 : BitVec 32) : Fin 2 → Nat :=
  let c0_i32_131 : BitVec 32 := 0#32
  ![v291.toNat, 0]

def k0_off67 (i : grid0.Coords) : Fin 1 → Nat :=
  let arg0 : BitVec 32 := BitVec.ofNat 32 (i 0).val
  let c64_i32 : BitVec 32 := 64#32
  let v0 : BitVec 32 := Scalar.muli arg0 c64_i32
  let c33_i32 : BitVec 32 := 33#32
  let v298 : BitVec 32 := Scalar.addi v0 c33_i32
  let v299 : Index := Scalar.indexCast v298
  ![v299.toNat]
def k0_off68 (v300 : BitVec 32) : Fin 2 → Nat :=
  let c0_i32_135 : BitVec 32 := 0#32
  ![v300.toNat, 0]

def k0_off69 (i : grid0.Coords) : Fin 1 → Nat :=
  let arg0 : BitVec 32 := BitVec.ofNat 32 (i 0).val
  let c64_i32 : BitVec 32 := 64#32
  let v0 : BitVec 32 := Scalar.muli arg0 c64_i32
  let c34_i32 : BitVec 32 := 34#32
  let v307 : BitVec 32 := Scalar.addi v0 c34_i32
  let v308 : Index := Scalar.indexCast v307
  ![v308.toNat]
def k0_off70 (v309 : BitVec 32) : Fin 2 → Nat :=
  let c0_i32_139 : BitVec 32 := 0#32
  ![v309.toNat, 0]

def k0_off71 (i : grid0.Coords) : Fin 1 → Nat :=
  let arg0 : BitVec 32 := BitVec.ofNat 32 (i 0).val
  let c64_i32 : BitVec 32 := 64#32
  let v0 : BitVec 32 := Scalar.muli arg0 c64_i32
  let c35_i32 : BitVec 32 := 35#32
  let v316 : BitVec 32 := Scalar.addi v0 c35_i32
  let v317 : Index := Scalar.indexCast v316
  ![v317.toNat]
def k0_off72 (v318 : BitVec 32) : Fin 2 → Nat :=
  let c0_i32_143 : BitVec 32 := 0#32
  ![v318.toNat, 0]

def k0_off73 (i : grid0.Coords) : Fin 1 → Nat :=
  let arg0 : BitVec 32 := BitVec.ofNat 32 (i 0).val
  let c64_i32 : BitVec 32 := 64#32
  let v0 : BitVec 32 := Scalar.muli arg0 c64_i32
  let c36_i32 : BitVec 32 := 36#32
  let v325 : BitVec 32 := Scalar.addi v0 c36_i32
  let v326 : Index := Scalar.indexCast v325
  ![v326.toNat]
def k0_off74 (v327 : BitVec 32) : Fin 2 → Nat :=
  let c0_i32_147 : BitVec 32 := 0#32
  ![v327.toNat, 0]

def k0_off75 (i : grid0.Coords) : Fin 1 → Nat :=
  let arg0 : BitVec 32 := BitVec.ofNat 32 (i 0).val
  let c64_i32 : BitVec 32 := 64#32
  let v0 : BitVec 32 := Scalar.muli arg0 c64_i32
  let c37_i32 : BitVec 32 := 37#32
  let v334 : BitVec 32 := Scalar.addi v0 c37_i32
  let v335 : Index := Scalar.indexCast v334
  ![v335.toNat]
def k0_off76 (v336 : BitVec 32) : Fin 2 → Nat :=
  let c0_i32_151 : BitVec 32 := 0#32
  ![v336.toNat, 0]

def k0_off77 (i : grid0.Coords) : Fin 1 → Nat :=
  let arg0 : BitVec 32 := BitVec.ofNat 32 (i 0).val
  let c64_i32 : BitVec 32 := 64#32
  let v0 : BitVec 32 := Scalar.muli arg0 c64_i32
  let c38_i32 : BitVec 32 := 38#32
  let v343 : BitVec 32 := Scalar.addi v0 c38_i32
  let v344 : Index := Scalar.indexCast v343
  ![v344.toNat]
def k0_off78 (v345 : BitVec 32) : Fin 2 → Nat :=
  let c0_i32_155 : BitVec 32 := 0#32
  ![v345.toNat, 0]

def k0_off79 (i : grid0.Coords) : Fin 1 → Nat :=
  let arg0 : BitVec 32 := BitVec.ofNat 32 (i 0).val
  let c64_i32 : BitVec 32 := 64#32
  let v0 : BitVec 32 := Scalar.muli arg0 c64_i32
  let c39_i32 : BitVec 32 := 39#32
  let v352 : BitVec 32 := Scalar.addi v0 c39_i32
  let v353 : Index := Scalar.indexCast v352
  ![v353.toNat]
def k0_off80 (v354 : BitVec 32) : Fin 2 → Nat :=
  let c0_i32_159 : BitVec 32 := 0#32
  ![v354.toNat, 0]

def k0_off81 (i : grid0.Coords) : Fin 1 → Nat :=
  let arg0 : BitVec 32 := BitVec.ofNat 32 (i 0).val
  let c64_i32 : BitVec 32 := 64#32
  let v0 : BitVec 32 := Scalar.muli arg0 c64_i32
  let c40_i32 : BitVec 32 := 40#32
  let v361 : BitVec 32 := Scalar.addi v0 c40_i32
  let v362 : Index := Scalar.indexCast v361
  ![v362.toNat]
def k0_off82 (v363 : BitVec 32) : Fin 2 → Nat :=
  let c0_i32_163 : BitVec 32 := 0#32
  ![v363.toNat, 0]

def k0_off83 (i : grid0.Coords) : Fin 1 → Nat :=
  let arg0 : BitVec 32 := BitVec.ofNat 32 (i 0).val
  let c64_i32 : BitVec 32 := 64#32
  let v0 : BitVec 32 := Scalar.muli arg0 c64_i32
  let c41_i32 : BitVec 32 := 41#32
  let v370 : BitVec 32 := Scalar.addi v0 c41_i32
  let v371 : Index := Scalar.indexCast v370
  ![v371.toNat]
def k0_off84 (v372 : BitVec 32) : Fin 2 → Nat :=
  let c0_i32_167 : BitVec 32 := 0#32
  ![v372.toNat, 0]

def k0_off85 (i : grid0.Coords) : Fin 1 → Nat :=
  let arg0 : BitVec 32 := BitVec.ofNat 32 (i 0).val
  let c64_i32 : BitVec 32 := 64#32
  let v0 : BitVec 32 := Scalar.muli arg0 c64_i32
  let c42_i32 : BitVec 32 := 42#32
  let v379 : BitVec 32 := Scalar.addi v0 c42_i32
  let v380 : Index := Scalar.indexCast v379
  ![v380.toNat]
def k0_off86 (v381 : BitVec 32) : Fin 2 → Nat :=
  let c0_i32_171 : BitVec 32 := 0#32
  ![v381.toNat, 0]

def k0_off87 (i : grid0.Coords) : Fin 1 → Nat :=
  let arg0 : BitVec 32 := BitVec.ofNat 32 (i 0).val
  let c64_i32 : BitVec 32 := 64#32
  let v0 : BitVec 32 := Scalar.muli arg0 c64_i32
  let c43_i32 : BitVec 32 := 43#32
  let v388 : BitVec 32 := Scalar.addi v0 c43_i32
  let v389 : Index := Scalar.indexCast v388
  ![v389.toNat]
def k0_off88 (v390 : BitVec 32) : Fin 2 → Nat :=
  let c0_i32_175 : BitVec 32 := 0#32
  ![v390.toNat, 0]

def k0_off89 (i : grid0.Coords) : Fin 1 → Nat :=
  let arg0 : BitVec 32 := BitVec.ofNat 32 (i 0).val
  let c64_i32 : BitVec 32 := 64#32
  let v0 : BitVec 32 := Scalar.muli arg0 c64_i32
  let c44_i32 : BitVec 32 := 44#32
  let v397 : BitVec 32 := Scalar.addi v0 c44_i32
  let v398 : Index := Scalar.indexCast v397
  ![v398.toNat]
def k0_off90 (v399 : BitVec 32) : Fin 2 → Nat :=
  let c0_i32_179 : BitVec 32 := 0#32
  ![v399.toNat, 0]

def k0_off91 (i : grid0.Coords) : Fin 1 → Nat :=
  let arg0 : BitVec 32 := BitVec.ofNat 32 (i 0).val
  let c64_i32 : BitVec 32 := 64#32
  let v0 : BitVec 32 := Scalar.muli arg0 c64_i32
  let c45_i32 : BitVec 32 := 45#32
  let v406 : BitVec 32 := Scalar.addi v0 c45_i32
  let v407 : Index := Scalar.indexCast v406
  ![v407.toNat]
def k0_off92 (v408 : BitVec 32) : Fin 2 → Nat :=
  let c0_i32_183 : BitVec 32 := 0#32
  ![v408.toNat, 0]

def k0_off93 (i : grid0.Coords) : Fin 1 → Nat :=
  let arg0 : BitVec 32 := BitVec.ofNat 32 (i 0).val
  let c64_i32 : BitVec 32 := 64#32
  let v0 : BitVec 32 := Scalar.muli arg0 c64_i32
  let c46_i32 : BitVec 32 := 46#32
  let v415 : BitVec 32 := Scalar.addi v0 c46_i32
  let v416 : Index := Scalar.indexCast v415
  ![v416.toNat]
def k0_off94 (v417 : BitVec 32) : Fin 2 → Nat :=
  let c0_i32_187 : BitVec 32 := 0#32
  ![v417.toNat, 0]

def k0_off95 (i : grid0.Coords) : Fin 1 → Nat :=
  let arg0 : BitVec 32 := BitVec.ofNat 32 (i 0).val
  let c64_i32 : BitVec 32 := 64#32
  let v0 : BitVec 32 := Scalar.muli arg0 c64_i32
  let c47_i32 : BitVec 32 := 47#32
  let v424 : BitVec 32 := Scalar.addi v0 c47_i32
  let v425 : Index := Scalar.indexCast v424
  ![v425.toNat]
def k0_off96 (v426 : BitVec 32) : Fin 2 → Nat :=
  let c0_i32_191 : BitVec 32 := 0#32
  ![v426.toNat, 0]

def k0_off97 (i : grid0.Coords) : Fin 1 → Nat :=
  let arg0 : BitVec 32 := BitVec.ofNat 32 (i 0).val
  let c64_i32 : BitVec 32 := 64#32
  let v0 : BitVec 32 := Scalar.muli arg0 c64_i32
  let c48_i32 : BitVec 32 := 48#32
  let v433 : BitVec 32 := Scalar.addi v0 c48_i32
  let v434 : Index := Scalar.indexCast v433
  ![v434.toNat]
def k0_off98 (v435 : BitVec 32) : Fin 2 → Nat :=
  let c0_i32_195 : BitVec 32 := 0#32
  ![v435.toNat, 0]

def k0_off99 (i : grid0.Coords) : Fin 1 → Nat :=
  let arg0 : BitVec 32 := BitVec.ofNat 32 (i 0).val
  let c64_i32 : BitVec 32 := 64#32
  let v0 : BitVec 32 := Scalar.muli arg0 c64_i32
  let c49_i32 : BitVec 32 := 49#32
  let v442 : BitVec 32 := Scalar.addi v0 c49_i32
  let v443 : Index := Scalar.indexCast v442
  ![v443.toNat]
def k0_off100 (v444 : BitVec 32) : Fin 2 → Nat :=
  let c0_i32_199 : BitVec 32 := 0#32
  ![v444.toNat, 0]

def k0_off101 (i : grid0.Coords) : Fin 1 → Nat :=
  let arg0 : BitVec 32 := BitVec.ofNat 32 (i 0).val
  let c64_i32 : BitVec 32 := 64#32
  let v0 : BitVec 32 := Scalar.muli arg0 c64_i32
  let c50_i32 : BitVec 32 := 50#32
  let v451 : BitVec 32 := Scalar.addi v0 c50_i32
  let v452 : Index := Scalar.indexCast v451
  ![v452.toNat]
def k0_off102 (v453 : BitVec 32) : Fin 2 → Nat :=
  let c0_i32_203 : BitVec 32 := 0#32
  ![v453.toNat, 0]

def k0_off103 (i : grid0.Coords) : Fin 1 → Nat :=
  let arg0 : BitVec 32 := BitVec.ofNat 32 (i 0).val
  let c64_i32 : BitVec 32 := 64#32
  let v0 : BitVec 32 := Scalar.muli arg0 c64_i32
  let c51_i32 : BitVec 32 := 51#32
  let v460 : BitVec 32 := Scalar.addi v0 c51_i32
  let v461 : Index := Scalar.indexCast v460
  ![v461.toNat]
def k0_off104 (v462 : BitVec 32) : Fin 2 → Nat :=
  let c0_i32_207 : BitVec 32 := 0#32
  ![v462.toNat, 0]

def k0_off105 (i : grid0.Coords) : Fin 1 → Nat :=
  let arg0 : BitVec 32 := BitVec.ofNat 32 (i 0).val
  let c64_i32 : BitVec 32 := 64#32
  let v0 : BitVec 32 := Scalar.muli arg0 c64_i32
  let c52_i32 : BitVec 32 := 52#32
  let v469 : BitVec 32 := Scalar.addi v0 c52_i32
  let v470 : Index := Scalar.indexCast v469
  ![v470.toNat]
def k0_off106 (v471 : BitVec 32) : Fin 2 → Nat :=
  let c0_i32_211 : BitVec 32 := 0#32
  ![v471.toNat, 0]

def k0_off107 (i : grid0.Coords) : Fin 1 → Nat :=
  let arg0 : BitVec 32 := BitVec.ofNat 32 (i 0).val
  let c64_i32 : BitVec 32 := 64#32
  let v0 : BitVec 32 := Scalar.muli arg0 c64_i32
  let c53_i32 : BitVec 32 := 53#32
  let v478 : BitVec 32 := Scalar.addi v0 c53_i32
  let v479 : Index := Scalar.indexCast v478
  ![v479.toNat]
def k0_off108 (v480 : BitVec 32) : Fin 2 → Nat :=
  let c0_i32_215 : BitVec 32 := 0#32
  ![v480.toNat, 0]

def k0_off109 (i : grid0.Coords) : Fin 1 → Nat :=
  let arg0 : BitVec 32 := BitVec.ofNat 32 (i 0).val
  let c64_i32 : BitVec 32 := 64#32
  let v0 : BitVec 32 := Scalar.muli arg0 c64_i32
  let c54_i32 : BitVec 32 := 54#32
  let v487 : BitVec 32 := Scalar.addi v0 c54_i32
  let v488 : Index := Scalar.indexCast v487
  ![v488.toNat]
def k0_off110 (v489 : BitVec 32) : Fin 2 → Nat :=
  let c0_i32_219 : BitVec 32 := 0#32
  ![v489.toNat, 0]

def k0_off111 (i : grid0.Coords) : Fin 1 → Nat :=
  let arg0 : BitVec 32 := BitVec.ofNat 32 (i 0).val
  let c64_i32 : BitVec 32 := 64#32
  let v0 : BitVec 32 := Scalar.muli arg0 c64_i32
  let c55_i32 : BitVec 32 := 55#32
  let v496 : BitVec 32 := Scalar.addi v0 c55_i32
  let v497 : Index := Scalar.indexCast v496
  ![v497.toNat]
def k0_off112 (v498 : BitVec 32) : Fin 2 → Nat :=
  let c0_i32_223 : BitVec 32 := 0#32
  ![v498.toNat, 0]

def k0_off113 (i : grid0.Coords) : Fin 1 → Nat :=
  let arg0 : BitVec 32 := BitVec.ofNat 32 (i 0).val
  let c64_i32 : BitVec 32 := 64#32
  let v0 : BitVec 32 := Scalar.muli arg0 c64_i32
  let c56_i32 : BitVec 32 := 56#32
  let v505 : BitVec 32 := Scalar.addi v0 c56_i32
  let v506 : Index := Scalar.indexCast v505
  ![v506.toNat]
def k0_off114 (v507 : BitVec 32) : Fin 2 → Nat :=
  let c0_i32_227 : BitVec 32 := 0#32
  ![v507.toNat, 0]

def k0_off115 (i : grid0.Coords) : Fin 1 → Nat :=
  let arg0 : BitVec 32 := BitVec.ofNat 32 (i 0).val
  let c64_i32 : BitVec 32 := 64#32
  let v0 : BitVec 32 := Scalar.muli arg0 c64_i32
  let c57_i32 : BitVec 32 := 57#32
  let v514 : BitVec 32 := Scalar.addi v0 c57_i32
  let v515 : Index := Scalar.indexCast v514
  ![v515.toNat]
def k0_off116 (v516 : BitVec 32) : Fin 2 → Nat :=
  let c0_i32_231 : BitVec 32 := 0#32
  ![v516.toNat, 0]

def k0_off117 (i : grid0.Coords) : Fin 1 → Nat :=
  let arg0 : BitVec 32 := BitVec.ofNat 32 (i 0).val
  let c64_i32 : BitVec 32 := 64#32
  let v0 : BitVec 32 := Scalar.muli arg0 c64_i32
  let c58_i32 : BitVec 32 := 58#32
  let v523 : BitVec 32 := Scalar.addi v0 c58_i32
  let v524 : Index := Scalar.indexCast v523
  ![v524.toNat]
def k0_off118 (v525 : BitVec 32) : Fin 2 → Nat :=
  let c0_i32_235 : BitVec 32 := 0#32
  ![v525.toNat, 0]

def k0_off119 (i : grid0.Coords) : Fin 1 → Nat :=
  let arg0 : BitVec 32 := BitVec.ofNat 32 (i 0).val
  let c64_i32 : BitVec 32 := 64#32
  let v0 : BitVec 32 := Scalar.muli arg0 c64_i32
  let c59_i32 : BitVec 32 := 59#32
  let v532 : BitVec 32 := Scalar.addi v0 c59_i32
  let v533 : Index := Scalar.indexCast v532
  ![v533.toNat]
def k0_off120 (v534 : BitVec 32) : Fin 2 → Nat :=
  let c0_i32_239 : BitVec 32 := 0#32
  ![v534.toNat, 0]

def k0_off121 (i : grid0.Coords) : Fin 1 → Nat :=
  let arg0 : BitVec 32 := BitVec.ofNat 32 (i 0).val
  let c64_i32 : BitVec 32 := 64#32
  let v0 : BitVec 32 := Scalar.muli arg0 c64_i32
  let c60_i32 : BitVec 32 := 60#32
  let v541 : BitVec 32 := Scalar.addi v0 c60_i32
  let v542 : Index := Scalar.indexCast v541
  ![v542.toNat]
def k0_off122 (v543 : BitVec 32) : Fin 2 → Nat :=
  let c0_i32_243 : BitVec 32 := 0#32
  ![v543.toNat, 0]

def k0_off123 (i : grid0.Coords) : Fin 1 → Nat :=
  let arg0 : BitVec 32 := BitVec.ofNat 32 (i 0).val
  let c64_i32 : BitVec 32 := 64#32
  let v0 : BitVec 32 := Scalar.muli arg0 c64_i32
  let c61_i32 : BitVec 32 := 61#32
  let v550 : BitVec 32 := Scalar.addi v0 c61_i32
  let v551 : Index := Scalar.indexCast v550
  ![v551.toNat]
def k0_off124 (v552 : BitVec 32) : Fin 2 → Nat :=
  let c0_i32_247 : BitVec 32 := 0#32
  ![v552.toNat, 0]

def k0_off125 (i : grid0.Coords) : Fin 1 → Nat :=
  let arg0 : BitVec 32 := BitVec.ofNat 32 (i 0).val
  let c64_i32 : BitVec 32 := 64#32
  let v0 : BitVec 32 := Scalar.muli arg0 c64_i32
  let c62_i32 : BitVec 32 := 62#32
  let v559 : BitVec 32 := Scalar.addi v0 c62_i32
  let v560 : Index := Scalar.indexCast v559
  ![v560.toNat]
def k0_off126 (v561 : BitVec 32) : Fin 2 → Nat :=
  let c0_i32_251 : BitVec 32 := 0#32
  ![v561.toNat, 0]

def k0_off127 (i : grid0.Coords) : Fin 1 → Nat :=
  let arg0 : BitVec 32 := BitVec.ofNat 32 (i 0).val
  let c64_i32 : BitVec 32 := 64#32
  let v0 : BitVec 32 := Scalar.muli arg0 c64_i32
  let c63_i32 : BitVec 32 := 63#32
  let v568 : BitVec 32 := Scalar.addi v0 c63_i32
  let v569 : Index := Scalar.indexCast v568
  ![v569.toNat]
def k0_off128 (v570 : BitVec 32) : Fin 2 → Nat :=
  let c0_i32_255 : BitVec 32 := 0#32
  ![v570.toNat, 0]

def k0_chk64 (v570 : BitVec 32) : Prop :=
  (∀ a, (k0_off128 v570) a + S1x512.size a ≤ S128000x512.size a)
instance k0_chk64.dec : ∀ (v570 : BitVec 32), Decidable (k0_chk64 v570) := fun v570 => decidable_of_iff' _ (Iff.of_eq (k0_chk64.eq_1 v570))
theorem k0_off128_inb : ∀ (v570 : BitVec 32) (k0_hw64 : k0_chk64 v570), ∀ a, (k0_off128 v570) a + S1x512.size a ≤ S128000x512.size a := fun v570 k0_hw64 => k0_hw64

def k0_off129 (v3 : BitVec 32) : Fin 2 → Nat :=
  let c0_i32_259 : BitVec 32 := 0#32
  ![v3.toNat, 0]

def k0_chk1 (v3 : BitVec 32) : Prop :=
  (∀ a, (k0_off2 v3) a + S1x512.size a ≤ S128000x512.size a) ∧
  (∀ a, (k0_off129 v3) a + S1x512.size a ≤ S128000x512.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x512.size a ≤ S128000x512.size a := fun v3 k0_hw1 => k0_hw1.1
theorem k0_off129_inb : ∀ (v3 : BitVec 32) (k0_hw1 : k0_chk1 v3), ∀ a, (k0_off129 v3) a + S1x512.size a ≤ S128000x512.size a := fun v3 k0_hw1 => k0_hw1.2

def k0_off130 (v12 : BitVec 32) : Fin 2 → Nat :=
  let c0_i32_263 : BitVec 32 := 0#32
  ![v12.toNat, 0]

def k0_chk2 (v12 : BitVec 32) : Prop :=
  (∀ a, (k0_off4 v12) a + S1x512.size a ≤ S128000x512.size a) ∧
  (∀ a, (k0_off130 v12) a + S1x512.size a ≤ S128000x512.size a)
instance k0_chk2.dec : ∀ (v12 : BitVec 32), Decidable (k0_chk2 v12) := fun v12 => decidable_of_iff' _ (Iff.of_eq (k0_chk2.eq_1 v12))
theorem k0_off4_inb : ∀ (v12 : BitVec 32) (k0_hw2 : k0_chk2 v12), ∀ a, (k0_off4 v12) a + S1x512.size a ≤ S128000x512.size a := fun v12 k0_hw2 => k0_hw2.1
theorem k0_off130_inb : ∀ (v12 : BitVec 32) (k0_hw2 : k0_chk2 v12), ∀ a, (k0_off130 v12) a + S1x512.size a ≤ S128000x512.size a := fun v12 k0_hw2 => k0_hw2.2

def k0_off131 (v21 : BitVec 32) : Fin 2 → Nat :=
  let c0_i32_267 : BitVec 32 := 0#32
  ![v21.toNat, 0]

def k0_chk3 (v21 : BitVec 32) : Prop :=
  (∀ a, (k0_off6 v21) a + S1x512.size a ≤ S128000x512.size a) ∧
  (∀ a, (k0_off131 v21) a + S1x512.size a ≤ S128000x512.size a)
instance k0_chk3.dec : ∀ (v21 : BitVec 32), Decidable (k0_chk3 v21) := fun v21 => decidable_of_iff' _ (Iff.of_eq (k0_chk3.eq_1 v21))
theorem k0_off6_inb : ∀ (v21 : BitVec 32) (k0_hw3 : k0_chk3 v21), ∀ a, (k0_off6 v21) a + S1x512.size a ≤ S128000x512.size a := fun v21 k0_hw3 => k0_hw3.1
theorem k0_off131_inb : ∀ (v21 : BitVec 32) (k0_hw3 : k0_chk3 v21), ∀ a, (k0_off131 v21) a + S1x512.size a ≤ S128000x512.size a := fun v21 k0_hw3 => k0_hw3.2

def k0_off132 (v30 : BitVec 32) : Fin 2 → Nat :=
  let c0_i32_271 : BitVec 32 := 0#32
  ![v30.toNat, 0]

def k0_chk4 (v30 : BitVec 32) : Prop :=
  (∀ a, (k0_off8 v30) a + S1x512.size a ≤ S128000x512.size a) ∧
  (∀ a, (k0_off132 v30) a + S1x512.size a ≤ S128000x512.size a)
instance k0_chk4.dec : ∀ (v30 : BitVec 32), Decidable (k0_chk4 v30) := fun v30 => decidable_of_iff' _ (Iff.of_eq (k0_chk4.eq_1 v30))
theorem k0_off8_inb : ∀ (v30 : BitVec 32) (k0_hw4 : k0_chk4 v30), ∀ a, (k0_off8 v30) a + S1x512.size a ≤ S128000x512.size a := fun v30 k0_hw4 => k0_hw4.1
theorem k0_off132_inb : ∀ (v30 : BitVec 32) (k0_hw4 : k0_chk4 v30), ∀ a, (k0_off132 v30) a + S1x512.size a ≤ S128000x512.size a := fun v30 k0_hw4 => k0_hw4.2

def k0_off133 (v39 : BitVec 32) : Fin 2 → Nat :=
  let c0_i32_275 : BitVec 32 := 0#32
  ![v39.toNat, 0]

def k0_chk5 (v39 : BitVec 32) : Prop :=
  (∀ a, (k0_off10 v39) a + S1x512.size a ≤ S128000x512.size a) ∧
  (∀ a, (k0_off133 v39) a + S1x512.size a ≤ S128000x512.size a)
instance k0_chk5.dec : ∀ (v39 : BitVec 32), Decidable (k0_chk5 v39) := fun v39 => decidable_of_iff' _ (Iff.of_eq (k0_chk5.eq_1 v39))
theorem k0_off10_inb : ∀ (v39 : BitVec 32) (k0_hw5 : k0_chk5 v39), ∀ a, (k0_off10 v39) a + S1x512.size a ≤ S128000x512.size a := fun v39 k0_hw5 => k0_hw5.1
theorem k0_off133_inb : ∀ (v39 : BitVec 32) (k0_hw5 : k0_chk5 v39), ∀ a, (k0_off133 v39) a + S1x512.size a ≤ S128000x512.size a := fun v39 k0_hw5 => k0_hw5.2

def k0_off134 (v48 : BitVec 32) : Fin 2 → Nat :=
  let c0_i32_279 : BitVec 32 := 0#32
  ![v48.toNat, 0]

def k0_chk6 (v48 : BitVec 32) : Prop :=
  (∀ a, (k0_off12 v48) a + S1x512.size a ≤ S128000x512.size a) ∧
  (∀ a, (k0_off134 v48) a + S1x512.size a ≤ S128000x512.size a)
instance k0_chk6.dec : ∀ (v48 : BitVec 32), Decidable (k0_chk6 v48) := fun v48 => decidable_of_iff' _ (Iff.of_eq (k0_chk6.eq_1 v48))
theorem k0_off12_inb : ∀ (v48 : BitVec 32) (k0_hw6 : k0_chk6 v48), ∀ a, (k0_off12 v48) a + S1x512.size a ≤ S128000x512.size a := fun v48 k0_hw6 => k0_hw6.1
theorem k0_off134_inb : ∀ (v48 : BitVec 32) (k0_hw6 : k0_chk6 v48), ∀ a, (k0_off134 v48) a + S1x512.size a ≤ S128000x512.size a := fun v48 k0_hw6 => k0_hw6.2

def k0_off135 (v57 : BitVec 32) : Fin 2 → Nat :=
  let c0_i32_283 : BitVec 32 := 0#32
  ![v57.toNat, 0]

def k0_chk7 (v57 : BitVec 32) : Prop :=
  (∀ a, (k0_off14 v57) a + S1x512.size a ≤ S128000x512.size a) ∧
  (∀ a, (k0_off135 v57) a + S1x512.size a ≤ S128000x512.size a)
instance k0_chk7.dec : ∀ (v57 : BitVec 32), Decidable (k0_chk7 v57) := fun v57 => decidable_of_iff' _ (Iff.of_eq (k0_chk7.eq_1 v57))
theorem k0_off14_inb : ∀ (v57 : BitVec 32) (k0_hw7 : k0_chk7 v57), ∀ a, (k0_off14 v57) a + S1x512.size a ≤ S128000x512.size a := fun v57 k0_hw7 => k0_hw7.1
theorem k0_off135_inb : ∀ (v57 : BitVec 32) (k0_hw7 : k0_chk7 v57), ∀ a, (k0_off135 v57) a + S1x512.size a ≤ S128000x512.size a := fun v57 k0_hw7 => k0_hw7.2

def k0_off136 (v66 : BitVec 32) : Fin 2 → Nat :=
  let c0_i32_287 : BitVec 32 := 0#32
  ![v66.toNat, 0]

def k0_chk8 (v66 : BitVec 32) : Prop :=
  (∀ a, (k0_off16 v66) a + S1x512.size a ≤ S128000x512.size a) ∧
  (∀ a, (k0_off136 v66) a + S1x512.size a ≤ S128000x512.size a)
instance k0_chk8.dec : ∀ (v66 : BitVec 32), Decidable (k0_chk8 v66) := fun v66 => decidable_of_iff' _ (Iff.of_eq (k0_chk8.eq_1 v66))
theorem k0_off16_inb : ∀ (v66 : BitVec 32) (k0_hw8 : k0_chk8 v66), ∀ a, (k0_off16 v66) a + S1x512.size a ≤ S128000x512.size a := fun v66 k0_hw8 => k0_hw8.1
theorem k0_off136_inb : ∀ (v66 : BitVec 32) (k0_hw8 : k0_chk8 v66), ∀ a, (k0_off136 v66) a + S1x512.size a ≤ S128000x512.size a := fun v66 k0_hw8 => k0_hw8.2

def k0_off137 (v75 : BitVec 32) : Fin 2 → Nat :=
  let c0_i32_291 : BitVec 32 := 0#32
  ![v75.toNat, 0]

def k0_chk9 (v75 : BitVec 32) : Prop :=
  (∀ a, (k0_off18 v75) a + S1x512.size a ≤ S128000x512.size a) ∧
  (∀ a, (k0_off137 v75) a + S1x512.size a ≤ S128000x512.size a)
instance k0_chk9.dec : ∀ (v75 : BitVec 32), Decidable (k0_chk9 v75) := fun v75 => decidable_of_iff' _ (Iff.of_eq (k0_chk9.eq_1 v75))
theorem k0_off18_inb : ∀ (v75 : BitVec 32) (k0_hw9 : k0_chk9 v75), ∀ a, (k0_off18 v75) a + S1x512.size a ≤ S128000x512.size a := fun v75 k0_hw9 => k0_hw9.1
theorem k0_off137_inb : ∀ (v75 : BitVec 32) (k0_hw9 : k0_chk9 v75), ∀ a, (k0_off137 v75) a + S1x512.size a ≤ S128000x512.size a := fun v75 k0_hw9 => k0_hw9.2

def k0_off138 (v84 : BitVec 32) : Fin 2 → Nat :=
  let c0_i32_295 : BitVec 32 := 0#32
  ![v84.toNat, 0]

def k0_chk10 (v84 : BitVec 32) : Prop :=
  (∀ a, (k0_off20 v84) a + S1x512.size a ≤ S128000x512.size a) ∧
  (∀ a, (k0_off138 v84) a + S1x512.size a ≤ S128000x512.size a)
instance k0_chk10.dec : ∀ (v84 : BitVec 32), Decidable (k0_chk10 v84) := fun v84 => decidable_of_iff' _ (Iff.of_eq (k0_chk10.eq_1 v84))
theorem k0_off20_inb : ∀ (v84 : BitVec 32) (k0_hw10 : k0_chk10 v84), ∀ a, (k0_off20 v84) a + S1x512.size a ≤ S128000x512.size a := fun v84 k0_hw10 => k0_hw10.1
theorem k0_off138_inb : ∀ (v84 : BitVec 32) (k0_hw10 : k0_chk10 v84), ∀ a, (k0_off138 v84) a + S1x512.size a ≤ S128000x512.size a := fun v84 k0_hw10 => k0_hw10.2

def k0_off139 (v93 : BitVec 32) : Fin 2 → Nat :=
  let c0_i32_299 : BitVec 32 := 0#32
  ![v93.toNat, 0]

def k0_chk11 (v93 : BitVec 32) : Prop :=
  (∀ a, (k0_off22 v93) a + S1x512.size a ≤ S128000x512.size a) ∧
  (∀ a, (k0_off139 v93) a + S1x512.size a ≤ S128000x512.size a)
instance k0_chk11.dec : ∀ (v93 : BitVec 32), Decidable (k0_chk11 v93) := fun v93 => decidable_of_iff' _ (Iff.of_eq (k0_chk11.eq_1 v93))
theorem k0_off22_inb : ∀ (v93 : BitVec 32) (k0_hw11 : k0_chk11 v93), ∀ a, (k0_off22 v93) a + S1x512.size a ≤ S128000x512.size a := fun v93 k0_hw11 => k0_hw11.1
theorem k0_off139_inb : ∀ (v93 : BitVec 32) (k0_hw11 : k0_chk11 v93), ∀ a, (k0_off139 v93) a + S1x512.size a ≤ S128000x512.size a := fun v93 k0_hw11 => k0_hw11.2

def k0_off140 (v102 : BitVec 32) : Fin 2 → Nat :=
  let c0_i32_303 : BitVec 32 := 0#32
  ![v102.toNat, 0]

def k0_chk12 (v102 : BitVec 32) : Prop :=
  (∀ a, (k0_off24 v102) a + S1x512.size a ≤ S128000x512.size a) ∧
  (∀ a, (k0_off140 v102) a + S1x512.size a ≤ S128000x512.size a)
instance k0_chk12.dec : ∀ (v102 : BitVec 32), Decidable (k0_chk12 v102) := fun v102 => decidable_of_iff' _ (Iff.of_eq (k0_chk12.eq_1 v102))
theorem k0_off24_inb : ∀ (v102 : BitVec 32) (k0_hw12 : k0_chk12 v102), ∀ a, (k0_off24 v102) a + S1x512.size a ≤ S128000x512.size a := fun v102 k0_hw12 => k0_hw12.1
theorem k0_off140_inb : ∀ (v102 : BitVec 32) (k0_hw12 : k0_chk12 v102), ∀ a, (k0_off140 v102) a + S1x512.size a ≤ S128000x512.size a := fun v102 k0_hw12 => k0_hw12.2

def k0_off141 (v111 : BitVec 32) : Fin 2 → Nat :=
  let c0_i32_307 : BitVec 32 := 0#32
  ![v111.toNat, 0]

def k0_chk13 (v111 : BitVec 32) : Prop :=
  (∀ a, (k0_off26 v111) a + S1x512.size a ≤ S128000x512.size a) ∧
  (∀ a, (k0_off141 v111) a + S1x512.size a ≤ S128000x512.size a)
instance k0_chk13.dec : ∀ (v111 : BitVec 32), Decidable (k0_chk13 v111) := fun v111 => decidable_of_iff' _ (Iff.of_eq (k0_chk13.eq_1 v111))
theorem k0_off26_inb : ∀ (v111 : BitVec 32) (k0_hw13 : k0_chk13 v111), ∀ a, (k0_off26 v111) a + S1x512.size a ≤ S128000x512.size a := fun v111 k0_hw13 => k0_hw13.1
theorem k0_off141_inb : ∀ (v111 : BitVec 32) (k0_hw13 : k0_chk13 v111), ∀ a, (k0_off141 v111) a + S1x512.size a ≤ S128000x512.size a := fun v111 k0_hw13 => k0_hw13.2

def k0_off142 (v120 : BitVec 32) : Fin 2 → Nat :=
  let c0_i32_311 : BitVec 32 := 0#32
  ![v120.toNat, 0]

def k0_chk14 (v120 : BitVec 32) : Prop :=
  (∀ a, (k0_off28 v120) a + S1x512.size a ≤ S128000x512.size a) ∧
  (∀ a, (k0_off142 v120) a + S1x512.size a ≤ S128000x512.size a)
instance k0_chk14.dec : ∀ (v120 : BitVec 32), Decidable (k0_chk14 v120) := fun v120 => decidable_of_iff' _ (Iff.of_eq (k0_chk14.eq_1 v120))
theorem k0_off28_inb : ∀ (v120 : BitVec 32) (k0_hw14 : k0_chk14 v120), ∀ a, (k0_off28 v120) a + S1x512.size a ≤ S128000x512.size a := fun v120 k0_hw14 => k0_hw14.1
theorem k0_off142_inb : ∀ (v120 : BitVec 32) (k0_hw14 : k0_chk14 v120), ∀ a, (k0_off142 v120) a + S1x512.size a ≤ S128000x512.size a := fun v120 k0_hw14 => k0_hw14.2

def k0_off143 (v129 : BitVec 32) : Fin 2 → Nat :=
  let c0_i32_315 : BitVec 32 := 0#32
  ![v129.toNat, 0]

def k0_chk15 (v129 : BitVec 32) : Prop :=
  (∀ a, (k0_off30 v129) a + S1x512.size a ≤ S128000x512.size a) ∧
  (∀ a, (k0_off143 v129) a + S1x512.size a ≤ S128000x512.size a)
instance k0_chk15.dec : ∀ (v129 : BitVec 32), Decidable (k0_chk15 v129) := fun v129 => decidable_of_iff' _ (Iff.of_eq (k0_chk15.eq_1 v129))
theorem k0_off30_inb : ∀ (v129 : BitVec 32) (k0_hw15 : k0_chk15 v129), ∀ a, (k0_off30 v129) a + S1x512.size a ≤ S128000x512.size a := fun v129 k0_hw15 => k0_hw15.1
theorem k0_off143_inb : ∀ (v129 : BitVec 32) (k0_hw15 : k0_chk15 v129), ∀ a, (k0_off143 v129) a + S1x512.size a ≤ S128000x512.size a := fun v129 k0_hw15 => k0_hw15.2

def k0_off144 (v138 : BitVec 32) : Fin 2 → Nat :=
  let c0_i32_319 : BitVec 32 := 0#32
  ![v138.toNat, 0]

def k0_chk16 (v138 : BitVec 32) : Prop :=
  (∀ a, (k0_off32 v138) a + S1x512.size a ≤ S128000x512.size a) ∧
  (∀ a, (k0_off144 v138) a + S1x512.size a ≤ S128000x512.size a)
instance k0_chk16.dec : ∀ (v138 : BitVec 32), Decidable (k0_chk16 v138) := fun v138 => decidable_of_iff' _ (Iff.of_eq (k0_chk16.eq_1 v138))
theorem k0_off32_inb : ∀ (v138 : BitVec 32) (k0_hw16 : k0_chk16 v138), ∀ a, (k0_off32 v138) a + S1x512.size a ≤ S128000x512.size a := fun v138 k0_hw16 => k0_hw16.1
theorem k0_off144_inb : ∀ (v138 : BitVec 32) (k0_hw16 : k0_chk16 v138), ∀ a, (k0_off144 v138) a + S1x512.size a ≤ S128000x512.size a := fun v138 k0_hw16 => k0_hw16.2

def k0_off145 (v147 : BitVec 32) : Fin 2 → Nat :=
  let c0_i32_323 : BitVec 32 := 0#32
  ![v147.toNat, 0]

def k0_chk17 (v147 : BitVec 32) : Prop :=
  (∀ a, (k0_off34 v147) a + S1x512.size a ≤ S128000x512.size a) ∧
  (∀ a, (k0_off145 v147) a + S1x512.size a ≤ S128000x512.size a)
instance k0_chk17.dec : ∀ (v147 : BitVec 32), Decidable (k0_chk17 v147) := fun v147 => decidable_of_iff' _ (Iff.of_eq (k0_chk17.eq_1 v147))
theorem k0_off34_inb : ∀ (v147 : BitVec 32) (k0_hw17 : k0_chk17 v147), ∀ a, (k0_off34 v147) a + S1x512.size a ≤ S128000x512.size a := fun v147 k0_hw17 => k0_hw17.1
theorem k0_off145_inb : ∀ (v147 : BitVec 32) (k0_hw17 : k0_chk17 v147), ∀ a, (k0_off145 v147) a + S1x512.size a ≤ S128000x512.size a := fun v147 k0_hw17 => k0_hw17.2

def k0_off146 (v156 : BitVec 32) : Fin 2 → Nat :=
  let c0_i32_327 : BitVec 32 := 0#32
  ![v156.toNat, 0]

def k0_chk18 (v156 : BitVec 32) : Prop :=
  (∀ a, (k0_off36 v156) a + S1x512.size a ≤ S128000x512.size a) ∧
  (∀ a, (k0_off146 v156) a + S1x512.size a ≤ S128000x512.size a)
instance k0_chk18.dec : ∀ (v156 : BitVec 32), Decidable (k0_chk18 v156) := fun v156 => decidable_of_iff' _ (Iff.of_eq (k0_chk18.eq_1 v156))
theorem k0_off36_inb : ∀ (v156 : BitVec 32) (k0_hw18 : k0_chk18 v156), ∀ a, (k0_off36 v156) a + S1x512.size a ≤ S128000x512.size a := fun v156 k0_hw18 => k0_hw18.1
theorem k0_off146_inb : ∀ (v156 : BitVec 32) (k0_hw18 : k0_chk18 v156), ∀ a, (k0_off146 v156) a + S1x512.size a ≤ S128000x512.size a := fun v156 k0_hw18 => k0_hw18.2

def k0_off147 (v165 : BitVec 32) : Fin 2 → Nat :=
  let c0_i32_331 : BitVec 32 := 0#32
  ![v165.toNat, 0]

def k0_chk19 (v165 : BitVec 32) : Prop :=
  (∀ a, (k0_off38 v165) a + S1x512.size a ≤ S128000x512.size a) ∧
  (∀ a, (k0_off147 v165) a + S1x512.size a ≤ S128000x512.size a)
instance k0_chk19.dec : ∀ (v165 : BitVec 32), Decidable (k0_chk19 v165) := fun v165 => decidable_of_iff' _ (Iff.of_eq (k0_chk19.eq_1 v165))
theorem k0_off38_inb : ∀ (v165 : BitVec 32) (k0_hw19 : k0_chk19 v165), ∀ a, (k0_off38 v165) a + S1x512.size a ≤ S128000x512.size a := fun v165 k0_hw19 => k0_hw19.1
theorem k0_off147_inb : ∀ (v165 : BitVec 32) (k0_hw19 : k0_chk19 v165), ∀ a, (k0_off147 v165) a + S1x512.size a ≤ S128000x512.size a := fun v165 k0_hw19 => k0_hw19.2

def k0_off148 (v174 : BitVec 32) : Fin 2 → Nat :=
  let c0_i32_335 : BitVec 32 := 0#32
  ![v174.toNat, 0]

def k0_chk20 (v174 : BitVec 32) : Prop :=
  (∀ a, (k0_off40 v174) a + S1x512.size a ≤ S128000x512.size a) ∧
  (∀ a, (k0_off148 v174) a + S1x512.size a ≤ S128000x512.size a)
instance k0_chk20.dec : ∀ (v174 : BitVec 32), Decidable (k0_chk20 v174) := fun v174 => decidable_of_iff' _ (Iff.of_eq (k0_chk20.eq_1 v174))
theorem k0_off40_inb : ∀ (v174 : BitVec 32) (k0_hw20 : k0_chk20 v174), ∀ a, (k0_off40 v174) a + S1x512.size a ≤ S128000x512.size a := fun v174 k0_hw20 => k0_hw20.1
theorem k0_off148_inb : ∀ (v174 : BitVec 32) (k0_hw20 : k0_chk20 v174), ∀ a, (k0_off148 v174) a + S1x512.size a ≤ S128000x512.size a := fun v174 k0_hw20 => k0_hw20.2

def k0_off149 (v183 : BitVec 32) : Fin 2 → Nat :=
  let c0_i32_339 : BitVec 32 := 0#32
  ![v183.toNat, 0]

def k0_chk21 (v183 : BitVec 32) : Prop :=
  (∀ a, (k0_off42 v183) a + S1x512.size a ≤ S128000x512.size a) ∧
  (∀ a, (k0_off149 v183) a + S1x512.size a ≤ S128000x512.size a)
instance k0_chk21.dec : ∀ (v183 : BitVec 32), Decidable (k0_chk21 v183) := fun v183 => decidable_of_iff' _ (Iff.of_eq (k0_chk21.eq_1 v183))
theorem k0_off42_inb : ∀ (v183 : BitVec 32) (k0_hw21 : k0_chk21 v183), ∀ a, (k0_off42 v183) a + S1x512.size a ≤ S128000x512.size a := fun v183 k0_hw21 => k0_hw21.1
theorem k0_off149_inb : ∀ (v183 : BitVec 32) (k0_hw21 : k0_chk21 v183), ∀ a, (k0_off149 v183) a + S1x512.size a ≤ S128000x512.size a := fun v183 k0_hw21 => k0_hw21.2

def k0_off150 (v192 : BitVec 32) : Fin 2 → Nat :=
  let c0_i32_343 : BitVec 32 := 0#32
  ![v192.toNat, 0]

def k0_chk22 (v192 : BitVec 32) : Prop :=
  (∀ a, (k0_off44 v192) a + S1x512.size a ≤ S128000x512.size a) ∧
  (∀ a, (k0_off150 v192) a + S1x512.size a ≤ S128000x512.size a)
instance k0_chk22.dec : ∀ (v192 : BitVec 32), Decidable (k0_chk22 v192) := fun v192 => decidable_of_iff' _ (Iff.of_eq (k0_chk22.eq_1 v192))
theorem k0_off44_inb : ∀ (v192 : BitVec 32) (k0_hw22 : k0_chk22 v192), ∀ a, (k0_off44 v192) a + S1x512.size a ≤ S128000x512.size a := fun v192 k0_hw22 => k0_hw22.1
theorem k0_off150_inb : ∀ (v192 : BitVec 32) (k0_hw22 : k0_chk22 v192), ∀ a, (k0_off150 v192) a + S1x512.size a ≤ S128000x512.size a := fun v192 k0_hw22 => k0_hw22.2

def k0_off151 (v201 : BitVec 32) : Fin 2 → Nat :=
  let c0_i32_347 : BitVec 32 := 0#32
  ![v201.toNat, 0]

def k0_chk23 (v201 : BitVec 32) : Prop :=
  (∀ a, (k0_off46 v201) a + S1x512.size a ≤ S128000x512.size a) ∧
  (∀ a, (k0_off151 v201) a + S1x512.size a ≤ S128000x512.size a)
instance k0_chk23.dec : ∀ (v201 : BitVec 32), Decidable (k0_chk23 v201) := fun v201 => decidable_of_iff' _ (Iff.of_eq (k0_chk23.eq_1 v201))
theorem k0_off46_inb : ∀ (v201 : BitVec 32) (k0_hw23 : k0_chk23 v201), ∀ a, (k0_off46 v201) a + S1x512.size a ≤ S128000x512.size a := fun v201 k0_hw23 => k0_hw23.1
theorem k0_off151_inb : ∀ (v201 : BitVec 32) (k0_hw23 : k0_chk23 v201), ∀ a, (k0_off151 v201) a + S1x512.size a ≤ S128000x512.size a := fun v201 k0_hw23 => k0_hw23.2

def k0_off152 (v210 : BitVec 32) : Fin 2 → Nat :=
  let c0_i32_351 : BitVec 32 := 0#32
  ![v210.toNat, 0]

def k0_chk24 (v210 : BitVec 32) : Prop :=
  (∀ a, (k0_off48 v210) a + S1x512.size a ≤ S128000x512.size a) ∧
  (∀ a, (k0_off152 v210) a + S1x512.size a ≤ S128000x512.size a)
instance k0_chk24.dec : ∀ (v210 : BitVec 32), Decidable (k0_chk24 v210) := fun v210 => decidable_of_iff' _ (Iff.of_eq (k0_chk24.eq_1 v210))
theorem k0_off48_inb : ∀ (v210 : BitVec 32) (k0_hw24 : k0_chk24 v210), ∀ a, (k0_off48 v210) a + S1x512.size a ≤ S128000x512.size a := fun v210 k0_hw24 => k0_hw24.1
theorem k0_off152_inb : ∀ (v210 : BitVec 32) (k0_hw24 : k0_chk24 v210), ∀ a, (k0_off152 v210) a + S1x512.size a ≤ S128000x512.size a := fun v210 k0_hw24 => k0_hw24.2

def k0_off153 (v219 : BitVec 32) : Fin 2 → Nat :=
  let c0_i32_355 : BitVec 32 := 0#32
  ![v219.toNat, 0]

def k0_chk25 (v219 : BitVec 32) : Prop :=
  (∀ a, (k0_off50 v219) a + S1x512.size a ≤ S128000x512.size a) ∧
  (∀ a, (k0_off153 v219) a + S1x512.size a ≤ S128000x512.size a)
instance k0_chk25.dec : ∀ (v219 : BitVec 32), Decidable (k0_chk25 v219) := fun v219 => decidable_of_iff' _ (Iff.of_eq (k0_chk25.eq_1 v219))
theorem k0_off50_inb : ∀ (v219 : BitVec 32) (k0_hw25 : k0_chk25 v219), ∀ a, (k0_off50 v219) a + S1x512.size a ≤ S128000x512.size a := fun v219 k0_hw25 => k0_hw25.1
theorem k0_off153_inb : ∀ (v219 : BitVec 32) (k0_hw25 : k0_chk25 v219), ∀ a, (k0_off153 v219) a + S1x512.size a ≤ S128000x512.size a := fun v219 k0_hw25 => k0_hw25.2

def k0_off154 (v228 : BitVec 32) : Fin 2 → Nat :=
  let c0_i32_359 : BitVec 32 := 0#32
  ![v228.toNat, 0]

def k0_chk26 (v228 : BitVec 32) : Prop :=
  (∀ a, (k0_off52 v228) a + S1x512.size a ≤ S128000x512.size a) ∧
  (∀ a, (k0_off154 v228) a + S1x512.size a ≤ S128000x512.size a)
instance k0_chk26.dec : ∀ (v228 : BitVec 32), Decidable (k0_chk26 v228) := fun v228 => decidable_of_iff' _ (Iff.of_eq (k0_chk26.eq_1 v228))
theorem k0_off52_inb : ∀ (v228 : BitVec 32) (k0_hw26 : k0_chk26 v228), ∀ a, (k0_off52 v228) a + S1x512.size a ≤ S128000x512.size a := fun v228 k0_hw26 => k0_hw26.1
theorem k0_off154_inb : ∀ (v228 : BitVec 32) (k0_hw26 : k0_chk26 v228), ∀ a, (k0_off154 v228) a + S1x512.size a ≤ S128000x512.size a := fun v228 k0_hw26 => k0_hw26.2

def k0_off155 (v237 : BitVec 32) : Fin 2 → Nat :=
  let c0_i32_363 : BitVec 32 := 0#32
  ![v237.toNat, 0]

def k0_chk27 (v237 : BitVec 32) : Prop :=
  (∀ a, (k0_off54 v237) a + S1x512.size a ≤ S128000x512.size a) ∧
  (∀ a, (k0_off155 v237) a + S1x512.size a ≤ S128000x512.size a)
instance k0_chk27.dec : ∀ (v237 : BitVec 32), Decidable (k0_chk27 v237) := fun v237 => decidable_of_iff' _ (Iff.of_eq (k0_chk27.eq_1 v237))
theorem k0_off54_inb : ∀ (v237 : BitVec 32) (k0_hw27 : k0_chk27 v237), ∀ a, (k0_off54 v237) a + S1x512.size a ≤ S128000x512.size a := fun v237 k0_hw27 => k0_hw27.1
theorem k0_off155_inb : ∀ (v237 : BitVec 32) (k0_hw27 : k0_chk27 v237), ∀ a, (k0_off155 v237) a + S1x512.size a ≤ S128000x512.size a := fun v237 k0_hw27 => k0_hw27.2

def k0_off156 (v246 : BitVec 32) : Fin 2 → Nat :=
  let c0_i32_367 : BitVec 32 := 0#32
  ![v246.toNat, 0]

def k0_chk28 (v246 : BitVec 32) : Prop :=
  (∀ a, (k0_off56 v246) a + S1x512.size a ≤ S128000x512.size a) ∧
  (∀ a, (k0_off156 v246) a + S1x512.size a ≤ S128000x512.size a)
instance k0_chk28.dec : ∀ (v246 : BitVec 32), Decidable (k0_chk28 v246) := fun v246 => decidable_of_iff' _ (Iff.of_eq (k0_chk28.eq_1 v246))
theorem k0_off56_inb : ∀ (v246 : BitVec 32) (k0_hw28 : k0_chk28 v246), ∀ a, (k0_off56 v246) a + S1x512.size a ≤ S128000x512.size a := fun v246 k0_hw28 => k0_hw28.1
theorem k0_off156_inb : ∀ (v246 : BitVec 32) (k0_hw28 : k0_chk28 v246), ∀ a, (k0_off156 v246) a + S1x512.size a ≤ S128000x512.size a := fun v246 k0_hw28 => k0_hw28.2

def k0_off157 (v255 : BitVec 32) : Fin 2 → Nat :=
  let c0_i32_371 : BitVec 32 := 0#32
  ![v255.toNat, 0]

def k0_chk29 (v255 : BitVec 32) : Prop :=
  (∀ a, (k0_off58 v255) a + S1x512.size a ≤ S128000x512.size a) ∧
  (∀ a, (k0_off157 v255) a + S1x512.size a ≤ S128000x512.size a)
instance k0_chk29.dec : ∀ (v255 : BitVec 32), Decidable (k0_chk29 v255) := fun v255 => decidable_of_iff' _ (Iff.of_eq (k0_chk29.eq_1 v255))
theorem k0_off58_inb : ∀ (v255 : BitVec 32) (k0_hw29 : k0_chk29 v255), ∀ a, (k0_off58 v255) a + S1x512.size a ≤ S128000x512.size a := fun v255 k0_hw29 => k0_hw29.1
theorem k0_off157_inb : ∀ (v255 : BitVec 32) (k0_hw29 : k0_chk29 v255), ∀ a, (k0_off157 v255) a + S1x512.size a ≤ S128000x512.size a := fun v255 k0_hw29 => k0_hw29.2

def k0_off158 (v264 : BitVec 32) : Fin 2 → Nat :=
  let c0_i32_375 : BitVec 32 := 0#32
  ![v264.toNat, 0]

def k0_chk30 (v264 : BitVec 32) : Prop :=
  (∀ a, (k0_off60 v264) a + S1x512.size a ≤ S128000x512.size a) ∧
  (∀ a, (k0_off158 v264) a + S1x512.size a ≤ S128000x512.size a)
instance k0_chk30.dec : ∀ (v264 : BitVec 32), Decidable (k0_chk30 v264) := fun v264 => decidable_of_iff' _ (Iff.of_eq (k0_chk30.eq_1 v264))
theorem k0_off60_inb : ∀ (v264 : BitVec 32) (k0_hw30 : k0_chk30 v264), ∀ a, (k0_off60 v264) a + S1x512.size a ≤ S128000x512.size a := fun v264 k0_hw30 => k0_hw30.1
theorem k0_off158_inb : ∀ (v264 : BitVec 32) (k0_hw30 : k0_chk30 v264), ∀ a, (k0_off158 v264) a + S1x512.size a ≤ S128000x512.size a := fun v264 k0_hw30 => k0_hw30.2

def k0_off159 (v273 : BitVec 32) : Fin 2 → Nat :=
  let c0_i32_379 : BitVec 32 := 0#32
  ![v273.toNat, 0]

def k0_chk31 (v273 : BitVec 32) : Prop :=
  (∀ a, (k0_off62 v273) a + S1x512.size a ≤ S128000x512.size a) ∧
  (∀ a, (k0_off159 v273) a + S1x512.size a ≤ S128000x512.size a)
instance k0_chk31.dec : ∀ (v273 : BitVec 32), Decidable (k0_chk31 v273) := fun v273 => decidable_of_iff' _ (Iff.of_eq (k0_chk31.eq_1 v273))
theorem k0_off62_inb : ∀ (v273 : BitVec 32) (k0_hw31 : k0_chk31 v273), ∀ a, (k0_off62 v273) a + S1x512.size a ≤ S128000x512.size a := fun v273 k0_hw31 => k0_hw31.1
theorem k0_off159_inb : ∀ (v273 : BitVec 32) (k0_hw31 : k0_chk31 v273), ∀ a, (k0_off159 v273) a + S1x512.size a ≤ S128000x512.size a := fun v273 k0_hw31 => k0_hw31.2

def k0_off160 (v282 : BitVec 32) : Fin 2 → Nat :=
  let c0_i32_383 : BitVec 32 := 0#32
  ![v282.toNat, 0]

def k0_chk32 (v282 : BitVec 32) : Prop :=
  (∀ a, (k0_off64 v282) a + S1x512.size a ≤ S128000x512.size a) ∧
  (∀ a, (k0_off160 v282) a + S1x512.size a ≤ S128000x512.size a)
instance k0_chk32.dec : ∀ (v282 : BitVec 32), Decidable (k0_chk32 v282) := fun v282 => decidable_of_iff' _ (Iff.of_eq (k0_chk32.eq_1 v282))
theorem k0_off64_inb : ∀ (v282 : BitVec 32) (k0_hw32 : k0_chk32 v282), ∀ a, (k0_off64 v282) a + S1x512.size a ≤ S128000x512.size a := fun v282 k0_hw32 => k0_hw32.1
theorem k0_off160_inb : ∀ (v282 : BitVec 32) (k0_hw32 : k0_chk32 v282), ∀ a, (k0_off160 v282) a + S1x512.size a ≤ S128000x512.size a := fun v282 k0_hw32 => k0_hw32.2

def k0_off161 (v291 : BitVec 32) : Fin 2 → Nat :=
  let c0_i32_387 : BitVec 32 := 0#32
  ![v291.toNat, 0]

def k0_chk33 (v291 : BitVec 32) : Prop :=
  (∀ a, (k0_off66 v291) a + S1x512.size a ≤ S128000x512.size a) ∧
  (∀ a, (k0_off161 v291) a + S1x512.size a ≤ S128000x512.size a)
instance k0_chk33.dec : ∀ (v291 : BitVec 32), Decidable (k0_chk33 v291) := fun v291 => decidable_of_iff' _ (Iff.of_eq (k0_chk33.eq_1 v291))
theorem k0_off66_inb : ∀ (v291 : BitVec 32) (k0_hw33 : k0_chk33 v291), ∀ a, (k0_off66 v291) a + S1x512.size a ≤ S128000x512.size a := fun v291 k0_hw33 => k0_hw33.1
theorem k0_off161_inb : ∀ (v291 : BitVec 32) (k0_hw33 : k0_chk33 v291), ∀ a, (k0_off161 v291) a + S1x512.size a ≤ S128000x512.size a := fun v291 k0_hw33 => k0_hw33.2

def k0_off162 (v300 : BitVec 32) : Fin 2 → Nat :=
  let c0_i32_391 : BitVec 32 := 0#32
  ![v300.toNat, 0]

def k0_chk34 (v300 : BitVec 32) : Prop :=
  (∀ a, (k0_off68 v300) a + S1x512.size a ≤ S128000x512.size a) ∧
  (∀ a, (k0_off162 v300) a + S1x512.size a ≤ S128000x512.size a)
instance k0_chk34.dec : ∀ (v300 : BitVec 32), Decidable (k0_chk34 v300) := fun v300 => decidable_of_iff' _ (Iff.of_eq (k0_chk34.eq_1 v300))
theorem k0_off68_inb : ∀ (v300 : BitVec 32) (k0_hw34 : k0_chk34 v300), ∀ a, (k0_off68 v300) a + S1x512.size a ≤ S128000x512.size a := fun v300 k0_hw34 => k0_hw34.1
theorem k0_off162_inb : ∀ (v300 : BitVec 32) (k0_hw34 : k0_chk34 v300), ∀ a, (k0_off162 v300) a + S1x512.size a ≤ S128000x512.size a := fun v300 k0_hw34 => k0_hw34.2

def k0_off163 (v309 : BitVec 32) : Fin 2 → Nat :=
  let c0_i32_395 : BitVec 32 := 0#32
  ![v309.toNat, 0]

def k0_chk35 (v309 : BitVec 32) : Prop :=
  (∀ a, (k0_off70 v309) a + S1x512.size a ≤ S128000x512.size a) ∧
  (∀ a, (k0_off163 v309) a + S1x512.size a ≤ S128000x512.size a)
instance k0_chk35.dec : ∀ (v309 : BitVec 32), Decidable (k0_chk35 v309) := fun v309 => decidable_of_iff' _ (Iff.of_eq (k0_chk35.eq_1 v309))
theorem k0_off70_inb : ∀ (v309 : BitVec 32) (k0_hw35 : k0_chk35 v309), ∀ a, (k0_off70 v309) a + S1x512.size a ≤ S128000x512.size a := fun v309 k0_hw35 => k0_hw35.1
theorem k0_off163_inb : ∀ (v309 : BitVec 32) (k0_hw35 : k0_chk35 v309), ∀ a, (k0_off163 v309) a + S1x512.size a ≤ S128000x512.size a := fun v309 k0_hw35 => k0_hw35.2

def k0_off164 (v318 : BitVec 32) : Fin 2 → Nat :=
  let c0_i32_399 : BitVec 32 := 0#32
  ![v318.toNat, 0]

def k0_chk36 (v318 : BitVec 32) : Prop :=
  (∀ a, (k0_off72 v318) a + S1x512.size a ≤ S128000x512.size a) ∧
  (∀ a, (k0_off164 v318) a + S1x512.size a ≤ S128000x512.size a)
instance k0_chk36.dec : ∀ (v318 : BitVec 32), Decidable (k0_chk36 v318) := fun v318 => decidable_of_iff' _ (Iff.of_eq (k0_chk36.eq_1 v318))
theorem k0_off72_inb : ∀ (v318 : BitVec 32) (k0_hw36 : k0_chk36 v318), ∀ a, (k0_off72 v318) a + S1x512.size a ≤ S128000x512.size a := fun v318 k0_hw36 => k0_hw36.1
theorem k0_off164_inb : ∀ (v318 : BitVec 32) (k0_hw36 : k0_chk36 v318), ∀ a, (k0_off164 v318) a + S1x512.size a ≤ S128000x512.size a := fun v318 k0_hw36 => k0_hw36.2

def k0_off165 (v327 : BitVec 32) : Fin 2 → Nat :=
  let c0_i32_403 : BitVec 32 := 0#32
  ![v327.toNat, 0]

def k0_chk37 (v327 : BitVec 32) : Prop :=
  (∀ a, (k0_off74 v327) a + S1x512.size a ≤ S128000x512.size a) ∧
  (∀ a, (k0_off165 v327) a + S1x512.size a ≤ S128000x512.size a)
instance k0_chk37.dec : ∀ (v327 : BitVec 32), Decidable (k0_chk37 v327) := fun v327 => decidable_of_iff' _ (Iff.of_eq (k0_chk37.eq_1 v327))
theorem k0_off74_inb : ∀ (v327 : BitVec 32) (k0_hw37 : k0_chk37 v327), ∀ a, (k0_off74 v327) a + S1x512.size a ≤ S128000x512.size a := fun v327 k0_hw37 => k0_hw37.1
theorem k0_off165_inb : ∀ (v327 : BitVec 32) (k0_hw37 : k0_chk37 v327), ∀ a, (k0_off165 v327) a + S1x512.size a ≤ S128000x512.size a := fun v327 k0_hw37 => k0_hw37.2

def k0_off166 (v336 : BitVec 32) : Fin 2 → Nat :=
  let c0_i32_407 : BitVec 32 := 0#32
  ![v336.toNat, 0]

def k0_chk38 (v336 : BitVec 32) : Prop :=
  (∀ a, (k0_off76 v336) a + S1x512.size a ≤ S128000x512.size a) ∧
  (∀ a, (k0_off166 v336) a + S1x512.size a ≤ S128000x512.size a)
instance k0_chk38.dec : ∀ (v336 : BitVec 32), Decidable (k0_chk38 v336) := fun v336 => decidable_of_iff' _ (Iff.of_eq (k0_chk38.eq_1 v336))
theorem k0_off76_inb : ∀ (v336 : BitVec 32) (k0_hw38 : k0_chk38 v336), ∀ a, (k0_off76 v336) a + S1x512.size a ≤ S128000x512.size a := fun v336 k0_hw38 => k0_hw38.1
theorem k0_off166_inb : ∀ (v336 : BitVec 32) (k0_hw38 : k0_chk38 v336), ∀ a, (k0_off166 v336) a + S1x512.size a ≤ S128000x512.size a := fun v336 k0_hw38 => k0_hw38.2

def k0_off167 (v345 : BitVec 32) : Fin 2 → Nat :=
  let c0_i32_411 : BitVec 32 := 0#32
  ![v345.toNat, 0]

def k0_chk39 (v345 : BitVec 32) : Prop :=
  (∀ a, (k0_off78 v345) a + S1x512.size a ≤ S128000x512.size a) ∧
  (∀ a, (k0_off167 v345) a + S1x512.size a ≤ S128000x512.size a)
instance k0_chk39.dec : ∀ (v345 : BitVec 32), Decidable (k0_chk39 v345) := fun v345 => decidable_of_iff' _ (Iff.of_eq (k0_chk39.eq_1 v345))
theorem k0_off78_inb : ∀ (v345 : BitVec 32) (k0_hw39 : k0_chk39 v345), ∀ a, (k0_off78 v345) a + S1x512.size a ≤ S128000x512.size a := fun v345 k0_hw39 => k0_hw39.1
theorem k0_off167_inb : ∀ (v345 : BitVec 32) (k0_hw39 : k0_chk39 v345), ∀ a, (k0_off167 v345) a + S1x512.size a ≤ S128000x512.size a := fun v345 k0_hw39 => k0_hw39.2

def k0_off168 (v354 : BitVec 32) : Fin 2 → Nat :=
  let c0_i32_415 : BitVec 32 := 0#32
  ![v354.toNat, 0]

def k0_chk40 (v354 : BitVec 32) : Prop :=
  (∀ a, (k0_off80 v354) a + S1x512.size a ≤ S128000x512.size a) ∧
  (∀ a, (k0_off168 v354) a + S1x512.size a ≤ S128000x512.size a)
instance k0_chk40.dec : ∀ (v354 : BitVec 32), Decidable (k0_chk40 v354) := fun v354 => decidable_of_iff' _ (Iff.of_eq (k0_chk40.eq_1 v354))
theorem k0_off80_inb : ∀ (v354 : BitVec 32) (k0_hw40 : k0_chk40 v354), ∀ a, (k0_off80 v354) a + S1x512.size a ≤ S128000x512.size a := fun v354 k0_hw40 => k0_hw40.1
theorem k0_off168_inb : ∀ (v354 : BitVec 32) (k0_hw40 : k0_chk40 v354), ∀ a, (k0_off168 v354) a + S1x512.size a ≤ S128000x512.size a := fun v354 k0_hw40 => k0_hw40.2

def k0_off169 (v363 : BitVec 32) : Fin 2 → Nat :=
  let c0_i32_419 : BitVec 32 := 0#32
  ![v363.toNat, 0]

def k0_chk41 (v363 : BitVec 32) : Prop :=
  (∀ a, (k0_off82 v363) a + S1x512.size a ≤ S128000x512.size a) ∧
  (∀ a, (k0_off169 v363) a + S1x512.size a ≤ S128000x512.size a)
instance k0_chk41.dec : ∀ (v363 : BitVec 32), Decidable (k0_chk41 v363) := fun v363 => decidable_of_iff' _ (Iff.of_eq (k0_chk41.eq_1 v363))
theorem k0_off82_inb : ∀ (v363 : BitVec 32) (k0_hw41 : k0_chk41 v363), ∀ a, (k0_off82 v363) a + S1x512.size a ≤ S128000x512.size a := fun v363 k0_hw41 => k0_hw41.1
theorem k0_off169_inb : ∀ (v363 : BitVec 32) (k0_hw41 : k0_chk41 v363), ∀ a, (k0_off169 v363) a + S1x512.size a ≤ S128000x512.size a := fun v363 k0_hw41 => k0_hw41.2

def k0_off170 (v372 : BitVec 32) : Fin 2 → Nat :=
  let c0_i32_423 : BitVec 32 := 0#32
  ![v372.toNat, 0]

def k0_chk42 (v372 : BitVec 32) : Prop :=
  (∀ a, (k0_off84 v372) a + S1x512.size a ≤ S128000x512.size a) ∧
  (∀ a, (k0_off170 v372) a + S1x512.size a ≤ S128000x512.size a)
instance k0_chk42.dec : ∀ (v372 : BitVec 32), Decidable (k0_chk42 v372) := fun v372 => decidable_of_iff' _ (Iff.of_eq (k0_chk42.eq_1 v372))
theorem k0_off84_inb : ∀ (v372 : BitVec 32) (k0_hw42 : k0_chk42 v372), ∀ a, (k0_off84 v372) a + S1x512.size a ≤ S128000x512.size a := fun v372 k0_hw42 => k0_hw42.1
theorem k0_off170_inb : ∀ (v372 : BitVec 32) (k0_hw42 : k0_chk42 v372), ∀ a, (k0_off170 v372) a + S1x512.size a ≤ S128000x512.size a := fun v372 k0_hw42 => k0_hw42.2

def k0_off171 (v381 : BitVec 32) : Fin 2 → Nat :=
  let c0_i32_427 : BitVec 32 := 0#32
  ![v381.toNat, 0]

def k0_chk43 (v381 : BitVec 32) : Prop :=
  (∀ a, (k0_off86 v381) a + S1x512.size a ≤ S128000x512.size a) ∧
  (∀ a, (k0_off171 v381) a + S1x512.size a ≤ S128000x512.size a)
instance k0_chk43.dec : ∀ (v381 : BitVec 32), Decidable (k0_chk43 v381) := fun v381 => decidable_of_iff' _ (Iff.of_eq (k0_chk43.eq_1 v381))
theorem k0_off86_inb : ∀ (v381 : BitVec 32) (k0_hw43 : k0_chk43 v381), ∀ a, (k0_off86 v381) a + S1x512.size a ≤ S128000x512.size a := fun v381 k0_hw43 => k0_hw43.1
theorem k0_off171_inb : ∀ (v381 : BitVec 32) (k0_hw43 : k0_chk43 v381), ∀ a, (k0_off171 v381) a + S1x512.size a ≤ S128000x512.size a := fun v381 k0_hw43 => k0_hw43.2

def k0_off172 (v390 : BitVec 32) : Fin 2 → Nat :=
  let c0_i32_431 : BitVec 32 := 0#32
  ![v390.toNat, 0]

def k0_chk44 (v390 : BitVec 32) : Prop :=
  (∀ a, (k0_off88 v390) a + S1x512.size a ≤ S128000x512.size a) ∧
  (∀ a, (k0_off172 v390) a + S1x512.size a ≤ S128000x512.size a)
instance k0_chk44.dec : ∀ (v390 : BitVec 32), Decidable (k0_chk44 v390) := fun v390 => decidable_of_iff' _ (Iff.of_eq (k0_chk44.eq_1 v390))
theorem k0_off88_inb : ∀ (v390 : BitVec 32) (k0_hw44 : k0_chk44 v390), ∀ a, (k0_off88 v390) a + S1x512.size a ≤ S128000x512.size a := fun v390 k0_hw44 => k0_hw44.1
theorem k0_off172_inb : ∀ (v390 : BitVec 32) (k0_hw44 : k0_chk44 v390), ∀ a, (k0_off172 v390) a + S1x512.size a ≤ S128000x512.size a := fun v390 k0_hw44 => k0_hw44.2

def k0_off173 (v399 : BitVec 32) : Fin 2 → Nat :=
  let c0_i32_435 : BitVec 32 := 0#32
  ![v399.toNat, 0]

def k0_chk45 (v399 : BitVec 32) : Prop :=
  (∀ a, (k0_off90 v399) a + S1x512.size a ≤ S128000x512.size a) ∧
  (∀ a, (k0_off173 v399) a + S1x512.size a ≤ S128000x512.size a)
instance k0_chk45.dec : ∀ (v399 : BitVec 32), Decidable (k0_chk45 v399) := fun v399 => decidable_of_iff' _ (Iff.of_eq (k0_chk45.eq_1 v399))
theorem k0_off90_inb : ∀ (v399 : BitVec 32) (k0_hw45 : k0_chk45 v399), ∀ a, (k0_off90 v399) a + S1x512.size a ≤ S128000x512.size a := fun v399 k0_hw45 => k0_hw45.1
theorem k0_off173_inb : ∀ (v399 : BitVec 32) (k0_hw45 : k0_chk45 v399), ∀ a, (k0_off173 v399) a + S1x512.size a ≤ S128000x512.size a := fun v399 k0_hw45 => k0_hw45.2

def k0_off174 (v408 : BitVec 32) : Fin 2 → Nat :=
  let c0_i32_439 : BitVec 32 := 0#32
  ![v408.toNat, 0]

def k0_chk46 (v408 : BitVec 32) : Prop :=
  (∀ a, (k0_off92 v408) a + S1x512.size a ≤ S128000x512.size a) ∧
  (∀ a, (k0_off174 v408) a + S1x512.size a ≤ S128000x512.size a)
instance k0_chk46.dec : ∀ (v408 : BitVec 32), Decidable (k0_chk46 v408) := fun v408 => decidable_of_iff' _ (Iff.of_eq (k0_chk46.eq_1 v408))
theorem k0_off92_inb : ∀ (v408 : BitVec 32) (k0_hw46 : k0_chk46 v408), ∀ a, (k0_off92 v408) a + S1x512.size a ≤ S128000x512.size a := fun v408 k0_hw46 => k0_hw46.1
theorem k0_off174_inb : ∀ (v408 : BitVec 32) (k0_hw46 : k0_chk46 v408), ∀ a, (k0_off174 v408) a + S1x512.size a ≤ S128000x512.size a := fun v408 k0_hw46 => k0_hw46.2

def k0_off175 (v417 : BitVec 32) : Fin 2 → Nat :=
  let c0_i32_443 : BitVec 32 := 0#32
  ![v417.toNat, 0]

def k0_chk47 (v417 : BitVec 32) : Prop :=
  (∀ a, (k0_off94 v417) a + S1x512.size a ≤ S128000x512.size a) ∧
  (∀ a, (k0_off175 v417) a + S1x512.size a ≤ S128000x512.size a)
instance k0_chk47.dec : ∀ (v417 : BitVec 32), Decidable (k0_chk47 v417) := fun v417 => decidable_of_iff' _ (Iff.of_eq (k0_chk47.eq_1 v417))
theorem k0_off94_inb : ∀ (v417 : BitVec 32) (k0_hw47 : k0_chk47 v417), ∀ a, (k0_off94 v417) a + S1x512.size a ≤ S128000x512.size a := fun v417 k0_hw47 => k0_hw47.1
theorem k0_off175_inb : ∀ (v417 : BitVec 32) (k0_hw47 : k0_chk47 v417), ∀ a, (k0_off175 v417) a + S1x512.size a ≤ S128000x512.size a := fun v417 k0_hw47 => k0_hw47.2

def k0_off176 (v426 : BitVec 32) : Fin 2 → Nat :=
  let c0_i32_447 : BitVec 32 := 0#32
  ![v426.toNat, 0]

def k0_chk48 (v426 : BitVec 32) : Prop :=
  (∀ a, (k0_off96 v426) a + S1x512.size a ≤ S128000x512.size a) ∧
  (∀ a, (k0_off176 v426) a + S1x512.size a ≤ S128000x512.size a)
instance k0_chk48.dec : ∀ (v426 : BitVec 32), Decidable (k0_chk48 v426) := fun v426 => decidable_of_iff' _ (Iff.of_eq (k0_chk48.eq_1 v426))
theorem k0_off96_inb : ∀ (v426 : BitVec 32) (k0_hw48 : k0_chk48 v426), ∀ a, (k0_off96 v426) a + S1x512.size a ≤ S128000x512.size a := fun v426 k0_hw48 => k0_hw48.1
theorem k0_off176_inb : ∀ (v426 : BitVec 32) (k0_hw48 : k0_chk48 v426), ∀ a, (k0_off176 v426) a + S1x512.size a ≤ S128000x512.size a := fun v426 k0_hw48 => k0_hw48.2

def k0_off177 (v435 : BitVec 32) : Fin 2 → Nat :=
  let c0_i32_451 : BitVec 32 := 0#32
  ![v435.toNat, 0]

def k0_chk49 (v435 : BitVec 32) : Prop :=
  (∀ a, (k0_off98 v435) a + S1x512.size a ≤ S128000x512.size a) ∧
  (∀ a, (k0_off177 v435) a + S1x512.size a ≤ S128000x512.size a)
instance k0_chk49.dec : ∀ (v435 : BitVec 32), Decidable (k0_chk49 v435) := fun v435 => decidable_of_iff' _ (Iff.of_eq (k0_chk49.eq_1 v435))
theorem k0_off98_inb : ∀ (v435 : BitVec 32) (k0_hw49 : k0_chk49 v435), ∀ a, (k0_off98 v435) a + S1x512.size a ≤ S128000x512.size a := fun v435 k0_hw49 => k0_hw49.1
theorem k0_off177_inb : ∀ (v435 : BitVec 32) (k0_hw49 : k0_chk49 v435), ∀ a, (k0_off177 v435) a + S1x512.size a ≤ S128000x512.size a := fun v435 k0_hw49 => k0_hw49.2

def k0_off178 (v444 : BitVec 32) : Fin 2 → Nat :=
  let c0_i32_455 : BitVec 32 := 0#32
  ![v444.toNat, 0]

def k0_chk50 (v444 : BitVec 32) : Prop :=
  (∀ a, (k0_off100 v444) a + S1x512.size a ≤ S128000x512.size a) ∧
  (∀ a, (k0_off178 v444) a + S1x512.size a ≤ S128000x512.size a)
instance k0_chk50.dec : ∀ (v444 : BitVec 32), Decidable (k0_chk50 v444) := fun v444 => decidable_of_iff' _ (Iff.of_eq (k0_chk50.eq_1 v444))
theorem k0_off100_inb : ∀ (v444 : BitVec 32) (k0_hw50 : k0_chk50 v444), ∀ a, (k0_off100 v444) a + S1x512.size a ≤ S128000x512.size a := fun v444 k0_hw50 => k0_hw50.1
theorem k0_off178_inb : ∀ (v444 : BitVec 32) (k0_hw50 : k0_chk50 v444), ∀ a, (k0_off178 v444) a + S1x512.size a ≤ S128000x512.size a := fun v444 k0_hw50 => k0_hw50.2

def k0_off179 (v453 : BitVec 32) : Fin 2 → Nat :=
  let c0_i32_459 : BitVec 32 := 0#32
  ![v453.toNat, 0]

def k0_chk51 (v453 : BitVec 32) : Prop :=
  (∀ a, (k0_off102 v453) a + S1x512.size a ≤ S128000x512.size a) ∧
  (∀ a, (k0_off179 v453) a + S1x512.size a ≤ S128000x512.size a)
instance k0_chk51.dec : ∀ (v453 : BitVec 32), Decidable (k0_chk51 v453) := fun v453 => decidable_of_iff' _ (Iff.of_eq (k0_chk51.eq_1 v453))
theorem k0_off102_inb : ∀ (v453 : BitVec 32) (k0_hw51 : k0_chk51 v453), ∀ a, (k0_off102 v453) a + S1x512.size a ≤ S128000x512.size a := fun v453 k0_hw51 => k0_hw51.1
theorem k0_off179_inb : ∀ (v453 : BitVec 32) (k0_hw51 : k0_chk51 v453), ∀ a, (k0_off179 v453) a + S1x512.size a ≤ S128000x512.size a := fun v453 k0_hw51 => k0_hw51.2

def k0_off180 (v462 : BitVec 32) : Fin 2 → Nat :=
  let c0_i32_463 : BitVec 32 := 0#32
  ![v462.toNat, 0]

def k0_chk52 (v462 : BitVec 32) : Prop :=
  (∀ a, (k0_off104 v462) a + S1x512.size a ≤ S128000x512.size a) ∧
  (∀ a, (k0_off180 v462) a + S1x512.size a ≤ S128000x512.size a)
instance k0_chk52.dec : ∀ (v462 : BitVec 32), Decidable (k0_chk52 v462) := fun v462 => decidable_of_iff' _ (Iff.of_eq (k0_chk52.eq_1 v462))
theorem k0_off104_inb : ∀ (v462 : BitVec 32) (k0_hw52 : k0_chk52 v462), ∀ a, (k0_off104 v462) a + S1x512.size a ≤ S128000x512.size a := fun v462 k0_hw52 => k0_hw52.1
theorem k0_off180_inb : ∀ (v462 : BitVec 32) (k0_hw52 : k0_chk52 v462), ∀ a, (k0_off180 v462) a + S1x512.size a ≤ S128000x512.size a := fun v462 k0_hw52 => k0_hw52.2

def k0_off181 (v471 : BitVec 32) : Fin 2 → Nat :=
  let c0_i32_467 : BitVec 32 := 0#32
  ![v471.toNat, 0]

def k0_chk53 (v471 : BitVec 32) : Prop :=
  (∀ a, (k0_off106 v471) a + S1x512.size a ≤ S128000x512.size a) ∧
  (∀ a, (k0_off181 v471) a + S1x512.size a ≤ S128000x512.size a)
instance k0_chk53.dec : ∀ (v471 : BitVec 32), Decidable (k0_chk53 v471) := fun v471 => decidable_of_iff' _ (Iff.of_eq (k0_chk53.eq_1 v471))
theorem k0_off106_inb : ∀ (v471 : BitVec 32) (k0_hw53 : k0_chk53 v471), ∀ a, (k0_off106 v471) a + S1x512.size a ≤ S128000x512.size a := fun v471 k0_hw53 => k0_hw53.1
theorem k0_off181_inb : ∀ (v471 : BitVec 32) (k0_hw53 : k0_chk53 v471), ∀ a, (k0_off181 v471) a + S1x512.size a ≤ S128000x512.size a := fun v471 k0_hw53 => k0_hw53.2

def k0_off182 (v480 : BitVec 32) : Fin 2 → Nat :=
  let c0_i32_471 : BitVec 32 := 0#32
  ![v480.toNat, 0]

def k0_chk54 (v480 : BitVec 32) : Prop :=
  (∀ a, (k0_off108 v480) a + S1x512.size a ≤ S128000x512.size a) ∧
  (∀ a, (k0_off182 v480) a + S1x512.size a ≤ S128000x512.size a)
instance k0_chk54.dec : ∀ (v480 : BitVec 32), Decidable (k0_chk54 v480) := fun v480 => decidable_of_iff' _ (Iff.of_eq (k0_chk54.eq_1 v480))
theorem k0_off108_inb : ∀ (v480 : BitVec 32) (k0_hw54 : k0_chk54 v480), ∀ a, (k0_off108 v480) a + S1x512.size a ≤ S128000x512.size a := fun v480 k0_hw54 => k0_hw54.1
theorem k0_off182_inb : ∀ (v480 : BitVec 32) (k0_hw54 : k0_chk54 v480), ∀ a, (k0_off182 v480) a + S1x512.size a ≤ S128000x512.size a := fun v480 k0_hw54 => k0_hw54.2

def k0_off183 (v489 : BitVec 32) : Fin 2 → Nat :=
  let c0_i32_475 : BitVec 32 := 0#32
  ![v489.toNat, 0]

def k0_chk55 (v489 : BitVec 32) : Prop :=
  (∀ a, (k0_off110 v489) a + S1x512.size a ≤ S128000x512.size a) ∧
  (∀ a, (k0_off183 v489) a + S1x512.size a ≤ S128000x512.size a)
instance k0_chk55.dec : ∀ (v489 : BitVec 32), Decidable (k0_chk55 v489) := fun v489 => decidable_of_iff' _ (Iff.of_eq (k0_chk55.eq_1 v489))
theorem k0_off110_inb : ∀ (v489 : BitVec 32) (k0_hw55 : k0_chk55 v489), ∀ a, (k0_off110 v489) a + S1x512.size a ≤ S128000x512.size a := fun v489 k0_hw55 => k0_hw55.1
theorem k0_off183_inb : ∀ (v489 : BitVec 32) (k0_hw55 : k0_chk55 v489), ∀ a, (k0_off183 v489) a + S1x512.size a ≤ S128000x512.size a := fun v489 k0_hw55 => k0_hw55.2

def k0_off184 (v498 : BitVec 32) : Fin 2 → Nat :=
  let c0_i32_479 : BitVec 32 := 0#32
  ![v498.toNat, 0]

def k0_chk56 (v498 : BitVec 32) : Prop :=
  (∀ a, (k0_off112 v498) a + S1x512.size a ≤ S128000x512.size a) ∧
  (∀ a, (k0_off184 v498) a + S1x512.size a ≤ S128000x512.size a)
instance k0_chk56.dec : ∀ (v498 : BitVec 32), Decidable (k0_chk56 v498) := fun v498 => decidable_of_iff' _ (Iff.of_eq (k0_chk56.eq_1 v498))
theorem k0_off112_inb : ∀ (v498 : BitVec 32) (k0_hw56 : k0_chk56 v498), ∀ a, (k0_off112 v498) a + S1x512.size a ≤ S128000x512.size a := fun v498 k0_hw56 => k0_hw56.1
theorem k0_off184_inb : ∀ (v498 : BitVec 32) (k0_hw56 : k0_chk56 v498), ∀ a, (k0_off184 v498) a + S1x512.size a ≤ S128000x512.size a := fun v498 k0_hw56 => k0_hw56.2

def k0_off185 (v507 : BitVec 32) : Fin 2 → Nat :=
  let c0_i32_483 : BitVec 32 := 0#32
  ![v507.toNat, 0]

def k0_chk57 (v507 : BitVec 32) : Prop :=
  (∀ a, (k0_off114 v507) a + S1x512.size a ≤ S128000x512.size a) ∧
  (∀ a, (k0_off185 v507) a + S1x512.size a ≤ S128000x512.size a)
instance k0_chk57.dec : ∀ (v507 : BitVec 32), Decidable (k0_chk57 v507) := fun v507 => decidable_of_iff' _ (Iff.of_eq (k0_chk57.eq_1 v507))
theorem k0_off114_inb : ∀ (v507 : BitVec 32) (k0_hw57 : k0_chk57 v507), ∀ a, (k0_off114 v507) a + S1x512.size a ≤ S128000x512.size a := fun v507 k0_hw57 => k0_hw57.1
theorem k0_off185_inb : ∀ (v507 : BitVec 32) (k0_hw57 : k0_chk57 v507), ∀ a, (k0_off185 v507) a + S1x512.size a ≤ S128000x512.size a := fun v507 k0_hw57 => k0_hw57.2

def k0_off186 (v516 : BitVec 32) : Fin 2 → Nat :=
  let c0_i32_487 : BitVec 32 := 0#32
  ![v516.toNat, 0]

def k0_chk58 (v516 : BitVec 32) : Prop :=
  (∀ a, (k0_off116 v516) a + S1x512.size a ≤ S128000x512.size a) ∧
  (∀ a, (k0_off186 v516) a + S1x512.size a ≤ S128000x512.size a)
instance k0_chk58.dec : ∀ (v516 : BitVec 32), Decidable (k0_chk58 v516) := fun v516 => decidable_of_iff' _ (Iff.of_eq (k0_chk58.eq_1 v516))
theorem k0_off116_inb : ∀ (v516 : BitVec 32) (k0_hw58 : k0_chk58 v516), ∀ a, (k0_off116 v516) a + S1x512.size a ≤ S128000x512.size a := fun v516 k0_hw58 => k0_hw58.1
theorem k0_off186_inb : ∀ (v516 : BitVec 32) (k0_hw58 : k0_chk58 v516), ∀ a, (k0_off186 v516) a + S1x512.size a ≤ S128000x512.size a := fun v516 k0_hw58 => k0_hw58.2

def k0_off187 (v525 : BitVec 32) : Fin 2 → Nat :=
  let c0_i32_491 : BitVec 32 := 0#32
  ![v525.toNat, 0]

def k0_chk59 (v525 : BitVec 32) : Prop :=
  (∀ a, (k0_off118 v525) a + S1x512.size a ≤ S128000x512.size a) ∧
  (∀ a, (k0_off187 v525) a + S1x512.size a ≤ S128000x512.size a)
instance k0_chk59.dec : ∀ (v525 : BitVec 32), Decidable (k0_chk59 v525) := fun v525 => decidable_of_iff' _ (Iff.of_eq (k0_chk59.eq_1 v525))
theorem k0_off118_inb : ∀ (v525 : BitVec 32) (k0_hw59 : k0_chk59 v525), ∀ a, (k0_off118 v525) a + S1x512.size a ≤ S128000x512.size a := fun v525 k0_hw59 => k0_hw59.1
theorem k0_off187_inb : ∀ (v525 : BitVec 32) (k0_hw59 : k0_chk59 v525), ∀ a, (k0_off187 v525) a + S1x512.size a ≤ S128000x512.size a := fun v525 k0_hw59 => k0_hw59.2

def k0_off188 (v534 : BitVec 32) : Fin 2 → Nat :=
  let c0_i32_495 : BitVec 32 := 0#32
  ![v534.toNat, 0]

def k0_chk60 (v534 : BitVec 32) : Prop :=
  (∀ a, (k0_off120 v534) a + S1x512.size a ≤ S128000x512.size a) ∧
  (∀ a, (k0_off188 v534) a + S1x512.size a ≤ S128000x512.size a)
instance k0_chk60.dec : ∀ (v534 : BitVec 32), Decidable (k0_chk60 v534) := fun v534 => decidable_of_iff' _ (Iff.of_eq (k0_chk60.eq_1 v534))
theorem k0_off120_inb : ∀ (v534 : BitVec 32) (k0_hw60 : k0_chk60 v534), ∀ a, (k0_off120 v534) a + S1x512.size a ≤ S128000x512.size a := fun v534 k0_hw60 => k0_hw60.1
theorem k0_off188_inb : ∀ (v534 : BitVec 32) (k0_hw60 : k0_chk60 v534), ∀ a, (k0_off188 v534) a + S1x512.size a ≤ S128000x512.size a := fun v534 k0_hw60 => k0_hw60.2

def k0_off189 (v543 : BitVec 32) : Fin 2 → Nat :=
  let c0_i32_499 : BitVec 32 := 0#32
  ![v543.toNat, 0]

def k0_chk61 (v543 : BitVec 32) : Prop :=
  (∀ a, (k0_off122 v543) a + S1x512.size a ≤ S128000x512.size a) ∧
  (∀ a, (k0_off189 v543) a + S1x512.size a ≤ S128000x512.size a)
instance k0_chk61.dec : ∀ (v543 : BitVec 32), Decidable (k0_chk61 v543) := fun v543 => decidable_of_iff' _ (Iff.of_eq (k0_chk61.eq_1 v543))
theorem k0_off122_inb : ∀ (v543 : BitVec 32) (k0_hw61 : k0_chk61 v543), ∀ a, (k0_off122 v543) a + S1x512.size a ≤ S128000x512.size a := fun v543 k0_hw61 => k0_hw61.1
theorem k0_off189_inb : ∀ (v543 : BitVec 32) (k0_hw61 : k0_chk61 v543), ∀ a, (k0_off189 v543) a + S1x512.size a ≤ S128000x512.size a := fun v543 k0_hw61 => k0_hw61.2

def k0_off190 (v552 : BitVec 32) : Fin 2 → Nat :=
  let c0_i32_503 : BitVec 32 := 0#32
  ![v552.toNat, 0]

def k0_chk62 (v552 : BitVec 32) : Prop :=
  (∀ a, (k0_off124 v552) a + S1x512.size a ≤ S128000x512.size a) ∧
  (∀ a, (k0_off190 v552) a + S1x512.size a ≤ S128000x512.size a)
instance k0_chk62.dec : ∀ (v552 : BitVec 32), Decidable (k0_chk62 v552) := fun v552 => decidable_of_iff' _ (Iff.of_eq (k0_chk62.eq_1 v552))
theorem k0_off124_inb : ∀ (v552 : BitVec 32) (k0_hw62 : k0_chk62 v552), ∀ a, (k0_off124 v552) a + S1x512.size a ≤ S128000x512.size a := fun v552 k0_hw62 => k0_hw62.1
theorem k0_off190_inb : ∀ (v552 : BitVec 32) (k0_hw62 : k0_chk62 v552), ∀ a, (k0_off190 v552) a + S1x512.size a ≤ S128000x512.size a := fun v552 k0_hw62 => k0_hw62.2

def k0_off191 (v561 : BitVec 32) : Fin 2 → Nat :=
  let c0_i32_507 : BitVec 32 := 0#32
  ![v561.toNat, 0]

def k0_chk63 (v561 : BitVec 32) : Prop :=
  (∀ a, (k0_off126 v561) a + S1x512.size a ≤ S128000x512.size a) ∧
  (∀ a, (k0_off191 v561) a + S1x512.size a ≤ S128000x512.size a)
instance k0_chk63.dec : ∀ (v561 : BitVec 32), Decidable (k0_chk63 v561) := fun v561 => decidable_of_iff' _ (Iff.of_eq (k0_chk63.eq_1 v561))
theorem k0_off126_inb : ∀ (v561 : BitVec 32) (k0_hw63 : k0_chk63 v561), ∀ a, (k0_off126 v561) a + S1x512.size a ≤ S128000x512.size a := fun v561 k0_hw63 => k0_hw63.1
theorem k0_off191_inb : ∀ (v561 : BitVec 32) (k0_hw63 : k0_chk63 v561), ∀ a, (k0_off191 v561) a + S1x512.size a ≤ S128000x512.size a := fun v561 k0_hw63 => k0_hw63.2

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  shapeCasts_S16384x1_S16384 : S16384x1.ShapeCasts S16384
  transposes_S512x128000_S128000x512_1_0 : S512x128000.Transposes [1, 0] S128000x512
  numel1_S1 : S1.numel = 1
  inb_S64_S1_0 : ∀ a, (![0] : Fin 1 → Nat) a + S1.size a ≤ S64.size a
  squeezes_S1_S_ : S1.Squeezes S_
  inb_S64x512_S1x512_0_0 : ∀ a, (![0, 0] : Fin 2 → Nat) a + S1x512.size a ≤ S64x512.size a
  squeezes_S1x512_S512 : S1x512.Squeezes S512
  inb_S64_S1_1 : ∀ a, (![1] : Fin 1 → Nat) a + S1.size a ≤ S64.size a
  inb_S64x512_S1x512_1_0 : ∀ a, (![1, 0] : Fin 2 → Nat) a + S1x512.size a ≤ S64x512.size a
  inb_S64_S1_2 : ∀ a, (![2] : Fin 1 → Nat) a + S1.size a ≤ S64.size a
  inb_S64x512_S1x512_2_0 : ∀ a, (![2, 0] : Fin 2 → Nat) a + S1x512.size a ≤ S64x512.size a
  inb_S64_S1_3 : ∀ a, (![3] : Fin 1 → Nat) a + S1.size a ≤ S64.size a
  inb_S64x512_S1x512_3_0 : ∀ a, (![3, 0] : Fin 2 → Nat) a + S1x512.size a ≤ S64x512.size a
  inb_S64_S1_4 : ∀ a, (![4] : Fin 1 → Nat) a + S1.size a ≤ S64.size a
  inb_S64x512_S1x512_4_0 : ∀ a, (![4, 0] : Fin 2 → Nat) a + S1x512.size a ≤ S64x512.size a
  inb_S64_S1_5 : ∀ a, (![5] : Fin 1 → Nat) a + S1.size a ≤ S64.size a
  inb_S64x512_S1x512_5_0 : ∀ a, (![5, 0] : Fin 2 → Nat) a + S1x512.size a ≤ S64x512.size a
  inb_S64_S1_6 : ∀ a, (![6] : Fin 1 → Nat) a + S1.size a ≤ S64.size a
  inb_S64x512_S1x512_6_0 : ∀ a, (![6, 0] : Fin 2 → Nat) a + S1x512.size a ≤ S64x512.size a
  inb_S64_S1_7 : ∀ a, (![7] : Fin 1 → Nat) a + S1.size a ≤ S64.size a
  inb_S64x512_S1x512_7_0 : ∀ a, (![7, 0] : Fin 2 → Nat) a + S1x512.size a ≤ S64x512.size a
  inb_S64_S1_8 : ∀ a, (![8] : Fin 1 → Nat) a + S1.size a ≤ S64.size a
  inb_S64x512_S1x512_8_0 : ∀ a, (![8, 0] : Fin 2 → Nat) a + S1x512.size a ≤ S64x512.size a
  inb_S64_S1_9 : ∀ a, (![9] : Fin 1 → Nat) a + S1.size a ≤ S64.size a
  inb_S64x512_S1x512_9_0 : ∀ a, (![9, 0] : Fin 2 → Nat) a + S1x512.size a ≤ S64x512.size a
  inb_S64_S1_10 : ∀ a, (![10] : Fin 1 → Nat) a + S1.size a ≤ S64.size a
  inb_S64x512_S1x512_10_0 : ∀ a, (![10, 0] : Fin 2 → Nat) a + S1x512.size a ≤ S64x512.size a
  inb_S64_S1_11 : ∀ a, (![11] : Fin 1 → Nat) a + S1.size a ≤ S64.size a
  inb_S64x512_S1x512_11_0 : ∀ a, (![11, 0] : Fin 2 → Nat) a + S1x512.size a ≤ S64x512.size a
  inb_S64_S1_12 : ∀ a, (![12] : Fin 1 → Nat) a + S1.size a ≤ S64.size a
  inb_S64x512_S1x512_12_0 : ∀ a, (![12, 0] : Fin 2 → Nat) a + S1x512.size a ≤ S64x512.size a
  inb_S64_S1_13 : ∀ a, (![13] : Fin 1 → Nat) a + S1.size a ≤ S64.size a
  inb_S64x512_S1x512_13_0 : ∀ a, (![13, 0] : Fin 2 → Nat) a + S1x512.size a ≤ S64x512.size a
  inb_S64_S1_14 : ∀ a, (![14] : Fin 1 → Nat) a + S1.size a ≤ S64.size a
  inb_S64x512_S1x512_14_0 : ∀ a, (![14, 0] : Fin 2 → Nat) a + S1x512.size a ≤ S64x512.size a
  inb_S64_S1_15 : ∀ a, (![15] : Fin 1 → Nat) a + S1.size a ≤ S64.size a
  inb_S64x512_S1x512_15_0 : ∀ a, (![15, 0] : Fin 2 → Nat) a + S1x512.size a ≤ S64x512.size a
  inb_S64_S1_16 : ∀ a, (![16] : Fin 1 → Nat) a + S1.size a ≤ S64.size a
  inb_S64x512_S1x512_16_0 : ∀ a, (![16, 0] : Fin 2 → Nat) a + S1x512.size a ≤ S64x512.size a
  inb_S64_S1_17 : ∀ a, (![17] : Fin 1 → Nat) a + S1.size a ≤ S64.size a
  inb_S64x512_S1x512_17_0 : ∀ a, (![17, 0] : Fin 2 → Nat) a + S1x512.size a ≤ S64x512.size a
  inb_S64_S1_18 : ∀ a, (![18] : Fin 1 → Nat) a + S1.size a ≤ S64.size a
  inb_S64x512_S1x512_18_0 : ∀ a, (![18, 0] : Fin 2 → Nat) a + S1x512.size a ≤ S64x512.size a
  inb_S64_S1_19 : ∀ a, (![19] : Fin 1 → Nat) a + S1.size a ≤ S64.size a
  inb_S64x512_S1x512_19_0 : ∀ a, (![19, 0] : Fin 2 → Nat) a + S1x512.size a ≤ S64x512.size a
  inb_S64_S1_20 : ∀ a, (![20] : Fin 1 → Nat) a + S1.size a ≤ S64.size a
  inb_S64x512_S1x512_20_0 : ∀ a, (![20, 0] : Fin 2 → Nat) a + S1x512.size a ≤ S64x512.size a
  inb_S64_S1_21 : ∀ a, (![21] : Fin 1 → Nat) a + S1.size a ≤ S64.size a
  inb_S64x512_S1x512_21_0 : ∀ a, (![21, 0] : Fin 2 → Nat) a + S1x512.size a ≤ S64x512.size a
  inb_S64_S1_22 : ∀ a, (![22] : Fin 1 → Nat) a + S1.size a ≤ S64.size a
  inb_S64x512_S1x512_22_0 : ∀ a, (![22, 0] : Fin 2 → Nat) a + S1x512.size a ≤ S64x512.size a
  inb_S64_S1_23 : ∀ a, (![23] : Fin 1 → Nat) a + S1.size a ≤ S64.size a
  inb_S64x512_S1x512_23_0 : ∀ a, (![23, 0] : Fin 2 → Nat) a + S1x512.size a ≤ S64x512.size a
  inb_S64_S1_24 : ∀ a, (![24] : Fin 1 → Nat) a + S1.size a ≤ S64.size a
  inb_S64x512_S1x512_24_0 : ∀ a, (![24, 0] : Fin 2 → Nat) a + S1x512.size a ≤ S64x512.size a
  inb_S64_S1_25 : ∀ a, (![25] : Fin 1 → Nat) a + S1.size a ≤ S64.size a
  inb_S64x512_S1x512_25_0 : ∀ a, (![25, 0] : Fin 2 → Nat) a + S1x512.size a ≤ S64x512.size a
  inb_S64_S1_26 : ∀ a, (![26] : Fin 1 → Nat) a + S1.size a ≤ S64.size a
  inb_S64x512_S1x512_26_0 : ∀ a, (![26, 0] : Fin 2 → Nat) a + S1x512.size a ≤ S64x512.size a
  inb_S64_S1_27 : ∀ a, (![27] : Fin 1 → Nat) a + S1.size a ≤ S64.size a
  inb_S64x512_S1x512_27_0 : ∀ a, (![27, 0] : Fin 2 → Nat) a + S1x512.size a ≤ S64x512.size a
  inb_S64_S1_28 : ∀ a, (![28] : Fin 1 → Nat) a + S1.size a ≤ S64.size a
  inb_S64x512_S1x512_28_0 : ∀ a, (![28, 0] : Fin 2 → Nat) a + S1x512.size a ≤ S64x512.size a
  inb_S64_S1_29 : ∀ a, (![29] : Fin 1 → Nat) a + S1.size a ≤ S64.size a
  inb_S64x512_S1x512_29_0 : ∀ a, (![29, 0] : Fin 2 → Nat) a + S1x512.size a ≤ S64x512.size a
  inb_S64_S1_30 : ∀ a, (![30] : Fin 1 → Nat) a + S1.size a ≤ S64.size a
  inb_S64x512_S1x512_30_0 : ∀ a, (![30, 0] : Fin 2 → Nat) a + S1x512.size a ≤ S64x512.size a
  inb_S64_S1_31 : ∀ a, (![31] : Fin 1 → Nat) a + S1.size a ≤ S64.size a
  inb_S64x512_S1x512_31_0 : ∀ a, (![31, 0] : Fin 2 → Nat) a + S1x512.size a ≤ S64x512.size a
  inb_S64_S1_32 : ∀ a, (![32] : Fin 1 → Nat) a + S1.size a ≤ S64.size a
  inb_S64x512_S1x512_32_0 : ∀ a, (![32, 0] : Fin 2 → Nat) a + S1x512.size a ≤ S64x512.size a
  inb_S64_S1_33 : ∀ a, (![33] : Fin 1 → Nat) a + S1.size a ≤ S64.size a
  inb_S64x512_S1x512_33_0 : ∀ a, (![33, 0] : Fin 2 → Nat) a + S1x512.size a ≤ S64x512.size a
  inb_S64_S1_34 : ∀ a, (![34] : Fin 1 → Nat) a + S1.size a ≤ S64.size a
  inb_S64x512_S1x512_34_0 : ∀ a, (![34, 0] : Fin 2 → Nat) a + S1x512.size a ≤ S64x512.size a
  inb_S64_S1_35 : ∀ a, (![35] : Fin 1 → Nat) a + S1.size a ≤ S64.size a
  inb_S64x512_S1x512_35_0 : ∀ a, (![35, 0] : Fin 2 → Nat) a + S1x512.size a ≤ S64x512.size a
  inb_S64_S1_36 : ∀ a, (![36] : Fin 1 → Nat) a + S1.size a ≤ S64.size a
  inb_S64x512_S1x512_36_0 : ∀ a, (![36, 0] : Fin 2 → Nat) a + S1x512.size a ≤ S64x512.size a
  inb_S64_S1_37 : ∀ a, (![37] : Fin 1 → Nat) a + S1.size a ≤ S64.size a
  inb_S64x512_S1x512_37_0 : ∀ a, (![37, 0] : Fin 2 → Nat) a + S1x512.size a ≤ S64x512.size a
  inb_S64_S1_38 : ∀ a, (![38] : Fin 1 → Nat) a + S1.size a ≤ S64.size a
  inb_S64x512_S1x512_38_0 : ∀ a, (![38, 0] : Fin 2 → Nat) a + S1x512.size a ≤ S64x512.size a
  inb_S64_S1_39 : ∀ a, (![39] : Fin 1 → Nat) a + S1.size a ≤ S64.size a
  inb_S64x512_S1x512_39_0 : ∀ a, (![39, 0] : Fin 2 → Nat) a + S1x512.size a ≤ S64x512.size a
  inb_S64_S1_40 : ∀ a, (![40] : Fin 1 → Nat) a + S1.size a ≤ S64.size a
  inb_S64x512_S1x512_40_0 : ∀ a, (![40, 0] : Fin 2 → Nat) a + S1x512.size a ≤ S64x512.size a
  inb_S64_S1_41 : ∀ a, (![41] : Fin 1 → Nat) a + S1.size a ≤ S64.size a
  inb_S64x512_S1x512_41_0 : ∀ a, (![41, 0] : Fin 2 → Nat) a + S1x512.size a ≤ S64x512.size a
  inb_S64_S1_42 : ∀ a, (![42] : Fin 1 → Nat) a + S1.size a ≤ S64.size a
  inb_S64x512_S1x512_42_0 : ∀ a, (![42, 0] : Fin 2 → Nat) a + S1x512.size a ≤ S64x512.size a
  inb_S64_S1_43 : ∀ a, (![43] : Fin 1 → Nat) a + S1.size a ≤ S64.size a
  inb_S64x512_S1x512_43_0 : ∀ a, (![43, 0] : Fin 2 → Nat) a + S1x512.size a ≤ S64x512.size a
  inb_S64_S1_44 : ∀ a, (![44] : Fin 1 → Nat) a + S1.size a ≤ S64.size a
  inb_S64x512_S1x512_44_0 : ∀ a, (![44, 0] : Fin 2 → Nat) a + S1x512.size a ≤ S64x512.size a
  inb_S64_S1_45 : ∀ a, (![45] : Fin 1 → Nat) a + S1.size a ≤ S64.size a
  inb_S64x512_S1x512_45_0 : ∀ a, (![45, 0] : Fin 2 → Nat) a + S1x512.size a ≤ S64x512.size a
  inb_S64_S1_46 : ∀ a, (![46] : Fin 1 → Nat) a + S1.size a ≤ S64.size a
  inb_S64x512_S1x512_46_0 : ∀ a, (![46, 0] : Fin 2 → Nat) a + S1x512.size a ≤ S64x512.size a
  inb_S64_S1_47 : ∀ a, (![47] : Fin 1 → Nat) a + S1.size a ≤ S64.size a
  inb_S64x512_S1x512_47_0 : ∀ a, (![47, 0] : Fin 2 → Nat) a + S1x512.size a ≤ S64x512.size a
  inb_S64_S1_48 : ∀ a, (![48] : Fin 1 → Nat) a + S1.size a ≤ S64.size a
  inb_S64x512_S1x512_48_0 : ∀ a, (![48, 0] : Fin 2 → Nat) a + S1x512.size a ≤ S64x512.size a
  inb_S64_S1_49 : ∀ a, (![49] : Fin 1 → Nat) a + S1.size a ≤ S64.size a
  inb_S64x512_S1x512_49_0 : ∀ a, (![49, 0] : Fin 2 → Nat) a + S1x512.size a ≤ S64x512.size a
  inb_S64_S1_50 : ∀ a, (![50] : Fin 1 → Nat) a + S1.size a ≤ S64.size a
  inb_S64x512_S1x512_50_0 : ∀ a, (![50, 0] : Fin 2 → Nat) a + S1x512.size a ≤ S64x512.size a
  inb_S64_S1_51 : ∀ a, (![51] : Fin 1 → Nat) a + S1.size a ≤ S64.size a
  inb_S64x512_S1x512_51_0 : ∀ a, (![51, 0] : Fin 2 → Nat) a + S1x512.size a ≤ S64x512.size a
  inb_S64_S1_52 : ∀ a, (![52] : Fin 1 → Nat) a + S1.size a ≤ S64.size a
  inb_S64x512_S1x512_52_0 : ∀ a, (![52, 0] : Fin 2 → Nat) a + S1x512.size a ≤ S64x512.size a
  inb_S64_S1_53 : ∀ a, (![53] : Fin 1 → Nat) a + S1.size a ≤ S64.size a
  inb_S64x512_S1x512_53_0 : ∀ a, (![53, 0] : Fin 2 → Nat) a + S1x512.size a ≤ S64x512.size a
  inb_S64_S1_54 : ∀ a, (![54] : Fin 1 → Nat) a + S1.size a ≤ S64.size a
  inb_S64x512_S1x512_54_0 : ∀ a, (![54, 0] : Fin 2 → Nat) a + S1x512.size a ≤ S64x512.size a
  inb_S64_S1_55 : ∀ a, (![55] : Fin 1 → Nat) a + S1.size a ≤ S64.size a
  inb_S64x512_S1x512_55_0 : ∀ a, (![55, 0] : Fin 2 → Nat) a + S1x512.size a ≤ S64x512.size a
  inb_S64_S1_56 : ∀ a, (![56] : Fin 1 → Nat) a + S1.size a ≤ S64.size a
  inb_S64x512_S1x512_56_0 : ∀ a, (![56, 0] : Fin 2 → Nat) a + S1x512.size a ≤ S64x512.size a
  inb_S64_S1_57 : ∀ a, (![57] : Fin 1 → Nat) a + S1.size a ≤ S64.size a
  inb_S64x512_S1x512_57_0 : ∀ a, (![57, 0] : Fin 2 → Nat) a + S1x512.size a ≤ S64x512.size a
  inb_S64_S1_58 : ∀ a, (![58] : Fin 1 → Nat) a + S1.size a ≤ S64.size a
  inb_S64x512_S1x512_58_0 : ∀ a, (![58, 0] : Fin 2 → Nat) a + S1x512.size a ≤ S64x512.size a
  inb_S64_S1_59 : ∀ a, (![59] : Fin 1 → Nat) a + S1.size a ≤ S64.size a
  inb_S64x512_S1x512_59_0 : ∀ a, (![59, 0] : Fin 2 → Nat) a + S1x512.size a ≤ S64x512.size a
  inb_S64_S1_60 : ∀ a, (![60] : Fin 1 → Nat) a + S1.size a ≤ S64.size a
  inb_S64x512_S1x512_60_0 : ∀ a, (![60, 0] : Fin 2 → Nat) a + S1x512.size a ≤ S64x512.size a
  inb_S64_S1_61 : ∀ a, (![61] : Fin 1 → Nat) a + S1.size a ≤ S64.size a
  inb_S64x512_S1x512_61_0 : ∀ a, (![61, 0] : Fin 2 → Nat) a + S1x512.size a ≤ S64x512.size a
  inb_S64_S1_62 : ∀ a, (![62] : Fin 1 → Nat) a + S1.size a ≤ S64.size a
  inb_S64x512_S1x512_62_0 : ∀ a, (![62, 0] : Fin 2 → Nat) a + S1x512.size a ≤ S64x512.size a
  inb_S64_S1_63 : ∀ a, (![63] : Fin 1 → Nat) a + S1.size a ≤ S64.size a
  inb_S64x512_S1x512_63_0 : ∀ a, (![63, 0] : Fin 2 → Nat) a + S1x512.size a ≤ S64x512.size a
  shapeCasts_S16384x512_S16384x1x512 : S16384x512.ShapeCasts S16384x1x512
  hcc0_scratch0 : 2 + S64.numel ≤ 66
  hrank0 : 0 < grid0.rank
  k0_off1_inb : ∀ i : grid0.Coords, ∀ a, (k0_off1 i) a + S1.size a ≤ S16384.size a
  k0_off3_inb : ∀ i : grid0.Coords, ∀ a, (k0_off3 i) a + S1.size a ≤ S16384.size a
  k0_off5_inb : ∀ i : grid0.Coords, ∀ a, (k0_off5 i) a + S1.size a ≤ S16384.size a
  k0_off7_inb : ∀ i : grid0.Coords, ∀ a, (k0_off7 i) a + S1.size a ≤ S16384.size a
  k0_off9_inb : ∀ i : grid0.Coords, ∀ a, (k0_off9 i) a + S1.size a ≤ S16384.size a
  k0_off11_inb : ∀ i : grid0.Coords, ∀ a, (k0_off11 i) a + S1.size a ≤ S16384.size a
  k0_off13_inb : ∀ i : grid0.Coords, ∀ a, (k0_off13 i) a + S1.size a ≤ S16384.size a
  k0_off15_inb : ∀ i : grid0.Coords, ∀ a, (k0_off15 i) a + S1.size a ≤ S16384.size a
  k0_off17_inb : ∀ i : grid0.Coords, ∀ a, (k0_off17 i) a + S1.size a ≤ S16384.size a
  k0_off19_inb : ∀ i : grid0.Coords, ∀ a, (k0_off19 i) a + S1.size a ≤ S16384.size a
  k0_off21_inb : ∀ i : grid0.Coords, ∀ a, (k0_off21 i) a + S1.size a ≤ S16384.size a
  k0_off23_inb : ∀ i : grid0.Coords, ∀ a, (k0_off23 i) a + S1.size a ≤ S16384.size a
  k0_off25_inb : ∀ i : grid0.Coords, ∀ a, (k0_off25 i) a + S1.size a ≤ S16384.size a
  k0_off27_inb : ∀ i : grid0.Coords, ∀ a, (k0_off27 i) a + S1.size a ≤ S16384.size a
  k0_off29_inb : ∀ i : grid0.Coords, ∀ a, (k0_off29 i) a + S1.size a ≤ S16384.size a
  k0_off31_inb : ∀ i : grid0.Coords, ∀ a, (k0_off31 i) a + S1.size a ≤ S16384.size a
  k0_off33_inb : ∀ i : grid0.Coords, ∀ a, (k0_off33 i) a + S1.size a ≤ S16384.size a
  k0_off35_inb : ∀ i : grid0.Coords, ∀ a, (k0_off35 i) a + S1.size a ≤ S16384.size a
  k0_off37_inb : ∀ i : grid0.Coords, ∀ a, (k0_off37 i) a + S1.size a ≤ S16384.size a
  k0_off39_inb : ∀ i : grid0.Coords, ∀ a, (k0_off39 i) a + S1.size a ≤ S16384.size a
  k0_off41_inb : ∀ i : grid0.Coords, ∀ a, (k0_off41 i) a + S1.size a ≤ S16384.size a
  k0_off43_inb : ∀ i : grid0.Coords, ∀ a, (k0_off43 i) a + S1.size a ≤ S16384.size a
  k0_off45_inb : ∀ i : grid0.Coords, ∀ a, (k0_off45 i) a + S1.size a ≤ S16384.size a
  k0_off47_inb : ∀ i : grid0.Coords, ∀ a, (k0_off47 i) a + S1.size a ≤ S16384.size a
  k0_off49_inb : ∀ i : grid0.Coords, ∀ a, (k0_off49 i) a + S1.size a ≤ S16384.size a
  k0_off51_inb : ∀ i : grid0.Coords, ∀ a, (k0_off51 i) a + S1.size a ≤ S16384.size a
  k0_off53_inb : ∀ i : grid0.Coords, ∀ a, (k0_off53 i) a + S1.size a ≤ S16384.size a
  k0_off55_inb : ∀ i : grid0.Coords, ∀ a, (k0_off55 i) a + S1.size a ≤ S16384.size a
  k0_off57_inb : ∀ i : grid0.Coords, ∀ a, (k0_off57 i) a + S1.size a ≤ S16384.size a
  k0_off59_inb : ∀ i : grid0.Coords, ∀ a, (k0_off59 i) a + S1.size a ≤ S16384.size a
  k0_off61_inb : ∀ i : grid0.Coords, ∀ a, (k0_off61 i) a + S1.size a ≤ S16384.size a
  k0_off63_inb : ∀ i : grid0.Coords, ∀ a, (k0_off63 i) a + S1.size a ≤ S16384.size a
  k0_off65_inb : ∀ i : grid0.Coords, ∀ a, (k0_off65 i) a + S1.size a ≤ S16384.size a
  k0_off67_inb : ∀ i : grid0.Coords, ∀ a, (k0_off67 i) a + S1.size a ≤ S16384.size a
  k0_off69_inb : ∀ i : grid0.Coords, ∀ a, (k0_off69 i) a + S1.size a ≤ S16384.size a
  k0_off71_inb : ∀ i : grid0.Coords, ∀ a, (k0_off71 i) a + S1.size a ≤ S16384.size a
  k0_off73_inb : ∀ i : grid0.Coords, ∀ a, (k0_off73 i) a + S1.size a ≤ S16384.size a
  k0_off75_inb : ∀ i : grid0.Coords, ∀ a, (k0_off75 i) a + S1.size a ≤ S16384.size a
  k0_off77_inb : ∀ i : grid0.Coords, ∀ a, (k0_off77 i) a + S1.size a ≤ S16384.size a
  k0_off79_inb : ∀ i : grid0.Coords, ∀ a, (k0_off79 i) a + S1.size a ≤ S16384.size a
  k0_off81_inb : ∀ i : grid0.Coords, ∀ a, (k0_off81 i) a + S1.size a ≤ S16384.size a
  k0_off83_inb : ∀ i : grid0.Coords, ∀ a, (k0_off83 i) a + S1.size a ≤ S16384.size a
  k0_off85_inb : ∀ i : grid0.Coords, ∀ a, (k0_off85 i) a + S1.size a ≤ S16384.size a
  k0_off87_inb : ∀ i : grid0.Coords, ∀ a, (k0_off87 i) a + S1.size a ≤ S16384.size a
  k0_off89_inb : ∀ i : grid0.Coords, ∀ a, (k0_off89 i) a + S1.size a ≤ S16384.size a
  k0_off91_inb : ∀ i : grid0.Coords, ∀ a, (k0_off91 i) a + S1.size a ≤ S16384.size a
  k0_off93_inb : ∀ i : grid0.Coords, ∀ a, (k0_off93 i) a + S1.size a ≤ S16384.size a
  k0_off95_inb : ∀ i : grid0.Coords, ∀ a, (k0_off95 i) a + S1.size a ≤ S16384.size a
  k0_off97_inb : ∀ i : grid0.Coords, ∀ a, (k0_off97 i) a + S1.size a ≤ S16384.size a
  k0_off99_inb : ∀ i : grid0.Coords, ∀ a, (k0_off99 i) a + S1.size a ≤ S16384.size a
  k0_off101_inb : ∀ i : grid0.Coords, ∀ a, (k0_off101 i) a + S1.size a ≤ S16384.size a
  k0_off103_inb : ∀ i : grid0.Coords, ∀ a, (k0_off103 i) a + S1.size a ≤ S16384.size a
  k0_off105_inb : ∀ i : grid0.Coords, ∀ a, (k0_off105 i) a + S1.size a ≤ S16384.size a
  k0_off107_inb : ∀ i : grid0.Coords, ∀ a, (k0_off107 i) a + S1.size a ≤ S16384.size a
  k0_off109_inb : ∀ i : grid0.Coords, ∀ a, (k0_off109 i) a + S1.size a ≤ S16384.size a
  k0_off111_inb : ∀ i : grid0.Coords, ∀ a, (k0_off111 i) a + S1.size a ≤ S16384.size a
  k0_off113_inb : ∀ i : grid0.Coords, ∀ a, (k0_off113 i) a + S1.size a ≤ S16384.size a
  k0_off115_inb : ∀ i : grid0.Coords, ∀ a, (k0_off115 i) a + S1.size a ≤ S16384.size a
  k0_off117_inb : ∀ i : grid0.Coords, ∀ a, (k0_off117 i) a + S1.size a ≤ S16384.size a
  k0_off119_inb : ∀ i : grid0.Coords, ∀ a, (k0_off119 i) a + S1.size a ≤ S16384.size a
  k0_off121_inb : ∀ i : grid0.Coords, ∀ a, (k0_off121 i) a + S1.size a ≤ S16384.size a
  k0_off123_inb : ∀ i : grid0.Coords, ∀ a, (k0_off123 i) a + S1.size a ≤ S16384.size a
  k0_off125_inb : ∀ i : grid0.Coords, ∀ a, (k0_off125 i) a + S1.size a ≤ S16384.size a
  k0_off127_inb : ∀ i : grid0.Coords, ∀ a, (k0_off127 i) a + S1.size a ≤ S16384.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S64x512.size a ≤ S16384x512.size a
  hwx0_0 : ∀ i : grid0.Coords, EltTy.bits .f32 = 32 ∨ (Rect.block (s := S16384x512) S64x512.size (cc0_transform_1 i) (hinb0_0 i)).WholeWords (EltTy.packing .f32)

variable [Facts₀]

abbrev cc0_scratch0 : DmaSems sig S64 := SemArray.consecutive 2 S64 hcc0_scratch0

abbrev spec0_0 : Pipeline.WinSpec sig grid0.rank :=
  Pipeline.WinSpec.ofSpec (Memref.whole main_v2) S64x512.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S16384x1 : Shape := ⟨2, ![16384, 1]⟩
abbrev S512x128000 : Shape := ⟨2, ![512, 128000]⟩
abbrev S128000x512 : Shape := ⟨2, ![128000, 512]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S16384x1x512 : Shape := ⟨3, ![16384, 1, 512]⟩

abbrev nBuf : Space → Nat
  | .hbm => 26
  | .vmem => 0
  | .smem => 0
  | _ => 0

abbrev bufTy : (tb : Table) → Fin (tcTables nBuf tb) → BufTy
  | .hbm, ⟨0, _⟩ => ⟨S16384x1, .i32⟩
  | .hbm, ⟨1, _⟩ => ⟨S512x128000, .f32⟩
  | .hbm, ⟨2, _⟩ => ⟨S128000x512, .f32⟩
  | .hbm, ⟨3, _⟩ => ⟨S_, .i32⟩
  | .hbm, ⟨4, _⟩ => ⟨S16384x1, .i32⟩
  | .hbm, ⟨5, _⟩ => ⟨S16384x1, .i1⟩
  | .hbm, ⟨6, _⟩ => ⟨S_, .i32⟩
  | .hbm, ⟨7, _⟩ => ⟨S16384x1, .i32⟩
  | .hbm, ⟨8, _⟩ => ⟨S16384x1, .i32⟩
  | .hbm, ⟨9, _⟩ => ⟨S16384x1, .i32⟩
  | .hbm, ⟨10, _⟩ => ⟨S16384x1x1, .i32⟩
  | .hbm, ⟨11, _⟩ => ⟨S1, .i32⟩
  | .hbm, ⟨12, _⟩ => ⟨S_, .i32⟩
  | .hbm, ⟨13, _⟩ => ⟨S16384x1x1, .i32⟩
  | .hbm, ⟨14, _⟩ => ⟨S16384x1x1, .i1⟩
  | .hbm, ⟨15, _⟩ => ⟨S1x1x1, .i32⟩
  | .hbm, ⟨16, _⟩ => ⟨S16384x1x1, .i32⟩
  | .hbm, ⟨17, _⟩ => ⟨S16384x1x1, .i1⟩
  | .hbm, ⟨18, _⟩ => ⟨S16384x1x1, .i1⟩
  | .hbm, ⟨19, _⟩ => ⟨S_, .i1⟩
  | .hbm, ⟨20, _⟩ => ⟨S16384x1, .i1⟩
  | .hbm, ⟨21, _⟩ => ⟨S16384x1x512, .f32⟩
  | .hbm, ⟨22, _⟩ => ⟨S16384x1x512, .i1⟩
  | .hbm, ⟨23, _⟩ => ⟨S_, .f32⟩
  | .hbm, ⟨24, _⟩ => ⟨S16384x1x512, .f32⟩
  | .hbm, ⟨25, _⟩ => ⟨S16384x1x512, .f32⟩
  | _, _ => ⟨S16384x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  transposes_S512x128000_S128000x512_1_0 : S512x128000.Transposes [1, 0] S128000x512
  bcast_S_S16384x1 : S_.BroadcastsInDim S16384x1 (![] : Fin 0 → Fin S16384x1.rank)
  bcast_S16384x1_S16384x1x1_0_1 : S16384x1.BroadcastsInDim S16384x1x1 (![0, 1] : Fin 2 → Fin S16384x1x1.rank)
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  bcast_S16384x1_S16384x1x512_0_1 : S16384x1.BroadcastsInDim S16384x1x512 (![0, 1] : Fin 2 → Fin S16384x1x512.rank)
  bcast_S_S16384x1x512 : S_.BroadcastsInDim S16384x1x512 (![] : Fin 0 → Fin S16384x1x512.rank)
  gather_S128000x512_S16384x1x1_S16384x1x512_2_0_n_n_0_2_1512_wf : GatherDims.WF S128000x512 S16384x1x1 S16384x1x512 [2] [0] [] [0] [] 2 ![1, 512]

variable [Facts₀]

def gather_S128000x512_S16384x1x1_S16384x1x512_2_0_n_n_0_2_1512 : GatherDims S128000x512 S16384x1x1 S16384x1x512 where
  offsetDims := [2]
  collapsedSliceDims := [0]
  operandBatchingDims := []
  startIndicesBatchingDims := []
  startIndexMap := [0]
  indexVectorDim := 2
  sliceSizes := ![1, 512]
  wf := gather_S128000x512_S16384x1x1_S16384x1x512_2_0_n_n_0_2_1512_wf

class Facts : Prop extends Facts₀ where

variable [Facts]
-- ==== Proof.KernelHeld.lean ====
/-
  What the row-gather kernel's body is handed besides the output block's staging buffer: the table of row numbers
  (held read-only), the transposed matrix left in HBM (held, within a grid point, as one read share per semaphore, since
  the point's 64 row copies read it at once), and the fact that a row number below 128000 names a row inside the matrix.
-/
import proofs.«148027_j64802466562285_1_alg».proof.Proof.Gen.Kernel.Launch
import Idealize.ShloMosaic.Lib.Pipeline.FrameBody
import Idealize.ShloMosaic.Lib.Pipeline.FrameSuffix
import Idealize.ShloMosaic.Lib.Ring
import Idealize.ShloMosaic.Lib.Batch
import Idealize.ShloMosaic.Lib.Tactic

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The table of row numbers as the body is handed it (the whole scalar-memory buffer) and the matrix of rows left in
    HBM (whole). -/
abbrev tbM : Memref sig .tc .smem S16384 .i32 := Memref.whole main_v0
abbrev htbM : tbM.IsWhole := Memref.isWhole_whole _
abbrev hbM : Memref sig .tc .hbm S128000x512 .f32 := Memref.whole main_v1
abbrev TbBuf (c : Dev nD) : Type := Buf (Elt F) (tbM.view.loc (c : Thread nD τ))
abbrev HbBuf (c : Dev nD) : Type := Buf (Elt F) (hbM.view.loc (c : Thread nD τ))
/-- The table held read-only (the pipeline keeps the other half). -/
abbrev tbPt (c : Dev nD) (f : TbBuf (F := F) c) : sProp 𝕄 := tbM.view.loc (c : Thread nD τ) ↦{fullShare.right} f
/-- The matrix of rows held under the read share of semaphore cell `k`: sixty-four copies read it at once, one per cell. -/
abbrev hbTok (c : Dev nD) (k : ℕ) (f : HbBuf (F := F) c) : sProp 𝕄 :=
  hbM.view.loc (c : Thread nD τ) ↦{Transfers.shareTokN fullShare k} f

/-- Row `v` of a matrix of 128000 rows of 512 lies inside it when `v < 128000`. -/
theorem row_inside (v : BitVec 32) (h : v.toNat < 128000) :
    ∀ a, (![v.toNat, 0] : Fin 2 → Nat) a + S1x512.size a ≤ S128000x512.size a := by
  intro a; fin_cases a
  · show v.toNat + 1 ≤ 128000; omega
  · show 0 + 512 ≤ 512; omega

/-- Row `j` of a 64×512 buffer lies inside it. -/
theorem row_inb (j : Nat) (hj : j < 64) : ∀ a, (![j, 0] : Fin 2 → Nat) a + S1x512.size a ≤ S64x512.size a := by
  intro a; fin_cases a
  · show j + 1 ≤ 64; omega
  · show 0 + 512 ≤ 512; omega

/-- Row `j` of the 64×512 staging memref, as a 512-vector: the destination of the body's copy number `j`. -/
abbrev rowN (arg3 : Memref sig .tc .vmem S64x512 .f32) (j : Nat) (hj : j < 64) : Memref sig .tc .vmem S512 .f32 :=
  (arg3.slice (Rect.unit (s := S64x512) ![j, 0] S1x512.size (row_inb j hj)) (fun _ => rfl)).squeeze S512 squeezes_S1x512_S512

/-- Row `j` of the staging buffer held by exactly its own elements, the buffer's contents `f`. -/
abbrev rowPt (c : Dev nD) (arg3 : Memref sig .tc .vmem S64x512 .f32) (j : Nat) (hj : j < 64)
    (f : Buf (Elt F) ((rowN arg3 j hj).view.loc (c : Thread nD τ))) : sProp 𝕄 :=
  (rowN arg3 j hj).view.loc (c : Thread nD τ) ↦[(rowN arg3 j hj).view.set]{fullShare} f

end Cert.Kernel.Gather

end
-- ==== Proof.KernelRows.lean ====
/-
  The row views the row-gather kernel's body copies through, read and written.

  A copy of the body moves one row: its source is the matrix `[128000, 512]` sliced to the unit rectangle
  `[1, 512]` at row `n` and squeezed to `[512]`; its destination is the staging block `[64, 512]` sliced to the
  unit rectangle at row `j` and squeezed likewise.  A squeeze keeps the row-major position, so entry `x` of the
  squeezed row is entry `(0, x)` of the slice, which is entry `(n, x)` of the matrix (entry `(j, x)` of the
  block).  Hence: the source reads row `n` of the matrix; and a payload written through the destination, read
  back through the block, is the payload on row `j` and what the block held on every other row.
-/
import proofs.«148027_j64802466562285_1_alg».proof.Proof.KernelHeld
import Idealize.ShloMosaic.Lib.Pipeline.Value
import Idealize.ShloMosaic.Lib.ValueIdx

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- Entry `x` of a squeezed `[1, 512]` row is entry `(0, x)` of the row: the two have row-major position `x`. -/
theorem squeeze_idx (h : S512.numel = S1x512.numel) (x : S512.Idx) :
    Shape.reshapeEquiv h x = (ix2 (0 : Fin 1) (x 0) : S1x512.Idx) :=
  Shape.reshapeEquiv_eq_of_rowMajor h (by
    rw [Shape.rowMajor_val_two, Shape.rowMajor_val_one]
    show 0 * 512 + (x 0).val = (x 0).val
    omega)

/-- A row of the matrix read through the squeezed unit slice at row `n`: entry `x` is the matrix at `(n, x)`. -/
theorem row_read (c : Dev nD) (fh : HbBuf (F := F) c) (off : Fin 2 → Nat) (n : Nat) (hn : n < 128000) (hoff : off = ![n, 0])
    (inb : ∀ a, off a + S1x512.size a ≤ S128000x512.size a) (x : S512.Idx) :
    ((hbM.slice (Rect.unit (s := S128000x512) off S1x512.size inb) (fun _ => rfl)).squeeze S512 squeezes_S1x512_S512).view.read (Elt F) fh x
      = (fh : S128000x512.Idx → Elt F .f32) (ix2 ⟨n, hn⟩ (x 0)) := by
  subst hoff
  show fh ((Rect.unit (s := S128000x512) ![n, 0] S1x512.size inb).emb (Shape.reshapeEquiv _ x)) = _
  rw [squeeze_idx]
  refine congrArg fh (funext fun a => Fin.ext ?_)
  match a with
  | ⟨0, _⟩ => show n + 1 * 0 = n; omega
  | ⟨1, _⟩ => show 0 + 1 * (x 0).val = (x 0).val; omega

/-- Where the squeezed unit slice at row `j` of a 64×512 memref places its entry `x`: at `(j, x)` of the memref. -/
theorem row_emb (arg3 : Memref sig .tc .vmem S64x512 .f32) (j : Fin 64)
    (inb : ∀ a, (![j.val, 0] : Fin 2 → Nat) a + S1x512.size a ≤ S64x512.size a) (x : S512.Idx) :
    ((arg3.slice (Rect.unit (s := S64x512) ![j.val, 0] S1x512.size inb) (fun _ => rfl)).squeeze S512 squeezes_S1x512_S512).view.emb x
      = arg3.view.emb (ix2 j (x 0)) := by
  show arg3.view.emb ((Rect.unit (s := S64x512) ![j.val, 0] S1x512.size inb).emb (Shape.reshapeEquiv _ x)) = _
  rw [squeeze_idx]
  refine congrArg arg3.view.emb (funext fun a => Fin.ext ?_)
  match a with
  | ⟨0, _⟩ => show j.val + 1 * 0 = j.val; omega
  | ⟨1, _⟩ => show 0 + 1 * (x 0).val = (x 0).val; omega

/-- A payload written through the squeezed unit slice at row `j` of a whole 64×512 buffer, read back through the
    buffer's own view: row `j` holds the payload, every other row what it held. -/
theorem row_write_read (c : Dev nD) (arg3 : Memref sig .tc .vmem S64x512 .f32) (harg3 : arg3.IsWhole)
    (f : Buf (Elt F) (arg3.view.loc (c : Thread nD τ)))
    (j : Fin 64) (inb : ∀ a, (![j.val, 0] : Fin 2 → Nat) a + S1x512.size a ≤ S64x512.size a) (w : S512.Idx → Elt F .f32)
    (j' : Fin 64) (e : Fin 512) :
    arg3.view.read (Elt F) (((arg3.slice (Rect.unit (s := S64x512) ![j.val, 0] S1x512.size inb) (fun _ => rfl)).squeeze S512 squeezes_S1x512_S512).view.write (Elt F) f w Finset.univ) (ix2 j' e)
      = if j' = j then w (ix1 e) else arg3.view.read (Elt F) f (ix2 j' e) := by
  by_cases hj : j' = j
  · subst hj
    rw [if_pos rfl, View.read_apply, ← row_emb arg3 j' inb (ix1 e), View.write_emb_of_mem _ _ (Finset.mem_univ _), cast_cast, cast_eq]
  · rw [if_neg hj, View.read_apply, View.read_apply, View.write_of_not_mem]
    intro hmem
    obtain ⟨x, -, hx⟩ := Finset.mem_map.mp hmem
    rw [row_emb arg3 j inb x] at hx
    have h2 := congrFun (arg3.view.emb.injective hx) (0 : Fin 2)
    exact hj h2.symm

end Cert.Kernel.Gather

end
-- ==== Proof.KernelJoin.lean ====
/-
  The 64×512 staging buffer as its 64 rows.

  Row `j` of the buffer has two names: the squeezed unit slice at row `j` (what a copy of the body writes through)
  and the slice by the row rectangle along axis 0.  Both hold the elements `(j, e)`, `e < 512`, so they are one
  set of elements; the buffer's elements are the disjoint union of its 64 rows; hence the buffer held whole at
  contents `f` is the 64 rows each held at `f`.  A row held at contents `g` is the row held at any contents that
  agrees with `g` on the row; and a whole-buffer write reads back as the payload.
-/
import proofs.«148027_j64802466562285_1_alg».proof.Proof.KernelHeld
import proofs.«148027_j64802466562285_1_alg».proof.Proof.KernelRows
import Idealize.ShloMosaic.Lib.SparseCore.Stream

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

/-- The unit rectangle at row `j` and the row rectangle along axis 0 at `j` hold the same indices of the block. -/
theorem row_rect_set (j : Nat) (hj : j < 64) :
    (Rect.unit (s := S64x512) ![j, 0] S1x512.size (row_inb j hj)).set = (S64x512.rowRect 0 ⟨j, hj⟩).set := by
  ext i
  have hR : i ∈ (S64x512.rowRect 0 ⟨j, hj⟩).set ↔ ∀ a : Fin 2, (if a = 0 then j else 0) ≤ (i a).val
      ∧ (i a).val < (if a = 0 then j else 0) + (if a = 0 then 1 else S64x512.size a) := Rect.mem_set_unit
  rw [Rect.mem_set_unit, hR]
  refine forall_congr' fun a => ?_
  match a with
  | ⟨0, _⟩ => exact Iff.rfl
  | ⟨1, _⟩ => exact Iff.rfl

/-- Row `j`'s elements, both ways of naming them, are one set. -/
theorem row_set (arg3 : Memref sig .tc .vmem S64x512 .f32) (c : Dev nD) (j : Nat) (hj : j < 64) :
    (rowN arg3 j hj).view.set = (arg3.view.slice (S64x512.rowRect 0 ⟨j, hj⟩)).set := by
  show ((arg3.view.slice (Rect.unit (s := S64x512) ![j, 0] S1x512.size (row_inb j hj))).reshape S512 _).set = _
  rw [View.set_reshape, View.set_slice, View.set_slice, row_rect_set j hj]

/-- A numeral below 64, by evaluation. -/
theorem lt64 (k : Nat) (h : decide (k < 64) = true) : k < 64 := of_decide_eq_true h

/-- A row of the buffer held through the row rectangle is the row held through the squeezed unit slice. -/
theorem rowPt_eq (c : Dev nD) (arg3 : Memref sig .tc .vmem S64x512 .f32) (f : Buf (Elt F) (arg3.view.loc (c : Thread nD τ)))
    (j : Nat) (hj : j < 64) :
    (arg3.view.loc (c : Thread nD τ) ↦[(arg3.view.slice (S64x512.rowRect 0 ⟨j, hj⟩)).set]{fullShare} f : sProp 𝕄)
      = rowPt c arg3 j hj f := by
  rw [← row_set arg3 c j hj]

/-- The whole staging buffer is its 64 rows, at one contents `f`: as an equation. -/
theorem rows_split_eq (c : Dev nD) (arg3 : Memref sig .tc .vmem S64x512 .f32) (f : Buf (Elt F) (arg3.view.loc (c : Thread nD τ))) :
    (arg3.view.loc (c : Thread nD τ) ↦[arg3.view.set]{fullShare} f : sProp 𝕄)
      = iprop(rowPt c arg3 0 (lt64 0 rfl) f ∗ rowPt c arg3 1 (lt64 1 rfl) f ∗ rowPt c arg3 2 (lt64 2 rfl) f ∗ rowPt c arg3 3 (lt64 3 rfl) f ∗ rowPt c arg3 4 (lt64 4 rfl) f ∗ rowPt c arg3 5 (lt64 5 rfl) f ∗ rowPt c arg3 6 (lt64 6 rfl) f ∗ rowPt c arg3 7 (lt64 7 rfl) f ∗ rowPt c arg3 8 (lt64 8 rfl) f ∗ rowPt c arg3 9 (lt64 9 rfl) f ∗ rowPt c arg3 10 (lt64 10 rfl) f ∗ rowPt c arg3 11 (lt64 11 rfl) f ∗ rowPt c arg3 12 (lt64 12 rfl) f ∗ rowPt c arg3 13 (lt64 13 rfl) f ∗ rowPt c arg3 14 (lt64 14 rfl) f ∗ rowPt c arg3 15 (lt64 15 rfl) f ∗ rowPt c arg3 16 (lt64 16 rfl) f ∗ rowPt c arg3 17 (lt64 17 rfl) f ∗ rowPt c arg3 18 (lt64 18 rfl) f ∗ rowPt c arg3 19 (lt64 19 rfl) f ∗ rowPt c arg3 20 (lt64 20 rfl) f ∗ rowPt c arg3 21 (lt64 21 rfl) f ∗ rowPt c arg3 22 (lt64 22 rfl) f ∗ rowPt c arg3 23 (lt64 23 rfl) f ∗ rowPt c arg3 24 (lt64 24 rfl) f ∗ rowPt c arg3 25 (lt64 25 rfl) f ∗ rowPt c arg3 26 (lt64 26 rfl) f ∗ rowPt c arg3 27 (lt64 27 rfl) f ∗ rowPt c arg3 28 (lt64 28 rfl) f ∗ rowPt c arg3 29 (lt64 29 rfl) f ∗ rowPt c arg3 30 (lt64 30 rfl) f ∗ rowPt c arg3 31 (lt64 31 rfl) f ∗ rowPt c arg3 32 (lt64 32 rfl) f ∗ rowPt c arg3 33 (lt64 33 rfl) f ∗ rowPt c arg3 34 (lt64 34 rfl) f ∗ rowPt c arg3 35 (lt64 35 rfl) f ∗ rowPt c arg3 36 (lt64 36 rfl) f ∗ rowPt c arg3 37 (lt64 37 rfl) f ∗ rowPt c arg3 38 (lt64 38 rfl) f ∗ rowPt c arg3 39 (lt64 39 rfl) f ∗ rowPt c arg3 40 (lt64 40 rfl) f ∗ rowPt c arg3 41 (lt64 41 rfl) f ∗ rowPt c arg3 42 (lt64 42 rfl) f ∗ rowPt c arg3 43 (lt64 43 rfl) f ∗ rowPt c arg3 44 (lt64 44 rfl) f ∗ rowPt c arg3 45 (lt64 45 rfl) f ∗ rowPt c arg3 46 (lt64 46 rfl) f ∗ rowPt c arg3 47 (lt64 47 rfl) f ∗ rowPt c arg3 48 (lt64 48 rfl) f ∗ rowPt c arg3 49 (lt64 49 rfl) f ∗ rowPt c arg3 50 (lt64 50 rfl) f ∗ rowPt c arg3 51 (lt64 51 rfl) f ∗ rowPt c arg3 52 (lt64 52 rfl) f ∗ rowPt c arg3 53 (lt64 53 rfl) f ∗ rowPt c arg3 54 (lt64 54 rfl) f ∗ rowPt c arg3 55 (lt64 55 rfl) f ∗ rowPt c arg3 56 (lt64 56 rfl) f ∗ rowPt c arg3 57 (lt64 57 rfl) f ∗ rowPt c arg3 58 (lt64 58 rfl) f ∗ rowPt c arg3 59 (lt64 59 rfl) f ∗ rowPt c arg3 60 (lt64 60 rfl) f ∗ rowPt c arg3 61 (lt64 61 rfl) f ∗ rowPt c arg3 62 (lt64 62 rfl) f ∗ rowPt c arg3 63 (lt64 63 rfl) f) := by
  have hΦ : (fun k : Fin (S64x512.size 0) => (arg3.view.loc (c : Thread nD τ) ↦[(arg3.view.slice (S64x512.rowRect 0 k)).set]{fullShare} f : sProp 𝕄))
      = fun k : Fin 64 => rowPt c arg3 k.val k.isLt f := funext fun k => rowPt_eq c arg3 f k.val k.isLt
  rw [pointsTo_rows (c : Thread nD τ) arg3.view (0 : Fin 2) fullShare f, hΦ]
  exact bigSep_univ_eq_bigSepL (I := Fin 64) [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] (by decide) (by decide) _

/-- The whole staging buffer is its 64 rows, at one contents `f`. -/
theorem rows_split (c : Dev nD) (arg3 : Memref sig .tc .vmem S64x512 .f32) (f : Buf (Elt F) (arg3.view.loc (c : Thread nD τ))) :
    (arg3.view.loc (c : Thread nD τ) ↦[arg3.view.set]{fullShare} f : sProp 𝕄)
      ⊣⊢ iprop(rowPt c arg3 0 (lt64 0 rfl) f ∗ rowPt c arg3 1 (lt64 1 rfl) f ∗ rowPt c arg3 2 (lt64 2 rfl) f ∗ rowPt c arg3 3 (lt64 3 rfl) f ∗ rowPt c arg3 4 (lt64 4 rfl) f ∗ rowPt c arg3 5 (lt64 5 rfl) f ∗ rowPt c arg3 6 (lt64 6 rfl) f ∗ rowPt c arg3 7 (lt64 7 rfl) f ∗ rowPt c arg3 8 (lt64 8 rfl) f ∗ rowPt c arg3 9 (lt64 9 rfl) f ∗ rowPt c arg3 10 (lt64 10 rfl) f ∗ rowPt c arg3 11 (lt64 11 rfl) f ∗ rowPt c arg3 12 (lt64 12 rfl) f ∗ rowPt c arg3 13 (lt64 13 rfl) f ∗ rowPt c arg3 14 (lt64 14 rfl) f ∗ rowPt c arg3 15 (lt64 15 rfl) f ∗ rowPt c arg3 16 (lt64 16 rfl) f ∗ rowPt c arg3 17 (lt64 17 rfl) f ∗ rowPt c arg3 18 (lt64 18 rfl) f ∗ rowPt c arg3 19 (lt64 19 rfl) f ∗ rowPt c arg3 20 (lt64 20 rfl) f ∗ rowPt c arg3 21 (lt64 21 rfl) f ∗ rowPt c arg3 22 (lt64 22 rfl) f ∗ rowPt c arg3 23 (lt64 23 rfl) f ∗ rowPt c arg3 24 (lt64 24 rfl) f ∗ rowPt c arg3 25 (lt64 25 rfl) f ∗ rowPt c arg3 26 (lt64 26 rfl) f ∗ rowPt c arg3 27 (lt64 27 rfl) f ∗ rowPt c arg3 28 (lt64 28 rfl) f ∗ rowPt c arg3 29 (lt64 29 rfl) f ∗ rowPt c arg3 30 (lt64 30 rfl) f ∗ rowPt c arg3 31 (lt64 31 rfl) f ∗ rowPt c arg3 32 (lt64 32 rfl) f ∗ rowPt c arg3 33 (lt64 33 rfl) f ∗ rowPt c arg3 34 (lt64 34 rfl) f ∗ rowPt c arg3 35 (lt64 35 rfl) f ∗ rowPt c arg3 36 (lt64 36 rfl) f ∗ rowPt c arg3 37 (lt64 37 rfl) f ∗ rowPt c arg3 38 (lt64 38 rfl) f ∗ rowPt c arg3 39 (lt64 39 rfl) f ∗ rowPt c arg3 40 (lt64 40 rfl) f ∗ rowPt c arg3 41 (lt64 41 rfl) f ∗ rowPt c arg3 42 (lt64 42 rfl) f ∗ rowPt c arg3 43 (lt64 43 rfl) f ∗ rowPt c arg3 44 (lt64 44 rfl) f ∗ rowPt c arg3 45 (lt64 45 rfl) f ∗ rowPt c arg3 46 (lt64 46 rfl) f ∗ rowPt c arg3 47 (lt64 47 rfl) f ∗ rowPt c arg3 48 (lt64 48 rfl) f ∗ rowPt c arg3 49 (lt64 49 rfl) f ∗ rowPt c arg3 50 (lt64 50 rfl) f ∗ rowPt c arg3 51 (lt64 51 rfl) f ∗ rowPt c arg3 52 (lt64 52 rfl) f ∗ rowPt c arg3 53 (lt64 53 rfl) f ∗ rowPt c arg3 54 (lt64 54 rfl) f ∗ rowPt c arg3 55 (lt64 55 rfl) f ∗ rowPt c arg3 56 (lt64 56 rfl) f ∗ rowPt c arg3 57 (lt64 57 rfl) f ∗ rowPt c arg3 58 (lt64 58 rfl) f ∗ rowPt c arg3 59 (lt64 59 rfl) f ∗ rowPt c arg3 60 (lt64 60 rfl) f ∗ rowPt c arg3 61 (lt64 61 rfl) f ∗ rowPt c arg3 62 (lt64 62 rfl) f ∗ rowPt c arg3 63 (lt64 63 rfl) f) :=
  ⟨Entails.of_eq (rows_split_eq c arg3 f), Entails.of_eq (rows_split_eq c arg3 f).symm⟩

/-- A row held at contents `g` is the row held at contents `G` when the two agree on the row. -/
theorem row_congr (c : Dev nD) (arg3 : Memref sig .tc .vmem S64x512 .f32) (j : Nat) (hj : j < 64)
    (g G : Buf (Elt F) (arg3.view.loc (c : Thread nD τ)))
    (h : ∀ e : Fin 512, arg3.view.read (Elt F) g (ix2 (⟨j, hj⟩ : Fin 64) e) = arg3.view.read (Elt F) G (ix2 (⟨j, hj⟩ : Fin 64) e)) :
    (rowPt c arg3 j hj g : sProp 𝕄) ⊢ rowPt c arg3 j hj G := by
  refine Entails.of_eq (pointsTo_congr fun i hi => ?_)
  obtain ⟨x, -, rfl⟩ := Finset.mem_map.mp hi
  rw [row_emb arg3 ⟨j, hj⟩ (row_inb j hj) x]
  have h2 := h (x 0)
  rw [View.read_apply, View.read_apply] at h2
  have hc : ∀ {α β : Type} (hab : α = β) (a b : α), cast hab a = cast hab b → a = b := by
    intro α β hab a b hh; subst hab; exact hh
  exact hc _ _ _ h2

/-- Reading back a whole-buffer write gives the payload. -/
theorem read_write_all (c : Dev nD) (arg3 : Memref sig .tc .vmem S64x512 .f32) (f : Buf (Elt F) (arg3.view.loc (c : Thread nD τ)))
    (W : S64x512.Idx → Elt F .f32) :
    arg3.view.read (Elt F) (arg3.view.write (Elt F) f W Finset.univ) = W :=
  View.read_write_univ (v := arg3.view) f W

end Cert.Kernel.Gather

end
-- ==== Proof.KernelRun.lean ====
/-
  The row-gather kernel's body at one grid point, run once at symbolic operands.

  The body reads 64 row numbers from the table; after each it owes the machine the fact that the number names a row of
  the 128000-row matrix, which holds because every word of the table is below 128000; it starts 64 copies, copy `j` moving
  row `y[64 t + j]` of the matrix into row `j` of the 64×512 staging buffer on semaphore `j`, all 64 in flight together;
  then it waits for the 64. Each copy borrows the read share of the matrix that carries its semaphore's number, so
  two copies may read the same row; the staging buffer is held as its 64 rows, one hypothesis each, and copy `j` borrows
  row `j` alone. After the last wait every share is back, every semaphore is at zero again, and row `j` is held at the
  buffer's contents as copy `j` left them — those 64 contents are the witness the run finds.
-/
import proofs.«148027_j64802466562285_1_alg».proof.Proof.KernelJoin
import proofs.«148027_j64802466562285_1_alg».proof.Proof.Gen.Kernel.Skeleton

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The staging buffer's contents type at core `c`. -/
abbrev SB (c : Dev nD) (arg3 : Memref sig .tc .vmem S64x512 .f32) : Type := Buf (Elt F) (arg3.view.loc (c : Thread nD τ))

set_option maxHeartbeats 8000000 in
/-- What each row of the staging buffer holds after the body (the buffer's contents as the copy into that row leaves
    them: the witness the run finds), WITH the proof that from the 64 rows held one by one at contents `f3`, the table's
    read-only half, the 64 semaphores at zero and the matrix's 64 read shares, the body runs to its return handing all
    of it back, row `j` at the contents its copy left. -/
noncomputable def kernelRun (c : Dev nD) (i : grid0.Coords) (arg3 : Memref sig .tc .vmem S64x512 .f32) (harg3 : arg3.IsWhole)
    (xt : TbBuf (F := F) c) (fh : HbBuf (F := F) c)
    (hx : ∀ (R : LoadRect S16384) (j : R.shape.Idx), BitVec.toNat (tbM.view.readAt (Elt F) R xt j : BitVec 32) < 128000)
    (f3 : SB (F := F) c arg3) :
    { G : SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 //
      ∀ (W : Waits sig Unit) (K : PUnit → sProp 𝕄),
        iprop(rowPt c arg3 0 (lt64 0 rfl) f3 ∗ rowPt c arg3 1 (lt64 1 rfl) f3 ∗ rowPt c arg3 2 (lt64 2 rfl) f3 ∗ rowPt c arg3 3 (lt64 3 rfl) f3 ∗ rowPt c arg3 4 (lt64 4 rfl) f3 ∗ rowPt c arg3 5 (lt64 5 rfl) f3 ∗ rowPt c arg3 6 (lt64 6 rfl) f3 ∗ rowPt c arg3 7 (lt64 7 rfl) f3 ∗ rowPt c arg3 8 (lt64 8 rfl) f3 ∗ rowPt c arg3 9 (lt64 9 rfl) f3 ∗ rowPt c arg3 10 (lt64 10 rfl) f3 ∗ rowPt c arg3 11 (lt64 11 rfl) f3 ∗ rowPt c arg3 12 (lt64 12 rfl) f3 ∗ rowPt c arg3 13 (lt64 13 rfl) f3 ∗ rowPt c arg3 14 (lt64 14 rfl) f3 ∗ rowPt c arg3 15 (lt64 15 rfl) f3 ∗ rowPt c arg3 16 (lt64 16 rfl) f3 ∗ rowPt c arg3 17 (lt64 17 rfl) f3 ∗ rowPt c arg3 18 (lt64 18 rfl) f3 ∗ rowPt c arg3 19 (lt64 19 rfl) f3 ∗ rowPt c arg3 20 (lt64 20 rfl) f3 ∗ rowPt c arg3 21 (lt64 21 rfl) f3 ∗ rowPt c arg3 22 (lt64 22 rfl) f3 ∗ rowPt c arg3 23 (lt64 23 rfl) f3 ∗ rowPt c arg3 24 (lt64 24 rfl) f3 ∗ rowPt c arg3 25 (lt64 25 rfl) f3 ∗ rowPt c arg3 26 (lt64 26 rfl) f3 ∗ rowPt c arg3 27 (lt64 27 rfl) f3 ∗ rowPt c arg3 28 (lt64 28 rfl) f3 ∗ rowPt c arg3 29 (lt64 29 rfl) f3 ∗ rowPt c arg3 30 (lt64 30 rfl) f3 ∗ rowPt c arg3 31 (lt64 31 rfl) f3 ∗ rowPt c arg3 32 (lt64 32 rfl) f3 ∗ rowPt c arg3 33 (lt64 33 rfl) f3 ∗ rowPt c arg3 34 (lt64 34 rfl) f3 ∗ rowPt c arg3 35 (lt64 35 rfl) f3 ∗ rowPt c arg3 36 (lt64 36 rfl) f3 ∗ rowPt c arg3 37 (lt64 37 rfl) f3 ∗ rowPt c arg3 38 (lt64 38 rfl) f3 ∗ rowPt c arg3 39 (lt64 39 rfl) f3 ∗ rowPt c arg3 40 (lt64 40 rfl) f3 ∗ rowPt c arg3 41 (lt64 41 rfl) f3 ∗ rowPt c arg3 42 (lt64 42 rfl) f3 ∗ rowPt c arg3 43 (lt64 43 rfl) f3 ∗ rowPt c arg3 44 (lt64 44 rfl) f3 ∗ rowPt c arg3 45 (lt64 45 rfl) f3 ∗ rowPt c arg3 46 (lt64 46 rfl) f3 ∗ rowPt c arg3 47 (lt64 47 rfl) f3 ∗ rowPt c arg3 48 (lt64 48 rfl) f3 ∗ rowPt c arg3 49 (lt64 49 rfl) f3 ∗ rowPt c arg3 50 (lt64 50 rfl) f3 ∗ rowPt c arg3 51 (lt64 51 rfl) f3 ∗ rowPt c arg3 52 (lt64 52 rfl) f3 ∗ rowPt c arg3 53 (lt64 53 rfl) f3 ∗ rowPt c arg3 54 (lt64 54 rfl) f3 ∗ rowPt c arg3 55 (lt64 55 rfl) f3 ∗ rowPt c arg3 56 (lt64 56 rfl) f3 ∗ rowPt c arg3 57 (lt64 57 rfl) f3 ∗ rowPt c arg3 58 (lt64 58 rfl) f3 ∗ rowPt c arg3 59 (lt64 59 rfl) f3 ∗ rowPt c arg3 60 (lt64 60 rfl) f3 ∗ rowPt c arg3 61 (lt64 61 rfl) f3 ∗ rowPt c arg3 62 (lt64 62 rfl) f3 ∗ rowPt c arg3 63 (lt64 63 rfl) f3 ∗ tbPt c xt ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ hbTok c 2 fh ∗ hbTok c 3 fh ∗ hbTok c 4 fh ∗ hbTok c 5 fh ∗ hbTok c 6 fh ∗ hbTok c 7 fh ∗ hbTok c 8 fh ∗ hbTok c 9 fh ∗ hbTok c 10 fh ∗ hbTok c 11 fh ∗ hbTok c 12 fh ∗ hbTok c 13 fh ∗ hbTok c 14 fh ∗ hbTok c 15 fh ∗ hbTok c 16 fh ∗ hbTok c 17 fh ∗ hbTok c 18 fh ∗ hbTok c 19 fh ∗ hbTok c 20 fh ∗ hbTok c 21 fh ∗ hbTok c 22 fh ∗ hbTok c 23 fh ∗ hbTok c 24 fh ∗ hbTok c 25 fh ∗ hbTok c 26 fh ∗ hbTok c 27 fh ∗ hbTok c 28 fh ∗ hbTok c 29 fh ∗ hbTok c 30 fh ∗ hbTok c 31 fh ∗ hbTok c 32 fh ∗ hbTok c 33 fh ∗ hbTok c 34 fh ∗ hbTok c 35 fh ∗ hbTok c 36 fh ∗ hbTok c 37 fh ∗ hbTok c 38 fh ∗ hbTok c 39 fh ∗ hbTok c 40 fh ∗ hbTok c 41 fh ∗ hbTok c 42 fh ∗ hbTok c 43 fh ∗ hbTok c 44 fh ∗ hbTok c 45 fh ∗ hbTok c 46 fh ∗ hbTok c 47 fh ∗ hbTok c 48 fh ∗ hbTok c 49 fh ∗ hbTok c 50 fh ∗ hbTok c 51 fh ∗ hbTok c 52 fh ∗ hbTok c 53 fh ∗ hbTok c 54 fh ∗ hbTok c 55 fh ∗ hbTok c 56 fh ∗ hbTok c 57 fh ∗ hbTok c 58 fh ∗ hbTok c 59 fh ∗ hbTok c 60 fh ∗ hbTok c 61 fh ∗ hbTok c 62 fh ∗ hbTok c 63 fh ∗ hbTok c 64 fh ∗ hbTok c 65 fh ∗ owes (c : Thread nD τ) 0 W
            ∗ (iprop(rowPt c arg3 0 (lt64 0 rfl) (G.1) ∗ rowPt c arg3 1 (lt64 1 rfl) (G.2.1) ∗ rowPt c arg3 2 (lt64 2 rfl) (G.2.2.1) ∗ rowPt c arg3 3 (lt64 3 rfl) (G.2.2.2.1) ∗ rowPt c arg3 4 (lt64 4 rfl) (G.2.2.2.2.1) ∗ rowPt c arg3 5 (lt64 5 rfl) (G.2.2.2.2.2.1) ∗ rowPt c arg3 6 (lt64 6 rfl) (G.2.2.2.2.2.2.1) ∗ rowPt c arg3 7 (lt64 7 rfl) (G.2.2.2.2.2.2.2.1) ∗ rowPt c arg3 8 (lt64 8 rfl) (G.2.2.2.2.2.2.2.2.1) ∗ rowPt c arg3 9 (lt64 9 rfl) (G.2.2.2.2.2.2.2.2.2.1) ∗ rowPt c arg3 10 (lt64 10 rfl) (G.2.2.2.2.2.2.2.2.2.2.1) ∗ rowPt c arg3 11 (lt64 11 rfl) (G.2.2.2.2.2.2.2.2.2.2.2.1) ∗ rowPt c arg3 12 (lt64 12 rfl) (G.2.2.2.2.2.2.2.2.2.2.2.2.1) ∗ rowPt c arg3 13 (lt64 13 rfl) (G.2.2.2.2.2.2.2.2.2.2.2.2.2.1) ∗ rowPt c arg3 14 (lt64 14 rfl) (G.2.2.2.2.2.2.2.2.2.2.2.2.2.2.1) ∗ rowPt c arg3 15 (lt64 15 rfl) (G.2.2.2.2.2.2.2.2.2.2.2.2.2.2.2.1) ∗ rowPt c arg3 16 (lt64 16 rfl) (G.2.2.2.2.2.2.2.2.2.2.2.2.2.2.2.2.1) ∗ rowPt c arg3 17 (lt64 17 rfl) (G.2.2.2.2.2.2.2.2.2.2.2.2.2.2.2.2.2.1) ∗ rowPt c arg3 18 (lt64 18 rfl) (G.2.2.2.2.2.2.2.2.2.2.2.2.2.2.2.2.2.2.1) ∗ rowPt c arg3 19 (lt64 19 rfl) (G.2.2.2.2.2.2.2.2.2.2.2.2.2.2.2.2.2.2.2.1) ∗ rowPt c arg3 20 (lt64 20 rfl) (G.2.2.2.2.2.2.2.2.2.2.2.2.2.2.2.2.2.2.2.2.1) ∗ rowPt c arg3 21 (lt64 21 rfl) (G.2.2.2.2.2.2.2.2.2.2.2.2.2.2.2.2.2.2.2.2.2.1) ∗ rowPt c arg3 22 (lt64 22 rfl) (G.2.2.2.2.2.2.2.2.2.2.2.2.2.2.2.2.2.2.2.2.2.2.1) ∗ rowPt c arg3 23 (lt64 23 rfl) (G.2.2.2.2.2.2.2.2.2.2.2.2.2.2.2.2.2.2.2.2.2.2.2.1) ∗ rowPt c arg3 24 (lt64 24 rfl) (G.2.2.2.2.2.2.2.2.2.2.2.2.2.2.2.2.2.2.2.2.2.2.2.2.1) ∗ rowPt c arg3 25 (lt64 25 rfl) (G.2.2.2.2.2.2.2.2.2.2.2.2.2.2.2.2.2.2.2.2.2.2.2.2.2.1) ∗ rowPt c arg3 26 (lt64 26 rfl) (G.2.2.2.2.2.2.2.2.2.2.2.2.2.2.2.2.2.2.2.2.2.2.2.2.2.2.1) ∗ rowPt c arg3 27 (lt64 27 rfl) (G.2.2.2.2.2.2.2.2.2.2.2.2.2.2.2.2.2.2.2.2.2.2.2.2.2.2.2.1) ∗ rowPt c arg3 28 (lt64 28 rfl) (G.2.2.2.2.2.2.2.2.2.2.2.2.2.2.2.2.2.2.2.2.2.2.2.2.2.2.2.2.1) ∗ rowPt c arg3 29 (lt64 29 rfl) (G.2.2.2.2.2.2.2.2.2.2.2.2.2.2.2.2.2.2.2.2.2.2.2.2.2.2.2.2.2.1) ∗ rowPt c arg3 30 (lt64 30 rfl) (G.2.2.2.2.2.2.2.2.2.2.2.2.2.2.2.2.2.2.2.2.2.2.2.2.2.2.2.2.2.2.1) ∗ rowPt c arg3 31 (lt64 31 rfl) (G.2.2.2.2.2.2.2.2.2.2.2.2.2.2.2.2.2.2.2.2.2.2.2.2.2.2.2.2.2.2.2.1) ∗ rowPt c arg3 32 (lt64 32 rfl) (G.2.2.2.2.2.2.2.2.2.2.2.2.2.2.2.2.2.2.2.2.2.2.2.2.2.2.2.2.2.2.2.2.1) ∗ rowPt c arg3 33 (lt64 33 rfl) (G.2.2.2.2.2.2.2.2.2.2.2.2.2.2.2.2.2.2.2.2.2.2.2.2.2.2.2.2.2.2.2.2.2.1) ∗ rowPt c arg3 34 (lt64 34 rfl) (G.2.2.2.2.2.2.2.2.2.2.2.2.2.2.2.2.2.2.2.2.2.2.2.2.2.2.2.2.2.2.2.2.2.2.1) ∗ rowPt c arg3 35 (lt64 35 rfl) (G.2.2.2.2.2.2.2.2.2.2.2.2.2.2.2.2.2.2.2.2.2.2.2.2.2.2.2.2.2.2.2.2.2.2.2.1) ∗ rowPt c arg3 36 (lt64 36 rfl) (G.2.2.2.2.2.2.2.2.2.2.2.2.2.2.2.2.2.2.2.2.2.2.2.2.2.2.2.2.2.2.2.2.2.2.2.2.1) ∗ rowPt c arg3 37 (lt64 37 rfl) (G.2.2.2.2.2.2.2.2.2.2.2.2.2.2.2.2.2.2.2.2.2.2.2.2.2.2.2.2.2.2.2.2.2.2.2.2.2.1) ∗ rowPt c arg3 38 (lt64 38 rfl) (G.2.2.2.2.2.2.2.2.2.2.2.2.2.2.2.2.2.2.2.2.2.2.2.2.2.2.2.2.2.2.2.2.2.2.2.2.2.2.1) ∗ rowPt c arg3 39 (lt64 39 rfl) (G.2.2.2.2.2.2.2.2.2.2.2.2.2.2.2.2.2.2.2.2.2.2.2.2.2.2.2.2.2.2.2.2.2.2.2.2.2.2.2.1) ∗ rowPt c arg3 40 (lt64 40 rfl) (G.2.2.2.2.2.2.2.2.2.2.2.2.2.2.2.2.2.2.2.2.2.2.2.2.2.2.2.2.2.2.2.2.2.2.2.2.2.2.2.2.1) ∗ rowPt c arg3 41 (lt64 41 rfl) (G.2.2.2.2.2.2.2.2.2.2.2.2.2.2.2.2.2.2.2.2.2.2.2.2.2.2.2.2.2.2.2.2.2.2.2.2.2.2.2.2.2.1) ∗ rowPt c arg3 42 (lt64 42 rfl) (G.2.2.2.2.2.2.2.2.2.2.2.2.2.2.2.2.2.2.2.2.2.2.2.2.2.2.2.2.2.2.2.2.2.2.2.2.2.2.2.2.2.2.1) ∗ rowPt c arg3 43 (lt64 43 rfl) (G.2.2.2.2.2.2.2.2.2.2.2.2.2.2.2.2.2.2.2.2.2.2.2.2.2.2.2.2.2.2.2.2.2.2.2.2.2.2.2.2.2.2.2.1) ∗ rowPt c arg3 44 (lt64 44 rfl) (G.2.2.2.2.2.2.2.2.2.2.2.2.2.2.2.2.2.2.2.2.2.2.2.2.2.2.2.2.2.2.2.2.2.2.2.2.2.2.2.2.2.2.2.2.1) ∗ rowPt c arg3 45 (lt64 45 rfl) (G.2.2.2.2.2.2.2.2.2.2.2.2.2.2.2.2.2.2.2.2.2.2.2.2.2.2.2.2.2.2.2.2.2.2.2.2.2.2.2.2.2.2.2.2.2.1) ∗ rowPt c arg3 46 (lt64 46 rfl) (G.2.2.2.2.2.2.2.2.2.2.2.2.2.2.2.2.2.2.2.2.2.2.2.2.2.2.2.2.2.2.2.2.2.2.2.2.2.2.2.2.2.2.2.2.2.2.1) ∗ rowPt c arg3 47 (lt64 47 rfl) (G.2.2.2.2.2.2.2.2.2.2.2.2.2.2.2.2.2.2.2.2.2.2.2.2.2.2.2.2.2.2.2.2.2.2.2.2.2.2.2.2.2.2.2.2.2.2.2.1) ∗ rowPt c arg3 48 (lt64 48 rfl) (G.2.2.2.2.2.2.2.2.2.2.2.2.2.2.2.2.2.2.2.2.2.2.2.2.2.2.2.2.2.2.2.2.2.2.2.2.2.2.2.2.2.2.2.2.2.2.2.2.1) ∗ rowPt c arg3 49 (lt64 49 rfl) (G.2.2.2.2.2.2.2.2.2.2.2.2.2.2.2.2.2.2.2.2.2.2.2.2.2.2.2.2.2.2.2.2.2.2.2.2.2.2.2.2.2.2.2.2.2.2.2.2.2.1) ∗ rowPt c arg3 50 (lt64 50 rfl) (G.2.2.2.2.2.2.2.2.2.2.2.2.2.2.2.2.2.2.2.2.2.2.2.2.2.2.2.2.2.2.2.2.2.2.2.2.2.2.2.2.2.2.2.2.2.2.2.2.2.2.1) ∗ rowPt c arg3 51 (lt64 51 rfl) (G.2.2.2.2.2.2.2.2.2.2.2.2.2.2.2.2.2.2.2.2.2.2.2.2.2.2.2.2.2.2.2.2.2.2.2.2.2.2.2.2.2.2.2.2.2.2.2.2.2.2.2.1) ∗ rowPt c arg3 52 (lt64 52 rfl) (G.2.2.2.2.2.2.2.2.2.2.2.2.2.2.2.2.2.2.2.2.2.2.2.2.2.2.2.2.2.2.2.2.2.2.2.2.2.2.2.2.2.2.2.2.2.2.2.2.2.2.2.2.1) ∗ rowPt c arg3 53 (lt64 53 rfl) (G.2.2.2.2.2.2.2.2.2.2.2.2.2.2.2.2.2.2.2.2.2.2.2.2.2.2.2.2.2.2.2.2.2.2.2.2.2.2.2.2.2.2.2.2.2.2.2.2.2.2.2.2.2.1) ∗ rowPt c arg3 54 (lt64 54 rfl) (G.2.2.2.2.2.2.2.2.2.2.2.2.2.2.2.2.2.2.2.2.2.2.2.2.2.2.2.2.2.2.2.2.2.2.2.2.2.2.2.2.2.2.2.2.2.2.2.2.2.2.2.2.2.2.1) ∗ rowPt c arg3 55 (lt64 55 rfl) (G.2.2.2.2.2.2.2.2.2.2.2.2.2.2.2.2.2.2.2.2.2.2.2.2.2.2.2.2.2.2.2.2.2.2.2.2.2.2.2.2.2.2.2.2.2.2.2.2.2.2.2.2.2.2.2.1) ∗ rowPt c arg3 56 (lt64 56 rfl) (G.2.2.2.2.2.2.2.2.2.2.2.2.2.2.2.2.2.2.2.2.2.2.2.2.2.2.2.2.2.2.2.2.2.2.2.2.2.2.2.2.2.2.2.2.2.2.2.2.2.2.2.2.2.2.2.2.1) ∗ rowPt c arg3 57 (lt64 57 rfl) (G.2.2.2.2.2.2.2.2.2.2.2.2.2.2.2.2.2.2.2.2.2.2.2.2.2.2.2.2.2.2.2.2.2.2.2.2.2.2.2.2.2.2.2.2.2.2.2.2.2.2.2.2.2.2.2.2.2.1) ∗ rowPt c arg3 58 (lt64 58 rfl) (G.2.2.2.2.2.2.2.2.2.2.2.2.2.2.2.2.2.2.2.2.2.2.2.2.2.2.2.2.2.2.2.2.2.2.2.2.2.2.2.2.2.2.2.2.2.2.2.2.2.2.2.2.2.2.2.2.2.2.1) ∗ rowPt c arg3 59 (lt64 59 rfl) (G.2.2.2.2.2.2.2.2.2.2.2.2.2.2.2.2.2.2.2.2.2.2.2.2.2.2.2.2.2.2.2.2.2.2.2.2.2.2.2.2.2.2.2.2.2.2.2.2.2.2.2.2.2.2.2.2.2.2.2.1) ∗ rowPt c arg3 60 (lt64 60 rfl) (G.2.2.2.2.2.2.2.2.2.2.2.2.2.2.2.2.2.2.2.2.2.2.2.2.2.2.2.2.2.2.2.2.2.2.2.2.2.2.2.2.2.2.2.2.2.2.2.2.2.2.2.2.2.2.2.2.2.2.2.2.1) ∗ rowPt c arg3 61 (lt64 61 rfl) (G.2.2.2.2.2.2.2.2.2.2.2.2.2.2.2.2.2.2.2.2.2.2.2.2.2.2.2.2.2.2.2.2.2.2.2.2.2.2.2.2.2.2.2.2.2.2.2.2.2.2.2.2.2.2.2.2.2.2.2.2.2.1) ∗ rowPt c arg3 62 (lt64 62 rfl) (G.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1) ∗ rowPt c arg3 63 (lt64 63 rfl) (G.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2) ∗ tbPt c xt ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ hbTok c 2 fh ∗ hbTok c 3 fh ∗ hbTok c 4 fh ∗ hbTok c 5 fh ∗ hbTok c 6 fh ∗ hbTok c 7 fh ∗ hbTok c 8 fh ∗ hbTok c 9 fh ∗ hbTok c 10 fh ∗ hbTok c 11 fh ∗ hbTok c 12 fh ∗ hbTok c 13 fh ∗ hbTok c 14 fh ∗ hbTok c 15 fh ∗ hbTok c 16 fh ∗ hbTok c 17 fh ∗ hbTok c 18 fh ∗ hbTok c 19 fh ∗ hbTok c 20 fh ∗ hbTok c 21 fh ∗ hbTok c 22 fh ∗ hbTok c 23 fh ∗ hbTok c 24 fh ∗ hbTok c 25 fh ∗ hbTok c 26 fh ∗ hbTok c 27 fh ∗ hbTok c 28 fh ∗ hbTok c 29 fh ∗ hbTok c 30 fh ∗ hbTok c 31 fh ∗ hbTok c 32 fh ∗ hbTok c 33 fh ∗ hbTok c 34 fh ∗ hbTok c 35 fh ∗ hbTok c 36 fh ∗ hbTok c 37 fh ∗ hbTok c 38 fh ∗ hbTok c 39 fh ∗ hbTok c 40 fh ∗ hbTok c 41 fh ∗ hbTok c 42 fh ∗ hbTok c 43 fh ∗ hbTok c 44 fh ∗ hbTok c 45 fh ∗ hbTok c 46 fh ∗ hbTok c 47 fh ∗ hbTok c 48 fh ∗ hbTok c 49 fh ∗ hbTok c 50 fh ∗ hbTok c 51 fh ∗ hbTok c 52 fh ∗ hbTok c 53 fh ∗ hbTok c 54 fh ∗ hbTok c 55 fh ∗ hbTok c 56 fh ∗ hbTok c 57 fh ∗ hbTok c 58 fh ∗ hbTok c 59 fh ∗ hbTok c 60 fh ∗ hbTok c 61 fh ∗ hbTok c 62 fh ∗ hbTok c 63 fh ∗ hbTok c 64 fh ∗ hbTok c 65 fh ∗ (∃ W', owes (c : Thread nD τ) 0 W')) -∗ K ⟨⟩))
          ⊢ wp frame (wpE (defs₀ (F := F)) Variants.none c none) Set.univ (cc0__gather_kernel i tbM htbM hbM (Memref.isWhole_whole _) arg3 harg3 cc0_scratch0) K } := by
  refine ⟨⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩, fun W K => ?run⟩
  case run =>
    iintro ⟨Hr0, Hr1, Hr2, Hr3, Hr4, Hr5, Hr6, Hr7, Hr8, Hr9, Hr10, Hr11, Hr12, Hr13, Hr14, Hr15, Hr16, Hr17, Hr18, Hr19, Hr20, Hr21, Hr22, Hr23, Hr24, Hr25, Hr26, Hr27, Hr28, Hr29, Hr30, Hr31, Hr32, Hr33, Hr34, Hr35, Hr36, Hr37, Hr38, Hr39, Hr40, Hr41, Hr42, Hr43, Hr44, Hr45, Hr46, Hr47, Hr48, Hr49, Hr50, Hr51, Hr52, Hr53, Hr54, Hr55, Hr56, Hr57, Hr58, Hr59, Hr60, Hr61, Hr62, Hr63, HT, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63, Hq64, Hq65, Hh2, Hh3, Hh4, Hh5, Hh6, Hh7, Hh8, Hh9, Hh10, Hh11, Hh12, Hh13, Hh14, Hh15, Hh16, Hh17, Hh18, Hh19, Hh20, Hh21, Hh22, Hh23, Hh24, Hh25, Hh26, Hh27, Hh28, Hh29, Hh30, Hh31, Hh32, Hh33, Hh34, Hh35, Hh36, Hh37, Hh38, Hh39, Hh40, Hh41, Hh42, Hh43, Hh44, Hh45, Hh46, Hh47, Hh48, Hh49, Hh50, Hh51, Hh52, Hh53, Hh54, Hh55, Hh56, Hh57, Hh58, Hh59, Hh60, Hh61, Hh62, Hh63, Hh64, Hh65, HW, Hk⟩
    sl_exec_parts (disch := first | exact row_inside _ (hx _ _) | exact ⟨row_inside _ (hx _ _), row_inside _ (hx _ _)⟩)
    sl_step
    iapply Hk
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    isplitl [Hr16]; · iexact Hr16
    isplitl [Hr17]; · iexact Hr17
    isplitl [Hr18]; · iexact Hr18
    isplitl [Hr19]; · iexact Hr19
    isplitl [Hr20]; · iexact Hr20
    isplitl [Hr21]; · iexact Hr21
    isplitl [Hr22]; · iexact Hr22
    isplitl [Hr23]; · iexact Hr23
    isplitl [Hr24]; · iexact Hr24
    isplitl [Hr25]; · iexact Hr25
    isplitl [Hr26]; · iexact Hr26
    isplitl [Hr27]; · iexact Hr27
    isplitl [Hr28]; · iexact Hr28
    isplitl [Hr29]; · iexact Hr29
    isplitl [Hr30]; · iexact Hr30
    isplitl [Hr31]; · iexact Hr31
    isplitl [Hr32]; · iexact Hr32
    isplitl [Hr33]; · iexact Hr33
    isplitl [Hr34]; · iexact Hr34
    isplitl [Hr35]; · iexact Hr35
    isplitl [Hr36]; · iexact Hr36
    isplitl [Hr37]; · iexact Hr37
    isplitl [Hr38]; · iexact Hr38
    isplitl [Hr39]; · iexact Hr39
    isplitl [Hr40]; · iexact Hr40
    isplitl [Hr41]; · iexact Hr41
    isplitl [Hr42]; · iexact Hr42
    isplitl [Hr43]; · iexact Hr43
    isplitl [Hr44]; · iexact Hr44
    isplitl [Hr45]; · iexact Hr45
    isplitl [Hr46]; · iexact Hr46
    isplitl [Hr47]; · iexact Hr47
    isplitl [Hr48]; · iexact Hr48
    isplitl [Hr49]; · iexact Hr49
    isplitl [Hr50]; · iexact Hr50
    isplitl [Hr51]; · iexact Hr51
    isplitl [Hr52]; · iexact Hr52
    isplitl [Hr53]; · iexact Hr53
    isplitl [Hr54]; · iexact Hr54
    isplitl [Hr55]; · iexact Hr55
    isplitl [Hr56]; · iexact Hr56
    isplitl [Hr57]; · iexact Hr57
    isplitl [Hr58]; · iexact Hr58
    isplitl [Hr59]; · iexact Hr59
    isplitl [Hr60]; · iexact Hr60
    isplitl [Hr61]; · iexact Hr61
    isplitl [Hr62]; · iexact Hr62
    isplitl [Hr63]; · iexact Hr63
    isplitl [HT]; · iexact HT
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    isplitl [Hq34]; · iexact Hq34
    isplitl [Hq35]; · iexact Hq35
    isplitl [Hq36]; · iexact Hq36
    isplitl [Hq37]; · iexact Hq37
    isplitl [Hq38]; · iexact Hq38
    isplitl [Hq39]; · iexact Hq39
    isplitl [Hq40]; · iexact Hq40
    isplitl [Hq41]; · iexact Hq41
    isplitl [Hq42]; · iexact Hq42
    isplitl [Hq43]; · iexact Hq43
    isplitl [Hq44]; · iexact Hq44
    isplitl [Hq45]; · iexact Hq45
    isplitl [Hq46]; · iexact Hq46
    isplitl [Hq47]; · iexact Hq47
    isplitl [Hq48]; · iexact Hq48
    isplitl [Hq49]; · iexact Hq49
    isplitl [Hq50]; · iexact Hq50
    isplitl [Hq51]; · iexact Hq51
    isplitl [Hq52]; · iexact Hq52
    isplitl [Hq53]; · iexact Hq53
    isplitl [Hq54]; · iexact Hq54
    isplitl [Hq55]; · iexact Hq55
    isplitl [Hq56]; · iexact Hq56
    isplitl [Hq57]; · iexact Hq57
    isplitl [Hq58]; · iexact Hq58
    isplitl [Hq59]; · iexact Hq59
    isplitl [Hq60]; · iexact Hq60
    isplitl [Hq61]; · iexact Hq61
    isplitl [Hq62]; · iexact Hq62
    isplitl [Hq63]; · iexact Hq63
    isplitl [Hq64]; · iexact Hq64
    isplitl [Hq65]; · iexact Hq65
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    isplitl [Hh15]; · iexact Hh15
    isplitl [Hh16]; · iexact Hh16
    isplitl [Hh17]; · iexact Hh17
    isplitl [Hh18]; · iexact Hh18
    isplitl [Hh19]; · iexact Hh19
    isplitl [Hh20]; · iexact Hh20
    isplitl [Hh21]; · iexact Hh21
    isplitl [Hh22]; · iexact Hh22
    isplitl [Hh23]; · iexact Hh23
    isplitl [Hh24]; · iexact Hh24
    isplitl [Hh25]; · iexact Hh25
    isplitl [Hh26]; · iexact Hh26
    isplitl [Hh27]; · iexact Hh27
    isplitl [Hh28]; · iexact Hh28
    isplitl [Hh29]; · iexact Hh29
    isplitl [Hh30]; · iexact Hh30
    isplitl [Hh31]; · iexact Hh31
    isplitl [Hh32]; · iexact Hh32
    isplitl [Hh33]; · iexact Hh33
    isplitl [Hh34]; · iexact Hh34
    isplitl [Hh35]; · iexact Hh35
    isplitl [Hh36]; · iexact Hh36
    isplitl [Hh37]; · iexact Hh37
    isplitl [Hh38]; · iexact Hh38
    isplitl [Hh39]; · iexact Hh39
    isplitl [Hh40]; · iexact Hh40
    isplitl [Hh41]; · iexact Hh41
    isplitl [Hh42]; · iexact Hh42
    isplitl [Hh43]; · iexact Hh43
    isplitl [Hh44]; · iexact Hh44
    isplitl [Hh45]; · iexact Hh45
    isplitl [Hh46]; · iexact Hh46
    isplitl [Hh47]; · iexact Hh47
    isplitl [Hh48]; · iexact Hh48
    isplitl [Hh49]; · iexact Hh49
    isplitl [Hh50]; · iexact Hh50
    isplitl [Hh51]; · iexact Hh51
    isplitl [Hh52]; · iexact Hh52
    isplitl [Hh53]; · iexact Hh53
    isplitl [Hh54]; · iexact Hh54
    isplitl [Hh55]; · iexact Hh55
    isplitl [Hh56]; · iexact Hh56
    isplitl [Hh57]; · iexact Hh57
    isplitl [Hh58]; · iexact Hh58
    isplitl [Hh59]; · iexact Hh59
    isplitl [Hh60]; · iexact Hh60
    isplitl [Hh61]; · iexact Hh61
    isplitl [Hh62]; · iexact Hh62
    isplitl [Hh63]; · iexact Hh63
    isplitl [Hh64]; · iexact Hh64
    isplitl [Hh65]; · iexact Hh65
    iexists _; iexact HW

end Cert.Kernel.Gather

end
-- ==== Proof.KernelRowOf.lean ====
/-
  Row `j` of the staging buffer after the body at grid coordinate `i`.

  Copy `j` of the body reads the table's word at offset `64 i + j`, slices the matrix at the row that word names and
  writes that row through row `j` of the staging buffer. So the buffer's contents as copy `j` leaves them read, at
  `(j, e)`, the matrix at `(table[64 i + j], e)`: the write lands on row `j`, the row read through the squeezed slice is
  the matrix's row, and the word read through the unit rectangle is the table's entry.
-/
import proofs.«148027_j64802466562285_1_alg».proof.Proof.KernelJoin

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

/-- The rows of the matrix the table names at grid coordinate `i`: the entry `(j, e)` is the matrix at row
    `table[64 i + j]`, column `e` (both indices capped, so that the function is total). -/
def rowsOf (c : Dev nD) (i : grid0.Coords) (xt : TbBuf (F := F) c) (fh : HbBuf (F := F) c) : Vec F S64x512 .f32 :=
  fun y => (fh : S128000x512.Idx → Elt F .f32)
    (ix2 ⟨min (BitVec.toNat ((xt : S16384.Idx → Elt F .i32) (ix1 ⟨min (64 * (i 0).val + (y 0).val) 16383, by omega⟩) : BitVec 32)) 127999, by omega⟩
      (⟨(y 1).val, (y 1).isLt⟩ : Fin 512))

/-- The word read from the table through a unit rectangle at offset `n` is the table's entry `n`. -/
theorem word_eq (c : Dev nD) (xt : TbBuf (F := F) c) (off : Fin 1 → Nat) (n : Nat) (hn : n < 16384) (hoff : off = ![n])
    (inb : ∀ a, off a + S1.size a ≤ S16384.size a) (h1 : 0 < S1.numel) :
    tbM.view.readAt (Elt F) (Rect.unit (s := S16384) off S1.size inb).toLoadRect xt (Shape.Idx.first h1)
      = (xt : S16384.Idx → Elt F .i32) (ValueIdx.ix1 ⟨n, hn⟩) := by
  subst hoff
  refine congrArg (xt : S16384.Idx → Elt F .i32) ?_
  funext a
  refine Fin.ext ?_
  match a with
  | ⟨0, _⟩ =>
    show (![n] : Fin 1 → Nat) 0 + 1 * (Shape.Idx.first h1 (0 : Fin 1)).val = n
    have h0 : (Shape.Idx.first h1 (0 : Fin 1)).val = 0 := by
      have := (Shape.Idx.first h1 (0 : Fin 1)).isLt
      have e : S1.size (0 : Fin 1) = 1 := by decide
      omega
    rw [h0]; simp

/-- A grid coordinate is below 256. -/
theorem coord_lt (i : grid0.Coords) : (i 0).val < 256 := (i 0).isLt

/-- ROW `j` AFTER COPY `j`: if the buffer's contents `g` are `f3` overwritten, through row `j`, by the matrix row sliced at
    the word read from the table at offset `64 i + j`, then `g` at `(j, e)` is the matrix at `(table[64 i + j], e)`. -/
theorem row_value_of (c : Dev nD) (i : grid0.Coords) (arg3 : Memref sig .tc .vmem S64x512 .f32) (harg3 : arg3.IsWhole)
    (xt : TbBuf (F := F) c) (fh : HbBuf (F := F) c)
    (hx : ∀ (R : LoadRect S16384) (j : R.shape.Idx), BitVec.toNat (tbM.view.readAt (Elt F) R xt j : BitVec 32) < 128000)
    (f3 g : Buf (Elt F) (arg3.view.loc (c : Thread nD τ))) (j : Nat) (hj : j < 64)
    (offT : Fin 1 → Nat) (inbT : ∀ a, offT a + S1.size a ≤ S16384.size a) (h1 : 0 < S1.numel) (hoffT : offT = ![64 * (i 0).val + j])
    (offS : Fin 2 → Nat) (inbS : ∀ a, offS a + S1x512.size a ≤ S128000x512.size a)
    (hoffS : offS = ![BitVec.toNat (tbM.view.readAt (Elt F) (Rect.unit (s := S16384) offT S1.size inbT).toLoadRect xt (Shape.Idx.first h1) : BitVec 32), 0])
    (hg : g = (rowN arg3 j hj).view.write (Elt F) f3
      (ReadAs.same.apply (((hbM.slice (Rect.unit (s := S128000x512) offS S1x512.size inbS) (fun _ => rfl)).squeeze S512 squeezes_S1x512_S512).view.read (Elt F) fh)) Finset.univ)
    (e : Fin 512) :
    arg3.view.read (Elt F) g (ix2 (⟨j, hj⟩ : Fin 64) e) = rowsOf c i xt fh (ix2 (⟨j, hj⟩ : Fin 64) e) := by
  subst hg
  have hlt : 64 * (i 0).val + j < 16384 := by have := coord_lt i; omega
  have hw := word_eq c xt offT (64 * (i 0).val + j) hlt hoffT inbT h1
  have hn := hx (Rect.unit (s := S16384) offT S1.size inbT).toLoadRect (Shape.Idx.first h1)
  refine (row_write_read c arg3 harg3 f3 ⟨j, hj⟩ (row_inb j hj) _ ⟨j, hj⟩ e).trans ?_
  rw [if_pos rfl, ReadAs.apply_same]
  refine (row_read c fh offS _ hn hoffS inbS (ix1 e)).trans ?_
  unfold rowsOf
  refine congrArg (fh : S128000x512.Idx → Elt F .f32) ?_
  have h16 : min (64 * (i 0).val + j) 16383 = 64 * (i 0).val + j := by omega
  have hidx : (ix1 (⟨min (64 * (i 0).val + j) 16383, by omega⟩ : Fin 16384) : S16384.Idx) = ix1 ⟨64 * (i 0).val + j, hlt⟩ :=
    congrArg ix1 (Fin.ext h16)
  funext a
  match a with
  | ⟨0, _⟩ =>
    refine Fin.ext ?_
    show BitVec.toNat (tbM.view.readAt (Elt F) (Rect.unit (s := S16384) offT S1.size inbT).toLoadRect xt (Shape.Idx.first h1) : BitVec 32)
      = min (BitVec.toNat ((xt : S16384.Idx → Elt F .i32) (ix1 ⟨min (64 * (i 0).val + j) 16383, by omega⟩) : BitVec 32)) 127999
    rw [hidx, ← hw]
    omega
  | ⟨1, _⟩ => rfl

end Cert.Kernel.Gather

end
-- ==== Proof.KernelWhole.lean ====
/-
  A write through the whole rectangle of a view is a write through the view.

  The slice of a view by its whole rectangle places every index where the view places it, so the two writes change
  the same elements of the buffer to the same values and leave the others alone.
-/
import proofs.«148027_j64802466562285_1_alg».proof.Proof.KernelJoin

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- For any view: the one write through the view's whole rectangle is the write through the view. -/
theorem writes_whole_view {sig' : RefSig} {κ : Kind} {sp : Space} {s : Shape} {e : EltTy} {Val : EltTy → Type}
    (v : View sig' κ sp s e) (f : v.ty.Contents Val) (p : s.Idx → Val e) :
    v.writes Val f [⟨Rect.whole s, p⟩] = v.write Val f p Finset.univ := by
  show (v.slice (Rect.whole s)).write Val f p Finset.univ = _
  funext i
  by_cases hi : i ∈ v.set
  · obtain ⟨x, -, rfl⟩ := Finset.mem_map.mp hi
    have hx : (v.slice (Rect.whole s)).emb x = v.emb x := congrArg v.emb (Rect.emb_whole_apply s x)
    have h1 := View.write_emb_of_mem (v := v.slice (Rect.whole s)) f p (M := Finset.univ) (Finset.mem_univ x)
    rw [hx] at h1
    have h2 := View.write_emb_of_mem (v := v) f p (M := Finset.univ) (Finset.mem_univ x)
    rw [h1, h2]
  · rw [View.write_of_not_mem _ _ _ (fun h => hi (View.setOn_subset_set _ _ h)),
      View.write_of_not_mem _ _ _ (fun h => hi (View.set_slice_subset v (Rect.whole s) (View.setOn_subset_set _ _ h)))]

/-- Row `j` of the staging buffer written as one piece through the row view's whole rectangle is the row written
    through the row view. -/
theorem writes_whole (c : Dev nD) (arg3 : Memref sig .tc .vmem S64x512 .f32) (j : Nat) (hj : j < 64)
    (f : Buf (Elt F) (arg3.view.loc (c : Thread nD τ))) (p : S512.Idx → Elt F .f32) :
    (rowN arg3 j hj).view.writes (Elt F) f [⟨Rect.whole S512, p⟩] = (rowN arg3 j hj).view.write (Elt F) f p Finset.univ :=
  writes_whole_view (rowN arg3 j hj).view f p

end Cert.Kernel.Gather

end
-- ==== Proof.KernelRowValue.lean ====
/-
  Each row of the staging buffer after the body, read back: row `j` holds the matrix row the table names at offset
  `64 i + j`. One statement per row, each the general fact about a copy through row `j` applied to the contents the
  body's run left in that row.
-/
import proofs.«148027_j64802466562285_1_alg».proof.Proof.KernelRun
import proofs.«148027_j64802466562285_1_alg».proof.Proof.KernelRowOf
import proofs.«148027_j64802466562285_1_alg».proof.Proof.KernelWhole

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

variable (c : Dev nD) (i : grid0.Coords) (arg3 : Memref sig .tc .vmem S64x512 .f32) (harg3 : arg3.IsWhole)
  (xt : TbBuf (F := F) c) (fh : HbBuf (F := F) c)
  (hx : ∀ (R : LoadRect S16384) (j : R.shape.Idx), BitVec.toNat (tbM.view.readAt (Elt F) R xt j : BitVec 32) < 128000)
  (f3 : SB (F := F) c arg3)

/-- Row 0 after the body. -/
theorem row_value_0 (e : Fin 512) :
    arg3.view.read (Elt F) ((kernelRun c i arg3 harg3 xt fh hx f3).1.1) (ix2 (⟨0, lt64 0 rfl⟩ : Fin 64) e)
      = rowsOf c i xt fh (ix2 (⟨0, lt64 0 rfl⟩ : Fin 64) e) :=
  row_value_of c i arg3 harg3 xt fh hx f3 _ 0 (lt64 0 rfl) (k0_off1 i) _ _ (k0_off1_eq i) _ _ rfl
    ((show (kernelRun c i arg3 harg3 xt fh hx f3).1.1
        = (rowN arg3 0 (lt64 0 rfl)).view.writes (Elt F) f3 [⟨Rect.whole S512, kernelRun.sl.dma1 c i xt fh hx⟩] from by unfold kernelRun; rfl).trans
      (writes_whole c arg3 0 (lt64 0 rfl) f3 _)) e

/-- Row 1 after the body. -/
theorem row_value_1 (e : Fin 512) :
    arg3.view.read (Elt F) ((kernelRun c i arg3 harg3 xt fh hx f3).1.2.1) (ix2 (⟨1, lt64 1 rfl⟩ : Fin 64) e)
      = rowsOf c i xt fh (ix2 (⟨1, lt64 1 rfl⟩ : Fin 64) e) :=
  row_value_of c i arg3 harg3 xt fh hx f3 _ 1 (lt64 1 rfl) (k0_off3 i) _ _ (k0_off3_eq i) _ _ rfl
    ((show (kernelRun c i arg3 harg3 xt fh hx f3).1.2.1
        = (rowN arg3 1 (lt64 1 rfl)).view.writes (Elt F) f3 [⟨Rect.whole S512, kernelRun.sl.dma2 c i xt fh hx⟩] from by unfold kernelRun; rfl).trans
      (writes_whole c arg3 1 (lt64 1 rfl) f3 _)) e

/-- Row 2 after the body. -/
theorem row_value_2 (e : Fin 512) :
    arg3.view.read (Elt F) ((kernelRun c i arg3 harg3 xt fh hx f3).1.2.2.1) (ix2 (⟨2, lt64 2 rfl⟩ : Fin 64) e)
      = rowsOf c i xt fh (ix2 (⟨2, lt64 2 rfl⟩ : Fin 64) e) :=
  row_value_of c i arg3 harg3 xt fh hx f3 _ 2 (lt64 2 rfl) (k0_off5 i) _ _ (k0_off5_eq i) _ _ rfl
    ((show (kernelRun c i arg3 harg3 xt fh hx f3).1.2.2.1
        = (rowN arg3 2 (lt64 2 rfl)).view.writes (Elt F) f3 [⟨Rect.whole S512, kernelRun.sl.dma3 c i xt fh hx⟩] from by unfold kernelRun; rfl).trans
      (writes_whole c arg3 2 (lt64 2 rfl) f3 _)) e

/-- Row 3 after the body. -/
theorem row_value_3 (e : Fin 512) :
    arg3.view.read (Elt F) ((kernelRun c i arg3 harg3 xt fh hx f3).1.2.2.2.1) (ix2 (⟨3, lt64 3 rfl⟩ : Fin 64) e)
      = rowsOf c i xt fh (ix2 (⟨3, lt64 3 rfl⟩ : Fin 64) e) :=
  row_value_of c i arg3 harg3 xt fh hx f3 _ 3 (lt64 3 rfl) (k0_off7 i) _ _ (k0_off7_eq i) _ _ rfl
    ((show (kernelRun c i arg3 harg3 xt fh hx f3).1.2.2.2.1
        = (rowN arg3 3 (lt64 3 rfl)).view.writes (Elt F) f3 [⟨Rect.whole S512, kernelRun.sl.dma4 c i xt fh hx⟩] from by unfold kernelRun; rfl).trans
      (writes_whole c arg3 3 (lt64 3 rfl) f3 _)) e

/-- Row 4 after the body. -/
theorem row_value_4 (e : Fin 512) :
    arg3.view.read (Elt F) ((kernelRun c i arg3 harg3 xt fh hx f3).1.2.2.2.2.1) (ix2 (⟨4, lt64 4 rfl⟩ : Fin 64) e)
      = rowsOf c i xt fh (ix2 (⟨4, lt64 4 rfl⟩ : Fin 64) e) :=
  row_value_of c i arg3 harg3 xt fh hx f3 _ 4 (lt64 4 rfl) (k0_off9 i) _ _ (k0_off9_eq i) _ _ rfl
    ((show (kernelRun c i arg3 harg3 xt fh hx f3).1.2.2.2.2.1
        = (rowN arg3 4 (lt64 4 rfl)).view.writes (Elt F) f3 [⟨Rect.whole S512, kernelRun.sl.dma5 c i xt fh hx⟩] from by unfold kernelRun; rfl).trans
      (writes_whole c arg3 4 (lt64 4 rfl) f3 _)) e

/-- Row 5 after the body. -/
theorem row_value_5 (e : Fin 512) :
    arg3.view.read (Elt F) ((kernelRun c i arg3 harg3 xt fh hx f3).1.2.2.2.2.2.1) (ix2 (⟨5, lt64 5 rfl⟩ : Fin 64) e)
      = rowsOf c i xt fh (ix2 (⟨5, lt64 5 rfl⟩ : Fin 64) e) :=
  row_value_of c i arg3 harg3 xt fh hx f3 _ 5 (lt64 5 rfl) (k0_off11 i) _ _ (k0_off11_eq i) _ _ rfl
    ((show (kernelRun c i arg3 harg3 xt fh hx f3).1.2.2.2.2.2.1
        = (rowN arg3 5 (lt64 5 rfl)).view.writes (Elt F) f3 [⟨Rect.whole S512, kernelRun.sl.dma6 c i xt fh hx⟩] from by unfold kernelRun; rfl).trans
      (writes_whole c arg3 5 (lt64 5 rfl) f3 _)) e

/-- Row 6 after the body. -/
theorem row_value_6 (e : Fin 512) :
    arg3.view.read (Elt F) ((kernelRun c i arg3 harg3 xt fh hx f3).1.2.2.2.2.2.2.1) (ix2 (⟨6, lt64 6 rfl⟩ : Fin 64) e)
      = rowsOf c i xt fh (ix2 (⟨6, lt64 6 rfl⟩ : Fin 64) e) :=
  row_value_of c i arg3 harg3 xt fh hx f3 _ 6 (lt64 6 rfl) (k0_off13 i) _ _ (k0_off13_eq i) _ _ rfl
    ((show (kernelRun c i arg3 harg3 xt fh hx f3).1.2.2.2.2.2.2.1
        = (rowN arg3 6 (lt64 6 rfl)).view.writes (Elt F) f3 [⟨Rect.whole S512, kernelRun.sl.dma7 c i xt fh hx⟩] from by unfold kernelRun; rfl).trans
      (writes_whole c arg3 6 (lt64 6 rfl) f3 _)) e

/-- Row 7 after the body. -/
theorem row_value_7 (e : Fin 512) :
    arg3.view.read (Elt F) ((kernelRun c i arg3 harg3 xt fh hx f3).1.2.2.2.2.2.2.2.1) (ix2 (⟨7, lt64 7 rfl⟩ : Fin 64) e)
      = rowsOf c i xt fh (ix2 (⟨7, lt64 7 rfl⟩ : Fin 64) e) :=
  row_value_of c i arg3 harg3 xt fh hx f3 _ 7 (lt64 7 rfl) (k0_off15 i) _ _ (k0_off15_eq i) _ _ rfl
    ((show (kernelRun c i arg3 harg3 xt fh hx f3).1.2.2.2.2.2.2.2.1
        = (rowN arg3 7 (lt64 7 rfl)).view.writes (Elt F) f3 [⟨Rect.whole S512, kernelRun.sl.dma8 c i xt fh hx⟩] from by unfold kernelRun; rfl).trans
      (writes_whole c arg3 7 (lt64 7 rfl) f3 _)) e

/-- Row 8 after the body. -/
theorem row_value_8 (e : Fin 512) :
    arg3.view.read (Elt F) ((kernelRun c i arg3 harg3 xt fh hx f3).1.2.2.2.2.2.2.2.2.1) (ix2 (⟨8, lt64 8 rfl⟩ : Fin 64) e)
      = rowsOf c i xt fh (ix2 (⟨8, lt64 8 rfl⟩ : Fin 64) e) :=
  row_value_of c i arg3 harg3 xt fh hx f3 _ 8 (lt64 8 rfl) (k0_off17 i) _ _ (k0_off17_eq i) _ _ rfl
    ((show (kernelRun c i arg3 harg3 xt fh hx f3).1.2.2.2.2.2.2.2.2.1
        = (rowN arg3 8 (lt64 8 rfl)).view.writes (Elt F) f3 [⟨Rect.whole S512, kernelRun.sl.dma9 c i xt fh hx⟩] from by unfold kernelRun; rfl).trans
      (writes_whole c arg3 8 (lt64 8 rfl) f3 _)) e

/-- Row 9 after the body. -/
theorem row_value_9 (e : Fin 512) :
    arg3.view.read (Elt F) ((kernelRun c i arg3 harg3 xt fh hx f3).1.2.2.2.2.2.2.2.2.2.1) (ix2 (⟨9, lt64 9 rfl⟩ : Fin 64) e)
      = rowsOf c i xt fh (ix2 (⟨9, lt64 9 rfl⟩ : Fin 64) e) :=
  row_value_of c i arg3 harg3 xt fh hx f3 _ 9 (lt64 9 rfl) (k0_off19 i) _ _ (k0_off19_eq i) _ _ rfl
    ((show (kernelRun c i arg3 harg3 xt fh hx f3).1.2.2.2.2.2.2.2.2.2.1
        = (rowN arg3 9 (lt64 9 rfl)).view.writes (Elt F) f3 [⟨Rect.whole S512, kernelRun.sl.dma10 c i xt fh hx⟩] from by unfold kernelRun; rfl).trans
      (writes_whole c arg3 9 (lt64 9 rfl) f3 _)) e

/-- Row 10 after the body. -/
theorem row_value_10 (e : Fin 512) :
    arg3.view.read (Elt F) ((kernelRun c i arg3 harg3 xt fh hx f3).1.2.2.2.2.2.2.2.2.2.2.1) (ix2 (⟨10, lt64 10 rfl⟩ : Fin 64) e)
      = rowsOf c i xt fh (ix2 (⟨10, lt64 10 rfl⟩ : Fin 64) e) :=
  row_value_of c i arg3 harg3 xt fh hx f3 _ 10 (lt64 10 rfl) (k0_off21 i) _ _ (k0_off21_eq i) _ _ rfl
    ((show (kernelRun c i arg3 harg3 xt fh hx f3).1.2.2.2.2.2.2.2.2.2.2.1
        = (rowN arg3 10 (lt64 10 rfl)).view.writes (Elt F) f3 [⟨Rect.whole S512, kernelRun.sl.dma11 c i xt fh hx⟩] from by unfold kernelRun; rfl).trans
      (writes_whole c arg3 10 (lt64 10 rfl) f3 _)) e

/-- Row 11 after the body. -/
theorem row_value_11 (e : Fin 512) :
    arg3.view.read (Elt F) ((kernelRun c i arg3 harg3 xt fh hx f3).1.2.2.2.2.2.2.2.2.2.2.2.1) (ix2 (⟨11, lt64 11 rfl⟩ : Fin 64) e)
      = rowsOf c i xt fh (ix2 (⟨11, lt64 11 rfl⟩ : Fin 64) e) :=
  row_value_of c i arg3 harg3 xt fh hx f3 _ 11 (lt64 11 rfl) (k0_off23 i) _ _ (k0_off23_eq i) _ _ rfl
    ((show (kernelRun c i arg3 harg3 xt fh hx f3).1.2.2.2.2.2.2.2.2.2.2.2.1
        = (rowN arg3 11 (lt64 11 rfl)).view.writes (Elt F) f3 [⟨Rect.whole S512, kernelRun.sl.dma12 c i xt fh hx⟩] from by unfold kernelRun; rfl).trans
      (writes_whole c arg3 11 (lt64 11 rfl) f3 _)) e

/-- Row 12 after the body. -/
theorem row_value_12 (e : Fin 512) :
    arg3.view.read (Elt F) ((kernelRun c i arg3 harg3 xt fh hx f3).1.2.2.2.2.2.2.2.2.2.2.2.2.1) (ix2 (⟨12, lt64 12 rfl⟩ : Fin 64) e)
      = rowsOf c i xt fh (ix2 (⟨12, lt64 12 rfl⟩ : Fin 64) e) :=
  row_value_of c i arg3 harg3 xt fh hx f3 _ 12 (lt64 12 rfl) (k0_off25 i) _ _ (k0_off25_eq i) _ _ rfl
    ((show (kernelRun c i arg3 harg3 xt fh hx f3).1.2.2.2.2.2.2.2.2.2.2.2.2.1
        = (rowN arg3 12 (lt64 12 rfl)).view.writes (Elt F) f3 [⟨Rect.whole S512, kernelRun.sl.dma13 c i xt fh hx⟩] from by unfold kernelRun; rfl).trans
      (writes_whole c arg3 12 (lt64 12 rfl) f3 _)) e

/-- Row 13 after the body. -/
theorem row_value_13 (e : Fin 512) :
    arg3.view.read (Elt F) ((kernelRun c i arg3 harg3 xt fh hx f3).1.2.2.2.2.2.2.2.2.2.2.2.2.2.1) (ix2 (⟨13, lt64 13 rfl⟩ : Fin 64) e)
      = rowsOf c i xt fh (ix2 (⟨13, lt64 13 rfl⟩ : Fin 64) e) :=
  row_value_of c i arg3 harg3 xt fh hx f3 _ 13 (lt64 13 rfl) (k0_off27 i) _ _ (k0_off27_eq i) _ _ rfl
    ((show (kernelRun c i arg3 harg3 xt fh hx f3).1.2.2.2.2.2.2.2.2.2.2.2.2.2.1
        = (rowN arg3 13 (lt64 13 rfl)).view.writes (Elt F) f3 [⟨Rect.whole S512, kernelRun.sl.dma14 c i xt fh hx⟩] from by unfold kernelRun; rfl).trans
      (writes_whole c arg3 13 (lt64 13 rfl) f3 _)) e

/-- Row 14 after the body. -/
theorem row_value_14 (e : Fin 512) :
    arg3.view.read (Elt F) ((kernelRun c i arg3 harg3 xt fh hx f3).1.2.2.2.2.2.2.2.2.2.2.2.2.2.2.1) (ix2 (⟨14, lt64 14 rfl⟩ : Fin 64) e)
      = rowsOf c i xt fh (ix2 (⟨14, lt64 14 rfl⟩ : Fin 64) e) :=
  row_value_of c i arg3 harg3 xt fh hx f3 _ 14 (lt64 14 rfl) (k0_off29 i) _ _ (k0_off29_eq i) _ _ rfl
    ((show (kernelRun c i arg3 harg3 xt fh hx f3).1.2.2.2.2.2.2.2.2.2.2.2.2.2.2.1
        = (rowN arg3 14 (lt64 14 rfl)).view.writes (Elt F) f3 [⟨Rect.whole S512, kernelRun.sl.dma15 c i xt fh hx⟩] from by unfold kernelRun; rfl).trans
      (writes_whole c arg3 14 (lt64 14 rfl) f3 _)) e

/-- Row 15 after the body. -/
theorem row_value_15 (e : Fin 512) :
    arg3.view.read (Elt F) ((kernelRun c i arg3 harg3 xt fh hx f3).1.2.2.2.2.2.2.2.2.2.2.2.2.2.2.2.1) (ix2 (⟨15, lt64 15 rfl⟩ : Fin 64) e)
      = rowsOf c i xt fh (ix2 (⟨15, lt64 15 rfl⟩ : Fin 64) e) :=
  row_value_of c i arg3 harg3 xt fh hx f3 _ 15 (lt64 15 rfl) (k0_off31 i) _ _ (k0_off31_eq i) _ _ rfl
    ((show (kernelRun c i arg3 harg3 xt fh hx f3).1.2.2.2.2.2.2.2.2.2.2.2.2.2.2.2.1
        = (rowN arg3 15 (lt64 15 rfl)).view.writes (Elt F) f3 [⟨Rect.whole S512, kernelRun.sl.dma16 c i xt fh hx⟩] from by unfold kernelRun; rfl).trans
      (writes_whole c arg3 15 (lt64 15 rfl) f3 _)) e

/-- Row 16 after the body. -/
theorem row_value_16 (e : Fin 512) :
    arg3.view.read (Elt F) ((kernelRun c i arg3 harg3 xt fh hx f3).1.2.2.2.2.2.2.2.2.2.2.2.2.2.2.2.2.1) (ix2 (⟨16, lt64 16 rfl⟩ : Fin 64) e)
      = rowsOf c i xt fh (ix2 (⟨16, lt64 16 rfl⟩ : Fin 64) e) :=
  row_value_of c i arg3 harg3 xt fh hx f3 _ 16 (lt64 16 rfl) (k0_off33 i) _ _ (k0_off33_eq i) _ _ rfl
    ((show (kernelRun c i arg3 harg3 xt fh hx f3).1.2.2.2.2.2.2.2.2.2.2.2.2.2.2.2.2.1
        = (rowN arg3 16 (lt64 16 rfl)).view.writes (Elt F) f3 [⟨Rect.whole S512, kernelRun.sl.dma17 c i xt fh hx⟩] from by unfold kernelRun; rfl).trans
      (writes_whole c arg3 16 (lt64 16 rfl) f3 _)) e

/-- Row 17 after the body. -/
theorem row_value_17 (e : Fin 512) :
    arg3.view.read (Elt F) ((kernelRun c i arg3 harg3 xt fh hx f3).1.2.2.2.2.2.2.2.2.2.2.2.2.2.2.2.2.2.1) (ix2 (⟨17, lt64 17 rfl⟩ : Fin 64) e)
      = rowsOf c i xt fh (ix2 (⟨17, lt64 17 rfl⟩ : Fin 64) e) :=
  row_value_of c i arg3 harg3 xt fh hx f3 _ 17 (lt64 17 rfl) (k0_off35 i) _ _ (k0_off35_eq i) _ _ rfl
    ((show (kernelRun c i arg3 harg3 xt fh hx f3).1.2.2.2.2.2.2.2.2.2.2.2.2.2.2.2.2.2.1
        = (rowN arg3 17 (lt64 17 rfl)).view.writes (Elt F) f3 [⟨Rect.whole S512, kernelRun.sl.dma18 c i xt fh hx⟩] from by unfold kernelRun; rfl).trans
      (writes_whole c arg3 17 (lt64 17 rfl) f3 _)) e

/-- Row 18 after the body. -/
theorem row_value_18 (e : Fin 512) :
    arg3.view.read (Elt F) ((kernelRun c i arg3 harg3 xt fh hx f3).1.2.2.2.2.2.2.2.2.2.2.2.2.2.2.2.2.2.2.1) (ix2 (⟨18, lt64 18 rfl⟩ : Fin 64) e)
      = rowsOf c i xt fh (ix2 (⟨18, lt64 18 rfl⟩ : Fin 64) e) :=
  row_value_of c i arg3 harg3 xt fh hx f3 _ 18 (lt64 18 rfl) (k0_off37 i) _ _ (k0_off37_eq i) _ _ rfl
    ((show (kernelRun c i arg3 harg3 xt fh hx f3).1.2.2.2.2.2.2.2.2.2.2.2.2.2.2.2.2.2.2.1
        = (rowN arg3 18 (lt64 18 rfl)).view.writes (Elt F) f3 [⟨Rect.whole S512, kernelRun.sl.dma19 c i xt fh hx⟩] from by unfold kernelRun; rfl).trans
      (writes_whole c arg3 18 (lt64 18 rfl) f3 _)) e

/-- Row 19 after the body. -/
theorem row_value_19 (e : Fin 512) :
    arg3.view.read (Elt F) ((kernelRun c i arg3 harg3 xt fh hx f3).1.2.2.2.2.2.2.2.2.2.2.2.2.2.2.2.2.2.2.2.1) (ix2 (⟨19, lt64 19 rfl⟩ : Fin 64) e)
      = rowsOf c i xt fh (ix2 (⟨19, lt64 19 rfl⟩ : Fin 64) e) :=
  row_value_of c i arg3 harg3 xt fh hx f3 _ 19 (lt64 19 rfl) (k0_off39 i) _ _ (k0_off39_eq i) _ _ rfl
    ((show (kernelRun c i arg3 harg3 xt fh hx f3).1.2.2.2.2.2.2.2.2.2.2.2.2.2.2.2.2.2.2.2.1
        = (rowN arg3 19 (lt64 19 rfl)).view.writes (Elt F) f3 [⟨Rect.whole S512, kernelRun.sl.dma20 c i xt fh hx⟩] from by unfold kernelRun; rfl).trans
      (writes_whole c arg3 19 (lt64 19 rfl) f3 _)) e

/-- Row 20 after the body. -/
theorem row_value_20 (e : Fin 512) :
    arg3.view.read (Elt F) ((kernelRun c i arg3 harg3 xt fh hx f3).1.2.2.2.2.2.2.2.2.2.2.2.2.2.2.2.2.2.2.2.2.1) (ix2 (⟨20, lt64 20 rfl⟩ : Fin 64) e)
      = rowsOf c i xt fh (ix2 (⟨20, lt64 20 rfl⟩ : Fin 64) e) :=
  row_value_of c i arg3 harg3 xt fh hx f3 _ 20 (lt64 20 rfl) (k0_off41 i) _ _ (k0_off41_eq i) _ _ rfl
    ((show (kernelRun c i arg3 harg3 xt fh hx f3).1.2.2.2.2.2.2.2.2.2.2.2.2.2.2.2.2.2.2.2.2.1
        = (rowN arg3 20 (lt64 20 rfl)).view.writes (Elt F) f3 [⟨Rect.whole S512, kernelRun.sl.dma21 c i xt fh hx⟩] from by unfold kernelRun; rfl).trans
      (writes_whole c arg3 20 (lt64 20 rfl) f3 _)) e

/-- Row 21 after the body. -/
theorem row_value_21 (e : Fin 512) :
    arg3.view.read (Elt F) ((kernelRun c i arg3 harg3 xt fh hx f3).1.2.2.2.2.2.2.2.2.2.2.2.2.2.2.2.2.2.2.2.2.2.1) (ix2 (⟨21, lt64 21 rfl⟩ : Fin 64) e)
      = rowsOf c i xt fh (ix2 (⟨21, lt64 21 rfl⟩ : Fin 64) e) :=
  row_value_of c i arg3 harg3 xt fh hx f3 _ 21 (lt64 21 rfl) (k0_off43 i) _ _ (k0_off43_eq i) _ _ rfl
    ((show (kernelRun c i arg3 harg3 xt fh hx f3).1.2.2.2.2.2.2.2.2.2.2.2.2.2.2.2.2.2.2.2.2.2.1
        = (rowN arg3 21 (lt64 21 rfl)).view.writes (Elt F) f3 [⟨Rect.whole S512, kernelRun.sl.dma22 c i xt fh hx⟩] from by unfold kernelRun; rfl).trans
      (writes_whole c arg3 21 (lt64 21 rfl) f3 _)) e

/-- Row 22 after the body. -/
theorem row_value_22 (e : Fin 512) :
    arg3.view.read (Elt F) ((kernelRun c i arg3 harg3 xt fh hx f3).1.2.2.2.2.2.2.2.2.2.2.2.2.2.2.2.2.2.2.2.2.2.2.1) (ix2 (⟨22, lt64 22 rfl⟩ : Fin 64) e)
      = rowsOf c i xt fh (ix2 (⟨22, lt64 22 rfl⟩ : Fin 64) e) :=
  row_value_of c i arg3 harg3 xt fh hx f3 _ 22 (lt64 22 rfl) (k0_off45 i) _ _ (k0_off45_eq i) _ _ rfl
    ((show (kernelRun c i arg3 harg3 xt fh hx f3).1.2.2.2.2.2.2.2.2.2.2.2.2.2.2.2.2.2.2.2.2.2.2.1
        = (rowN arg3 22 (lt64 22 rfl)).view.writes (Elt F) f3 [⟨Rect.whole S512, kernelRun.sl.dma23 c i xt fh hx⟩] from by unfold kernelRun; rfl).trans
      (writes_whole c arg3 22 (lt64 22 rfl) f3 _)) e

/-- Row 23 after the body. -/
theorem row_value_23 (e : Fin 512) :
    arg3.view.read (Elt F) ((kernelRun c i arg3 harg3 xt fh hx f3).1.2.2.2.2.2.2.2.2.2.2.2.2.2.2.2.2.2.2.2.2.2.2.2.1) (ix2 (⟨23, lt64 23 rfl⟩ : Fin 64) e)
      = rowsOf c i xt fh (ix2 (⟨23, lt64 23 rfl⟩ : Fin 64) e) :=
  row_value_of c i arg3 harg3 xt fh hx f3 _ 23 (lt64 23 rfl) (k0_off47 i) _ _ (k0_off47_eq i) _ _ rfl
    ((show (kernelRun c i arg3 harg3 xt fh hx f3).1.2.2.2.2.2.2.2.2.2.2.2.2.2.2.2.2.2.2.2.2.2.2.2.1
        = (rowN arg3 23 (lt64 23 rfl)).view.writes (Elt F) f3 [⟨Rect.whole S512, kernelRun.sl.dma24 c i xt fh hx⟩] from by unfold kernelRun; rfl).trans
      (writes_whole c arg3 23 (lt64 23 rfl) f3 _)) e

/-- Row 24 after the body. -/
theorem row_value_24 (e : Fin 512) :
    arg3.view.read (Elt F) ((kernelRun c i arg3 harg3 xt fh hx f3).1.2.2.2.2.2.2.2.2.2.2.2.2.2.2.2.2.2.2.2.2.2.2.2.2.1) (ix2 (⟨24, lt64 24 rfl⟩ : Fin 64) e)
      = rowsOf c i xt fh (ix2 (⟨24, lt64 24 rfl⟩ : Fin 64) e) :=
  row_value_of c i arg3 harg3 xt fh hx f3 _ 24 (lt64 24 rfl) (k0_off49 i) _ _ (k0_off49_eq i) _ _ rfl
    ((show (kernelRun c i arg3 harg3 xt fh hx f3).1.2.2.2.2.2.2.2.2.2.2.2.2.2.2.2.2.2.2.2.2.2.2.2.2.1
        = (rowN arg3 24 (lt64 24 rfl)).view.writes (Elt F) f3 [⟨Rect.whole S512, kernelRun.sl.dma25 c i xt fh hx⟩] from by unfold kernelRun; rfl).trans
      (writes_whole c arg3 24 (lt64 24 rfl) f3 _)) e

/-- Row 25 after the body. -/
theorem row_value_25 (e : Fin 512) :
    arg3.view.read (Elt F) ((kernelRun c i arg3 harg3 xt fh hx f3).1.2.2.2.2.2.2.2.2.2.2.2.2.2.2.2.2.2.2.2.2.2.2.2.2.2.1) (ix2 (⟨25, lt64 25 rfl⟩ : Fin 64) e)
      = rowsOf c i xt fh (ix2 (⟨25, lt64 25 rfl⟩ : Fin 64) e) :=
  row_value_of c i arg3 harg3 xt fh hx f3 _ 25 (lt64 25 rfl) (k0_off51 i) _ _ (k0_off51_eq i) _ _ rfl
    ((show (kernelRun c i arg3 harg3 xt fh hx f3).1.2.2.2.2.2.2.2.2.2.2.2.2.2.2.2.2.2.2.2.2.2.2.2.2.2.1
        = (rowN arg3 25 (lt64 25 rfl)).view.writes (Elt F) f3 [⟨Rect.whole S512, kernelRun.sl.dma26 c i xt fh hx⟩] from by unfold kernelRun; rfl).trans
      (writes_whole c arg3 25 (lt64 25 rfl) f3 _)) e

/-- Row 26 after the body. -/
theorem row_value_26 (e : Fin 512) :
    arg3.view.read (Elt F) ((kernelRun c i arg3 harg3 xt fh hx f3).1.2.2.2.2.2.2.2.2.2.2.2.2.2.2.2.2.2.2.2.2.2.2.2.2.2.2.1) (ix2 (⟨26, lt64 26 rfl⟩ : Fin 64) e)
      = rowsOf c i xt fh (ix2 (⟨26, lt64 26 rfl⟩ : Fin 64) e) :=
  row_value_of c i arg3 harg3 xt fh hx f3 _ 26 (lt64 26 rfl) (k0_off53 i) _ _ (k0_off53_eq i) _ _ rfl
    ((show (kernelRun c i arg3 harg3 xt fh hx f3).1.2.2.2.2.2.2.2.2.2.2.2.2.2.2.2.2.2.2.2.2.2.2.2.2.2.2.1
        = (rowN arg3 26 (lt64 26 rfl)).view.writes (Elt F) f3 [⟨Rect.whole S512, kernelRun.sl.dma27 c i xt fh hx⟩] from by unfold kernelRun; rfl).trans
      (writes_whole c arg3 26 (lt64 26 rfl) f3 _)) e

/-- Row 27 after the body. -/
theorem row_value_27 (e : Fin 512) :
    arg3.view.read (Elt F) ((kernelRun c i arg3 harg3 xt fh hx f3).1.2.2.2.2.2.2.2.2.2.2.2.2.2.2.2.2.2.2.2.2.2.2.2.2.2.2.2.1) (ix2 (⟨27, lt64 27 rfl⟩ : Fin 64) e)
      = rowsOf c i xt fh (ix2 (⟨27, lt64 27 rfl⟩ : Fin 64) e) :=
  row_value_of c i arg3 harg3 xt fh hx f3 _ 27 (lt64 27 rfl) (k0_off55 i) _ _ (k0_off55_eq i) _ _ rfl
    ((show (kernelRun c i arg3 harg3 xt fh hx f3).1.2.2.2.2.2.2.2.2.2.2.2.2.2.2.2.2.2.2.2.2.2.2.2.2.2.2.2.1
        = (rowN arg3 27 (lt64 27 rfl)).view.writes (Elt F) f3 [⟨Rect.whole S512, kernelRun.sl.dma28 c i xt fh hx⟩] from by unfold kernelRun; rfl).trans
      (writes_whole c arg3 27 (lt64 27 rfl) f3 _)) e

/-- Row 28 after the body. -/
theorem row_value_28 (e : Fin 512) :
    arg3.view.read (Elt F) ((kernelRun c i arg3 harg3 xt fh hx f3).1.2.2.2.2.2.2.2.2.2.2.2.2.2.2.2.2.2.2.2.2.2.2.2.2.2.2.2.2.1) (ix2 (⟨28, lt64 28 rfl⟩ : Fin 64) e)
      = rowsOf c i xt fh (ix2 (⟨28, lt64 28 rfl⟩ : Fin 64) e) :=
  row_value_of c i arg3 harg3 xt fh hx f3 _ 28 (lt64 28 rfl) (k0_off57 i) _ _ (k0_off57_eq i) _ _ rfl
    ((show (kernelRun c i arg3 harg3 xt fh hx f3).1.2.2.2.2.2.2.2.2.2.2.2.2.2.2.2.2.2.2.2.2.2.2.2.2.2.2.2.2.1
        = (rowN arg3 28 (lt64 28 rfl)).view.writes (Elt F) f3 [⟨Rect.whole S512, kernelRun.sl.dma29 c i xt fh hx⟩] from by unfold kernelRun; rfl).trans
      (writes_whole c arg3 28 (lt64 28 rfl) f3 _)) e

/-- Row 29 after the body. -/
theorem row_value_29 (e : Fin 512) :
    arg3.view.read (Elt F) ((kernelRun c i arg3 harg3 xt fh hx f3).1.2.2.2.2.2.2.2.2.2.2.2.2.2.2.2.2.2.2.2.2.2.2.2.2.2.2.2.2.2.1) (ix2 (⟨29, lt64 29 rfl⟩ : Fin 64) e)
      = rowsOf c i xt fh (ix2 (⟨29, lt64 29 rfl⟩ : Fin 64) e) :=
  row_value_of c i arg3 harg3 xt fh hx f3 _ 29 (lt64 29 rfl) (k0_off59 i) _ _ (k0_off59_eq i) _ _ rfl
    ((show (kernelRun c i arg3 harg3 xt fh hx f3).1.2.2.2.2.2.2.2.2.2.2.2.2.2.2.2.2.2.2.2.2.2.2.2.2.2.2.2.2.2.1
        = (rowN arg3 29 (lt64 29 rfl)).view.writes (Elt F) f3 [⟨Rect.whole S512, kernelRun.sl.dma30 c i xt fh hx⟩] from by unfold kernelRun; rfl).trans
      (writes_whole c arg3 29 (lt64 29 rfl) f3 _)) e

/-- Row 30 after the body. -/
theorem row_value_30 (e : Fin 512) :
    arg3.view.read (Elt F) ((kernelRun c i arg3 harg3 xt fh hx f3).1.2.2.2.2.2.2.2.2.2.2.2.2.2.2.2.2.2.2.2.2.2.2.2.2.2.2.2.2.2.2.1) (ix2 (⟨30, lt64 30 rfl⟩ : Fin 64) e)
      = rowsOf c i xt fh (ix2 (⟨30, lt64 30 rfl⟩ : Fin 64) e) :=
  row_value_of c i arg3 harg3 xt fh hx f3 _ 30 (lt64 30 rfl) (k0_off61 i) _ _ (k0_off61_eq i) _ _ rfl
    ((show (kernelRun c i arg3 harg3 xt fh hx f3).1.2.2.2.2.2.2.2.2.2.2.2.2.2.2.2.2.2.2.2.2.2.2.2.2.2.2.2.2.2.2.1
        = (rowN arg3 30 (lt64 30 rfl)).view.writes (Elt F) f3 [⟨Rect.whole S512, kernelRun.sl.dma31 c i xt fh hx⟩] from by unfold kernelRun; rfl).trans
      (writes_whole c arg3 30 (lt64 30 rfl) f3 _)) e

/-- Row 31 after the body. -/
theorem row_value_31 (e : Fin 512) :
    arg3.view.read (Elt F) ((kernelRun c i arg3 harg3 xt fh hx f3).1.2.2.2.2.2.2.2.2.2.2.2.2.2.2.2.2.2.2.2.2.2.2.2.2.2.2.2.2.2.2.2.1) (ix2 (⟨31, lt64 31 rfl⟩ : Fin 64) e)
      = rowsOf c i xt fh (ix2 (⟨31, lt64 31 rfl⟩ : Fin 64) e) :=
  row_value_of c i arg3 harg3 xt fh hx f3 _ 31 (lt64 31 rfl) (k0_off63 i) _ _ (k0_off63_eq i) _ _ rfl
    ((show (kernelRun c i arg3 harg3 xt fh hx f3).1.2.2.2.2.2.2.2.2.2.2.2.2.2.2.2.2.2.2.2.2.2.2.2.2.2.2.2.2.2.2.2.1
        = (rowN arg3 31 (lt64 31 rfl)).view.writes (Elt F) f3 [⟨Rect.whole S512, kernelRun.sl.dma32 c i xt fh hx⟩] from by unfold kernelRun; rfl).trans
      (writes_whole c arg3 31 (lt64 31 rfl) f3 _)) e

/-- Row 32 after the body. -/
theorem row_value_32 (e : Fin 512) :
    arg3.view.read (Elt F) ((kernelRun c i arg3 harg3 xt fh hx f3).1.2.2.2.2.2.2.2.2.2.2.2.2.2.2.2.2.2.2.2.2.2.2.2.2.2.2.2.2.2.2.2.2.1) (ix2 (⟨32, lt64 32 rfl⟩ : Fin 64) e)
      = rowsOf c i xt fh (ix2 (⟨32, lt64 32 rfl⟩ : Fin 64) e) :=
  row_value_of c i arg3 harg3 xt fh hx f3 _ 32 (lt64 32 rfl) (k0_off65 i) _ _ (k0_off65_eq i) _ _ rfl
    ((show (kernelRun c i arg3 harg3 xt fh hx f3).1.2.2.2.2.2.2.2.2.2.2.2.2.2.2.2.2.2.2.2.2.2.2.2.2.2.2.2.2.2.2.2.2.1
        = (rowN arg3 32 (lt64 32 rfl)).view.writes (Elt F) f3 [⟨Rect.whole S512, kernelRun.sl.dma33 c i xt fh hx⟩] from by unfold kernelRun; rfl).trans
      (writes_whole c arg3 32 (lt64 32 rfl) f3 _)) e

/-- Row 33 after the body. -/
theorem row_value_33 (e : Fin 512) :
    arg3.view.read (Elt F) ((kernelRun c i arg3 harg3 xt fh hx f3).1.2.2.2.2.2.2.2.2.2.2.2.2.2.2.2.2.2.2.2.2.2.2.2.2.2.2.2.2.2.2.2.2.2.1) (ix2 (⟨33, lt64 33 rfl⟩ : Fin 64) e)
      = rowsOf c i xt fh (ix2 (⟨33, lt64 33 rfl⟩ : Fin 64) e) :=
  row_value_of c i arg3 harg3 xt fh hx f3 _ 33 (lt64 33 rfl) (k0_off67 i) _ _ (k0_off67_eq i) _ _ rfl
    ((show (kernelRun c i arg3 harg3 xt fh hx f3).1.2.2.2.2.2.2.2.2.2.2.2.2.2.2.2.2.2.2.2.2.2.2.2.2.2.2.2.2.2.2.2.2.2.1
        = (rowN arg3 33 (lt64 33 rfl)).view.writes (Elt F) f3 [⟨Rect.whole S512, kernelRun.sl.dma34 c i xt fh hx⟩] from by unfold kernelRun; rfl).trans
      (writes_whole c arg3 33 (lt64 33 rfl) f3 _)) e

/-- Row 34 after the body. -/
theorem row_value_34 (e : Fin 512) :
    arg3.view.read (Elt F) ((kernelRun c i arg3 harg3 xt fh hx f3).1.2.2.2.2.2.2.2.2.2.2.2.2.2.2.2.2.2.2.2.2.2.2.2.2.2.2.2.2.2.2.2.2.2.2.1) (ix2 (⟨34, lt64 34 rfl⟩ : Fin 64) e)
      = rowsOf c i xt fh (ix2 (⟨34, lt64 34 rfl⟩ : Fin 64) e) :=
  row_value_of c i arg3 harg3 xt fh hx f3 _ 34 (lt64 34 rfl) (k0_off69 i) _ _ (k0_off69_eq i) _ _ rfl
    ((show (kernelRun c i arg3 harg3 xt fh hx f3).1.2.2.2.2.2.2.2.2.2.2.2.2.2.2.2.2.2.2.2.2.2.2.2.2.2.2.2.2.2.2.2.2.2.2.1
        = (rowN arg3 34 (lt64 34 rfl)).view.writes (Elt F) f3 [⟨Rect.whole S512, kernelRun.sl.dma35 c i xt fh hx⟩] from by unfold kernelRun; rfl).trans
      (writes_whole c arg3 34 (lt64 34 rfl) f3 _)) e

/-- Row 35 after the body. -/
theorem row_value_35 (e : Fin 512) :
    arg3.view.read (Elt F) ((kernelRun c i arg3 harg3 xt fh hx f3).1.2.2.2.2.2.2.2.2.2.2.2.2.2.2.2.2.2.2.2.2.2.2.2.2.2.2.2.2.2.2.2.2.2.2.2.1) (ix2 (⟨35, lt64 35 rfl⟩ : Fin 64) e)
      = rowsOf c i xt fh (ix2 (⟨35, lt64 35 rfl⟩ : Fin 64) e) :=
  row_value_of c i arg3 harg3 xt fh hx f3 _ 35 (lt64 35 rfl) (k0_off71 i) _ _ (k0_off71_eq i) _ _ rfl
    ((show (kernelRun c i arg3 harg3 xt fh hx f3).1.2.2.2.2.2.2.2.2.2.2.2.2.2.2.2.2.2.2.2.2.2.2.2.2.2.2.2.2.2.2.2.2.2.2.2.1
        = (rowN arg3 35 (lt64 35 rfl)).view.writes (Elt F) f3 [⟨Rect.whole S512, kernelRun.sl.dma36 c i xt fh hx⟩] from by unfold kernelRun; rfl).trans
      (writes_whole c arg3 35 (lt64 35 rfl) f3 _)) e

/-- Row 36 after the body. -/
theorem row_value_36 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.1) (ix2 (⟨36, lt64 36 rfl⟩ : Fin 64) e)
      = rowsOf c i xt fh (ix2 (⟨36, lt64 36 rfl⟩ : Fin 64) e) :=
  row_value_of c i arg3 harg3 xt fh hx f3 _ 36 (lt64 36 rfl) (k0_off73 i) _ _ (k0_off73_eq i) _ _ rfl
    ((show (kernelRun c i arg3 harg3 xt fh hx f3).1.2.2.2.2.2.2.2.2.2.2.2.2.2.2.2.2.2.2.2.2.2.2.2.2.2.2.2.2.2.2.2.2.2.2.2.2.1
        = (rowN arg3 36 (lt64 36 rfl)).view.writes (Elt F) f3 [⟨Rect.whole S512, kernelRun.sl.dma37 c i xt fh hx⟩] from by unfold kernelRun; rfl).trans
      (writes_whole c arg3 36 (lt64 36 rfl) f3 _)) e

/-- Row 37 after the body. -/
theorem row_value_37 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.1) (ix2 (⟨37, lt64 37 rfl⟩ : Fin 64) e)
      = rowsOf c i xt fh (ix2 (⟨37, lt64 37 rfl⟩ : Fin 64) e) :=
  row_value_of c i arg3 harg3 xt fh hx f3 _ 37 (lt64 37 rfl) (k0_off75 i) _ _ (k0_off75_eq i) _ _ rfl
    ((show (kernelRun c i arg3 harg3 xt fh hx f3).1.2.2.2.2.2.2.2.2.2.2.2.2.2.2.2.2.2.2.2.2.2.2.2.2.2.2.2.2.2.2.2.2.2.2.2.2.2.1
        = (rowN arg3 37 (lt64 37 rfl)).view.writes (Elt F) f3 [⟨Rect.whole S512, kernelRun.sl.dma38 c i xt fh hx⟩] from by unfold kernelRun; rfl).trans
      (writes_whole c arg3 37 (lt64 37 rfl) f3 _)) e

/-- Row 38 after the body. -/
theorem row_value_38 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.1) (ix2 (⟨38, lt64 38 rfl⟩ : Fin 64) e)
      = rowsOf c i xt fh (ix2 (⟨38, lt64 38 rfl⟩ : Fin 64) e) :=
  row_value_of c i arg3 harg3 xt fh hx f3 _ 38 (lt64 38 rfl) (k0_off77 i) _ _ (k0_off77_eq i) _ _ rfl
    ((show (kernelRun c i arg3 harg3 xt fh hx f3).1.2.2.2.2.2.2.2.2.2.2.2.2.2.2.2.2.2.2.2.2.2.2.2.2.2.2.2.2.2.2.2.2.2.2.2.2.2.2.1
        = (rowN arg3 38 (lt64 38 rfl)).view.writes (Elt F) f3 [⟨Rect.whole S512, kernelRun.sl.dma39 c i xt fh hx⟩] from by unfold kernelRun; rfl).trans
      (writes_whole c arg3 38 (lt64 38 rfl) f3 _)) e

/-- Row 39 after the body. -/
theorem row_value_39 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.1) (ix2 (⟨39, lt64 39 rfl⟩ : Fin 64) e)
      = rowsOf c i xt fh (ix2 (⟨39, lt64 39 rfl⟩ : Fin 64) e) :=
  row_value_of c i arg3 harg3 xt fh hx f3 _ 39 (lt64 39 rfl) (k0_off79 i) _ _ (k0_off79_eq i) _ _ rfl
    ((show (kernelRun c i arg3 harg3 xt fh hx f3).1.2.2.2.2.2.2.2.2.2.2.2.2.2.2.2.2.2.2.2.2.2.2.2.2.2.2.2.2.2.2.2.2.2.2.2.2.2.2.2.1
        = (rowN arg3 39 (lt64 39 rfl)).view.writes (Elt F) f3 [⟨Rect.whole S512, kernelRun.sl.dma40 c i xt fh hx⟩] from by unfold kernelRun; rfl).trans
      (writes_whole c arg3 39 (lt64 39 rfl) f3 _)) e

/-- Row 40 after the body. -/
theorem row_value_40 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.1) (ix2 (⟨40, lt64 40 rfl⟩ : Fin 64) e)
      = rowsOf c i xt fh (ix2 (⟨40, lt64 40 rfl⟩ : Fin 64) e) :=
  row_value_of c i arg3 harg3 xt fh hx f3 _ 40 (lt64 40 rfl) (k0_off81 i) _ _ (k0_off81_eq i) _ _ rfl
    ((show (kernelRun c i arg3 harg3 xt fh hx f3).1.2.2.2.2.2.2.2.2.2.2.2.2.2.2.2.2.2.2.2.2.2.2.2.2.2.2.2.2.2.2.2.2.2.2.2.2.2.2.2.2.1
        = (rowN arg3 40 (lt64 40 rfl)).view.writes (Elt F) f3 [⟨Rect.whole S512, kernelRun.sl.dma41 c i xt fh hx⟩] from by unfold kernelRun; rfl).trans
      (writes_whole c arg3 40 (lt64 40 rfl) f3 _)) e

/-- Row 41 after the body. -/
theorem row_value_41 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.1) (ix2 (⟨41, lt64 41 rfl⟩ : Fin 64) e)
      = rowsOf c i xt fh (ix2 (⟨41, lt64 41 rfl⟩ : Fin 64) e) :=
  row_value_of c i arg3 harg3 xt fh hx f3 _ 41 (lt64 41 rfl) (k0_off83 i) _ _ (k0_off83_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.1
        = (rowN arg3 41 (lt64 41 rfl)).view.writes (Elt F) f3 [⟨Rect.whole S512, kernelRun.sl.dma42 c i xt fh hx⟩] from by unfold kernelRun; rfl).trans
      (writes_whole c arg3 41 (lt64 41 rfl) f3 _)) e

/-- Row 42 after the body. -/
theorem row_value_42 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.1) (ix2 (⟨42, lt64 42 rfl⟩ : Fin 64) e)
      = rowsOf c i xt fh (ix2 (⟨42, lt64 42 rfl⟩ : Fin 64) e) :=
  row_value_of c i arg3 harg3 xt fh hx f3 _ 42 (lt64 42 rfl) (k0_off85 i) _ _ (k0_off85_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.1
        = (rowN arg3 42 (lt64 42 rfl)).view.writes (Elt F) f3 [⟨Rect.whole S512, kernelRun.sl.dma43 c i xt fh hx⟩] from by unfold kernelRun; rfl).trans
      (writes_whole c arg3 42 (lt64 42 rfl) f3 _)) e

/-- Row 43 after the body. -/
theorem row_value_43 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.1) (ix2 (⟨43, lt64 43 rfl⟩ : Fin 64) e)
      = rowsOf c i xt fh (ix2 (⟨43, lt64 43 rfl⟩ : Fin 64) e) :=
  row_value_of c i arg3 harg3 xt fh hx f3 _ 43 (lt64 43 rfl) (k0_off87 i) _ _ (k0_off87_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.1
        = (rowN arg3 43 (lt64 43 rfl)).view.writes (Elt F) f3 [⟨Rect.whole S512, kernelRun.sl.dma44 c i xt fh hx⟩] from by unfold kernelRun; rfl).trans
      (writes_whole c arg3 43 (lt64 43 rfl) f3 _)) e

/-- Row 44 after the body. -/
theorem row_value_44 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.1) (ix2 (⟨44, lt64 44 rfl⟩ : Fin 64) e)
      = rowsOf c i xt fh (ix2 (⟨44, lt64 44 rfl⟩ : Fin 64) e) :=
  row_value_of c i arg3 harg3 xt fh hx f3 _ 44 (lt64 44 rfl) (k0_off89 i) _ _ (k0_off89_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.1
        = (rowN arg3 44 (lt64 44 rfl)).view.writes (Elt F) f3 [⟨Rect.whole S512, kernelRun.sl.dma45 c i xt fh hx⟩] from by unfold kernelRun; rfl).trans
      (writes_whole c arg3 44 (lt64 44 rfl) f3 _)) e

/-- Row 45 after the body. -/
theorem row_value_45 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.1) (ix2 (⟨45, lt64 45 rfl⟩ : Fin 64) e)
      = rowsOf c i xt fh (ix2 (⟨45, lt64 45 rfl⟩ : Fin 64) e) :=
  row_value_of c i arg3 harg3 xt fh hx f3 _ 45 (lt64 45 rfl) (k0_off91 i) _ _ (k0_off91_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.1
        = (rowN arg3 45 (lt64 45 rfl)).view.writes (Elt F) f3 [⟨Rect.whole S512, kernelRun.sl.dma46 c i xt fh hx⟩] from by unfold kernelRun; rfl).trans
      (writes_whole c arg3 45 (lt64 45 rfl) f3 _)) e

/-- Row 46 after the body. -/
theorem row_value_46 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.1) (ix2 (⟨46, lt64 46 rfl⟩ : Fin 64) e)
      = rowsOf c i xt fh (ix2 (⟨46, lt64 46 rfl⟩ : Fin 64) e) :=
  row_value_of c i arg3 harg3 xt fh hx f3 _ 46 (lt64 46 rfl) (k0_off93 i) _ _ (k0_off93_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.1
        = (rowN arg3 46 (lt64 46 rfl)).view.writes (Elt F) f3 [⟨Rect.whole S512, kernelRun.sl.dma47 c i xt fh hx⟩] from by unfold kernelRun; rfl).trans
      (writes_whole c arg3 46 (lt64 46 rfl) f3 _)) e

/-- Row 47 after the body. -/
theorem row_value_47 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.1) (ix2 (⟨47, lt64 47 rfl⟩ : Fin 64) e)
      = rowsOf c i xt fh (ix2 (⟨47, lt64 47 rfl⟩ : Fin 64) e) :=
  row_value_of c i arg3 harg3 xt fh hx f3 _ 47 (lt64 47 rfl) (k0_off95 i) _ _ (k0_off95_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.1
        = (rowN arg3 47 (lt64 47 rfl)).view.writes (Elt F) f3 [⟨Rect.whole S512, kernelRun.sl.dma48 c i xt fh hx⟩] from by unfold kernelRun; rfl).trans
      (writes_whole c arg3 47 (lt64 47 rfl) f3 _)) e

/-- Row 48 after the body. -/
theorem row_value_48 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.1) (ix2 (⟨48, lt64 48 rfl⟩ : Fin 64) e)
      = rowsOf c i xt fh (ix2 (⟨48, lt64 48 rfl⟩ : Fin 64) e) :=
  row_value_of c i arg3 harg3 xt fh hx f3 _ 48 (lt64 48 rfl) (k0_off97 i) _ _ (k0_off97_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.1
        = (rowN arg3 48 (lt64 48 rfl)).view.writes (Elt F) f3 [⟨Rect.whole S512, kernelRun.sl.dma49 c i xt fh hx⟩] from by unfold kernelRun; rfl).trans
      (writes_whole c arg3 48 (lt64 48 rfl) f3 _)) e

/-- Row 49 after the body. -/
theorem row_value_49 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.1) (ix2 (⟨49, lt64 49 rfl⟩ : Fin 64) e)
      = rowsOf c i xt fh (ix2 (⟨49, lt64 49 rfl⟩ : Fin 64) e) :=
  row_value_of c i arg3 harg3 xt fh hx f3 _ 49 (lt64 49 rfl) (k0_off99 i) _ _ (k0_off99_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.1
        = (rowN arg3 49 (lt64 49 rfl)).view.writes (Elt F) f3 [⟨Rect.whole S512, kernelRun.sl.dma50 c i xt fh hx⟩] from by unfold kernelRun; rfl).trans
      (writes_whole c arg3 49 (lt64 49 rfl) f3 _)) e

/-- Row 50 after the body. -/
theorem row_value_50 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.1) (ix2 (⟨50, lt64 50 rfl⟩ : Fin 64) e)
      = rowsOf c i xt fh (ix2 (⟨50, lt64 50 rfl⟩ : Fin 64) e) :=
  row_value_of c i arg3 harg3 xt fh hx f3 _ 50 (lt64 50 rfl) (k0_off101 i) _ _ (k0_off101_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.1
        = (rowN arg3 50 (lt64 50 rfl)).view.writes (Elt F) f3 [⟨Rect.whole S512, kernelRun.sl.dma51 c i xt fh hx⟩] from by unfold kernelRun; rfl).trans
      (writes_whole c arg3 50 (lt64 50 rfl) f3 _)) e

/-- Row 51 after the body. -/
theorem row_value_51 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.1) (ix2 (⟨51, lt64 51 rfl⟩ : Fin 64) e)
      = rowsOf c i xt fh (ix2 (⟨51, lt64 51 rfl⟩ : Fin 64) e) :=
  row_value_of c i arg3 harg3 xt fh hx f3 _ 51 (lt64 51 rfl) (k0_off103 i) _ _ (k0_off103_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.1
        = (rowN arg3 51 (lt64 51 rfl)).view.writes (Elt F) f3 [⟨Rect.whole S512, kernelRun.sl.dma52 c i xt fh hx⟩] from by unfold kernelRun; rfl).trans
      (writes_whole c arg3 51 (lt64 51 rfl) f3 _)) e

/-- Row 52 after the body. -/
theorem row_value_52 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.1) (ix2 (⟨52, lt64 52 rfl⟩ : Fin 64) e)
      = rowsOf c i xt fh (ix2 (⟨52, lt64 52 rfl⟩ : Fin 64) e) :=
  row_value_of c i arg3 harg3 xt fh hx f3 _ 52 (lt64 52 rfl) (k0_off105 i) _ _ (k0_off105_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.1
        = (rowN arg3 52 (lt64 52 rfl)).view.writes (Elt F) f3 [⟨Rect.whole S512, kernelRun.sl.dma53 c i xt fh hx⟩] from by unfold kernelRun; rfl).trans
      (writes_whole c arg3 52 (lt64 52 rfl) f3 _)) e

/-- Row 53 after the body. -/
theorem row_value_53 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.1) (ix2 (⟨53, lt64 53 rfl⟩ : Fin 64) e)
      = rowsOf c i xt fh (ix2 (⟨53, lt64 53 rfl⟩ : Fin 64) e) :=
  row_value_of c i arg3 harg3 xt fh hx f3 _ 53 (lt64 53 rfl) (k0_off107 i) _ _ (k0_off107_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.1
        = (rowN arg3 53 (lt64 53 rfl)).view.writes (Elt F) f3 [⟨Rect.whole S512, kernelRun.sl.dma54 c i xt fh hx⟩] from by unfold kernelRun; rfl).trans
      (writes_whole c arg3 53 (lt64 53 rfl) f3 _)) e

/-- Row 54 after the body. -/
theorem row_value_54 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.1) (ix2 (⟨54, lt64 54 rfl⟩ : Fin 64) e)
      = rowsOf c i xt fh (ix2 (⟨54, lt64 54 rfl⟩ : Fin 64) e) :=
  row_value_of c i arg3 harg3 xt fh hx f3 _ 54 (lt64 54 rfl) (k0_off109 i) _ _ (k0_off109_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.1
        = (rowN arg3 54 (lt64 54 rfl)).view.writes (Elt F) f3 [⟨Rect.whole S512, kernelRun.sl.dma55 c i xt fh hx⟩] from by unfold kernelRun; rfl).trans
      (writes_whole c arg3 54 (lt64 54 rfl) f3 _)) e

/-- Row 55 after the body. -/
theorem row_value_55 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.1) (ix2 (⟨55, lt64 55 rfl⟩ : Fin 64) e)
      = rowsOf c i xt fh (ix2 (⟨55, lt64 55 rfl⟩ : Fin 64) e) :=
  row_value_of c i arg3 harg3 xt fh hx f3 _ 55 (lt64 55 rfl) (k0_off111 i) _ _ (k0_off111_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.1
        = (rowN arg3 55 (lt64 55 rfl)).view.writes (Elt F) f3 [⟨Rect.whole S512, kernelRun.sl.dma56 c i xt fh hx⟩] from by unfold kernelRun; rfl).trans
      (writes_whole c arg3 55 (lt64 55 rfl) f3 _)) e

/-- Row 56 after the body. -/
theorem row_value_56 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.1) (ix2 (⟨56, lt64 56 rfl⟩ : Fin 64) e)
      = rowsOf c i xt fh (ix2 (⟨56, lt64 56 rfl⟩ : Fin 64) e) :=
  row_value_of c i arg3 harg3 xt fh hx f3 _ 56 (lt64 56 rfl) (k0_off113 i) _ _ (k0_off113_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.1
        = (rowN arg3 56 (lt64 56 rfl)).view.writes (Elt F) f3 [⟨Rect.whole S512, kernelRun.sl.dma57 c i xt fh hx⟩] from by unfold kernelRun; rfl).trans
      (writes_whole c arg3 56 (lt64 56 rfl) f3 _)) e

/-- Row 57 after the body. -/
theorem row_value_57 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.1) (ix2 (⟨57, lt64 57 rfl⟩ : Fin 64) e)
      = rowsOf c i xt fh (ix2 (⟨57, lt64 57 rfl⟩ : Fin 64) e) :=
  row_value_of c i arg3 harg3 xt fh hx f3 _ 57 (lt64 57 rfl) (k0_off115 i) _ _ (k0_off115_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.1
        = (rowN arg3 57 (lt64 57 rfl)).view.writes (Elt F) f3 [⟨Rect.whole S512, kernelRun.sl.dma58 c i xt fh hx⟩] from by unfold kernelRun; rfl).trans
      (writes_whole c arg3 57 (lt64 57 rfl) f3 _)) e

/-- Row 58 after the body. -/
theorem row_value_58 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.2.1) (ix2 (⟨58, lt64 58 rfl⟩ : Fin 64) e)
      = rowsOf c i xt fh (ix2 (⟨58, lt64 58 rfl⟩ : Fin 64) e) :=
  row_value_of c i arg3 harg3 xt fh hx f3 _ 58 (lt64 58 rfl) (k0_off117 i) _ _ (k0_off117_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.2.1
        = (rowN arg3 58 (lt64 58 rfl)).view.writes (Elt F) f3 [⟨Rect.whole S512, kernelRun.sl.dma59 c i xt fh hx⟩] from by unfold kernelRun; rfl).trans
      (writes_whole c arg3 58 (lt64 58 rfl) f3 _)) e

/-- Row 59 after the body. -/
theorem row_value_59 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.2.2.1) (ix2 (⟨59, lt64 59 rfl⟩ : Fin 64) e)
      = rowsOf c i xt fh (ix2 (⟨59, lt64 59 rfl⟩ : Fin 64) e) :=
  row_value_of c i arg3 harg3 xt fh hx f3 _ 59 (lt64 59 rfl) (k0_off119 i) _ _ (k0_off119_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.2.2.1
        = (rowN arg3 59 (lt64 59 rfl)).view.writes (Elt F) f3 [⟨Rect.whole S512, kernelRun.sl.dma60 c i xt fh hx⟩] from by unfold kernelRun; rfl).trans
      (writes_whole c arg3 59 (lt64 59 rfl) f3 _)) e

/-- Row 60 after the body. -/
theorem row_value_60 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.2.2.2.1) (ix2 (⟨60, lt64 60 rfl⟩ : Fin 64) e)
      = rowsOf c i xt fh (ix2 (⟨60, lt64 60 rfl⟩ : Fin 64) e) :=
  row_value_of c i arg3 harg3 xt fh hx f3 _ 60 (lt64 60 rfl) (k0_off121 i) _ _ (k0_off121_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.2.2.2.1
        = (rowN arg3 60 (lt64 60 rfl)).view.writes (Elt F) f3 [⟨Rect.whole S512, kernelRun.sl.dma61 c i xt fh hx⟩] from by unfold kernelRun; rfl).trans
      (writes_whole c arg3 60 (lt64 60 rfl) f3 _)) e

/-- Row 61 after the body. -/
theorem row_value_61 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1) (ix2 (⟨61, lt64 61 rfl⟩ : Fin 64) e)
      = rowsOf c i xt fh (ix2 (⟨61, lt64 61 rfl⟩ : Fin 64) e) :=
  row_value_of c i arg3 harg3 xt fh hx f3 _ 61 (lt64 61 rfl) (k0_off123 i) _ _ (k0_off123_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1
        = (rowN arg3 61 (lt64 61 rfl)).view.writes (Elt F) f3 [⟨Rect.whole S512, kernelRun.sl.dma62 c i xt fh hx⟩] from by unfold kernelRun; rfl).trans
      (writes_whole c arg3 61 (lt64 61 rfl) f3 _)) e

/-- Row 62 after the body. -/
theorem row_value_62 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1) (ix2 (⟨62, lt64 62 rfl⟩ : Fin 64) e)
      = rowsOf c i xt fh (ix2 (⟨62, lt64 62 rfl⟩ : Fin 64) e) :=
  row_value_of c i arg3 harg3 xt fh hx f3 _ 62 (lt64 62 rfl) (k0_off125 i) _ _ (k0_off125_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1
        = (rowN arg3 62 (lt64 62 rfl)).view.writes (Elt F) f3 [⟨Rect.whole S512, kernelRun.sl.dma63 c i xt fh hx⟩] from by unfold kernelRun; rfl).trans
      (writes_whole c arg3 62 (lt64 62 rfl) f3 _)) e

/-- Row 63 after the body. -/
theorem row_value_63 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2) (ix2 (⟨63, lt64 63 rfl⟩ : Fin 64) e)
      = rowsOf c i xt fh (ix2 (⟨63, lt64 63 rfl⟩ : Fin 64) e) :=
  row_value_of c i arg3 harg3 xt fh hx f3 _ 63 (lt64 63 rfl) (k0_off127 i) _ _ (k0_off127_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2
        = (rowN arg3 63 (lt64 63 rfl)).view.writes (Elt F) f3 [⟨Rect.whole S512, kernelRun.sl.dma64 c i xt fh hx⟩] from by unfold kernelRun; rfl).trans
      (writes_whole c arg3 63 (lt64 63 rfl) f3 _)) e

end Cert.Kernel.Gather

end
-- ==== Proof.KernelFrame.lean ====
/-
  The frame of the row-gather program: every weakly fair execution of @main terminates, nothing faults, and the two
  argument arrays end as they began — for every memory whose table of row numbers names rows of the matrix.

  @main is: two host operations (the column of row numbers flattened to a table placed in scalar memory; the matrix
  transposed, so that a row number names a contiguous row), the launch of the kernel over 256 grid points, and one host
  operation after it (the result given a unit middle axis). At a grid point the kernel reads 64 row numbers from the
  table, starts 64 copies — row `y[64 t + j]` of the transposed matrix into row `j` of the output block's staging
  buffer, each on a semaphore of its own — and waits for the 64. Nothing is in flight between points. So the launch's
  invariant is: the 64 semaphores at zero, the transposed matrix whole at the contents the launch found (it is only
  read), the table's read-only half. Within a point the matrix is held as one read share per semaphore, since the 64
  copies read it at once (two of them the same row, when a row number repeats); the staging buffer is split into its 64
  rows, each lent to its copy and handed back holding the matrix row the table names for it; the rows join into the
  buffer overwritten whole, so what the block holds after the point does not depend on what it held before.
-/
import proofs.«148027_j64802466562285_1_alg».proof.Proof.KernelRowValue
import Idealize.ShloMosaic.Lib.Pipeline.FrameSuffix

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- The buffers' contents when the region is entered: after the two host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the host operation after it, at the contents the operations before it leave. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-- The one buffer the kernel moves by itself: the transposed matrix. -/
def H0 : Finset (Ref sig .tc) := {main_v1}
theorem H0_sub : H0 ⊆ Pipeline.restRefsP sig pre0 spec0 := by decide

/-- The host operation after the region touches the region's output array and the final result: neither is the
    transposed matrix. -/
theorem sfx_sub : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  rcases hops with rfl
  simp only [hostOps1, List.mem_cons, List.mem_nil_iff, or_false] at hop
  rcases hop with rfl
  rw [StableHlo.reshape_bufs]
  intro b hb
  simp only [Finset.mem_insert, Finset.mem_singleton] at hb
  unfold Pipeline.tailRefsBut
  rcases hb with rfl | rfl
  · exact Finset.mem_map_of_mem _ (by decide)
  · exact Finset.mem_map_of_mem _ (by decide)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes the final result only, which is not the region's output array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- No host operation before the region writes an argument array: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-! ## The table of row numbers -/

/-- The table's contents when the region is entered (the program runs on one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No index map reads the table: every contents is admissible. -/
abbrev adm : (pcfg0 (F := F)).Adm := ⟨tbl m, (trivial : ok0 (tbl m))⟩
abbrev cfgM : Pipeline.Cfg sig Λ₀ := cfg0 (adm m)

/-- The side condition of the table's contents: every word names a row of the 128000-row matrix. -/
def TblOk : Prop :=
  ∀ (R : LoadRect S16384) (j : R.shape.Idx), BitVec.toNat (tbM.view.readAt (Elt F) R (tbl m 0) j : BitVec 32) < 128000

/-- The table's read-only half the region hands the body. -/
theorem PhiT_eq (c : Dev nD) : (Pipeline.ΦT pre0 (tbl m) c : sProp 𝕄) = iprop(tbPt c (tbl m 0)) := by
  unfold Pipeline.ΦT Pipeline.prefHeld
  rw [show (Finset.univ : Finset (Fin 1)) = {(0 : Fin 1)} from by decide, bigSep_singleton]
  rfl

/-! ## The kernel's own semaphores and the matrix it reads -/

abbrev osem0 : Fin 64 → SemLoc sig := fun j => (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44, SemLoc.dma 45, SemLoc.dma 46, SemLoc.dma 47, SemLoc.dma 48, SemLoc.dma 49, SemLoc.dma 50, SemLoc.dma 51, SemLoc.dma 52, SemLoc.dma 53, SemLoc.dma 54, SemLoc.dma 55, SemLoc.dma 56, SemLoc.dma 57, SemLoc.dma 58, SemLoc.dma 59, SemLoc.dma 60, SemLoc.dma 61, SemLoc.dma 62, SemLoc.dma 63, SemLoc.dma 64, SemLoc.dma 65] : Fin 64 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] (by decide) (by decide)]; rfl
/-- The matrix whole, at the full share. -/
abbrev hbPt (c : Dev nD) (f : HbBuf (F := F) c) : sProp 𝕄 := hbM.view.loc (c : Thread nD τ) ↦{fullShare} f
theorem hbmPts_eq (c : Dev nD) :
    (bigSep H0 (fun b => ((c : Thread nD τ).loc b) ↦{fullShare} V m c b) : sProp 𝕄) = iprop(hbPt c (V m c main_v1)) := by
  rw [BI.bigSep_eq_bigSepL_of_eq [main_v1] (by decide) (by decide)]; rfl
/-- The launch's invariant, conjunct by conjunct: no scoped buffer but the staging buffers, the generator register, the 64
    semaphores at zero, the matrix whole. -/
theorem PhiD_eq (c : Dev nD) :
    (Pipeline.ΦD osem0 spec0 H0 (V m) c : sProp 𝕄)
      = iprop((BI.emp : sProp 𝕄) ∗ (∃ r, prngReg c r) ∗ iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0) ∗ iprop(hbPt c (V m c main_v1))) := by
  rw [Pipeline.ΦD_eq, scopedRest0_eq, ownSems_eq, hbmPts_eq]

/-! ## What the body leaves in the output block's staging buffer -/

/-- The output window's current staging memref at point `t`, as the pipeline passes it, and its wholeness. -/
abbrev ms (t : Fin (cfgM m).N) : Memref sig .tc .vmem S64x512 .f32 := spec0_0.stage ((cfgM m).slots t 0)
abbrev hs (t : Fin (cfgM m).N) : (ms m t).IsWhole := hstage0_0 (((cfgM m).slots t 0).cast nbuf0_0)
/-- The kernel body at point `t`, on what the pipeline calls it with. -/
abbrev bodyAt (t : Fin (cfgM m).N) : Prog (TpuEff nD τ sig (Elt F) Λ₀ .tc) PUnit :=
  cc0__gather_kernel (grid0.coords t) tbM htbM hbM (Memref.isWhole_whole _) (ms m t) (hs m t) cc0_scratch0

/-- What the staging buffer holds after the body at grid coordinate `i`: its entry `(j, e)` is the matrix at row
    `table[64 i + j]`, column `e`. -/
def outAt (c : Dev nD) (i : grid0.Coords) (arg3 : Memref sig .tc .vmem S64x512 .f32) (harg3 : arg3.IsWhole)
    (xt : TbBuf (F := F) c) (fh : HbBuf (F := F) c)
    (hx : ∀ (R : LoadRect S16384) (j : R.shape.Idx), BitVec.toNat (tbM.view.readAt (Elt F) R xt j : BitVec 32) < 128000) :
    Vec F S64x512 .f32 :=
  rowsOf c i xt fh

/-- What the output block's staging buffer holds after the body at point `t`. -/
def outsAt (hT : TblOk m) (c : Dev nD) (t : Fin (cfgM m).N) : Vec F S64x512 .f32 :=
  outAt c (grid0.coords t) (ms m t) (hs m t) (tbl m 0) (V m c main_v1) hT

/-! ## The pipeline's proof data -/

/-- The arrays as the region finds them; after the body at point `t` the output's buffer at `outsAt`; the invariant: the
    64 semaphores at zero, the matrix whole at its entry contents, the table's read-only half; nothing owed; full shares. -/
def dats (hT : TblOk m) (_ : Fin 1) (c : Dev nD) : Dat τ (Elt F) Unit ℕ (Pipeline.UD sig nD τ) ℕ (cfgM m) c where
  A w := V m c (Pipeline.arrRef spec0 w)
  after w t := match w with
    | ⟨0, _⟩ => (outsAt m hT c t)
  Φ _ := iprop(Pipeline.ΦD osem0 spec0 H0 (V m) c ∗ Pipeline.ΦT pre0 (tbl m) c)
  q _ := fullShare
  owed _ := 0

theorem A_eq (hT : TblOk m) (c : Dev nD) (w : Fin (cfgM m).W) : (dats m hT 0 c).A w = V m c (Pipeline.arrRef spec0 w) := by
  dsimp only [dats]
theorem after0 (hT : TblOk m) (c : Dev nD) (t : Fin (cfgM m).N) : (dats m hT 0 c).after 0 t = (outsAt m hT c t) := by
  dsimp only [dats]; try rfl

/-! ## The body obligation, at a generic point -/

def bodyPre (hT : TblOk m) (c : Dev nD) (t : Fin (cfgM m).N) : sProp 𝕄 :=
  iprop((dats m hT 0 c).Φ t.castSucc ∗ (dats m hT 0 c).owesAt () t.castSucc
    ∗ (∃ d, owns (c : Thread nD τ) (ms m t) fullShare ((dats m hT 0 c).before 0 t d)))

def bodyPost (hT : TblOk m) (c : Dev nD) (t : Fin (cfgM m).N) : sProp 𝕄 :=
  iprop((dats m hT 0 c).Φ t.succ ∗ (dats m hT 0 c).owesAt () t.succ
    ∗ owns (c : Thread nD τ) (ms m t) fullShare ((dats m hT 0 c).after 0 t))

/-- The matrix at the full share is the share that stays behind and one read share per number below 66 (the semaphores are
    numbers 2 to 65; the shares numbered 0 and 1 are lent to no one). -/
theorem hb_split (c : Dev nD) (f : HbBuf (F := F) c) :
    (hbPt c f : sProp 𝕄) ⊣⊢ iprop((hbM.view.loc (c : Thread nD τ) ↦{Transfers.shareDrop fullShare 66} f) ∗ hbTok c 0 f ∗ hbTok c 1 f ∗ hbTok c 2 f ∗ hbTok c 3 f ∗ hbTok c 4 f ∗ hbTok c 5 f ∗ hbTok c 6 f ∗ hbTok c 7 f ∗ hbTok c 8 f ∗ hbTok c 9 f ∗ hbTok c 10 f ∗ hbTok c 11 f ∗ hbTok c 12 f ∗ hbTok c 13 f ∗ hbTok c 14 f ∗ hbTok c 15 f ∗ hbTok c 16 f ∗ hbTok c 17 f ∗ hbTok c 18 f ∗ hbTok c 19 f ∗ hbTok c 20 f ∗ hbTok c 21 f ∗ hbTok c 22 f ∗ hbTok c 23 f ∗ hbTok c 24 f ∗ hbTok c 25 f ∗ hbTok c 26 f ∗ hbTok c 27 f ∗ hbTok c 28 f ∗ hbTok c 29 f ∗ hbTok c 30 f ∗ hbTok c 31 f ∗ hbTok c 32 f ∗ hbTok c 33 f ∗ hbTok c 34 f ∗ hbTok c 35 f ∗ hbTok c 36 f ∗ hbTok c 37 f ∗ hbTok c 38 f ∗ hbTok c 39 f ∗ hbTok c 40 f ∗ hbTok c 41 f ∗ hbTok c 42 f ∗ hbTok c 43 f ∗ hbTok c 44 f ∗ hbTok c 45 f ∗ hbTok c 46 f ∗ hbTok c 47 f ∗ hbTok c 48 f ∗ hbTok c 49 f ∗ hbTok c 50 f ∗ hbTok c 51 f ∗ hbTok c 52 f ∗ hbTok c 53 f ∗ hbTok c 54 f ∗ hbTok c 55 f ∗ hbTok c 56 f ∗ hbTok c 57 f ∗ hbTok c 58 f ∗ hbTok c 59 f ∗ hbTok c 60 f ∗ hbTok c 61 f ∗ hbTok c 62 f ∗ hbTok c 63 f ∗ hbTok c 64 f ∗ hbTok c 65 f) := by
  have h := Transfers.pointsTo_toks_range (Ix := Unit) (Name := ℕ) (U := Pipeline.UD sig nD τ) (Lvl := ℕ) (nD := nD) (τ := τ) (sig := sig) (Val := Elt F)
    (ℓ := hbM.view.loc (c : Thread nD τ)) (S := Finset.univ) (f := f) fullShare 66
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65] (by decide) (by decide)] at h
  exact h

set_option maxHeartbeats 8000000 in
/-- The body at any point. The invariant hands it the 64 semaphores at zero, the matrix (split into its read shares for
    the run and joined again after it) and the table's half; the staging buffer is split into its 64 rows; the run
    applies; each row comes back holding the matrix row the table names for it, so each is the row of ONE contents — the
    buffer overwritten whole by those rows — and the 64 rows join into the buffer at that contents. -/
theorem sound_body (hT : TblOk m) (c : Dev nD) (t : Fin (cfgM m).N) :
    bodyPre m hT c t ⊢ wp frame (wpE (defs₀ (F := F)) Variants.none c none) Set.univ (bodyAt m t) (fun _ => bodyPost m hT c t) := by
  unfold bodyPre bodyPost bodyAt
  rw [show (dats m hT 0 c).Φ t.succ = (dats m hT 0 c).Φ t.castSucc from rfl, after0]
  rw [show (dats m hT 0 c).Φ t.castSucc = iprop(Pipeline.ΦD osem0 spec0 H0 (V m) c ∗ Pipeline.ΦT pre0 (tbl m) c) from rfl, PhiD_eq, PhiT_eq]
  unfold Dat.owesAt Pipeline.owesWithin
  rw [show (dats m hT 0 c).owed t.castSucc = 0 from rfl, show (dats m hT 0 c).owed t.succ = 0 from rfl]
  unfold outsAt outAt
  unfold owns
  iintro ⟨⟨⟨He, Hg, ⟨Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63, Hq64, Hq65⟩, Hh⟩, HT⟩, ⟨%W, -, HW⟩, ⟨%d0, %f0, -, H0⟩⟩
  ihave Hh' := (hb_split c (V m c main_v1)).1 $$ Hh
  icases Hh' with ⟨Hdrop, Hh0, Hh1, Hh2, Hh3, Hh4, Hh5, Hh6, Hh7, Hh8, Hh9, Hh10, Hh11, Hh12, Hh13, Hh14, Hh15, Hh16, Hh17, Hh18, Hh19, Hh20, Hh21, Hh22, Hh23, Hh24, Hh25, Hh26, Hh27, Hh28, Hh29, Hh30, Hh31, Hh32, Hh33, Hh34, Hh35, Hh36, Hh37, Hh38, Hh39, Hh40, Hh41, Hh42, Hh43, Hh44, Hh45, Hh46, Hh47, Hh48, Hh49, Hh50, Hh51, Hh52, Hh53, Hh54, Hh55, Hh56, Hh57, Hh58, Hh59, Hh60, Hh61, Hh62, Hh63, Hh64, Hh65⟩
  ihave H0' := (rows_split c (ms m t) f0).1 $$ H0
  icases H0' with ⟨Hr0, Hr1, Hr2, Hr3, Hr4, Hr5, Hr6, Hr7, Hr8, Hr9, Hr10, Hr11, Hr12, Hr13, Hr14, Hr15, Hr16, Hr17, Hr18, Hr19, Hr20, Hr21, Hr22, Hr23, Hr24, Hr25, Hr26, Hr27, Hr28, Hr29, Hr30, Hr31, Hr32, Hr33, Hr34, Hr35, Hr36, Hr37, Hr38, Hr39, Hr40, Hr41, Hr42, Hr43, Hr44, Hr45, Hr46, Hr47, Hr48, Hr49, Hr50, Hr51, Hr52, Hr53, Hr54, Hr55, Hr56, Hr57, Hr58, Hr59, Hr60, Hr61, Hr62, Hr63⟩
  iapply ((kernelRun c (grid0.coords t) (ms m t) (hs m t) (tbl m 0) (V m c main_v1) hT f0).2 W _)
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  isplitl [Hr14]; · iexact Hr14
  isplitl [Hr15]; · iexact Hr15
  isplitl [Hr16]; · iexact Hr16
  isplitl [Hr17]; · iexact Hr17
  isplitl [Hr18]; · iexact Hr18
  isplitl [Hr19]; · iexact Hr19
  isplitl [Hr20]; · iexact Hr20
  isplitl [Hr21]; · iexact Hr21
  isplitl [Hr22]; · iexact Hr22
  isplitl [Hr23]; · iexact Hr23
  isplitl [Hr24]; · iexact Hr24
  isplitl [Hr25]; · iexact Hr25
  isplitl [Hr26]; · iexact Hr26
  isplitl [Hr27]; · iexact Hr27
  isplitl [Hr28]; · iexact Hr28
  isplitl [Hr29]; · iexact Hr29
  isplitl [Hr30]; · iexact Hr30
  isplitl [Hr31]; · iexact Hr31
  isplitl [Hr32]; · iexact Hr32
  isplitl [Hr33]; · iexact Hr33
  isplitl [Hr34]; · iexact Hr34
  isplitl [Hr35]; · iexact Hr35
  isplitl [Hr36]; · iexact Hr36
  isplitl [Hr37]; · iexact Hr37
  isplitl [Hr38]; · iexact Hr38
  isplitl [Hr39]; · iexact Hr39
  isplitl [Hr40]; · iexact Hr40
  isplitl [Hr41]; · iexact Hr41
  isplitl [Hr42]; · iexact Hr42
  isplitl [Hr43]; · iexact Hr43
  isplitl [Hr44]; · iexact Hr44
  isplitl [Hr45]; · iexact Hr45
  isplitl [Hr46]; · iexact Hr46
  isplitl [Hr47]; · iexact Hr47
  isplitl [Hr48]; · iexact Hr48
  isplitl [Hr49]; · iexact Hr49
  isplitl [Hr50]; · iexact Hr50
  isplitl [Hr51]; · iexact Hr51
  isplitl [Hr52]; · iexact Hr52
  isplitl [Hr53]; · iexact Hr53
  isplitl [Hr54]; · iexact Hr54
  isplitl [Hr55]; · iexact Hr55
  isplitl [Hr56]; · iexact Hr56
  isplitl [Hr57]; · iexact Hr57
  isplitl [Hr58]; · iexact Hr58
  isplitl [Hr59]; · iexact Hr59
  isplitl [Hr60]; · iexact Hr60
  isplitl [Hr61]; · iexact Hr61
  isplitl [Hr62]; · iexact Hr62
  isplitl [Hr63]; · iexact Hr63
  isplitl [HT]; · iexact HT
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hq33]; · iexact Hq33
  isplitl [Hq34]; · iexact Hq34
  isplitl [Hq35]; · iexact Hq35
  isplitl [Hq36]; · iexact Hq36
  isplitl [Hq37]; · iexact Hq37
  isplitl [Hq38]; · iexact Hq38
  isplitl [Hq39]; · iexact Hq39
  isplitl [Hq40]; · iexact Hq40
  isplitl [Hq41]; · iexact Hq41
  isplitl [Hq42]; · iexact Hq42
  isplitl [Hq43]; · iexact Hq43
  isplitl [Hq44]; · iexact Hq44
  isplitl [Hq45]; · iexact Hq45
  isplitl [Hq46]; · iexact Hq46
  isplitl [Hq47]; · iexact Hq47
  isplitl [Hq48]; · iexact Hq48
  isplitl [Hq49]; · iexact Hq49
  isplitl [Hq50]; · iexact Hq50
  isplitl [Hq51]; · iexact Hq51
  isplitl [Hq52]; · iexact Hq52
  isplitl [Hq53]; · iexact Hq53
  isplitl [Hq54]; · iexact Hq54
  isplitl [Hq55]; · iexact Hq55
  isplitl [Hq56]; · iexact Hq56
  isplitl [Hq57]; · iexact Hq57
  isplitl [Hq58]; · iexact Hq58
  isplitl [Hq59]; · iexact Hq59
  isplitl [Hq60]; · iexact Hq60
  isplitl [Hq61]; · iexact Hq61
  isplitl [Hq62]; · iexact Hq62
  isplitl [Hq63]; · iexact Hq63
  isplitl [Hq64]; · iexact Hq64
  isplitl [Hq65]; · iexact Hq65
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hh10]; · iexact Hh10
  isplitl [Hh11]; · iexact Hh11
  isplitl [Hh12]; · iexact Hh12
  isplitl [Hh13]; · iexact Hh13
  isplitl [Hh14]; · iexact Hh14
  isplitl [Hh15]; · iexact Hh15
  isplitl [Hh16]; · iexact Hh16
  isplitl [Hh17]; · iexact Hh17
  isplitl [Hh18]; · iexact Hh18
  isplitl [Hh19]; · iexact Hh19
  isplitl [Hh20]; · iexact Hh20
  isplitl [Hh21]; · iexact Hh21
  isplitl [Hh22]; · iexact Hh22
  isplitl [Hh23]; · iexact Hh23
  isplitl [Hh24]; · iexact Hh24
  isplitl [Hh25]; · iexact Hh25
  isplitl [Hh26]; · iexact Hh26
  isplitl [Hh27]; · iexact Hh27
  isplitl [Hh28]; · iexact Hh28
  isplitl [Hh29]; · iexact Hh29
  isplitl [Hh30]; · iexact Hh30
  isplitl [Hh31]; · iexact Hh31
  isplitl [Hh32]; · iexact Hh32
  isplitl [Hh33]; · iexact Hh33
  isplitl [Hh34]; · iexact Hh34
  isplitl [Hh35]; · iexact Hh35
  isplitl [Hh36]; · iexact Hh36
  isplitl [Hh37]; · iexact Hh37
  isplitl [Hh38]; · iexact Hh38
  isplitl [Hh39]; · iexact Hh39
  isplitl [Hh40]; · iexact Hh40
  isplitl [Hh41]; · iexact Hh41
  isplitl [Hh42]; · iexact Hh42
  isplitl [Hh43]; · iexact Hh43
  isplitl [Hh44]; · iexact Hh44
  isplitl [Hh45]; · iexact Hh45
  isplitl [Hh46]; · iexact Hh46
  isplitl [Hh47]; · iexact Hh47
  isplitl [Hh48]; · iexact Hh48
  isplitl [Hh49]; · iexact Hh49
  isplitl [Hh50]; · iexact Hh50
  isplitl [Hh51]; · iexact Hh51
  isplitl [Hh52]; · iexact Hh52
  isplitl [Hh53]; · iexact Hh53
  isplitl [Hh54]; · iexact Hh54
  isplitl [Hh55]; · iexact Hh55
  isplitl [Hh56]; · iexact Hh56
  isplitl [Hh57]; · iexact Hh57
  isplitl [Hh58]; · iexact Hh58
  isplitl [Hh59]; · iexact Hh59
  isplitl [Hh60]; · iexact Hh60
  isplitl [Hh61]; · iexact Hh61
  isplitl [Hh62]; · iexact Hh62
  isplitl [Hh63]; · iexact Hh63
  isplitl [Hh64]; · iexact Hh64
  isplitl [Hh65]; · iexact Hh65
  isplitl [HW]; · iexact HW
  iintro ⟨Hr0, Hr1, Hr2, Hr3, Hr4, Hr5, Hr6, Hr7, Hr8, Hr9, Hr10, Hr11, Hr12, Hr13, Hr14, Hr15, Hr16, Hr17, Hr18, Hr19, Hr20, Hr21, Hr22, Hr23, Hr24, Hr25, Hr26, Hr27, Hr28, Hr29, Hr30, Hr31, Hr32, Hr33, Hr34, Hr35, Hr36, Hr37, Hr38, Hr39, Hr40, Hr41, Hr42, Hr43, Hr44, Hr45, Hr46, Hr47, Hr48, Hr49, Hr50, Hr51, Hr52, Hr53, Hr54, Hr55, Hr56, Hr57, Hr58, Hr59, Hr60, Hr61, Hr62, Hr63, HT, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63, Hq64, Hq65, Hh2, Hh3, Hh4, Hh5, Hh6, Hh7, Hh8, Hh9, Hh10, Hh11, Hh12, Hh13, Hh14, Hh15, Hh16, Hh17, Hh18, Hh19, Hh20, Hh21, Hh22, Hh23, Hh24, Hh25, Hh26, Hh27, Hh28, Hh29, Hh30, Hh31, Hh32, Hh33, Hh34, Hh35, Hh36, Hh37, Hh38, Hh39, Hh40, Hh41, Hh42, Hh43, Hh44, Hh45, Hh46, Hh47, Hh48, Hh49, Hh50, Hh51, Hh52, Hh53, Hh54, Hh55, Hh56, Hh57, Hh58, Hh59, Hh60, Hh61, Hh62, Hh63, Hh64, Hh65, ⟨%W', HW'⟩⟩
  ihave Hr0 := (row_congr c (ms m t) 0 (lt64 0 rfl) _ ((ms m t).view.write (Elt F) f0 (rowsOf c (grid0.coords t) (tbl m 0) (V m c main_v1)) Finset.univ) (fun e => (row_value_0 c (grid0.coords t) (ms m t) (hs m t) (tbl m 0) (V m c main_v1) hT f0 e).trans (congrFun (read_write_all c (ms m t) f0 _) _).symm)) $$ Hr0
  ihave Hr1 := (row_congr c (ms m t) 1 (lt64 1 rfl) _ ((ms m t).view.write (Elt F) f0 (rowsOf c (grid0.coords t) (tbl m 0) (V m c main_v1)) Finset.univ) (fun e => (row_value_1 c (grid0.coords t) (ms m t) (hs m t) (tbl m 0) (V m c main_v1) hT f0 e).trans (congrFun (read_write_all c (ms m t) f0 _) _).symm)) $$ Hr1
  ihave Hr2 := (row_congr c (ms m t) 2 (lt64 2 rfl) _ ((ms m t).view.write (Elt F) f0 (rowsOf c (grid0.coords t) (tbl m 0) (V m c main_v1)) Finset.univ) (fun e => (row_value_2 c (grid0.coords t) (ms m t) (hs m t) (tbl m 0) (V m c main_v1) hT f0 e).trans (congrFun (read_write_all c (ms m t) f0 _) _).symm)) $$ Hr2
  ihave Hr3 := (row_congr c (ms m t) 3 (lt64 3 rfl) _ ((ms m t).view.write (Elt F) f0 (rowsOf c (grid0.coords t) (tbl m 0) (V m c main_v1)) Finset.univ) (fun e => (row_value_3 c (grid0.coords t) (ms m t) (hs m t) (tbl m 0) (V m c main_v1) hT f0 e).trans (congrFun (read_write_all c (ms m t) f0 _) _).symm)) $$ Hr3
  ihave Hr4 := (row_congr c (ms m t) 4 (lt64 4 rfl) _ ((ms m t).view.write (Elt F) f0 (rowsOf c (grid0.coords t) (tbl m 0) (V m c main_v1)) Finset.univ) (fun e => (row_value_4 c (grid0.coords t) (ms m t) (hs m t) (tbl m 0) (V m c main_v1) hT f0 e).trans (congrFun (read_write_all c (ms m t) f0 _) _).symm)) $$ Hr4
  ihave Hr5 := (row_congr c (ms m t) 5 (lt64 5 rfl) _ ((ms m t).view.write (Elt F) f0 (rowsOf c (grid0.coords t) (tbl m 0) (V m c main_v1)) Finset.univ) (fun e => (row_value_5 c (grid0.coords t) (ms m t) (hs m t) (tbl m 0) (V m c main_v1) hT f0 e).trans (congrFun (read_write_all c (ms m t) f0 _) _).symm)) $$ Hr5
  ihave Hr6 := (row_congr c (ms m t) 6 (lt64 6 rfl) _ ((ms m t).view.write (Elt F) f0 (rowsOf c (grid0.coords t) (tbl m 0) (V m c main_v1)) Finset.univ) (fun e => (row_value_6 c (grid0.coords t) (ms m t) (hs m t) (tbl m 0) (V m c main_v1) hT f0 e).trans (congrFun (read_write_all c (ms m t) f0 _) _).symm)) $$ Hr6
  ihave Hr7 := (row_congr c (ms m t) 7 (lt64 7 rfl) _ ((ms m t).view.write (Elt F) f0 (rowsOf c (grid0.coords t) (tbl m 0) (V m c main_v1)) Finset.univ) (fun e => (row_value_7 c (grid0.coords t) (ms m t) (hs m t) (tbl m 0) (V m c main_v1) hT f0 e).trans (congrFun (read_write_all c (ms m t) f0 _) _).symm)) $$ Hr7
  ihave Hr8 := (row_congr c (ms m t) 8 (lt64 8 rfl) _ ((ms m t).view.write (Elt F) f0 (rowsOf c (grid0.coords t) (tbl m 0) (V m c main_v1)) Finset.univ) (fun e => (row_value_8 c (grid0.coords t) (ms m t) (hs m t) (tbl m 0) (V m c main_v1) hT f0 e).trans (congrFun (read_write_all c (ms m t) f0 _) _).symm)) $$ Hr8
  ihave Hr9 := (row_congr c (ms m t) 9 (lt64 9 rfl) _ ((ms m t).view.write (Elt F) f0 (rowsOf c (grid0.coords t) (tbl m 0) (V m c main_v1)) Finset.univ) (fun e => (row_value_9 c (grid0.coords t) (ms m t) (hs m t) (tbl m 0) (V m c main_v1) hT f0 e).trans (congrFun (read_write_all c (ms m t) f0 _) _).symm)) $$ Hr9
  ihave Hr10 := (row_congr c (ms m t) 10 (lt64 10 rfl) _ ((ms m t).view.write (Elt F) f0 (rowsOf c (grid0.coords t) (tbl m 0) (V m c main_v1)) Finset.univ) (fun e => (row_value_10 c (grid0.coords t) (ms m t) (hs m t) (tbl m 0) (V m c main_v1) hT f0 e).trans (congrFun (read_write_all c (ms m t) f0 _) _).symm)) $$ Hr10
  ihave Hr11 := (row_congr c (ms m t) 11 (lt64 11 rfl) _ ((ms m t).view.write (Elt F) f0 (rowsOf c (grid0.coords t) (tbl m 0) (V m c main_v1)) Finset.univ) (fun e => (row_value_11 c (grid0.coords t) (ms m t) (hs m t) (tbl m 0) (V m c main_v1) hT f0 e).trans (congrFun (read_write_all c (ms m t) f0 _) _).symm)) $$ Hr11
  ihave Hr12 := (row_congr c (ms m t) 12 (lt64 12 rfl) _ ((ms m t).view.write (Elt F) f0 (rowsOf c (grid0.coords t) (tbl m 0) (V m c main_v1)) Finset.univ) (fun e => (row_value_12 c (grid0.coords t) (ms m t) (hs m t) (tbl m 0) (V m c main_v1) hT f0 e).trans (congrFun (read_write_all c (ms m t) f0 _) _).symm)) $$ Hr12
  ihave Hr13 := (row_congr c (ms m t) 13 (lt64 13 rfl) _ ((ms m t).view.write (Elt F) f0 (rowsOf c (grid0.coords t) (tbl m 0) (V m c main_v1)) Finset.univ) (fun e => (row_value_13 c (grid0.coords t) (ms m t) (hs m t) (tbl m 0) (V m c main_v1) hT f0 e).trans (congrFun (read_write_all c (ms m t) f0 _) _).symm)) $$ Hr13
  ihave Hr14 := (row_congr c (ms m t) 14 (lt64 14 rfl) _ ((ms m t).view.write (Elt F) f0 (rowsOf c (grid0.coords t) (tbl m 0) (V m c main_v1)) Finset.univ) (fun e => (row_value_14 c (grid0.coords t) (ms m t) (hs m t) (tbl m 0) (V m c main_v1) hT f0 e).trans (congrFun (read_write_all c (ms m t) f0 _) _).symm)) $$ Hr14
  ihave Hr15 := (row_congr c (ms m t) 15 (lt64 15 rfl) _ ((ms m t).view.write (Elt F) f0 (rowsOf c (grid0.coords t) (tbl m 0) (V m c main_v1)) Finset.univ) (fun e => (row_value_15 c (grid0.coords t) (ms m t) (hs m t) (tbl m 0) (V m c main_v1) hT f0 e).trans (congrFun (read_write_all c (ms m t) f0 _) _).symm)) $$ Hr15
  ihave Hr16 := (row_congr c (ms m t) 16 (lt64 16 rfl) _ ((ms m t).view.write (Elt F) f0 (rowsOf c (grid0.coords t) (tbl m 0) (V m c main_v1)) Finset.univ) (fun e => (row_value_16 c (grid0.coords t) (ms m t) (hs m t) (tbl m 0) (V m c main_v1) hT f0 e).trans (congrFun (read_write_all c (ms m t) f0 _) _).symm)) $$ Hr16
  ihave Hr17 := (row_congr c (ms m t) 17 (lt64 17 rfl) _ ((ms m t).view.write (Elt F) f0 (rowsOf c (grid0.coords t) (tbl m 0) (V m c main_v1)) Finset.univ) (fun e => (row_value_17 c (grid0.coords t) (ms m t) (hs m t) (tbl m 0) (V m c main_v1) hT f0 e).trans (congrFun (read_write_all c (ms m t) f0 _) _).symm)) $$ Hr17
  ihave Hr18 := (row_congr c (ms m t) 18 (lt64 18 rfl) _ ((ms m t).view.write (Elt F) f0 (rowsOf c (grid0.coords t) (tbl m 0) (V m c main_v1)) Finset.univ) (fun e => (row_value_18 c (grid0.coords t) (ms m t) (hs m t) (tbl m 0) (V m c main_v1) hT f0 e).trans (congrFun (read_write_all c (ms m t) f0 _) _).symm)) $$ Hr18
  ihave Hr19 := (row_congr c (ms m t) 19 (lt64 19 rfl) _ ((ms m t).view.write (Elt F) f0 (rowsOf c (grid0.coords t) (tbl m 0) (V m c main_v1)) Finset.univ) (fun e => (row_value_19 c (grid0.coords t) (ms m t) (hs m t) (tbl m 0) (V m c main_v1) hT f0 e).trans (congrFun (read_write_all c (ms m t) f0 _) _).symm)) $$ Hr19
  ihave Hr20 := (row_congr c (ms m t) 20 (lt64 20 rfl) _ ((ms m t).view.write (Elt F) f0 (rowsOf c (grid0.coords t) (tbl m 0) (V m c main_v1)) Finset.univ) (fun e => (row_value_20 c (grid0.coords t) (ms m t) (hs m t) (tbl m 0) (V m c main_v1) hT f0 e).trans (congrFun (read_write_all c (ms m t) f0 _) _).symm)) $$ Hr20
  ihave Hr21 := (row_congr c (ms m t) 21 (lt64 21 rfl) _ ((ms m t).view.write (Elt F) f0 (rowsOf c (grid0.coords t) (tbl m 0) (V m c main_v1)) Finset.univ) (fun e => (row_value_21 c (grid0.coords t) (ms m t) (hs m t) (tbl m 0) (V m c main_v1) hT f0 e).trans (congrFun (read_write_all c (ms m t) f0 _) _).symm)) $$ Hr21
  ihave Hr22 := (row_congr c (ms m t) 22 (lt64 22 rfl) _ ((ms m t).view.write (Elt F) f0 (rowsOf c (grid0.coords t) (tbl m 0) (V m c main_v1)) Finset.univ) (fun e => (row_value_22 c (grid0.coords t) (ms m t) (hs m t) (tbl m 0) (V m c main_v1) hT f0 e).trans (congrFun (read_write_all c (ms m t) f0 _) _).symm)) $$ Hr22
  ihave Hr23 := (row_congr c (ms m t) 23 (lt64 23 rfl) _ ((ms m t).view.write (Elt F) f0 (rowsOf c (grid0.coords t) (tbl m 0) (V m c main_v1)) Finset.univ) (fun e => (row_value_23 c (grid0.coords t) (ms m t) (hs m t) (tbl m 0) (V m c main_v1) hT f0 e).trans (congrFun (read_write_all c (ms m t) f0 _) _).symm)) $$ Hr23
  ihave Hr24 := (row_congr c (ms m t) 24 (lt64 24 rfl) _ ((ms m t).view.write (Elt F) f0 (rowsOf c (grid0.coords t) (tbl m 0) (V m c main_v1)) Finset.univ) (fun e => (row_value_24 c (grid0.coords t) (ms m t) (hs m t) (tbl m 0) (V m c main_v1) hT f0 e).trans (congrFun (read_write_all c (ms m t) f0 _) _).symm)) $$ Hr24
  ihave Hr25 := (row_congr c (ms m t) 25 (lt64 25 rfl) _ ((ms m t).view.write (Elt F) f0 (rowsOf c (grid0.coords t) (tbl m 0) (V m c main_v1)) Finset.univ) (fun e => (row_value_25 c (grid0.coords t) (ms m t) (hs m t) (tbl m 0) (V m c main_v1) hT f0 e).trans (congrFun (read_write_all c (ms m t) f0 _) _).symm)) $$ Hr25
  ihave Hr26 := (row_congr c (ms m t) 26 (lt64 26 rfl) _ ((ms m t).view.write (Elt F) f0 (rowsOf c (grid0.coords t) (tbl m 0) (V m c main_v1)) Finset.univ) (fun e => (row_value_26 c (grid0.coords t) (ms m t) (hs m t) (tbl m 0) (V m c main_v1) hT f0 e).trans (congrFun (read_write_all c (ms m t) f0 _) _).symm)) $$ Hr26
  ihave Hr27 := (row_congr c (ms m t) 27 (lt64 27 rfl) _ ((ms m t).view.write (Elt F) f0 (rowsOf c (grid0.coords t) (tbl m 0) (V m c main_v1)) Finset.univ) (fun e => (row_value_27 c (grid0.coords t) (ms m t) (hs m t) (tbl m 0) (V m c main_v1) hT f0 e).trans (congrFun (read_write_all c (ms m t) f0 _) _).symm)) $$ Hr27
  ihave Hr28 := (row_congr c (ms m t) 28 (lt64 28 rfl) _ ((ms m t).view.write (Elt F) f0 (rowsOf c (grid0.coords t) (tbl m 0) (V m c main_v1)) Finset.univ) (fun e => (row_value_28 c (grid0.coords t) (ms m t) (hs m t) (tbl m 0) (V m c main_v1) hT f0 e).trans (congrFun (read_write_all c (ms m t) f0 _) _).symm)) $$ Hr28
  ihave Hr29 := (row_congr c (ms m t) 29 (lt64 29 rfl) _ ((ms m t).view.write (Elt F) f0 (rowsOf c (grid0.coords t) (tbl m 0) (V m c main_v1)) Finset.univ) (fun e => (row_value_29 c (grid0.coords t) (ms m t) (hs m t) (tbl m 0) (V m c main_v1) hT f0 e).trans (congrFun (read_write_all c (ms m t) f0 _) _).symm)) $$ Hr29
  ihave Hr30 := (row_congr c (ms m t) 30 (lt64 30 rfl) _ ((ms m t).view.write (Elt F) f0 (rowsOf c (grid0.coords t) (tbl m 0) (V m c main_v1)) Finset.univ) (fun e => (row_value_30 c (grid0.coords t) (ms m t) (hs m t) (tbl m 0) (V m c main_v1) hT f0 e).trans (congrFun (read_write_all c (ms m t) f0 _) _).symm)) $$ Hr30
  ihave Hr31 := (row_congr c (ms m t) 31 (lt64 31 rfl) _ ((ms m t).view.write (Elt F) f0 (rowsOf c (grid0.coords t) (tbl m 0) (V m c main_v1)) Finset.univ) (fun e => (row_value_31 c (grid0.coords t) (ms m t) (hs m t) (tbl m 0) (V m c main_v1) hT f0 e).trans (congrFun (read_write_all c (ms m t) f0 _) _).symm)) $$ Hr31
  ihave Hr32 := (row_congr c (ms m t) 32 (lt64 32 rfl) _ ((ms m t).view.write (Elt F) f0 (rowsOf c (grid0.coords t) (tbl m 0) (V m c main_v1)) Finset.univ) (fun e => (row_value_32 c (grid0.coords t) (ms m t) (hs m t) (tbl m 0) (V m c main_v1) hT f0 e).trans (congrFun (read_write_all c (ms m t) f0 _) _).symm)) $$ Hr32
  ihave Hr33 := (row_congr c (ms m t) 33 (lt64 33 rfl) _ ((ms m t).view.write (Elt F) f0 (rowsOf c (grid0.coords t) (tbl m 0) (V m c main_v1)) Finset.univ) (fun e => (row_value_33 c (grid0.coords t) (ms m t) (hs m t) (tbl m 0) (V m c main_v1) hT f0 e).trans (congrFun (read_write_all c (ms m t) f0 _) _).symm)) $$ Hr33
  ihave Hr34 := (row_congr c (ms m t) 34 (lt64 34 rfl) _ ((ms m t).view.write (Elt F) f0 (rowsOf c (grid0.coords t) (tbl m 0) (V m c main_v1)) Finset.univ) (fun e => (row_value_34 c (grid0.coords t) (ms m t) (hs m t) (tbl m 0) (V m c main_v1) hT f0 e).trans (congrFun (read_write_all c (ms m t) f0 _) _).symm)) $$ Hr34
  ihave Hr35 := (row_congr c (ms m t) 35 (lt64 35 rfl) _ ((ms m t).view.write (Elt F) f0 (rowsOf c (grid0.coords t) (tbl m 0) (V m c main_v1)) Finset.univ) (fun e => (row_value_35 c (grid0.coords t) (ms m t) (hs m t) (tbl m 0) (V m c main_v1) hT f0 e).trans (congrFun (read_write_all c (ms m t) f0 _) _).symm)) $$ Hr35
  ihave Hr36 := (row_congr c (ms m t) 36 (lt64 36 rfl) _ ((ms m t).view.write (Elt F) f0 (rowsOf c (grid0.coords t) (tbl m 0) (V m c main_v1)) Finset.univ) (fun e => (row_value_36 c (grid0.coords t) (ms m t) (hs m t) (tbl m 0) (V m c main_v1) hT f0 e).trans (congrFun (read_write_all c (ms m t) f0 _) _).symm)) $$ Hr36
  ihave Hr37 := (row_congr c (ms m t) 37 (lt64 37 rfl) _ ((ms m t).view.write (Elt F) f0 (rowsOf c (grid0.coords t) (tbl m 0) (V m c main_v1)) Finset.univ) (fun e => (row_value_37 c (grid0.coords t) (ms m t) (hs m t) (tbl m 0) (V m c main_v1) hT f0 e).trans (congrFun (read_write_all c (ms m t) f0 _) _).symm)) $$ Hr37
  ihave Hr38 := (row_congr c (ms m t) 38 (lt64 38 rfl) _ ((ms m t).view.write (Elt F) f0 (rowsOf c (grid0.coords t) (tbl m 0) (V m c main_v1)) Finset.univ) (fun e => (row_value_38 c (grid0.coords t) (ms m t) (hs m t) (tbl m 0) (V m c main_v1) hT f0 e).trans (congrFun (read_write_all c (ms m t) f0 _) _).symm)) $$ Hr38
  ihave Hr39 := (row_congr c (ms m t) 39 (lt64 39 rfl) _ ((ms m t).view.write (Elt F) f0 (rowsOf c (grid0.coords t) (tbl m 0) (V m c main_v1)) Finset.univ) (fun e => (row_value_39 c (grid0.coords t) (ms m t) (hs m t) (tbl m 0) (V m c main_v1) hT f0 e).trans (congrFun (read_write_all c (ms m t) f0 _) _).symm)) $$ Hr39
  ihave Hr40 := (row_congr c (ms m t) 40 (lt64 40 rfl) _ ((ms m t).view.write (Elt F) f0 (rowsOf c (grid0.coords t) (tbl m 0) (V m c main_v1)) Finset.univ) (fun e => (row_value_40 c (grid0.coords t) (ms m t) (hs m t) (tbl m 0) (V m c main_v1) hT f0 e).trans (congrFun (read_write_all c (ms m t) f0 _) _).symm)) $$ Hr40
  ihave Hr41 := (row_congr c (ms m t) 41 (lt64 41 rfl) _ ((ms m t).view.write (Elt F) f0 (rowsOf c (grid0.coords t) (tbl m 0) (V m c main_v1)) Finset.univ) (fun e => (row_value_41 c (grid0.coords t) (ms m t) (hs m t) (tbl m 0) (V m c main_v1) hT f0 e).trans (congrFun (read_write_all c (ms m t) f0 _) _).symm)) $$ Hr41
  ihave Hr42 := (row_congr c (ms m t) 42 (lt64 42 rfl) _ ((ms m t).view.write (Elt F) f0 (rowsOf c (grid0.coords t) (tbl m 0) (V m c main_v1)) Finset.univ) (fun e => (row_value_42 c (grid0.coords t) (ms m t) (hs m t) (tbl m 0) (V m c main_v1) hT f0 e).trans (congrFun (read_write_all c (ms m t) f0 _) _).symm)) $$ Hr42
  ihave Hr43 := (row_congr c (ms m t) 43 (lt64 43 rfl) _ ((ms m t).view.write (Elt F) f0 (rowsOf c (grid0.coords t) (tbl m 0) (V m c main_v1)) Finset.univ) (fun e => (row_value_43 c (grid0.coords t) (ms m t) (hs m t) (tbl m 0) (V m c main_v1) hT f0 e).trans (congrFun (read_write_all c (ms m t) f0 _) _).symm)) $$ Hr43
  ihave Hr44 := (row_congr c (ms m t) 44 (lt64 44 rfl) _ ((ms m t).view.write (Elt F) f0 (rowsOf c (grid0.coords t) (tbl m 0) (V m c main_v1)) Finset.univ) (fun e => (row_value_44 c (grid0.coords t) (ms m t) (hs m t) (tbl m 0) (V m c main_v1) hT f0 e).trans (congrFun (read_write_all c (ms m t) f0 _) _).symm)) $$ Hr44
  ihave Hr45 := (row_congr c (ms m t) 45 (lt64 45 rfl) _ ((ms m t).view.write (Elt F) f0 (rowsOf c (grid0.coords t) (tbl m 0) (V m c main_v1)) Finset.univ) (fun e => (row_value_45 c (grid0.coords t) (ms m t) (hs m t) (tbl m 0) (V m c main_v1) hT f0 e).trans (congrFun (read_write_all c (ms m t) f0 _) _).symm)) $$ Hr45
  ihave Hr46 := (row_congr c (ms m t) 46 (lt64 46 rfl) _ ((ms m t).view.write (Elt F) f0 (rowsOf c (grid0.coords t) (tbl m 0) (V m c main_v1)) Finset.univ) (fun e => (row_value_46 c (grid0.coords t) (ms m t) (hs m t) (tbl m 0) (V m c main_v1) hT f0 e).trans (congrFun (read_write_all c (ms m t) f0 _) _).symm)) $$ Hr46
  ihave Hr47 := (row_congr c (ms m t) 47 (lt64 47 rfl) _ ((ms m t).view.write (Elt F) f0 (rowsOf c (grid0.coords t) (tbl m 0) (V m c main_v1)) Finset.univ) (fun e => (row_value_47 c (grid0.coords t) (ms m t) (hs m t) (tbl m 0) (V m c main_v1) hT f0 e).trans (congrFun (read_write_all c (ms m t) f0 _) _).symm)) $$ Hr47
  ihave Hr48 := (row_congr c (ms m t) 48 (lt64 48 rfl) _ ((ms m t).view.write (Elt F) f0 (rowsOf c (grid0.coords t) (tbl m 0) (V m c main_v1)) Finset.univ) (fun e => (row_value_48 c (grid0.coords t) (ms m t) (hs m t) (tbl m 0) (V m c main_v1) hT f0 e).trans (congrFun (read_write_all c (ms m t) f0 _) _).symm)) $$ Hr48
  ihave Hr49 := (row_congr c (ms m t) 49 (lt64 49 rfl) _ ((ms m t).view.write (Elt F) f0 (rowsOf c (grid0.coords t) (tbl m 0) (V m c main_v1)) Finset.univ) (fun e => (row_value_49 c (grid0.coords t) (ms m t) (hs m t) (tbl m 0) (V m c main_v1) hT f0 e).trans (congrFun (read_write_all c (ms m t) f0 _) _).symm)) $$ Hr49
  ihave Hr50 := (row_congr c (ms m t) 50 (lt64 50 rfl) _ ((ms m t).view.write (Elt F) f0 (rowsOf c (grid0.coords t) (tbl m 0) (V m c main_v1)) Finset.univ) (fun e => (row_value_50 c (grid0.coords t) (ms m t) (hs m t) (tbl m 0) (V m c main_v1) hT f0 e).trans (congrFun (read_write_all c (ms m t) f0 _) _).symm)) $$ Hr50
  ihave Hr51 := (row_congr c (ms m t) 51 (lt64 51 rfl) _ ((ms m t).view.write (Elt F) f0 (rowsOf c (grid0.coords t) (tbl m 0) (V m c main_v1)) Finset.univ) (fun e => (row_value_51 c (grid0.coords t) (ms m t) (hs m t) (tbl m 0) (V m c main_v1) hT f0 e).trans (congrFun (read_write_all c (ms m t) f0 _) _).symm)) $$ Hr51
  ihave Hr52 := (row_congr c (ms m t) 52 (lt64 52 rfl) _ ((ms m t).view.write (Elt F) f0 (rowsOf c (grid0.coords t) (tbl m 0) (V m c main_v1)) Finset.univ) (fun e => (row_value_52 c (grid0.coords t) (ms m t) (hs m t) (tbl m 0) (V m c main_v1) hT f0 e).trans (congrFun (read_write_all c (ms m t) f0 _) _).symm)) $$ Hr52
  ihave Hr53 := (row_congr c (ms m t) 53 (lt64 53 rfl) _ ((ms m t).view.write (Elt F) f0 (rowsOf c (grid0.coords t) (tbl m 0) (V m c main_v1)) Finset.univ) (fun e => (row_value_53 c (grid0.coords t) (ms m t) (hs m t) (tbl m 0) (V m c main_v1) hT f0 e).trans (congrFun (read_write_all c (ms m t) f0 _) _).symm)) $$ Hr53
  ihave Hr54 := (row_congr c (ms m t) 54 (lt64 54 rfl) _ ((ms m t).view.write (Elt F) f0 (rowsOf c (grid0.coords t) (tbl m 0) (V m c main_v1)) Finset.univ) (fun e => (row_value_54 c (grid0.coords t) (ms m t) (hs m t) (tbl m 0) (V m c main_v1) hT f0 e).trans (congrFun (read_write_all c (ms m t) f0 _) _).symm)) $$ Hr54
  ihave Hr55 := (row_congr c (ms m t) 55 (lt64 55 rfl) _ ((ms m t).view.write (Elt F) f0 (rowsOf c (grid0.coords t) (tbl m 0) (V m c main_v1)) Finset.univ) (fun e => (row_value_55 c (grid0.coords t) (ms m t) (hs m t) (tbl m 0) (V m c main_v1) hT f0 e).trans (congrFun (read_write_all c (ms m t) f0 _) _).symm)) $$ Hr55
  ihave Hr56 := (row_congr c (ms m t) 56 (lt64 56 rfl) _ ((ms m t).view.write (Elt F) f0 (rowsOf c (grid0.coords t) (tbl m 0) (V m c main_v1)) Finset.univ) (fun e => (row_value_56 c (grid0.coords t) (ms m t) (hs m t) (tbl m 0) (V m c main_v1) hT f0 e).trans (congrFun (read_write_all c (ms m t) f0 _) _).symm)) $$ Hr56
  ihave Hr57 := (row_congr c (ms m t) 57 (lt64 57 rfl) _ ((ms m t).view.write (Elt F) f0 (rowsOf c (grid0.coords t) (tbl m 0) (V m c main_v1)) Finset.univ) (fun e => (row_value_57 c (grid0.coords t) (ms m t) (hs m t) (tbl m 0) (V m c main_v1) hT f0 e).trans (congrFun (read_write_all c (ms m t) f0 _) _).symm)) $$ Hr57
  ihave Hr58 := (row_congr c (ms m t) 58 (lt64 58 rfl) _ ((ms m t).view.write (Elt F) f0 (rowsOf c (grid0.coords t) (tbl m 0) (V m c main_v1)) Finset.univ) (fun e => (row_value_58 c (grid0.coords t) (ms m t) (hs m t) (tbl m 0) (V m c main_v1) hT f0 e).trans (congrFun (read_write_all c (ms m t) f0 _) _).symm)) $$ Hr58
  ihave Hr59 := (row_congr c (ms m t) 59 (lt64 59 rfl) _ ((ms m t).view.write (Elt F) f0 (rowsOf c (grid0.coords t) (tbl m 0) (V m c main_v1)) Finset.univ) (fun e => (row_value_59 c (grid0.coords t) (ms m t) (hs m t) (tbl m 0) (V m c main_v1) hT f0 e).trans (congrFun (read_write_all c (ms m t) f0 _) _).symm)) $$ Hr59
  ihave Hr60 := (row_congr c (ms m t) 60 (lt64 60 rfl) _ ((ms m t).view.write (Elt F) f0 (rowsOf c (grid0.coords t) (tbl m 0) (V m c main_v1)) Finset.univ) (fun e => (row_value_60 c (grid0.coords t) (ms m t) (hs m t) (tbl m 0) (V m c main_v1) hT f0 e).trans (congrFun (read_write_all c (ms m t) f0 _) _).symm)) $$ Hr60
  ihave Hr61 := (row_congr c (ms m t) 61 (lt64 61 rfl) _ ((ms m t).view.write (Elt F) f0 (rowsOf c (grid0.coords t) (tbl m 0) (V m c main_v1)) Finset.univ) (fun e => (row_value_61 c (grid0.coords t) (ms m t) (hs m t) (tbl m 0) (V m c main_v1) hT f0 e).trans (congrFun (read_write_all c (ms m t) f0 _) _).symm)) $$ Hr61
  ihave Hr62 := (row_congr c (ms m t) 62 (lt64 62 rfl) _ ((ms m t).view.write (Elt F) f0 (rowsOf c (grid0.coords t) (tbl m 0) (V m c main_v1)) Finset.univ) (fun e => (row_value_62 c (grid0.coords t) (ms m t) (hs m t) (tbl m 0) (V m c main_v1) hT f0 e).trans (congrFun (read_write_all c (ms m t) f0 _) _).symm)) $$ Hr62
  ihave Hr63 := (row_congr c (ms m t) 63 (lt64 63 rfl) _ ((ms m t).view.write (Elt F) f0 (rowsOf c (grid0.coords t) (tbl m 0) (V m c main_v1)) Finset.univ) (fun e => (row_value_63 c (grid0.coords t) (ms m t) (hs m t) (tbl m 0) (V m c main_v1) hT f0 e).trans (congrFun (read_write_all c (ms m t) f0 _) _).symm)) $$ Hr63
  isplitl [He Hg Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hdrop Hh0 Hh1 Hh2 Hh3 Hh4 Hh5 Hh6 Hh7 Hh8 Hh9 Hh10 Hh11 Hh12 Hh13 Hh14 Hh15 Hh16 Hh17 Hh18 Hh19 Hh20 Hh21 Hh22 Hh23 Hh24 Hh25 Hh26 Hh27 Hh28 Hh29 Hh30 Hh31 Hh32 Hh33 Hh34 Hh35 Hh36 Hh37 Hh38 Hh39 Hh40 Hh41 Hh42 Hh43 Hh44 Hh45 Hh46 Hh47 Hh48 Hh49 Hh50 Hh51 Hh52 Hh53 Hh54 Hh55 Hh56 Hh57 Hh58 Hh59 Hh60 Hh61 Hh62 Hh63 Hh64 Hh65 HT]
  · isplitl [He Hg Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hdrop Hh0 Hh1 Hh2 Hh3 Hh4 Hh5 Hh6 Hh7 Hh8 Hh9 Hh10 Hh11 Hh12 Hh13 Hh14 Hh15 Hh16 Hh17 Hh18 Hh19 Hh20 Hh21 Hh22 Hh23 Hh24 Hh25 Hh26 Hh27 Hh28 Hh29 Hh30 Hh31 Hh32 Hh33 Hh34 Hh35 Hh36 Hh37 Hh38 Hh39 Hh40 Hh41 Hh42 Hh43 Hh44 Hh45 Hh46 Hh47 Hh48 Hh49 Hh50 Hh51 Hh52 Hh53 Hh54 Hh55 Hh56 Hh57 Hh58 Hh59 Hh60 Hh61 Hh62 Hh63 Hh64 Hh65]
    · isplitl [He]; · iexact He
      isplitl [Hg]; · iexact Hg
      isplitl [Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52 Hq53 Hq54 Hq55 Hq56 Hq57 Hq58 Hq59 Hq60 Hq61 Hq62 Hq63 Hq64 Hq65]
      · isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        isplitl [Hq23]; · iexact Hq23
        isplitl [Hq24]; · iexact Hq24
        isplitl [Hq25]; · iexact Hq25
        isplitl [Hq26]; · iexact Hq26
        isplitl [Hq27]; · iexact Hq27
        isplitl [Hq28]; · iexact Hq28
        isplitl [Hq29]; · iexact Hq29
        isplitl [Hq30]; · iexact Hq30
        isplitl [Hq31]; · iexact Hq31
        isplitl [Hq32]; · iexact Hq32
        isplitl [Hq33]; · iexact Hq33
        isplitl [Hq34]; · iexact Hq34
        isplitl [Hq35]; · iexact Hq35
        isplitl [Hq36]; · iexact Hq36
        isplitl [Hq37]; · iexact Hq37
        isplitl [Hq38]; · iexact Hq38
        isplitl [Hq39]; · iexact Hq39
        isplitl [Hq40]; · iexact Hq40
        isplitl [Hq41]; · iexact Hq41
        isplitl [Hq42]; · iexact Hq42
        isplitl [Hq43]; · iexact Hq43
        isplitl [Hq44]; · iexact Hq44
        isplitl [Hq45]; · iexact Hq45
        isplitl [Hq46]; · iexact Hq46
        isplitl [Hq47]; · iexact Hq47
        isplitl [Hq48]; · iexact Hq48
        isplitl [Hq49]; · iexact Hq49
        isplitl [Hq50]; · iexact Hq50
        isplitl [Hq51]; · iexact Hq51
        isplitl [Hq52]; · iexact Hq52
        isplitl [Hq53]; · iexact Hq53
        isplitl [Hq54]; · iexact Hq54
        isplitl [Hq55]; · iexact Hq55
        isplitl [Hq56]; · iexact Hq56
        isplitl [Hq57]; · iexact Hq57
        isplitl [Hq58]; · iexact Hq58
        isplitl [Hq59]; · iexact Hq59
        isplitl [Hq60]; · iexact Hq60
        isplitl [Hq61]; · iexact Hq61
        isplitl [Hq62]; · iexact Hq62
        isplitl [Hq63]; · iexact Hq63
        isplitl [Hq64]; · iexact Hq64
        iexact Hq65
      iapply (hb_split c (V m c main_v1)).2
      isplitl [Hdrop]; · iexact Hdrop
      isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      isplitl [Hh7]; · iexact Hh7
      isplitl [Hh8]; · iexact Hh8
      isplitl [Hh9]; · iexact Hh9
      isplitl [Hh10]; · iexact Hh10
      isplitl [Hh11]; · iexact Hh11
      isplitl [Hh12]; · iexact Hh12
      isplitl [Hh13]; · iexact Hh13
      isplitl [Hh14]; · iexact Hh14
      isplitl [Hh15]; · iexact Hh15
      isplitl [Hh16]; · iexact Hh16
      isplitl [Hh17]; · iexact Hh17
      isplitl [Hh18]; · iexact Hh18
      isplitl [Hh19]; · iexact Hh19
      isplitl [Hh20]; · iexact Hh20
      isplitl [Hh21]; · iexact Hh21
      isplitl [Hh22]; · iexact Hh22
      isplitl [Hh23]; · iexact Hh23
      isplitl [Hh24]; · iexact Hh24
      isplitl [Hh25]; · iexact Hh25
      isplitl [Hh26]; · iexact Hh26
      isplitl [Hh27]; · iexact Hh27
      isplitl [Hh28]; · iexact Hh28
      isplitl [Hh29]; · iexact Hh29
      isplitl [Hh30]; · iexact Hh30
      isplitl [Hh31]; · iexact Hh31
      isplitl [Hh32]; · iexact Hh32
      isplitl [Hh33]; · iexact Hh33
      isplitl [Hh34]; · iexact Hh34
      isplitl [Hh35]; · iexact Hh35
      isplitl [Hh36]; · iexact Hh36
      isplitl [Hh37]; · iexact Hh37
      isplitl [Hh38]; · iexact Hh38
      isplitl [Hh39]; · iexact Hh39
      isplitl [Hh40]; · iexact Hh40
      isplitl [Hh41]; · iexact Hh41
      isplitl [Hh42]; · iexact Hh42
      isplitl [Hh43]; · iexact Hh43
      isplitl [Hh44]; · iexact Hh44
      isplitl [Hh45]; · iexact Hh45
      isplitl [Hh46]; · iexact Hh46
      isplitl [Hh47]; · iexact Hh47
      isplitl [Hh48]; · iexact Hh48
      isplitl [Hh49]; · iexact Hh49
      isplitl [Hh50]; · iexact Hh50
      isplitl [Hh51]; · iexact Hh51
      isplitl [Hh52]; · iexact Hh52
      isplitl [Hh53]; · iexact Hh53
      isplitl [Hh54]; · iexact Hh54
      isplitl [Hh55]; · iexact Hh55
      isplitl [Hh56]; · iexact Hh56
      isplitl [Hh57]; · iexact Hh57
      isplitl [Hh58]; · iexact Hh58
      isplitl [Hh59]; · iexact Hh59
      isplitl [Hh60]; · iexact Hh60
      isplitl [Hh61]; · iexact Hh61
      isplitl [Hh62]; · iexact Hh62
      isplitl [Hh63]; · iexact Hh63
      isplitl [Hh64]; · iexact Hh64
      iexact Hh65
    iexact HT
  isplitl [HW']
  · iexists W'; isplitr; · ipureintro; exact fun _ _ => Or.inl trivial
    iexact HW'
  iexists ((ms m t).view.write (Elt F) f0 (rowsOf c (grid0.coords t) (tbl m 0) (V m c main_v1)) Finset.univ); isplitr
  · ipureintro; exact read_write_all c (ms m t) f0 _
  iapply (rows_split c (ms m t) _).2
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  isplitl [Hr14]; · iexact Hr14
  isplitl [Hr15]; · iexact Hr15
  isplitl [Hr16]; · iexact Hr16
  isplitl [Hr17]; · iexact Hr17
  isplitl [Hr18]; · iexact Hr18
  isplitl [Hr19]; · iexact Hr19
  isplitl [Hr20]; · iexact Hr20
  isplitl [Hr21]; · iexact Hr21
  isplitl [Hr22]; · iexact Hr22
  isplitl [Hr23]; · iexact Hr23
  isplitl [Hr24]; · iexact Hr24
  isplitl [Hr25]; · iexact Hr25
  isplitl [Hr26]; · iexact Hr26
  isplitl [Hr27]; · iexact Hr27
  isplitl [Hr28]; · iexact Hr28
  isplitl [Hr29]; · iexact Hr29
  isplitl [Hr30]; · iexact Hr30
  isplitl [Hr31]; · iexact Hr31
  isplitl [Hr32]; · iexact Hr32
  isplitl [Hr33]; · iexact Hr33
  isplitl [Hr34]; · iexact Hr34
  isplitl [Hr35]; · iexact Hr35
  isplitl [Hr36]; · iexact Hr36
  isplitl [Hr37]; · iexact Hr37
  isplitl [Hr38]; · iexact Hr38
  isplitl [Hr39]; · iexact Hr39
  isplitl [Hr40]; · iexact Hr40
  isplitl [Hr41]; · iexact Hr41
  isplitl [Hr42]; · iexact Hr42
  isplitl [Hr43]; · iexact Hr43
  isplitl [Hr44]; · iexact Hr44
  isplitl [Hr45]; · iexact Hr45
  isplitl [Hr46]; · iexact Hr46
  isplitl [Hr47]; · iexact Hr47
  isplitl [Hr48]; · iexact Hr48
  isplitl [Hr49]; · iexact Hr49
  isplitl [Hr50]; · iexact Hr50
  isplitl [Hr51]; · iexact Hr51
  isplitl [Hr52]; · iexact Hr52
  isplitl [Hr53]; · iexact Hr53
  isplitl [Hr54]; · iexact Hr54
  isplitl [Hr55]; · iexact Hr55
  isplitl [Hr56]; · iexact Hr56
  isplitl [Hr57]; · iexact Hr57
  isplitl [Hr58]; · iexact Hr58
  isplitl [Hr59]; · iexact Hr59
  isplitl [Hr60]; · iexact Hr60
  isplitl [Hr61]; · iexact Hr61
  isplitl [Hr62]; · iexact Hr62
  iexact Hr63

/-- The library's body obligation, at every point. -/
theorem body_obligation (hT : TblOk m) (c : Dev nD) : BodyObligation (dats (F := F) m hT 0 c) (defs₀ (F := F)) Variants.none () Set.univ := fun t => by
  rw [bigSep_W0, bigSep_W0]
  exact sound_body m hT c t

/-! ## The run and the frame -/

set_option backward.isDefEq.respectTransparency.types false in
/-- From any memory with zero counters whose table names rows of the matrix: every weakly fair execution of @main
    terminates, the region's output array at what the proof data say, every other unscoped buffer at what the host
    operation after the region leaves. -/
theorem run_main (hT : TblOk m) : θ_run defs (onTc (τ := τ) (main (F := F))) (s₀ m ρ)
    (Pipeline.FramePost (Pipeline.pin pcfgs fun _ => adm m) (dats m hT) 0
      (Pipeline.afterTail pcfgs (fun _ => adm m) (dats m hT) 0 (V0 m) [hostOps1])) :=
  Pipeline.θ_run_frameP_dma_around pcfgs (fun _ => adm m) (dats m hT) (0 : Fin 1) launch0 osem0 defs₀ Variants.none ownSemFacts0 H0 H0_sub m ρ main
    (hbody := fun c => (body_obligation m hT c).loose) (hshare := fun c => (dats m hT 0 c).share_full fun _ => rfl)
    (howed := fun _ _ => rfl) (V₀ := V0 m) (opss := [hostOps1]) (hsub := sfx_sub) (hfresh := sfx_fresh) (hkeep := sfx_keeps)
    (hmain := hmain m Variants.none) (hA := A_eq m hT) (hpf := V_pre m)
    (hin := fun _ => .rfl)
    (hout := fun c => (show iprop(Pipeline.ΦD osem0 spec0 H0 (V m) c ∗ Pipeline.ΦT pre0 (tbl m) c) ⊢ Pipeline.ΦD osem0 spec0 H0 (V m) c from by
      iintro ⟨HD, -⟩; iexact HD))

/-- The host operation after the region writes neither argument array: each ends as the region found it, as launched. -/
theorem W_main_arg0 (hT : TblOk m) (c : Dev nD) :
    Pipeline.afterTail pcfgs (fun _ => adm m) (dats m hT) 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (hT : TblOk m) (c : Dev nD) :
    Pipeline.afterTail pcfgs (fun _ => adm m) (dats m hT) 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- THE FRAME, for every memory whose table names rows of the matrix. -/
theorem frame (hT : TblOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (show ∀ w : Fin 1, (spec0 w).arr.view.ref ≠ main_arg0 from by decide))).trans (W_main_arg0 m hT c),
     ((h c).2 main_arg1 (Pipeline.mem_restRefs_of main_arg1 (by decide) (show ∀ w : Fin 1, (spec0 w).arr.view.ref ≠ main_arg1 from by decide))).trans (W_main_arg1 m hT c)⟩) (run_main m ρ hT)

end Cert.Kernel.Gather

end
-- ==== Proof.KernelGlue.lean ====
/-
  The kernel program's host operations around its region, read at an index.

  Before the region @main reshapes the column of row numbers `y : [16384, 1]` to the table `[16384]` and
  transposes the matrix `W : [512, 128000]` to `[128000, 512]`; after it @main reshapes the region's output
  `[16384, 512]` to `[16384, 1, 512]`.  Read at an index: the table at `i` is `y[i, 0]`; row `r` of the
  transposed matrix at column `e` is `W[e, r]`; the final reshape at `(b, 0, e)` is the region's output at
  `(b, e)`.  A reshape keeps the row-major position, and each of the three index pairs has the same one.
-/
import proofs.«148027_j64802466562285_1_alg».proof.Proof.Gen.Kernel.Launch
import Idealize.ShloMosaic.Lib.StableHlo.Run
import Idealize.ShloMosaic.Lib.ValueIdx
import Idealize.ShloMosaic.Lib.ValueLayout
import Idealize.ShloMosaic.Lib.Pipeline.Value

noncomputable section

namespace Cert.Kernel.Glue

open Cert.Kernel Cert.Kernel.Gen
open Idealize.ShloMosaic Idealize.ShloMosaic.TcCoe Idealize.SL.Sem Idealize.ShloMosaic.StableHlo Idealize.ShloMosaic.ValueIdx

variable {F : FTy → Type} [FloatOps F]

/-- The buffers' contents when the region is entered: after the two host operations before it. -/
abbrev V0 (m : (ℓ : Loc nD τ sig) → Buf (Elt F) ℓ) (c : Dev nD) : Valuation τ sig (Elt F) :=
  StableHlo.after (List.flatten [hostOps0]) (fun b => m (c, b))

/-- The table of row numbers at the region's entry is the first argument reshaped to rank one. -/
theorem table_eq (m : (ℓ : Loc nD τ sig) → Buf (Elt F) ℓ) (c : Dev nD) :
    (V0 m c (Proc.devRef .tc main_v0) : S16384.Idx → Elt F .i32)
      = shapeCast S16384 (m ((c.tc : Thread nD τ).loc main_arg0)) shapeCasts_S16384x1_S16384 := by
  show StableHlo.after hostOps0 (fun b => m (c, b)) (Proc.devRef .tc main_v0) = _
  after_results
  rfl

/-- The table at `i` is the first argument at `(i, 0)`: both indices have row-major position `i`. -/
theorem table_apply (m : (ℓ : Loc nD τ sig) → Buf (Elt F) ℓ) (c : Dev nD) (i : Fin 16384) :
    (V0 m c (Proc.devRef .tc main_v0) : S16384.Idx → Elt F .i32) (ix1 i)
      = m ((c.tc : Thread nD τ).loc main_arg0) (ix2 i (0 : Fin 1)) := by
  rw [table_eq]
  refine shapeCast_apply _ _ (ix1 i) (ix2 i (0 : Fin 1)) ?_
  rw [Shape.rowMajor_val_two, Shape.rowMajor_val_one]
  show i.val * 1 + 0 = i.val
  omega

/-- The second window's array at the region's entry is the second argument transposed. -/
theorem rows_eq (m : (ℓ : Loc nD τ sig) → Buf (Elt F) ℓ) (c : Dev nD) :
    (V0 m c (Proc.devRef .tc main_v1) : S128000x512.Idx → Elt F .f32)
      = transpose S128000x512 [1, 0] (m ((c.tc : Thread nD τ).loc main_arg1)) transposes_S512x128000_S128000x512_1_0 := by
  show StableHlo.after hostOps0 (fun b => m (c, b)) (Proc.devRef .tc main_v1) = _
  after_results

/-- Row `r` of the transposed matrix at column `e` is the second argument at `(e, r)`. -/
theorem rows_apply (m : (ℓ : Loc nD τ sig) → Buf (Elt F) ℓ) (c : Dev nD) (r : Fin 128000) (e : Fin 512) :
    (V0 m c (Proc.devRef .tc main_v1) : S128000x512.Idx → Elt F .f32) (ix2 r e)
      = m ((c.tc : Thread nD τ).loc main_arg1) (ix2 e r) := by
  rw [rows_eq]
  exact transpose_ix2_apply _ _ r e

/-- After the one host operation that follows the region, the result buffer is the region's output reshaped
    to rank three. -/
theorem tail_eq (X : Valuation τ sig (Elt F)) :
    (StableHlo.after (List.flatten [hostOps1]) X (Proc.devRef .tc main_v3) : S16384x1x512.Idx → Elt F .f32)
      = shapeCast S16384x1x512 (X (Proc.devRef .tc main_v2)) shapeCasts_S16384x512_S16384x1x512 := by
  show StableHlo.after hostOps1 X (Proc.devRef .tc main_v3) = _
  after_results
  rfl

/-- The final reshape at `(b, 0, e)` is the region's output at `(b, e)`: both indices have row-major
    position `512 b + e`. -/
theorem tail_apply (X : Valuation τ sig (Elt F)) (b : Fin 16384) (e : Fin 512) :
    (StableHlo.after (List.flatten [hostOps1]) X (Proc.devRef .tc main_v3) : S16384x1x512.Idx → Elt F .f32)
        (ix3 b (0 : Fin 1) e)
      = X (Proc.devRef .tc main_v2) (ix2 b e) := by
  rw [tail_eq]
  refine shapeCast_apply _ _ (ix3 b (0 : Fin 1) e) (ix2 b e) ?_
  rw [Shape.rowMajor_val_two, Shape.rowMajor_val_three]
  show b.val * 512 + e.val = (b.val * 1 + 0) * 512 + e.val
  omega

end Cert.Kernel.Glue

end
-- ==== Proof.PreRange.lean ====
/-
  The index range, read out of the precondition.

  The precondition is one i1 scalar: the conjunction of "every entry of W is finite" and "every entry of y lies in
  [0, 128000)", the latter written as a reduction by "and", from 1, of the array whose entry at i is
  (y i ≥ 0, signed) and (y i < 128000, signed). When the scalar is 1 both conjuncts are 1; a reduction by "and" onto the
  one scalar index that came out 1 met a 1 at every entry; so both comparisons hold at every i; and a 32-bit word that
  is, read signed, at least 0 and below n < 2³¹ is, read unsigned, below n.
-/
import proofs.«148027_j64802466562285_1_alg».proof.Pre_finite_inputs
import proofs.«148027_j64802466562285_1_alg».proof.Proof.Gen.Pre_finite_inputs
import Idealize.ShloMosaic.Lib.ReduceAll
import Idealize.ShloMosaic.Lib.ValueIdx

noncomputable section

namespace Cert.PreRange

open Idealize.ShloMosaic
open Cert.Pre_finite_inputs

variable [Cert.Pre_finite_inputs.Facts]

/-- The scalar shape has exactly one index: a function out of the empty set of axes. -/
instance subsingleton_scalar_idx : Subsingleton S_.Idx := ⟨fun a b => funext fun d => d.elim0⟩

/-- A 32-bit word that is, read signed, at least 0 and below n (with n < 2³¹, so that n reads the same signed and
    unsigned) is, read unsigned, below n: its top bit is clear, so its two readings agree. -/
theorem toNat_lt_of_signed_range (w : BitVec 32) (n : Nat) (hn : n < 2 ^ 31)
    (h0 : IntOp.cmpi .sge w (0#32) = 1#1) (h1 : IntOp.cmpi .slt w (BitVec.ofNat 32 n) = 1#1) : w.toNat < n := by
  have hw : 2 * w.toNat < 2 ^ 32 := (Scalar.nonneg_iff w).1 h0
  have hk : (BitVec.ofNat 32 n).toNat = n := by rw [BitVec.toNat_ofNat]; omega
  have hk2 : 2 * (BitVec.ofNat 32 n).toNat < 2 ^ 32 := by rw [hk]; omega
  rw [IntOp.cmpi_slt, BitVec.toInt_eq_toNat_of_lt hw, BitVec.toInt_eq_toNat_of_lt hk2, hk] at h1
  exact_mod_cast h1

/-- The precondition at entry i: the conjunction of the two signed comparisons of y i is 1. -/
theorem index_both {F : FTy → Type} [FloatOps F] (y : IVec S16384x1 32) (W : FVec F S512x128000 .f32)
    (h : Cert.Pre_finite_inputs.fn (F := F) y W = fun _ => 1#1) (i : S16384x1.Idx) :
    IntOp.andi (IntOp.cmpi .sge (y i) (0#32)) (IntOp.cmpi .slt (y i) (128000#32)) = 1#1 := by
  have e : Cert.Pre_finite_inputs.fn (F := F) y W ValueIdx.ix0 = 1#1 := congrFun h ValueIdx.ix0
  dsimp only [Cert.Pre_finite_inputs.fn] at e
  -- the outer "and" of the two scalars: its second operand, the reduction over y's entries, is 1
  have e2 := (IntOp.andi_eq_one.1 e).2
  -- every entry that the reduction met is 1
  exact Host.reduce_andi_all _ _ _ _ _ e2 i

/-- Every entry of y is, read signed, at least 0. -/
theorem index_sge {F : FTy → Type} [FloatOps F] (y : IVec S16384x1 32) (W : FVec F S512x128000 .f32)
    (h : Cert.Pre_finite_inputs.fn (F := F) y W = fun _ => 1#1) :
    ∀ i : S16384x1.Idx, IntOp.cmpi .sge (y i) (0#32) = 1#1 :=
  fun i => (IntOp.andi_eq_one.1 (index_both y W h i)).1

/-- Every entry of y is, read signed, below 128000. -/
theorem index_slt {F : FTy → Type} [FloatOps F] (y : IVec S16384x1 32) (W : FVec F S512x128000 .f32)
    (h : Cert.Pre_finite_inputs.fn (F := F) y W = fun _ => 1#1) :
    ∀ i : S16384x1.Idx, IntOp.cmpi .slt (y i) (128000#32) = 1#1 :=
  fun i => (IntOp.andi_eq_one.1 (index_both y W h i)).2

/-- Every entry of y, read unsigned, is below 128000: it names a row of the 128000-row table. -/
theorem index_lt {F : FTy → Type} [FloatOps F] (y : IVec S16384x1 32) (W : FVec F S512x128000 .f32)
    (h : Cert.Pre_finite_inputs.fn (F := F) y W = fun _ => 1#1) :
    ∀ i : S16384x1.Idx, (y i).toNat < 128000 :=
  fun i => toNat_lt_of_signed_range (y i) 128000 (by decide) (index_sge y W h i) (index_slt y W h i)

end Cert.PreRange

end
-- ==== Proof.KernelTable.lean ====
/-
  The index range, carried to the table of row numbers the kernel reads.

  At the region's entry the table `[16384]` is the first argument `y : [16384, 1]` reshaped, so its word at `i`
  is `y[i, 0]`; under the precondition every entry of `y`, read unsigned, is below 128000; and a load through the
  whole table's view at a rectangle reads, at each index of the rectangle, the table's word at the index the
  rectangle places there.  So every word such a load reads is below 128000: it names a row of the 128000-row matrix.
-/
import proofs.«148027_j64802466562285_1_alg».proof.Proof.KernelGlue
import proofs.«148027_j64802466562285_1_alg».proof.Proof.PreRange

noncomputable section

namespace Cert.Kernel.Glue

open Cert.Kernel Cert.Kernel.Gen
open Idealize.ShloMosaic Idealize.ShloMosaic.TcCoe Idealize.SL.Sem Idealize.ShloMosaic.StableHlo Idealize.ShloMosaic.ValueIdx

variable {F : FTy → Type} [FloatOps F]
variable [Cert.Pre_finite_inputs.Facts]

/-- Under the precondition every word of the table at the region's entry, read unsigned, is below 128000:
    the word at `i` is `y[i, 0]`, and every entry of `y` is. -/
theorem table_lt (m : (ℓ : Loc nD τ sig) → Buf (Elt F) ℓ) (c : Dev nD)
    (h : Cert.Pre_finite_inputs.fn (F := F) (m ((c.tc : Thread nD τ).loc main_arg0)) (m ((c.tc : Thread nD τ).loc main_arg1)) = fun _ => 1#1)
    (x : S16384.Idx) :
    BitVec.toNat ((V0 m c (Proc.devRef .tc main_v0) : S16384.Idx → Elt F .i32) x : BitVec 32) < 128000 := by
  obtain ⟨i, rfl⟩ : ∃ i : Fin 16384, x = ix1 i := ⟨x 0, eq_ix1 x⟩
  rw [table_apply]
  exact Cert.PreRange.index_lt _ _ h _

/-- Every word a load through the whole table's view reads at a rectangle is below 128000: the load reads the
    table's contents at the index the rectangle places at `j`. -/
theorem table_rows (m : (ℓ : Loc nD τ sig) → Buf (Elt F) ℓ) (c : Dev nD)
    (h : Cert.Pre_finite_inputs.fn (F := F) (m ((c.tc : Thread nD τ).loc main_arg0)) (m ((c.tc : Thread nD τ).loc main_arg1)) = fun _ => 1#1)
    (R : LoadRect S16384) (j : R.shape.Idx) :
    BitVec.toNat ((Memref.whole main_v0 : Memref sig .tc .smem S16384 .i32).view.readAt (Elt F) R (V0 m c (Proc.devRef .tc main_v0)) j : BitVec 32) < 128000 :=
  table_lt m c h (R.idx j)

end Cert.Kernel.Glue

end
-- ==== Proof.KernelIdealHeld.lean ====
/-
  What the row-gather kernel's body is handed besides the output block's staging buffer: the table of row numbers
  (held read-only), the transposed matrix left in HBM (held, within a grid point, as one read share per semaphore, since
  the point's 64 row copies read it at once), and the fact that a row number below 128000 names a row inside the matrix.
-/
import proofs.«148027_j64802466562285_1_alg».proof.Proof.Gen.KernelIdeal.Launch
import Idealize.ShloMosaic.Lib.Pipeline.FrameBody
import Idealize.ShloMosaic.Lib.Pipeline.FrameSuffix
import Idealize.ShloMosaic.Lib.Ring
import Idealize.ShloMosaic.Lib.Batch
import Idealize.ShloMosaic.Lib.Tactic

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The table of row numbers as the body is handed it (the whole scalar-memory buffer) and the matrix of rows left in
    HBM (whole). -/
abbrev tbM : Memref sig .tc .smem S16384 .i32 := Memref.whole main_v0
abbrev htbM : tbM.IsWhole := Memref.isWhole_whole _
abbrev hbM : Memref sig .tc .hbm S128000x512 .f32 := Memref.whole main_v1
abbrev TbBuf (c : Dev nD) : Type := Buf (Elt F) (tbM.view.loc (c : Thread nD τ))
abbrev HbBuf (c : Dev nD) : Type := Buf (Elt F) (hbM.view.loc (c : Thread nD τ))
/-- The table held read-only (the pipeline keeps the other half). -/
abbrev tbPt (c : Dev nD) (f : TbBuf (F := F) c) : sProp 𝕄 := tbM.view.loc (c : Thread nD τ) ↦{fullShare.right} f
/-- The matrix of rows held under the read share of semaphore cell `k`: sixty-four copies read it at once, one per cell. -/
abbrev hbTok (c : Dev nD) (k : ℕ) (f : HbBuf (F := F) c) : sProp 𝕄 :=
  hbM.view.loc (c : Thread nD τ) ↦{Transfers.shareTokN fullShare k} f

/-- Row `v` of a matrix of 128000 rows of 512 lies inside it when `v < 128000`. -/
theorem row_inside (v : BitVec 32) (h : v.toNat < 128000) :
    ∀ a, (![v.toNat, 0] : Fin 2 → Nat) a + S1x512.size a ≤ S128000x512.size a := by
  intro a; fin_cases a
  · show v.toNat + 1 ≤ 128000; omega
  · show 0 + 512 ≤ 512; omega

/-- Row `j` of a 64×512 buffer lies inside it. -/
theorem row_inb (j : Nat) (hj : j < 64) : ∀ a, (![j, 0] : Fin 2 → Nat) a + S1x512.size a ≤ S64x512.size a := by
  intro a; fin_cases a
  · show j + 1 ≤ 64; omega
  · show 0 + 512 ≤ 512; omega

/-- Row `j` of the 64×512 staging memref, as a 512-vector: the destination of the body's copy number `j`. -/
abbrev rowN (arg3 : Memref sig .tc .vmem S64x512 .f32) (j : Nat) (hj : j < 64) : Memref sig .tc .vmem S512 .f32 :=
  (arg3.slice (Rect.unit (s := S64x512) ![j, 0] S1x512.size (row_inb j hj)) (fun _ => rfl)).squeeze S512 squeezes_S1x512_S512

/-- Row `j` of the staging buffer held by exactly its own elements, the buffer's contents `f`. -/
abbrev rowPt (c : Dev nD) (arg3 : Memref sig .tc .vmem S64x512 .f32) (j : Nat) (hj : j < 64)
    (f : Buf (Elt F) ((rowN arg3 j hj).view.loc (c : Thread nD τ))) : sProp 𝕄 :=
  (rowN arg3 j hj).view.loc (c : Thread nD τ) ↦[(rowN arg3 j hj).view.set]{fullShare} f

end Cert.KernelIdeal.Gather

end
-- ==== Proof.KernelIdealRows.lean ====
/-
  The row views the row-gather kernel's body copies through, read and written.

  A copy of the body moves one row: its source is the matrix `[128000, 512]` sliced to the unit rectangle
  `[1, 512]` at row `n` and squeezed to `[512]`; its destination is the staging block `[64, 512]` sliced to the
  unit rectangle at row `j` and squeezed likewise.  A squeeze keeps the row-major position, so entry `x` of the
  squeezed row is entry `(0, x)` of the slice, which is entry `(n, x)` of the matrix (entry `(j, x)` of the
  block).  Hence: the source reads row `n` of the matrix; and a payload written through the destination, read
  back through the block, is the payload on row `j` and what the block held on every other row.
-/
import proofs.«148027_j64802466562285_1_alg».proof.Proof.KernelIdealHeld
import Idealize.ShloMosaic.Lib.Pipeline.Value
import Idealize.ShloMosaic.Lib.ValueIdx

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- Entry `x` of a squeezed `[1, 512]` row is entry `(0, x)` of the row: the two have row-major position `x`. -/
theorem squeeze_idx (h : S512.numel = S1x512.numel) (x : S512.Idx) :
    Shape.reshapeEquiv h x = (ix2 (0 : Fin 1) (x 0) : S1x512.Idx) :=
  Shape.reshapeEquiv_eq_of_rowMajor h (by
    rw [Shape.rowMajor_val_two, Shape.rowMajor_val_one]
    show 0 * 512 + (x 0).val = (x 0).val
    omega)

/-- A row of the matrix read through the squeezed unit slice at row `n`: entry `x` is the matrix at `(n, x)`. -/
theorem row_read (c : Dev nD) (fh : HbBuf (F := F) c) (off : Fin 2 → Nat) (n : Nat) (hn : n < 128000) (hoff : off = ![n, 0])
    (inb : ∀ a, off a + S1x512.size a ≤ S128000x512.size a) (x : S512.Idx) :
    ((hbM.slice (Rect.unit (s := S128000x512) off S1x512.size inb) (fun _ => rfl)).squeeze S512 squeezes_S1x512_S512).view.read (Elt F) fh x
      = (fh : S128000x512.Idx → Elt F .f32) (ix2 ⟨n, hn⟩ (x 0)) := by
  subst hoff
  show fh ((Rect.unit (s := S128000x512) ![n, 0] S1x512.size inb).emb (Shape.reshapeEquiv _ x)) = _
  rw [squeeze_idx]
  refine congrArg fh (funext fun a => Fin.ext ?_)
  match a with
  | ⟨0, _⟩ => show n + 1 * 0 = n; omega
  | ⟨1, _⟩ => show 0 + 1 * (x 0).val = (x 0).val; omega

/-- Where the squeezed unit slice at row `j` of a 64×512 memref places its entry `x`: at `(j, x)` of the memref. -/
theorem row_emb (arg3 : Memref sig .tc .vmem S64x512 .f32) (j : Fin 64)
    (inb : ∀ a, (![j.val, 0] : Fin 2 → Nat) a + S1x512.size a ≤ S64x512.size a) (x : S512.Idx) :
    ((arg3.slice (Rect.unit (s := S64x512) ![j.val, 0] S1x512.size inb) (fun _ => rfl)).squeeze S512 squeezes_S1x512_S512).view.emb x
      = arg3.view.emb (ix2 j (x 0)) := by
  show arg3.view.emb ((Rect.unit (s := S64x512) ![j.val, 0] S1x512.size inb).emb (Shape.reshapeEquiv _ x)) = _
  rw [squeeze_idx]
  refine congrArg arg3.view.emb (funext fun a => Fin.ext ?_)
  match a with
  | ⟨0, _⟩ => show j.val + 1 * 0 = j.val; omega
  | ⟨1, _⟩ => show 0 + 1 * (x 0).val = (x 0).val; omega

/-- A payload written through the squeezed unit slice at row `j` of a whole 64×512 buffer, read back through the
    buffer's own view: row `j` holds the payload, every other row what it held. -/
theorem row_write_read (c : Dev nD) (arg3 : Memref sig .tc .vmem S64x512 .f32) (harg3 : arg3.IsWhole)
    (f : Buf (Elt F) (arg3.view.loc (c : Thread nD τ)))
    (j : Fin 64) (inb : ∀ a, (![j.val, 0] : Fin 2 → Nat) a + S1x512.size a ≤ S64x512.size a) (w : S512.Idx → Elt F .f32)
    (j' : Fin 64) (e : Fin 512) :
    arg3.view.read (Elt F) (((arg3.slice (Rect.unit (s := S64x512) ![j.val, 0] S1x512.size inb) (fun _ => rfl)).squeeze S512 squeezes_S1x512_S512).view.write (Elt F) f w Finset.univ) (ix2 j' e)
      = if j' = j then w (ix1 e) else arg3.view.read (Elt F) f (ix2 j' e) := by
  by_cases hj : j' = j
  · subst hj
    rw [if_pos rfl, View.read_apply, ← row_emb arg3 j' inb (ix1 e), View.write_emb_of_mem _ _ (Finset.mem_univ _), cast_cast, cast_eq]
  · rw [if_neg hj, View.read_apply, View.read_apply, View.write_of_not_mem]
    intro hmem
    obtain ⟨x, -, hx⟩ := Finset.mem_map.mp hmem
    rw [row_emb arg3 j inb x] at hx
    have h2 := congrFun (arg3.view.emb.injective hx) (0 : Fin 2)
    exact hj h2.symm

end Cert.KernelIdeal.Gather

end
-- ==== Proof.KernelIdealJoin.lean ====
/-
  The 64×512 staging buffer as its 64 rows.

  Row `j` of the buffer has two names: the squeezed unit slice at row `j` (what a copy of the body writes through)
  and the slice by the row rectangle along axis 0.  Both hold the elements `(j, e)`, `e < 512`, so they are one
  set of elements; the buffer's elements are the disjoint union of its 64 rows; hence the buffer held whole at
  contents `f` is the 64 rows each held at `f`.  A row held at contents `g` is the row held at any contents that
  agrees with `g` on the row; and a whole-buffer write reads back as the payload.
-/
import proofs.«148027_j64802466562285_1_alg».proof.Proof.KernelIdealHeld
import proofs.«148027_j64802466562285_1_alg».proof.Proof.KernelIdealRows
import Idealize.ShloMosaic.Lib.SparseCore.Stream

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

/-- The unit rectangle at row `j` and the row rectangle along axis 0 at `j` hold the same indices of the block. -/
theorem row_rect_set (j : Nat) (hj : j < 64) :
    (Rect.unit (s := S64x512) ![j, 0] S1x512.size (row_inb j hj)).set = (S64x512.rowRect 0 ⟨j, hj⟩).set := by
  ext i
  have hR : i ∈ (S64x512.rowRect 0 ⟨j, hj⟩).set ↔ ∀ a : Fin 2, (if a = 0 then j else 0) ≤ (i a).val
      ∧ (i a).val < (if a = 0 then j else 0) + (if a = 0 then 1 else S64x512.size a) := Rect.mem_set_unit
  rw [Rect.mem_set_unit, hR]
  refine forall_congr' fun a => ?_
  match a with
  | ⟨0, _⟩ => exact Iff.rfl
  | ⟨1, _⟩ => exact Iff.rfl

/-- Row `j`'s elements, both ways of naming them, are one set. -/
theorem row_set (arg3 : Memref sig .tc .vmem S64x512 .f32) (c : Dev nD) (j : Nat) (hj : j < 64) :
    (rowN arg3 j hj).view.set = (arg3.view.slice (S64x512.rowRect 0 ⟨j, hj⟩)).set := by
  show ((arg3.view.slice (Rect.unit (s := S64x512) ![j, 0] S1x512.size (row_inb j hj))).reshape S512 _).set = _
  rw [View.set_reshape, View.set_slice, View.set_slice, row_rect_set j hj]

/-- A numeral below 64, by evaluation. -/
theorem lt64 (k : Nat) (h : decide (k < 64) = true) : k < 64 := of_decide_eq_true h

/-- A row of the buffer held through the row rectangle is the row held through the squeezed unit slice. -/
theorem rowPt_eq (c : Dev nD) (arg3 : Memref sig .tc .vmem S64x512 .f32) (f : Buf (Elt F) (arg3.view.loc (c : Thread nD τ)))
    (j : Nat) (hj : j < 64) :
    (arg3.view.loc (c : Thread nD τ) ↦[(arg3.view.slice (S64x512.rowRect 0 ⟨j, hj⟩)).set]{fullShare} f : sProp 𝕄)
      = rowPt c arg3 j hj f := by
  rw [← row_set arg3 c j hj]

/-- The whole staging buffer is its 64 rows, at one contents `f`: as an equation. -/
theorem rows_split_eq (c : Dev nD) (arg3 : Memref sig .tc .vmem S64x512 .f32) (f : Buf (Elt F) (arg3.view.loc (c : Thread nD τ))) :
    (arg3.view.loc (c : Thread nD τ) ↦[arg3.view.set]{fullShare} f : sProp 𝕄)
      = iprop(rowPt c arg3 0 (lt64 0 rfl) f ∗ rowPt c arg3 1 (lt64 1 rfl) f ∗ rowPt c arg3 2 (lt64 2 rfl) f ∗ rowPt c arg3 3 (lt64 3 rfl) f ∗ rowPt c arg3 4 (lt64 4 rfl) f ∗ rowPt c arg3 5 (lt64 5 rfl) f ∗ rowPt c arg3 6 (lt64 6 rfl) f ∗ rowPt c arg3 7 (lt64 7 rfl) f ∗ rowPt c arg3 8 (lt64 8 rfl) f ∗ rowPt c arg3 9 (lt64 9 rfl) f ∗ rowPt c arg3 10 (lt64 10 rfl) f ∗ rowPt c arg3 11 (lt64 11 rfl) f ∗ rowPt c arg3 12 (lt64 12 rfl) f ∗ rowPt c arg3 13 (lt64 13 rfl) f ∗ rowPt c arg3 14 (lt64 14 rfl) f ∗ rowPt c arg3 15 (lt64 15 rfl) f ∗ rowPt c arg3 16 (lt64 16 rfl) f ∗ rowPt c arg3 17 (lt64 17 rfl) f ∗ rowPt c arg3 18 (lt64 18 rfl) f ∗ rowPt c arg3 19 (lt64 19 rfl) f ∗ rowPt c arg3 20 (lt64 20 rfl) f ∗ rowPt c arg3 21 (lt64 21 rfl) f ∗ rowPt c arg3 22 (lt64 22 rfl) f ∗ rowPt c arg3 23 (lt64 23 rfl) f ∗ rowPt c arg3 24 (lt64 24 rfl) f ∗ rowPt c arg3 25 (lt64 25 rfl) f ∗ rowPt c arg3 26 (lt64 26 rfl) f ∗ rowPt c arg3 27 (lt64 27 rfl) f ∗ rowPt c arg3 28 (lt64 28 rfl) f ∗ rowPt c arg3 29 (lt64 29 rfl) f ∗ rowPt c arg3 30 (lt64 30 rfl) f ∗ rowPt c arg3 31 (lt64 31 rfl) f ∗ rowPt c arg3 32 (lt64 32 rfl) f ∗ rowPt c arg3 33 (lt64 33 rfl) f ∗ rowPt c arg3 34 (lt64 34 rfl) f ∗ rowPt c arg3 35 (lt64 35 rfl) f ∗ rowPt c arg3 36 (lt64 36 rfl) f ∗ rowPt c arg3 37 (lt64 37 rfl) f ∗ rowPt c arg3 38 (lt64 38 rfl) f ∗ rowPt c arg3 39 (lt64 39 rfl) f ∗ rowPt c arg3 40 (lt64 40 rfl) f ∗ rowPt c arg3 41 (lt64 41 rfl) f ∗ rowPt c arg3 42 (lt64 42 rfl) f ∗ rowPt c arg3 43 (lt64 43 rfl) f ∗ rowPt c arg3 44 (lt64 44 rfl) f ∗ rowPt c arg3 45 (lt64 45 rfl) f ∗ rowPt c arg3 46 (lt64 46 rfl) f ∗ rowPt c arg3 47 (lt64 47 rfl) f ∗ rowPt c arg3 48 (lt64 48 rfl) f ∗ rowPt c arg3 49 (lt64 49 rfl) f ∗ rowPt c arg3 50 (lt64 50 rfl) f ∗ rowPt c arg3 51 (lt64 51 rfl) f ∗ rowPt c arg3 52 (lt64 52 rfl) f ∗ rowPt c arg3 53 (lt64 53 rfl) f ∗ rowPt c arg3 54 (lt64 54 rfl) f ∗ rowPt c arg3 55 (lt64 55 rfl) f ∗ rowPt c arg3 56 (lt64 56 rfl) f ∗ rowPt c arg3 57 (lt64 57 rfl) f ∗ rowPt c arg3 58 (lt64 58 rfl) f ∗ rowPt c arg3 59 (lt64 59 rfl) f ∗ rowPt c arg3 60 (lt64 60 rfl) f ∗ rowPt c arg3 61 (lt64 61 rfl) f ∗ rowPt c arg3 62 (lt64 62 rfl) f ∗ rowPt c arg3 63 (lt64 63 rfl) f) := by
  have hΦ : (fun k : Fin (S64x512.size 0) => (arg3.view.loc (c : Thread nD τ) ↦[(arg3.view.slice (S64x512.rowRect 0 k)).set]{fullShare} f : sProp 𝕄))
      = fun k : Fin 64 => rowPt c arg3 k.val k.isLt f := funext fun k => rowPt_eq c arg3 f k.val k.isLt
  rw [pointsTo_rows (c : Thread nD τ) arg3.view (0 : Fin 2) fullShare f, hΦ]
  exact bigSep_univ_eq_bigSepL (I := Fin 64) [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] (by decide) (by decide) _

/-- The whole staging buffer is its 64 rows, at one contents `f`. -/
theorem rows_split (c : Dev nD) (arg3 : Memref sig .tc .vmem S64x512 .f32) (f : Buf (Elt F) (arg3.view.loc (c : Thread nD τ))) :
    (arg3.view.loc (c : Thread nD τ) ↦[arg3.view.set]{fullShare} f : sProp 𝕄)
      ⊣⊢ iprop(rowPt c arg3 0 (lt64 0 rfl) f ∗ rowPt c arg3 1 (lt64 1 rfl) f ∗ rowPt c arg3 2 (lt64 2 rfl) f ∗ rowPt c arg3 3 (lt64 3 rfl) f ∗ rowPt c arg3 4 (lt64 4 rfl) f ∗ rowPt c arg3 5 (lt64 5 rfl) f ∗ rowPt c arg3 6 (lt64 6 rfl) f ∗ rowPt c arg3 7 (lt64 7 rfl) f ∗ rowPt c arg3 8 (lt64 8 rfl) f ∗ rowPt c arg3 9 (lt64 9 rfl) f ∗ rowPt c arg3 10 (lt64 10 rfl) f ∗ rowPt c arg3 11 (lt64 11 rfl) f ∗ rowPt c arg3 12 (lt64 12 rfl) f ∗ rowPt c arg3 13 (lt64 13 rfl) f ∗ rowPt c arg3 14 (lt64 14 rfl) f ∗ rowPt c arg3 15 (lt64 15 rfl) f ∗ rowPt c arg3 16 (lt64 16 rfl) f ∗ rowPt c arg3 17 (lt64 17 rfl) f ∗ rowPt c arg3 18 (lt64 18 rfl) f ∗ rowPt c arg3 19 (lt64 19 rfl) f ∗ rowPt c arg3 20 (lt64 20 rfl) f ∗ rowPt c arg3 21 (lt64 21 rfl) f ∗ rowPt c arg3 22 (lt64 22 rfl) f ∗ rowPt c arg3 23 (lt64 23 rfl) f ∗ rowPt c arg3 24 (lt64 24 rfl) f ∗ rowPt c arg3 25 (lt64 25 rfl) f ∗ rowPt c arg3 26 (lt64 26 rfl) f ∗ rowPt c arg3 27 (lt64 27 rfl) f ∗ rowPt c arg3 28 (lt64 28 rfl) f ∗ rowPt c arg3 29 (lt64 29 rfl) f ∗ rowPt c arg3 30 (lt64 30 rfl) f ∗ rowPt c arg3 31 (lt64 31 rfl) f ∗ rowPt c arg3 32 (lt64 32 rfl) f ∗ rowPt c arg3 33 (lt64 33 rfl) f ∗ rowPt c arg3 34 (lt64 34 rfl) f ∗ rowPt c arg3 35 (lt64 35 rfl) f ∗ rowPt c arg3 36 (lt64 36 rfl) f ∗ rowPt c arg3 37 (lt64 37 rfl) f ∗ rowPt c arg3 38 (lt64 38 rfl) f ∗ rowPt c arg3 39 (lt64 39 rfl) f ∗ rowPt c arg3 40 (lt64 40 rfl) f ∗ rowPt c arg3 41 (lt64 41 rfl) f ∗ rowPt c arg3 42 (lt64 42 rfl) f ∗ rowPt c arg3 43 (lt64 43 rfl) f ∗ rowPt c arg3 44 (lt64 44 rfl) f ∗ rowPt c arg3 45 (lt64 45 rfl) f ∗ rowPt c arg3 46 (lt64 46 rfl) f ∗ rowPt c arg3 47 (lt64 47 rfl) f ∗ rowPt c arg3 48 (lt64 48 rfl) f ∗ rowPt c arg3 49 (lt64 49 rfl) f ∗ rowPt c arg3 50 (lt64 50 rfl) f ∗ rowPt c arg3 51 (lt64 51 rfl) f ∗ rowPt c arg3 52 (lt64 52 rfl) f ∗ rowPt c arg3 53 (lt64 53 rfl) f ∗ rowPt c arg3 54 (lt64 54 rfl) f ∗ rowPt c arg3 55 (lt64 55 rfl) f ∗ rowPt c arg3 56 (lt64 56 rfl) f ∗ rowPt c arg3 57 (lt64 57 rfl) f ∗ rowPt c arg3 58 (lt64 58 rfl) f ∗ rowPt c arg3 59 (lt64 59 rfl) f ∗ rowPt c arg3 60 (lt64 60 rfl) f ∗ rowPt c arg3 61 (lt64 61 rfl) f ∗ rowPt c arg3 62 (lt64 62 rfl) f ∗ rowPt c arg3 63 (lt64 63 rfl) f) :=
  ⟨Entails.of_eq (rows_split_eq c arg3 f), Entails.of_eq (rows_split_eq c arg3 f).symm⟩

/-- A row held at contents `g` is the row held at contents `G` when the two agree on the row. -/
theorem row_congr (c : Dev nD) (arg3 : Memref sig .tc .vmem S64x512 .f32) (j : Nat) (hj : j < 64)
    (g G : Buf (Elt F) (arg3.view.loc (c : Thread nD τ)))
    (h : ∀ e : Fin 512, arg3.view.read (Elt F) g (ix2 (⟨j, hj⟩ : Fin 64) e) = arg3.view.read (Elt F) G (ix2 (⟨j, hj⟩ : Fin 64) e)) :
    (rowPt c arg3 j hj g : sProp 𝕄) ⊢ rowPt c arg3 j hj G := by
  refine Entails.of_eq (pointsTo_congr fun i hi => ?_)
  obtain ⟨x, -, rfl⟩ := Finset.mem_map.mp hi
  rw [row_emb arg3 ⟨j, hj⟩ (row_inb j hj) x]
  have h2 := h (x 0)
  rw [View.read_apply, View.read_apply] at h2
  have hc : ∀ {α β : Type} (hab : α = β) (a b : α), cast hab a = cast hab b → a = b := by
    intro α β hab a b hh; subst hab; exact hh
  exact hc _ _ _ h2

/-- Reading back a whole-buffer write gives the payload. -/
theorem read_write_all (c : Dev nD) (arg3 : Memref sig .tc .vmem S64x512 .f32) (f : Buf (Elt F) (arg3.view.loc (c : Thread nD τ)))
    (W : S64x512.Idx → Elt F .f32) :
    arg3.view.read (Elt F) (arg3.view.write (Elt F) f W Finset.univ) = W :=
  View.read_write_univ (v := arg3.view) f W

end Cert.KernelIdeal.Gather

end
-- ==== Proof.KernelIdealRun.lean ====
/-
  The row-gather kernel's body at one grid point, run once at symbolic operands.

  The body reads 64 row numbers from the table; after each it owes the machine the fact that the number names a row of
  the 128000-row matrix, which holds because every word of the table is below 128000; it starts 64 copies, copy `j` moving
  row `y[64 t + j]` of the matrix into row `j` of the 64×512 staging buffer on semaphore `j`, all 64 in flight together;
  then it waits for the 64. Each copy borrows the read share of the matrix that carries its semaphore's number, so
  two copies may read the same row; the staging buffer is held as its 64 rows, one hypothesis each, and copy `j` borrows
  row `j` alone. After the last wait every share is back, every semaphore is at zero again, and row `j` is held at the
  buffer's contents as copy `j` left them — those 64 contents are the witness the run finds.
-/
import proofs.«148027_j64802466562285_1_alg».proof.Proof.KernelIdealJoin
import proofs.«148027_j64802466562285_1_alg».proof.Proof.Gen.KernelIdeal.Skeleton

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The staging buffer's contents type at core `c`. -/
abbrev SB (c : Dev nD) (arg3 : Memref sig .tc .vmem S64x512 .f32) : Type := Buf (Elt F) (arg3.view.loc (c : Thread nD τ))

set_option maxHeartbeats 8000000 in
/-- What each row of the staging buffer holds after the body (the buffer's contents as the copy into that row leaves
    them: the witness the run finds), WITH the proof that from the 64 rows held one by one at contents `f3`, the table's
    read-only half, the 64 semaphores at zero and the matrix's 64 read shares, the body runs to its return handing all
    of it back, row `j` at the contents its copy left. -/
noncomputable def kernelRun (c : Dev nD) (i : grid0.Coords) (arg3 : Memref sig .tc .vmem S64x512 .f32) (harg3 : arg3.IsWhole)
    (xt : TbBuf (F := F) c) (fh : HbBuf (F := F) c)
    (hx : ∀ (R : LoadRect S16384) (j : R.shape.Idx), BitVec.toNat (tbM.view.readAt (Elt F) R xt j : BitVec 32) < 128000)
    (f3 : SB (F := F) c arg3) :
    { G : SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 × SB c arg3 //
      ∀ (W : Waits sig Unit) (K : PUnit → sProp 𝕄),
        iprop(rowPt c arg3 0 (lt64 0 rfl) f3 ∗ rowPt c arg3 1 (lt64 1 rfl) f3 ∗ rowPt c arg3 2 (lt64 2 rfl) f3 ∗ rowPt c arg3 3 (lt64 3 rfl) f3 ∗ rowPt c arg3 4 (lt64 4 rfl) f3 ∗ rowPt c arg3 5 (lt64 5 rfl) f3 ∗ rowPt c arg3 6 (lt64 6 rfl) f3 ∗ rowPt c arg3 7 (lt64 7 rfl) f3 ∗ rowPt c arg3 8 (lt64 8 rfl) f3 ∗ rowPt c arg3 9 (lt64 9 rfl) f3 ∗ rowPt c arg3 10 (lt64 10 rfl) f3 ∗ rowPt c arg3 11 (lt64 11 rfl) f3 ∗ rowPt c arg3 12 (lt64 12 rfl) f3 ∗ rowPt c arg3 13 (lt64 13 rfl) f3 ∗ rowPt c arg3 14 (lt64 14 rfl) f3 ∗ rowPt c arg3 15 (lt64 15 rfl) f3 ∗ rowPt c arg3 16 (lt64 16 rfl) f3 ∗ rowPt c arg3 17 (lt64 17 rfl) f3 ∗ rowPt c arg3 18 (lt64 18 rfl) f3 ∗ rowPt c arg3 19 (lt64 19 rfl) f3 ∗ rowPt c arg3 20 (lt64 20 rfl) f3 ∗ rowPt c arg3 21 (lt64 21 rfl) f3 ∗ rowPt c arg3 22 (lt64 22 rfl) f3 ∗ rowPt c arg3 23 (lt64 23 rfl) f3 ∗ rowPt c arg3 24 (lt64 24 rfl) f3 ∗ rowPt c arg3 25 (lt64 25 rfl) f3 ∗ rowPt c arg3 26 (lt64 26 rfl) f3 ∗ rowPt c arg3 27 (lt64 27 rfl) f3 ∗ rowPt c arg3 28 (lt64 28 rfl) f3 ∗ rowPt c arg3 29 (lt64 29 rfl) f3 ∗ rowPt c arg3 30 (lt64 30 rfl) f3 ∗ rowPt c arg3 31 (lt64 31 rfl) f3 ∗ rowPt c arg3 32 (lt64 32 rfl) f3 ∗ rowPt c arg3 33 (lt64 33 rfl) f3 ∗ rowPt c arg3 34 (lt64 34 rfl) f3 ∗ rowPt c arg3 35 (lt64 35 rfl) f3 ∗ rowPt c arg3 36 (lt64 36 rfl) f3 ∗ rowPt c arg3 37 (lt64 37 rfl) f3 ∗ rowPt c arg3 38 (lt64 38 rfl) f3 ∗ rowPt c arg3 39 (lt64 39 rfl) f3 ∗ rowPt c arg3 40 (lt64 40 rfl) f3 ∗ rowPt c arg3 41 (lt64 41 rfl) f3 ∗ rowPt c arg3 42 (lt64 42 rfl) f3 ∗ rowPt c arg3 43 (lt64 43 rfl) f3 ∗ rowPt c arg3 44 (lt64 44 rfl) f3 ∗ rowPt c arg3 45 (lt64 45 rfl) f3 ∗ rowPt c arg3 46 (lt64 46 rfl) f3 ∗ rowPt c arg3 47 (lt64 47 rfl) f3 ∗ rowPt c arg3 48 (lt64 48 rfl) f3 ∗ rowPt c arg3 49 (lt64 49 rfl) f3 ∗ rowPt c arg3 50 (lt64 50 rfl) f3 ∗ rowPt c arg3 51 (lt64 51 rfl) f3 ∗ rowPt c arg3 52 (lt64 52 rfl) f3 ∗ rowPt c arg3 53 (lt64 53 rfl) f3 ∗ rowPt c arg3 54 (lt64 54 rfl) f3 ∗ rowPt c arg3 55 (lt64 55 rfl) f3 ∗ rowPt c arg3 56 (lt64 56 rfl) f3 ∗ rowPt c arg3 57 (lt64 57 rfl) f3 ∗ rowPt c arg3 58 (lt64 58 rfl) f3 ∗ rowPt c arg3 59 (lt64 59 rfl) f3 ∗ rowPt c arg3 60 (lt64 60 rfl) f3 ∗ rowPt c arg3 61 (lt64 61 rfl) f3 ∗ rowPt c arg3 62 (lt64 62 rfl) f3 ∗ rowPt c arg3 63 (lt64 63 rfl) f3 ∗ tbPt c xt ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ hbTok c 2 fh ∗ hbTok c 3 fh ∗ hbTok c 4 fh ∗ hbTok c 5 fh ∗ hbTok c 6 fh ∗ hbTok c 7 fh ∗ hbTok c 8 fh ∗ hbTok c 9 fh ∗ hbTok c 10 fh ∗ hbTok c 11 fh ∗ hbTok c 12 fh ∗ hbTok c 13 fh ∗ hbTok c 14 fh ∗ hbTok c 15 fh ∗ hbTok c 16 fh ∗ hbTok c 17 fh ∗ hbTok c 18 fh ∗ hbTok c 19 fh ∗ hbTok c 20 fh ∗ hbTok c 21 fh ∗ hbTok c 22 fh ∗ hbTok c 23 fh ∗ hbTok c 24 fh ∗ hbTok c 25 fh ∗ hbTok c 26 fh ∗ hbTok c 27 fh ∗ hbTok c 28 fh ∗ hbTok c 29 fh ∗ hbTok c 30 fh ∗ hbTok c 31 fh ∗ hbTok c 32 fh ∗ hbTok c 33 fh ∗ hbTok c 34 fh ∗ hbTok c 35 fh ∗ hbTok c 36 fh ∗ hbTok c 37 fh ∗ hbTok c 38 fh ∗ hbTok c 39 fh ∗ hbTok c 40 fh ∗ hbTok c 41 fh ∗ hbTok c 42 fh ∗ hbTok c 43 fh ∗ hbTok c 44 fh ∗ hbTok c 45 fh ∗ hbTok c 46 fh ∗ hbTok c 47 fh ∗ hbTok c 48 fh ∗ hbTok c 49 fh ∗ hbTok c 50 fh ∗ hbTok c 51 fh ∗ hbTok c 52 fh ∗ hbTok c 53 fh ∗ hbTok c 54 fh ∗ hbTok c 55 fh ∗ hbTok c 56 fh ∗ hbTok c 57 fh ∗ hbTok c 58 fh ∗ hbTok c 59 fh ∗ hbTok c 60 fh ∗ hbTok c 61 fh ∗ hbTok c 62 fh ∗ hbTok c 63 fh ∗ hbTok c 64 fh ∗ hbTok c 65 fh ∗ owes (c : Thread nD τ) 0 W
            ∗ (iprop(rowPt c arg3 0 (lt64 0 rfl) (G.1) ∗ rowPt c arg3 1 (lt64 1 rfl) (G.2.1) ∗ rowPt c arg3 2 (lt64 2 rfl) (G.2.2.1) ∗ rowPt c arg3 3 (lt64 3 rfl) (G.2.2.2.1) ∗ rowPt c arg3 4 (lt64 4 rfl) (G.2.2.2.2.1) ∗ rowPt c arg3 5 (lt64 5 rfl) (G.2.2.2.2.2.1) ∗ rowPt c arg3 6 (lt64 6 rfl) (G.2.2.2.2.2.2.1) ∗ rowPt c arg3 7 (lt64 7 rfl) (G.2.2.2.2.2.2.2.1) ∗ rowPt c arg3 8 (lt64 8 rfl) (G.2.2.2.2.2.2.2.2.1) ∗ rowPt c arg3 9 (lt64 9 rfl) (G.2.2.2.2.2.2.2.2.2.1) ∗ rowPt c arg3 10 (lt64 10 rfl) (G.2.2.2.2.2.2.2.2.2.2.1) ∗ rowPt c arg3 11 (lt64 11 rfl) (G.2.2.2.2.2.2.2.2.2.2.2.1) ∗ rowPt c arg3 12 (lt64 12 rfl) (G.2.2.2.2.2.2.2.2.2.2.2.2.1) ∗ rowPt c arg3 13 (lt64 13 rfl) (G.2.2.2.2.2.2.2.2.2.2.2.2.2.1) ∗ rowPt c arg3 14 (lt64 14 rfl) (G.2.2.2.2.2.2.2.2.2.2.2.2.2.2.1) ∗ rowPt c arg3 15 (lt64 15 rfl) (G.2.2.2.2.2.2.2.2.2.2.2.2.2.2.2.1) ∗ rowPt c arg3 16 (lt64 16 rfl) (G.2.2.2.2.2.2.2.2.2.2.2.2.2.2.2.2.1) ∗ rowPt c arg3 17 (lt64 17 rfl) (G.2.2.2.2.2.2.2.2.2.2.2.2.2.2.2.2.2.1) ∗ rowPt c arg3 18 (lt64 18 rfl) (G.2.2.2.2.2.2.2.2.2.2.2.2.2.2.2.2.2.2.1) ∗ rowPt c arg3 19 (lt64 19 rfl) (G.2.2.2.2.2.2.2.2.2.2.2.2.2.2.2.2.2.2.2.1) ∗ rowPt c arg3 20 (lt64 20 rfl) (G.2.2.2.2.2.2.2.2.2.2.2.2.2.2.2.2.2.2.2.2.1) ∗ rowPt c arg3 21 (lt64 21 rfl) (G.2.2.2.2.2.2.2.2.2.2.2.2.2.2.2.2.2.2.2.2.2.1) ∗ rowPt c arg3 22 (lt64 22 rfl) (G.2.2.2.2.2.2.2.2.2.2.2.2.2.2.2.2.2.2.2.2.2.2.1) ∗ rowPt c arg3 23 (lt64 23 rfl) (G.2.2.2.2.2.2.2.2.2.2.2.2.2.2.2.2.2.2.2.2.2.2.2.1) ∗ rowPt c arg3 24 (lt64 24 rfl) (G.2.2.2.2.2.2.2.2.2.2.2.2.2.2.2.2.2.2.2.2.2.2.2.2.1) ∗ rowPt c arg3 25 (lt64 25 rfl) (G.2.2.2.2.2.2.2.2.2.2.2.2.2.2.2.2.2.2.2.2.2.2.2.2.2.1) ∗ rowPt c arg3 26 (lt64 26 rfl) (G.2.2.2.2.2.2.2.2.2.2.2.2.2.2.2.2.2.2.2.2.2.2.2.2.2.2.1) ∗ rowPt c arg3 27 (lt64 27 rfl) (G.2.2.2.2.2.2.2.2.2.2.2.2.2.2.2.2.2.2.2.2.2.2.2.2.2.2.2.1) ∗ rowPt c arg3 28 (lt64 28 rfl) (G.2.2.2.2.2.2.2.2.2.2.2.2.2.2.2.2.2.2.2.2.2.2.2.2.2.2.2.2.1) ∗ rowPt c arg3 29 (lt64 29 rfl) (G.2.2.2.2.2.2.2.2.2.2.2.2.2.2.2.2.2.2.2.2.2.2.2.2.2.2.2.2.2.1) ∗ rowPt c arg3 30 (lt64 30 rfl) (G.2.2.2.2.2.2.2.2.2.2.2.2.2.2.2.2.2.2.2.2.2.2.2.2.2.2.2.2.2.2.1) ∗ rowPt c arg3 31 (lt64 31 rfl) (G.2.2.2.2.2.2.2.2.2.2.2.2.2.2.2.2.2.2.2.2.2.2.2.2.2.2.2.2.2.2.2.1) ∗ rowPt c arg3 32 (lt64 32 rfl) (G.2.2.2.2.2.2.2.2.2.2.2.2.2.2.2.2.2.2.2.2.2.2.2.2.2.2.2.2.2.2.2.2.1) ∗ rowPt c arg3 33 (lt64 33 rfl) (G.2.2.2.2.2.2.2.2.2.2.2.2.2.2.2.2.2.2.2.2.2.2.2.2.2.2.2.2.2.2.2.2.2.1) ∗ rowPt c arg3 34 (lt64 34 rfl) (G.2.2.2.2.2.2.2.2.2.2.2.2.2.2.2.2.2.2.2.2.2.2.2.2.2.2.2.2.2.2.2.2.2.2.1) ∗ rowPt c arg3 35 (lt64 35 rfl) (G.2.2.2.2.2.2.2.2.2.2.2.2.2.2.2.2.2.2.2.2.2.2.2.2.2.2.2.2.2.2.2.2.2.2.2.1) ∗ rowPt c arg3 36 (lt64 36 rfl) (G.2.2.2.2.2.2.2.2.2.2.2.2.2.2.2.2.2.2.2.2.2.2.2.2.2.2.2.2.2.2.2.2.2.2.2.2.1) ∗ rowPt c arg3 37 (lt64 37 rfl) (G.2.2.2.2.2.2.2.2.2.2.2.2.2.2.2.2.2.2.2.2.2.2.2.2.2.2.2.2.2.2.2.2.2.2.2.2.2.1) ∗ rowPt c arg3 38 (lt64 38 rfl) (G.2.2.2.2.2.2.2.2.2.2.2.2.2.2.2.2.2.2.2.2.2.2.2.2.2.2.2.2.2.2.2.2.2.2.2.2.2.2.1) ∗ rowPt c arg3 39 (lt64 39 rfl) (G.2.2.2.2.2.2.2.2.2.2.2.2.2.2.2.2.2.2.2.2.2.2.2.2.2.2.2.2.2.2.2.2.2.2.2.2.2.2.2.1) ∗ rowPt c arg3 40 (lt64 40 rfl) (G.2.2.2.2.2.2.2.2.2.2.2.2.2.2.2.2.2.2.2.2.2.2.2.2.2.2.2.2.2.2.2.2.2.2.2.2.2.2.2.2.1) ∗ rowPt c arg3 41 (lt64 41 rfl) (G.2.2.2.2.2.2.2.2.2.2.2.2.2.2.2.2.2.2.2.2.2.2.2.2.2.2.2.2.2.2.2.2.2.2.2.2.2.2.2.2.2.1) ∗ rowPt c arg3 42 (lt64 42 rfl) (G.2.2.2.2.2.2.2.2.2.2.2.2.2.2.2.2.2.2.2.2.2.2.2.2.2.2.2.2.2.2.2.2.2.2.2.2.2.2.2.2.2.2.1) ∗ rowPt c arg3 43 (lt64 43 rfl) (G.2.2.2.2.2.2.2.2.2.2.2.2.2.2.2.2.2.2.2.2.2.2.2.2.2.2.2.2.2.2.2.2.2.2.2.2.2.2.2.2.2.2.2.1) ∗ rowPt c arg3 44 (lt64 44 rfl) (G.2.2.2.2.2.2.2.2.2.2.2.2.2.2.2.2.2.2.2.2.2.2.2.2.2.2.2.2.2.2.2.2.2.2.2.2.2.2.2.2.2.2.2.2.1) ∗ rowPt c arg3 45 (lt64 45 rfl) (G.2.2.2.2.2.2.2.2.2.2.2.2.2.2.2.2.2.2.2.2.2.2.2.2.2.2.2.2.2.2.2.2.2.2.2.2.2.2.2.2.2.2.2.2.2.1) ∗ rowPt c arg3 46 (lt64 46 rfl) (G.2.2.2.2.2.2.2.2.2.2.2.2.2.2.2.2.2.2.2.2.2.2.2.2.2.2.2.2.2.2.2.2.2.2.2.2.2.2.2.2.2.2.2.2.2.2.1) ∗ rowPt c arg3 47 (lt64 47 rfl) (G.2.2.2.2.2.2.2.2.2.2.2.2.2.2.2.2.2.2.2.2.2.2.2.2.2.2.2.2.2.2.2.2.2.2.2.2.2.2.2.2.2.2.2.2.2.2.2.1) ∗ rowPt c arg3 48 (lt64 48 rfl) (G.2.2.2.2.2.2.2.2.2.2.2.2.2.2.2.2.2.2.2.2.2.2.2.2.2.2.2.2.2.2.2.2.2.2.2.2.2.2.2.2.2.2.2.2.2.2.2.2.1) ∗ rowPt c arg3 49 (lt64 49 rfl) (G.2.2.2.2.2.2.2.2.2.2.2.2.2.2.2.2.2.2.2.2.2.2.2.2.2.2.2.2.2.2.2.2.2.2.2.2.2.2.2.2.2.2.2.2.2.2.2.2.2.1) ∗ rowPt c arg3 50 (lt64 50 rfl) (G.2.2.2.2.2.2.2.2.2.2.2.2.2.2.2.2.2.2.2.2.2.2.2.2.2.2.2.2.2.2.2.2.2.2.2.2.2.2.2.2.2.2.2.2.2.2.2.2.2.2.1) ∗ rowPt c arg3 51 (lt64 51 rfl) (G.2.2.2.2.2.2.2.2.2.2.2.2.2.2.2.2.2.2.2.2.2.2.2.2.2.2.2.2.2.2.2.2.2.2.2.2.2.2.2.2.2.2.2.2.2.2.2.2.2.2.2.1) ∗ rowPt c arg3 52 (lt64 52 rfl) (G.2.2.2.2.2.2.2.2.2.2.2.2.2.2.2.2.2.2.2.2.2.2.2.2.2.2.2.2.2.2.2.2.2.2.2.2.2.2.2.2.2.2.2.2.2.2.2.2.2.2.2.2.1) ∗ rowPt c arg3 53 (lt64 53 rfl) (G.2.2.2.2.2.2.2.2.2.2.2.2.2.2.2.2.2.2.2.2.2.2.2.2.2.2.2.2.2.2.2.2.2.2.2.2.2.2.2.2.2.2.2.2.2.2.2.2.2.2.2.2.2.1) ∗ rowPt c arg3 54 (lt64 54 rfl) (G.2.2.2.2.2.2.2.2.2.2.2.2.2.2.2.2.2.2.2.2.2.2.2.2.2.2.2.2.2.2.2.2.2.2.2.2.2.2.2.2.2.2.2.2.2.2.2.2.2.2.2.2.2.2.1) ∗ rowPt c arg3 55 (lt64 55 rfl) (G.2.2.2.2.2.2.2.2.2.2.2.2.2.2.2.2.2.2.2.2.2.2.2.2.2.2.2.2.2.2.2.2.2.2.2.2.2.2.2.2.2.2.2.2.2.2.2.2.2.2.2.2.2.2.2.1) ∗ rowPt c arg3 56 (lt64 56 rfl) (G.2.2.2.2.2.2.2.2.2.2.2.2.2.2.2.2.2.2.2.2.2.2.2.2.2.2.2.2.2.2.2.2.2.2.2.2.2.2.2.2.2.2.2.2.2.2.2.2.2.2.2.2.2.2.2.2.1) ∗ rowPt c arg3 57 (lt64 57 rfl) (G.2.2.2.2.2.2.2.2.2.2.2.2.2.2.2.2.2.2.2.2.2.2.2.2.2.2.2.2.2.2.2.2.2.2.2.2.2.2.2.2.2.2.2.2.2.2.2.2.2.2.2.2.2.2.2.2.2.1) ∗ rowPt c arg3 58 (lt64 58 rfl) (G.2.2.2.2.2.2.2.2.2.2.2.2.2.2.2.2.2.2.2.2.2.2.2.2.2.2.2.2.2.2.2.2.2.2.2.2.2.2.2.2.2.2.2.2.2.2.2.2.2.2.2.2.2.2.2.2.2.2.1) ∗ rowPt c arg3 59 (lt64 59 rfl) (G.2.2.2.2.2.2.2.2.2.2.2.2.2.2.2.2.2.2.2.2.2.2.2.2.2.2.2.2.2.2.2.2.2.2.2.2.2.2.2.2.2.2.2.2.2.2.2.2.2.2.2.2.2.2.2.2.2.2.2.1) ∗ rowPt c arg3 60 (lt64 60 rfl) (G.2.2.2.2.2.2.2.2.2.2.2.2.2.2.2.2.2.2.2.2.2.2.2.2.2.2.2.2.2.2.2.2.2.2.2.2.2.2.2.2.2.2.2.2.2.2.2.2.2.2.2.2.2.2.2.2.2.2.2.2.1) ∗ rowPt c arg3 61 (lt64 61 rfl) (G.2.2.2.2.2.2.2.2.2.2.2.2.2.2.2.2.2.2.2.2.2.2.2.2.2.2.2.2.2.2.2.2.2.2.2.2.2.2.2.2.2.2.2.2.2.2.2.2.2.2.2.2.2.2.2.2.2.2.2.2.2.1) ∗ rowPt c arg3 62 (lt64 62 rfl) (G.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1) ∗ rowPt c arg3 63 (lt64 63 rfl) (G.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2) ∗ tbPt c xt ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ hbTok c 2 fh ∗ hbTok c 3 fh ∗ hbTok c 4 fh ∗ hbTok c 5 fh ∗ hbTok c 6 fh ∗ hbTok c 7 fh ∗ hbTok c 8 fh ∗ hbTok c 9 fh ∗ hbTok c 10 fh ∗ hbTok c 11 fh ∗ hbTok c 12 fh ∗ hbTok c 13 fh ∗ hbTok c 14 fh ∗ hbTok c 15 fh ∗ hbTok c 16 fh ∗ hbTok c 17 fh ∗ hbTok c 18 fh ∗ hbTok c 19 fh ∗ hbTok c 20 fh ∗ hbTok c 21 fh ∗ hbTok c 22 fh ∗ hbTok c 23 fh ∗ hbTok c 24 fh ∗ hbTok c 25 fh ∗ hbTok c 26 fh ∗ hbTok c 27 fh ∗ hbTok c 28 fh ∗ hbTok c 29 fh ∗ hbTok c 30 fh ∗ hbTok c 31 fh ∗ hbTok c 32 fh ∗ hbTok c 33 fh ∗ hbTok c 34 fh ∗ hbTok c 35 fh ∗ hbTok c 36 fh ∗ hbTok c 37 fh ∗ hbTok c 38 fh ∗ hbTok c 39 fh ∗ hbTok c 40 fh ∗ hbTok c 41 fh ∗ hbTok c 42 fh ∗ hbTok c 43 fh ∗ hbTok c 44 fh ∗ hbTok c 45 fh ∗ hbTok c 46 fh ∗ hbTok c 47 fh ∗ hbTok c 48 fh ∗ hbTok c 49 fh ∗ hbTok c 50 fh ∗ hbTok c 51 fh ∗ hbTok c 52 fh ∗ hbTok c 53 fh ∗ hbTok c 54 fh ∗ hbTok c 55 fh ∗ hbTok c 56 fh ∗ hbTok c 57 fh ∗ hbTok c 58 fh ∗ hbTok c 59 fh ∗ hbTok c 60 fh ∗ hbTok c 61 fh ∗ hbTok c 62 fh ∗ hbTok c 63 fh ∗ hbTok c 64 fh ∗ hbTok c 65 fh ∗ (∃ W', owes (c : Thread nD τ) 0 W')) -∗ K ⟨⟩))
          ⊢ wp frame (wpE (defs₀ (F := F)) Variants.none c none) Set.univ (cc0__gather_kernel i tbM htbM hbM (Memref.isWhole_whole _) arg3 harg3 cc0_scratch0) K } := by
  refine ⟨⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩, fun W K => ?run⟩
  case run =>
    iintro ⟨Hr0, Hr1, Hr2, Hr3, Hr4, Hr5, Hr6, Hr7, Hr8, Hr9, Hr10, Hr11, Hr12, Hr13, Hr14, Hr15, Hr16, Hr17, Hr18, Hr19, Hr20, Hr21, Hr22, Hr23, Hr24, Hr25, Hr26, Hr27, Hr28, Hr29, Hr30, Hr31, Hr32, Hr33, Hr34, Hr35, Hr36, Hr37, Hr38, Hr39, Hr40, Hr41, Hr42, Hr43, Hr44, Hr45, Hr46, Hr47, Hr48, Hr49, Hr50, Hr51, Hr52, Hr53, Hr54, Hr55, Hr56, Hr57, Hr58, Hr59, Hr60, Hr61, Hr62, Hr63, HT, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63, Hq64, Hq65, Hh2, Hh3, Hh4, Hh5, Hh6, Hh7, Hh8, Hh9, Hh10, Hh11, Hh12, Hh13, Hh14, Hh15, Hh16, Hh17, Hh18, Hh19, Hh20, Hh21, Hh22, Hh23, Hh24, Hh25, Hh26, Hh27, Hh28, Hh29, Hh30, Hh31, Hh32, Hh33, Hh34, Hh35, Hh36, Hh37, Hh38, Hh39, Hh40, Hh41, Hh42, Hh43, Hh44, Hh45, Hh46, Hh47, Hh48, Hh49, Hh50, Hh51, Hh52, Hh53, Hh54, Hh55, Hh56, Hh57, Hh58, Hh59, Hh60, Hh61, Hh62, Hh63, Hh64, Hh65, HW, Hk⟩
    sl_exec_parts (disch := first | exact row_inside _ (hx _ _) | exact ⟨row_inside _ (hx _ _), row_inside _ (hx _ _)⟩)
    sl_step
    iapply Hk
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    isplitl [Hr16]; · iexact Hr16
    isplitl [Hr17]; · iexact Hr17
    isplitl [Hr18]; · iexact Hr18
    isplitl [Hr19]; · iexact Hr19
    isplitl [Hr20]; · iexact Hr20
    isplitl [Hr21]; · iexact Hr21
    isplitl [Hr22]; · iexact Hr22
    isplitl [Hr23]; · iexact Hr23
    isplitl [Hr24]; · iexact Hr24
    isplitl [Hr25]; · iexact Hr25
    isplitl [Hr26]; · iexact Hr26
    isplitl [Hr27]; · iexact Hr27
    isplitl [Hr28]; · iexact Hr28
    isplitl [Hr29]; · iexact Hr29
    isplitl [Hr30]; · iexact Hr30
    isplitl [Hr31]; · iexact Hr31
    isplitl [Hr32]; · iexact Hr32
    isplitl [Hr33]; · iexact Hr33
    isplitl [Hr34]; · iexact Hr34
    isplitl [Hr35]; · iexact Hr35
    isplitl [Hr36]; · iexact Hr36
    isplitl [Hr37]; · iexact Hr37
    isplitl [Hr38]; · iexact Hr38
    isplitl [Hr39]; · iexact Hr39
    isplitl [Hr40]; · iexact Hr40
    isplitl [Hr41]; · iexact Hr41
    isplitl [Hr42]; · iexact Hr42
    isplitl [Hr43]; · iexact Hr43
    isplitl [Hr44]; · iexact Hr44
    isplitl [Hr45]; · iexact Hr45
    isplitl [Hr46]; · iexact Hr46
    isplitl [Hr47]; · iexact Hr47
    isplitl [Hr48]; · iexact Hr48
    isplitl [Hr49]; · iexact Hr49
    isplitl [Hr50]; · iexact Hr50
    isplitl [Hr51]; · iexact Hr51
    isplitl [Hr52]; · iexact Hr52
    isplitl [Hr53]; · iexact Hr53
    isplitl [Hr54]; · iexact Hr54
    isplitl [Hr55]; · iexact Hr55
    isplitl [Hr56]; · iexact Hr56
    isplitl [Hr57]; · iexact Hr57
    isplitl [Hr58]; · iexact Hr58
    isplitl [Hr59]; · iexact Hr59
    isplitl [Hr60]; · iexact Hr60
    isplitl [Hr61]; · iexact Hr61
    isplitl [Hr62]; · iexact Hr62
    isplitl [Hr63]; · iexact Hr63
    isplitl [HT]; · iexact HT
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    isplitl [Hq34]; · iexact Hq34
    isplitl [Hq35]; · iexact Hq35
    isplitl [Hq36]; · iexact Hq36
    isplitl [Hq37]; · iexact Hq37
    isplitl [Hq38]; · iexact Hq38
    isplitl [Hq39]; · iexact Hq39
    isplitl [Hq40]; · iexact Hq40
    isplitl [Hq41]; · iexact Hq41
    isplitl [Hq42]; · iexact Hq42
    isplitl [Hq43]; · iexact Hq43
    isplitl [Hq44]; · iexact Hq44
    isplitl [Hq45]; · iexact Hq45
    isplitl [Hq46]; · iexact Hq46
    isplitl [Hq47]; · iexact Hq47
    isplitl [Hq48]; · iexact Hq48
    isplitl [Hq49]; · iexact Hq49
    isplitl [Hq50]; · iexact Hq50
    isplitl [Hq51]; · iexact Hq51
    isplitl [Hq52]; · iexact Hq52
    isplitl [Hq53]; · iexact Hq53
    isplitl [Hq54]; · iexact Hq54
    isplitl [Hq55]; · iexact Hq55
    isplitl [Hq56]; · iexact Hq56
    isplitl [Hq57]; · iexact Hq57
    isplitl [Hq58]; · iexact Hq58
    isplitl [Hq59]; · iexact Hq59
    isplitl [Hq60]; · iexact Hq60
    isplitl [Hq61]; · iexact Hq61
    isplitl [Hq62]; · iexact Hq62
    isplitl [Hq63]; · iexact Hq63
    isplitl [Hq64]; · iexact Hq64
    isplitl [Hq65]; · iexact Hq65
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    isplitl [Hh15]; · iexact Hh15
    isplitl [Hh16]; · iexact Hh16
    isplitl [Hh17]; · iexact Hh17
    isplitl [Hh18]; · iexact Hh18
    isplitl [Hh19]; · iexact Hh19
    isplitl [Hh20]; · iexact Hh20
    isplitl [Hh21]; · iexact Hh21
    isplitl [Hh22]; · iexact Hh22
    isplitl [Hh23]; · iexact Hh23
    isplitl [Hh24]; · iexact Hh24
    isplitl [Hh25]; · iexact Hh25
    isplitl [Hh26]; · iexact Hh26
    isplitl [Hh27]; · iexact Hh27
    isplitl [Hh28]; · iexact Hh28
    isplitl [Hh29]; · iexact Hh29
    isplitl [Hh30]; · iexact Hh30
    isplitl [Hh31]; · iexact Hh31
    isplitl [Hh32]; · iexact Hh32
    isplitl [Hh33]; · iexact Hh33
    isplitl [Hh34]; · iexact Hh34
    isplitl [Hh35]; · iexact Hh35
    isplitl [Hh36]; · iexact Hh36
    isplitl [Hh37]; · iexact Hh37
    isplitl [Hh38]; · iexact Hh38
    isplitl [Hh39]; · iexact Hh39
    isplitl [Hh40]; · iexact Hh40
    isplitl [Hh41]; · iexact Hh41
    isplitl [Hh42]; · iexact Hh42
    isplitl [Hh43]; · iexact Hh43
    isplitl [Hh44]; · iexact Hh44
    isplitl [Hh45]; · iexact Hh45
    isplitl [Hh46]; · iexact Hh46
    isplitl [Hh47]; · iexact Hh47
    isplitl [Hh48]; · iexact Hh48
    isplitl [Hh49]; · iexact Hh49
    isplitl [Hh50]; · iexact Hh50
    isplitl [Hh51]; · iexact Hh51
    isplitl [Hh52]; · iexact Hh52
    isplitl [Hh53]; · iexact Hh53
    isplitl [Hh54]; · iexact Hh54
    isplitl [Hh55]; · iexact Hh55
    isplitl [Hh56]; · iexact Hh56
    isplitl [Hh57]; · iexact Hh57
    isplitl [Hh58]; · iexact Hh58
    isplitl [Hh59]; · iexact Hh59
    isplitl [Hh60]; · iexact Hh60
    isplitl [Hh61]; · iexact Hh61
    isplitl [Hh62]; · iexact Hh62
    isplitl [Hh63]; · iexact Hh63
    isplitl [Hh64]; · iexact Hh64
    isplitl [Hh65]; · iexact Hh65
    iexists _; iexact HW

end Cert.KernelIdeal.Gather

end
-- ==== Proof.KernelIdealRowOf.lean ====
/-
  Row `j` of the staging buffer after the body at grid coordinate `i`.

  Copy `j` of the body reads the table's word at offset `64 i + j`, slices the matrix at the row that word names and
  writes that row through row `j` of the staging buffer. So the buffer's contents as copy `j` leaves them read, at
  `(j, e)`, the matrix at `(table[64 i + j], e)`: the write lands on row `j`, the row read through the squeezed slice is
  the matrix's row, and the word read through the unit rectangle is the table's entry.
-/
import proofs.«148027_j64802466562285_1_alg».proof.Proof.KernelIdealJoin

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

/-- The rows of the matrix the table names at grid coordinate `i`: the entry `(j, e)` is the matrix at row
    `table[64 i + j]`, column `e` (both indices capped, so that the function is total). -/
def rowsOf (c : Dev nD) (i : grid0.Coords) (xt : TbBuf (F := F) c) (fh : HbBuf (F := F) c) : Vec F S64x512 .f32 :=
  fun y => (fh : S128000x512.Idx → Elt F .f32)
    (ix2 ⟨min (BitVec.toNat ((xt : S16384.Idx → Elt F .i32) (ix1 ⟨min (64 * (i 0).val + (y 0).val) 16383, by omega⟩) : BitVec 32)) 127999, by omega⟩
      (⟨(y 1).val, (y 1).isLt⟩ : Fin 512))

/-- The word read from the table through a unit rectangle at offset `n` is the table's entry `n`. -/
theorem word_eq (c : Dev nD) (xt : TbBuf (F := F) c) (off : Fin 1 → Nat) (n : Nat) (hn : n < 16384) (hoff : off = ![n])
    (inb : ∀ a, off a + S1.size a ≤ S16384.size a) (h1 : 0 < S1.numel) :
    tbM.view.readAt (Elt F) (Rect.unit (s := S16384) off S1.size inb).toLoadRect xt (Shape.Idx.first h1)
      = (xt : S16384.Idx → Elt F .i32) (ValueIdx.ix1 ⟨n, hn⟩) := by
  subst hoff
  refine congrArg (xt : S16384.Idx → Elt F .i32) ?_
  funext a
  refine Fin.ext ?_
  match a with
  | ⟨0, _⟩ =>
    show (![n] : Fin 1 → Nat) 0 + 1 * (Shape.Idx.first h1 (0 : Fin 1)).val = n
    have h0 : (Shape.Idx.first h1 (0 : Fin 1)).val = 0 := by
      have := (Shape.Idx.first h1 (0 : Fin 1)).isLt
      have e : S1.size (0 : Fin 1) = 1 := by decide
      omega
    rw [h0]; simp

/-- A grid coordinate is below 256. -/
theorem coord_lt (i : grid0.Coords) : (i 0).val < 256 := (i 0).isLt

/-- ROW `j` AFTER COPY `j`: if the buffer's contents `g` are `f3` overwritten, through row `j`, by the matrix row sliced at
    the word read from the table at offset `64 i + j`, then `g` at `(j, e)` is the matrix at `(table[64 i + j], e)`. -/
theorem row_value_of (c : Dev nD) (i : grid0.Coords) (arg3 : Memref sig .tc .vmem S64x512 .f32) (harg3 : arg3.IsWhole)
    (xt : TbBuf (F := F) c) (fh : HbBuf (F := F) c)
    (hx : ∀ (R : LoadRect S16384) (j : R.shape.Idx), BitVec.toNat (tbM.view.readAt (Elt F) R xt j : BitVec 32) < 128000)
    (f3 g : Buf (Elt F) (arg3.view.loc (c : Thread nD τ))) (j : Nat) (hj : j < 64)
    (offT : Fin 1 → Nat) (inbT : ∀ a, offT a + S1.size a ≤ S16384.size a) (h1 : 0 < S1.numel) (hoffT : offT = ![64 * (i 0).val + j])
    (offS : Fin 2 → Nat) (inbS : ∀ a, offS a + S1x512.size a ≤ S128000x512.size a)
    (hoffS : offS = ![BitVec.toNat (tbM.view.readAt (Elt F) (Rect.unit (s := S16384) offT S1.size inbT).toLoadRect xt (Shape.Idx.first h1) : BitVec 32), 0])
    (hg : g = (rowN arg3 j hj).view.write (Elt F) f3
      (ReadAs.same.apply (((hbM.slice (Rect.unit (s := S128000x512) offS S1x512.size inbS) (fun _ => rfl)).squeeze S512 squeezes_S1x512_S512).view.read (Elt F) fh)) Finset.univ)
    (e : Fin 512) :
    arg3.view.read (Elt F) g (ix2 (⟨j, hj⟩ : Fin 64) e) = rowsOf c i xt fh (ix2 (⟨j, hj⟩ : Fin 64) e) := by
  subst hg
  have hlt : 64 * (i 0).val + j < 16384 := by have := coord_lt i; omega
  have hw := word_eq c xt offT (64 * (i 0).val + j) hlt hoffT inbT h1
  have hn := hx (Rect.unit (s := S16384) offT S1.size inbT).toLoadRect (Shape.Idx.first h1)
  refine (row_write_read c arg3 harg3 f3 ⟨j, hj⟩ (row_inb j hj) _ ⟨j, hj⟩ e).trans ?_
  rw [if_pos rfl, ReadAs.apply_same]
  refine (row_read c fh offS _ hn hoffS inbS (ix1 e)).trans ?_
  unfold rowsOf
  refine congrArg (fh : S128000x512.Idx → Elt F .f32) ?_
  have h16 : min (64 * (i 0).val + j) 16383 = 64 * (i 0).val + j := by omega
  have hidx : (ix1 (⟨min (64 * (i 0).val + j) 16383, by omega⟩ : Fin 16384) : S16384.Idx) = ix1 ⟨64 * (i 0).val + j, hlt⟩ :=
    congrArg ix1 (Fin.ext h16)
  funext a
  match a with
  | ⟨0, _⟩ =>
    refine Fin.ext ?_
    show BitVec.toNat (tbM.view.readAt (Elt F) (Rect.unit (s := S16384) offT S1.size inbT).toLoadRect xt (Shape.Idx.first h1) : BitVec 32)
      = min (BitVec.toNat ((xt : S16384.Idx → Elt F .i32) (ix1 ⟨min (64 * (i 0).val + j) 16383, by omega⟩) : BitVec 32)) 127999
    rw [hidx, ← hw]
    omega
  | ⟨1, _⟩ => rfl

end Cert.KernelIdeal.Gather

end
-- ==== Proof.KernelIdealWhole.lean ====
/-
  A write through the whole rectangle of a view is a write through the view.

  The slice of a view by its whole rectangle places every index where the view places it, so the two writes change
  the same elements of the buffer to the same values and leave the others alone.
-/
import proofs.«148027_j64802466562285_1_alg».proof.Proof.KernelIdealJoin

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- For any view: the one write through the view's whole rectangle is the write through the view. -/
theorem writes_whole_view {sig' : RefSig} {κ : Kind} {sp : Space} {s : Shape} {e : EltTy} {Val : EltTy → Type}
    (v : View sig' κ sp s e) (f : v.ty.Contents Val) (p : s.Idx → Val e) :
    v.writes Val f [⟨Rect.whole s, p⟩] = v.write Val f p Finset.univ := by
  show (v.slice (Rect.whole s)).write Val f p Finset.univ = _
  funext i
  by_cases hi : i ∈ v.set
  · obtain ⟨x, -, rfl⟩ := Finset.mem_map.mp hi
    have hx : (v.slice (Rect.whole s)).emb x = v.emb x := congrArg v.emb (Rect.emb_whole_apply s x)
    have h1 := View.write_emb_of_mem (v := v.slice (Rect.whole s)) f p (M := Finset.univ) (Finset.mem_univ x)
    rw [hx] at h1
    have h2 := View.write_emb_of_mem (v := v) f p (M := Finset.univ) (Finset.mem_univ x)
    rw [h1, h2]
  · rw [View.write_of_not_mem _ _ _ (fun h => hi (View.setOn_subset_set _ _ h)),
      View.write_of_not_mem _ _ _ (fun h => hi (View.set_slice_subset v (Rect.whole s) (View.setOn_subset_set _ _ h)))]

/-- Row `j` of the staging buffer written as one piece through the row view's whole rectangle is the row written
    through the row view. -/
theorem writes_whole (c : Dev nD) (arg3 : Memref sig .tc .vmem S64x512 .f32) (j : Nat) (hj : j < 64)
    (f : Buf (Elt F) (arg3.view.loc (c : Thread nD τ))) (p : S512.Idx → Elt F .f32) :
    (rowN arg3 j hj).view.writes (Elt F) f [⟨Rect.whole S512, p⟩] = (rowN arg3 j hj).view.write (Elt F) f p Finset.univ :=
  writes_whole_view (rowN arg3 j hj).view f p

end Cert.KernelIdeal.Gather

end
-- ==== Proof.KernelIdealRowValue.lean ====
/-
  Each row of the staging buffer after the body, read back: row `j` holds the matrix row the table names at offset
  `64 i + j`. One statement per row, each the general fact about a copy through row `j` applied to the contents the
  body's run left in that row.
-/
import proofs.«148027_j64802466562285_1_alg».proof.Proof.KernelIdealRun
import proofs.«148027_j64802466562285_1_alg».proof.Proof.KernelIdealRowOf
import proofs.«148027_j64802466562285_1_alg».proof.Proof.KernelIdealWhole

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

variable (c : Dev nD) (i : grid0.Coords) (arg3 : Memref sig .tc .vmem S64x512 .f32) (harg3 : arg3.IsWhole)
  (xt : TbBuf (F := F) c) (fh : HbBuf (F := F) c)
  (hx : ∀ (R : LoadRect S16384) (j : R.shape.Idx), BitVec.toNat (tbM.view.readAt (Elt F) R xt j : BitVec 32) < 128000)
  (f3 : SB (F := F) c arg3)

/-- Row 0 after the body. -/
theorem row_value_0 (e : Fin 512) :
    arg3.view.read (Elt F) ((kernelRun c i arg3 harg3 xt fh hx f3).1.1) (ix2 (⟨0, lt64 0 rfl⟩ : Fin 64) e)
      = rowsOf c i xt fh (ix2 (⟨0, lt64 0 rfl⟩ : Fin 64) e) :=
  row_value_of c i arg3 harg3 xt fh hx f3 _ 0 (lt64 0 rfl) (k0_off1 i) _ _ (k0_off1_eq i) _ _ rfl
    ((show (kernelRun c i arg3 harg3 xt fh hx f3).1.1
        = (rowN arg3 0 (lt64 0 rfl)).view.writes (Elt F) f3 [⟨Rect.whole S512, kernelRun.sl.dma1 c i xt fh hx⟩] from by unfold kernelRun; rfl).trans
      (writes_whole c arg3 0 (lt64 0 rfl) f3 _)) e

/-- Row 1 after the body. -/
theorem row_value_1 (e : Fin 512) :
    arg3.view.read (Elt F) ((kernelRun c i arg3 harg3 xt fh hx f3).1.2.1) (ix2 (⟨1, lt64 1 rfl⟩ : Fin 64) e)
      = rowsOf c i xt fh (ix2 (⟨1, lt64 1 rfl⟩ : Fin 64) e) :=
  row_value_of c i arg3 harg3 xt fh hx f3 _ 1 (lt64 1 rfl) (k0_off3 i) _ _ (k0_off3_eq i) _ _ rfl
    ((show (kernelRun c i arg3 harg3 xt fh hx f3).1.2.1
        = (rowN arg3 1 (lt64 1 rfl)).view.writes (Elt F) f3 [⟨Rect.whole S512, kernelRun.sl.dma2 c i xt fh hx⟩] from by unfold kernelRun; rfl).trans
      (writes_whole c arg3 1 (lt64 1 rfl) f3 _)) e

/-- Row 2 after the body. -/
theorem row_value_2 (e : Fin 512) :
    arg3.view.read (Elt F) ((kernelRun c i arg3 harg3 xt fh hx f3).1.2.2.1) (ix2 (⟨2, lt64 2 rfl⟩ : Fin 64) e)
      = rowsOf c i xt fh (ix2 (⟨2, lt64 2 rfl⟩ : Fin 64) e) :=
  row_value_of c i arg3 harg3 xt fh hx f3 _ 2 (lt64 2 rfl) (k0_off5 i) _ _ (k0_off5_eq i) _ _ rfl
    ((show (kernelRun c i arg3 harg3 xt fh hx f3).1.2.2.1
        = (rowN arg3 2 (lt64 2 rfl)).view.writes (Elt F) f3 [⟨Rect.whole S512, kernelRun.sl.dma3 c i xt fh hx⟩] from by unfold kernelRun; rfl).trans
      (writes_whole c arg3 2 (lt64 2 rfl) f3 _)) e

/-- Row 3 after the body. -/
theorem row_value_3 (e : Fin 512) :
    arg3.view.read (Elt F) ((kernelRun c i arg3 harg3 xt fh hx f3).1.2.2.2.1) (ix2 (⟨3, lt64 3 rfl⟩ : Fin 64) e)
      = rowsOf c i xt fh (ix2 (⟨3, lt64 3 rfl⟩ : Fin 64) e) :=
  row_value_of c i arg3 harg3 xt fh hx f3 _ 3 (lt64 3 rfl) (k0_off7 i) _ _ (k0_off7_eq i) _ _ rfl
    ((show (kernelRun c i arg3 harg3 xt fh hx f3).1.2.2.2.1
        = (rowN arg3 3 (lt64 3 rfl)).view.writes (Elt F) f3 [⟨Rect.whole S512, kernelRun.sl.dma4 c i xt fh hx⟩] from by unfold kernelRun; rfl).trans
      (writes_whole c arg3 3 (lt64 3 rfl) f3 _)) e

/-- Row 4 after the body. -/
theorem row_value_4 (e : Fin 512) :
    arg3.view.read (Elt F) ((kernelRun c i arg3 harg3 xt fh hx f3).1.2.2.2.2.1) (ix2 (⟨4, lt64 4 rfl⟩ : Fin 64) e)
      = rowsOf c i xt fh (ix2 (⟨4, lt64 4 rfl⟩ : Fin 64) e) :=
  row_value_of c i arg3 harg3 xt fh hx f3 _ 4 (lt64 4 rfl) (k0_off9 i) _ _ (k0_off9_eq i) _ _ rfl
    ((show (kernelRun c i arg3 harg3 xt fh hx f3).1.2.2.2.2.1
        = (rowN arg3 4 (lt64 4 rfl)).view.writes (Elt F) f3 [⟨Rect.whole S512, kernelRun.sl.dma5 c i xt fh hx⟩] from by unfold kernelRun; rfl).trans
      (writes_whole c arg3 4 (lt64 4 rfl) f3 _)) e

/-- Row 5 after the body. -/
theorem row_value_5 (e : Fin 512) :
    arg3.view.read (Elt F) ((kernelRun c i arg3 harg3 xt fh hx f3).1.2.2.2.2.2.1) (ix2 (⟨5, lt64 5 rfl⟩ : Fin 64) e)
      = rowsOf c i xt fh (ix2 (⟨5, lt64 5 rfl⟩ : Fin 64) e) :=
  row_value_of c i arg3 harg3 xt fh hx f3 _ 5 (lt64 5 rfl) (k0_off11 i) _ _ (k0_off11_eq i) _ _ rfl
    ((show (kernelRun c i arg3 harg3 xt fh hx f3).1.2.2.2.2.2.1
        = (rowN arg3 5 (lt64 5 rfl)).view.writes (Elt F) f3 [⟨Rect.whole S512, kernelRun.sl.dma6 c i xt fh hx⟩] from by unfold kernelRun; rfl).trans
      (writes_whole c arg3 5 (lt64 5 rfl) f3 _)) e

/-- Row 6 after the body. -/
theorem row_value_6 (e : Fin 512) :
    arg3.view.read (Elt F) ((kernelRun c i arg3 harg3 xt fh hx f3).1.2.2.2.2.2.2.1) (ix2 (⟨6, lt64 6 rfl⟩ : Fin 64) e)
      = rowsOf c i xt fh (ix2 (⟨6, lt64 6 rfl⟩ : Fin 64) e) :=
  row_value_of c i arg3 harg3 xt fh hx f3 _ 6 (lt64 6 rfl) (k0_off13 i) _ _ (k0_off13_eq i) _ _ rfl
    ((show (kernelRun c i arg3 harg3 xt fh hx f3).1.2.2.2.2.2.2.1
        = (rowN arg3 6 (lt64 6 rfl)).view.writes (Elt F) f3 [⟨Rect.whole S512, kernelRun.sl.dma7 c i xt fh hx⟩] from by unfold kernelRun; rfl).trans
      (writes_whole c arg3 6 (lt64 6 rfl) f3 _)) e

/-- Row 7 after the body. -/
theorem row_value_7 (e : Fin 512) :
    arg3.view.read (Elt F) ((kernelRun c i arg3 harg3 xt fh hx f3).1.2.2.2.2.2.2.2.1) (ix2 (⟨7, lt64 7 rfl⟩ : Fin 64) e)
      = rowsOf c i xt fh (ix2 (⟨7, lt64 7 rfl⟩ : Fin 64) e) :=
  row_value_of c i arg3 harg3 xt fh hx f3 _ 7 (lt64 7 rfl) (k0_off15 i) _ _ (k0_off15_eq i) _ _ rfl
    ((show (kernelRun c i arg3 harg3 xt fh hx f3).1.2.2.2.2.2.2.2.1
        = (rowN arg3 7 (lt64 7 rfl)).view.writes (Elt F) f3 [⟨Rect.whole S512, kernelRun.sl.dma8 c i xt fh hx⟩] from by unfold kernelRun; rfl).trans
      (writes_whole c arg3 7 (lt64 7 rfl) f3 _)) e

/-- Row 8 after the body. -/
theorem row_value_8 (e : Fin 512) :
    arg3.view.read (Elt F) ((kernelRun c i arg3 harg3 xt fh hx f3).1.2.2.2.2.2.2.2.2.1) (ix2 (⟨8, lt64 8 rfl⟩ : Fin 64) e)
      = rowsOf c i xt fh (ix2 (⟨8, lt64 8 rfl⟩ : Fin 64) e) :=
  row_value_of c i arg3 harg3 xt fh hx f3 _ 8 (lt64 8 rfl) (k0_off17 i) _ _ (k0_off17_eq i) _ _ rfl
    ((show (kernelRun c i arg3 harg3 xt fh hx f3).1.2.2.2.2.2.2.2.2.1
        = (rowN arg3 8 (lt64 8 rfl)).view.writes (Elt F) f3 [⟨Rect.whole S512, kernelRun.sl.dma9 c i xt fh hx⟩] from by unfold kernelRun; rfl).trans
      (writes_whole c arg3 8 (lt64 8 rfl) f3 _)) e

/-- Row 9 after the body. -/
theorem row_value_9 (e : Fin 512) :
    arg3.view.read (Elt F) ((kernelRun c i arg3 harg3 xt fh hx f3).1.2.2.2.2.2.2.2.2.2.1) (ix2 (⟨9, lt64 9 rfl⟩ : Fin 64) e)
      = rowsOf c i xt fh (ix2 (⟨9, lt64 9 rfl⟩ : Fin 64) e) :=
  row_value_of c i arg3 harg3 xt fh hx f3 _ 9 (lt64 9 rfl) (k0_off19 i) _ _ (k0_off19_eq i) _ _ rfl
    ((show (kernelRun c i arg3 harg3 xt fh hx f3).1.2.2.2.2.2.2.2.2.2.1
        = (rowN arg3 9 (lt64 9 rfl)).view.writes (Elt F) f3 [⟨Rect.whole S512, kernelRun.sl.dma10 c i xt fh hx⟩] from by unfold kernelRun; rfl).trans
      (writes_whole c arg3 9 (lt64 9 rfl) f3 _)) e

/-- Row 10 after the body. -/
theorem row_value_10 (e : Fin 512) :
    arg3.view.read (Elt F) ((kernelRun c i arg3 harg3 xt fh hx f3).1.2.2.2.2.2.2.2.2.2.2.1) (ix2 (⟨10, lt64 10 rfl⟩ : Fin 64) e)
      = rowsOf c i xt fh (ix2 (⟨10, lt64 10 rfl⟩ : Fin 64) e) :=
  row_value_of c i arg3 harg3 xt fh hx f3 _ 10 (lt64 10 rfl) (k0_off21 i) _ _ (k0_off21_eq i) _ _ rfl
    ((show (kernelRun c i arg3 harg3 xt fh hx f3).1.2.2.2.2.2.2.2.2.2.2.1
        = (rowN arg3 10 (lt64 10 rfl)).view.writes (Elt F) f3 [⟨Rect.whole S512, kernelRun.sl.dma11 c i xt fh hx⟩] from by unfold kernelRun; rfl).trans
      (writes_whole c arg3 10 (lt64 10 rfl) f3 _)) e

/-- Row 11 after the body. -/
theorem row_value_11 (e : Fin 512) :
    arg3.view.read (Elt F) ((kernelRun c i arg3 harg3 xt fh hx f3).1.2.2.2.2.2.2.2.2.2.2.2.1) (ix2 (⟨11, lt64 11 rfl⟩ : Fin 64) e)
      = rowsOf c i xt fh (ix2 (⟨11, lt64 11 rfl⟩ : Fin 64) e) :=
  row_value_of c i arg3 harg3 xt fh hx f3 _ 11 (lt64 11 rfl) (k0_off23 i) _ _ (k0_off23_eq i) _ _ rfl
    ((show (kernelRun c i arg3 harg3 xt fh hx f3).1.2.2.2.2.2.2.2.2.2.2.2.1
        = (rowN arg3 11 (lt64 11 rfl)).view.writes (Elt F) f3 [⟨Rect.whole S512, kernelRun.sl.dma12 c i xt fh hx⟩] from by unfold kernelRun; rfl).trans
      (writes_whole c arg3 11 (lt64 11 rfl) f3 _)) e

/-- Row 12 after the body. -/
theorem row_value_12 (e : Fin 512) :
    arg3.view.read (Elt F) ((kernelRun c i arg3 harg3 xt fh hx f3).1.2.2.2.2.2.2.2.2.2.2.2.2.1) (ix2 (⟨12, lt64 12 rfl⟩ : Fin 64) e)
      = rowsOf c i xt fh (ix2 (⟨12, lt64 12 rfl⟩ : Fin 64) e) :=
  row_value_of c i arg3 harg3 xt fh hx f3 _ 12 (lt64 12 rfl) (k0_off25 i) _ _ (k0_off25_eq i) _ _ rfl
    ((show (kernelRun c i arg3 harg3 xt fh hx f3).1.2.2.2.2.2.2.2.2.2.2.2.2.1
        = (rowN arg3 12 (lt64 12 rfl)).view.writes (Elt F) f3 [⟨Rect.whole S512, kernelRun.sl.dma13 c i xt fh hx⟩] from by unfold kernelRun; rfl).trans
      (writes_whole c arg3 12 (lt64 12 rfl) f3 _)) e

/-- Row 13 after the body. -/
theorem row_value_13 (e : Fin 512) :
    arg3.view.read (Elt F) ((kernelRun c i arg3 harg3 xt fh hx f3).1.2.2.2.2.2.2.2.2.2.2.2.2.2.1) (ix2 (⟨13, lt64 13 rfl⟩ : Fin 64) e)
      = rowsOf c i xt fh (ix2 (⟨13, lt64 13 rfl⟩ : Fin 64) e) :=
  row_value_of c i arg3 harg3 xt fh hx f3 _ 13 (lt64 13 rfl) (k0_off27 i) _ _ (k0_off27_eq i) _ _ rfl
    ((show (kernelRun c i arg3 harg3 xt fh hx f3).1.2.2.2.2.2.2.2.2.2.2.2.2.2.1
        = (rowN arg3 13 (lt64 13 rfl)).view.writes (Elt F) f3 [⟨Rect.whole S512, kernelRun.sl.dma14 c i xt fh hx⟩] from by unfold kernelRun; rfl).trans
      (writes_whole c arg3 13 (lt64 13 rfl) f3 _)) e

/-- Row 14 after the body. -/
theorem row_value_14 (e : Fin 512) :
    arg3.view.read (Elt F) ((kernelRun c i arg3 harg3 xt fh hx f3).1.2.2.2.2.2.2.2.2.2.2.2.2.2.2.1) (ix2 (⟨14, lt64 14 rfl⟩ : Fin 64) e)
      = rowsOf c i xt fh (ix2 (⟨14, lt64 14 rfl⟩ : Fin 64) e) :=
  row_value_of c i arg3 harg3 xt fh hx f3 _ 14 (lt64 14 rfl) (k0_off29 i) _ _ (k0_off29_eq i) _ _ rfl
    ((show (kernelRun c i arg3 harg3 xt fh hx f3).1.2.2.2.2.2.2.2.2.2.2.2.2.2.2.1
        = (rowN arg3 14 (lt64 14 rfl)).view.writes (Elt F) f3 [⟨Rect.whole S512, kernelRun.sl.dma15 c i xt fh hx⟩] from by unfold kernelRun; rfl).trans
      (writes_whole c arg3 14 (lt64 14 rfl) f3 _)) e

/-- Row 15 after the body. -/
theorem row_value_15 (e : Fin 512) :
    arg3.view.read (Elt F) ((kernelRun c i arg3 harg3 xt fh hx f3).1.2.2.2.2.2.2.2.2.2.2.2.2.2.2.2.1) (ix2 (⟨15, lt64 15 rfl⟩ : Fin 64) e)
      = rowsOf c i xt fh (ix2 (⟨15, lt64 15 rfl⟩ : Fin 64) e) :=
  row_value_of c i arg3 harg3 xt fh hx f3 _ 15 (lt64 15 rfl) (k0_off31 i) _ _ (k0_off31_eq i) _ _ rfl
    ((show (kernelRun c i arg3 harg3 xt fh hx f3).1.2.2.2.2.2.2.2.2.2.2.2.2.2.2.2.1
        = (rowN arg3 15 (lt64 15 rfl)).view.writes (Elt F) f3 [⟨Rect.whole S512, kernelRun.sl.dma16 c i xt fh hx⟩] from by unfold kernelRun; rfl).trans
      (writes_whole c arg3 15 (lt64 15 rfl) f3 _)) e

/-- Row 16 after the body. -/
theorem row_value_16 (e : Fin 512) :
    arg3.view.read (Elt F) ((kernelRun c i arg3 harg3 xt fh hx f3).1.2.2.2.2.2.2.2.2.2.2.2.2.2.2.2.2.1) (ix2 (⟨16, lt64 16 rfl⟩ : Fin 64) e)
      = rowsOf c i xt fh (ix2 (⟨16, lt64 16 rfl⟩ : Fin 64) e) :=
  row_value_of c i arg3 harg3 xt fh hx f3 _ 16 (lt64 16 rfl) (k0_off33 i) _ _ (k0_off33_eq i) _ _ rfl
    ((show (kernelRun c i arg3 harg3 xt fh hx f3).1.2.2.2.2.2.2.2.2.2.2.2.2.2.2.2.2.1
        = (rowN arg3 16 (lt64 16 rfl)).view.writes (Elt F) f3 [⟨Rect.whole S512, kernelRun.sl.dma17 c i xt fh hx⟩] from by unfold kernelRun; rfl).trans
      (writes_whole c arg3 16 (lt64 16 rfl) f3 _)) e

/-- Row 17 after the body. -/
theorem row_value_17 (e : Fin 512) :
    arg3.view.read (Elt F) ((kernelRun c i arg3 harg3 xt fh hx f3).1.2.2.2.2.2.2.2.2.2.2.2.2.2.2.2.2.2.1) (ix2 (⟨17, lt64 17 rfl⟩ : Fin 64) e)
      = rowsOf c i xt fh (ix2 (⟨17, lt64 17 rfl⟩ : Fin 64) e) :=
  row_value_of c i arg3 harg3 xt fh hx f3 _ 17 (lt64 17 rfl) (k0_off35 i) _ _ (k0_off35_eq i) _ _ rfl
    ((show (kernelRun c i arg3 harg3 xt fh hx f3).1.2.2.2.2.2.2.2.2.2.2.2.2.2.2.2.2.2.1
        = (rowN arg3 17 (lt64 17 rfl)).view.writes (Elt F) f3 [⟨Rect.whole S512, kernelRun.sl.dma18 c i xt fh hx⟩] from by unfold kernelRun; rfl).trans
      (writes_whole c arg3 17 (lt64 17 rfl) f3 _)) e

/-- Row 18 after the body. -/
theorem row_value_18 (e : Fin 512) :
    arg3.view.read (Elt F) ((kernelRun c i arg3 harg3 xt fh hx f3).1.2.2.2.2.2.2.2.2.2.2.2.2.2.2.2.2.2.2.1) (ix2 (⟨18, lt64 18 rfl⟩ : Fin 64) e)
      = rowsOf c i xt fh (ix2 (⟨18, lt64 18 rfl⟩ : Fin 64) e) :=
  row_value_of c i arg3 harg3 xt fh hx f3 _ 18 (lt64 18 rfl) (k0_off37 i) _ _ (k0_off37_eq i) _ _ rfl
    ((show (kernelRun c i arg3 harg3 xt fh hx f3).1.2.2.2.2.2.2.2.2.2.2.2.2.2.2.2.2.2.2.1
        = (rowN arg3 18 (lt64 18 rfl)).view.writes (Elt F) f3 [⟨Rect.whole S512, kernelRun.sl.dma19 c i xt fh hx⟩] from by unfold kernelRun; rfl).trans
      (writes_whole c arg3 18 (lt64 18 rfl) f3 _)) e

/-- Row 19 after the body. -/
theorem row_value_19 (e : Fin 512) :
    arg3.view.read (Elt F) ((kernelRun c i arg3 harg3 xt fh hx f3).1.2.2.2.2.2.2.2.2.2.2.2.2.2.2.2.2.2.2.2.1) (ix2 (⟨19, lt64 19 rfl⟩ : Fin 64) e)
      = rowsOf c i xt fh (ix2 (⟨19, lt64 19 rfl⟩ : Fin 64) e) :=
  row_value_of c i arg3 harg3 xt fh hx f3 _ 19 (lt64 19 rfl) (k0_off39 i) _ _ (k0_off39_eq i) _ _ rfl
    ((show (kernelRun c i arg3 harg3 xt fh hx f3).1.2.2.2.2.2.2.2.2.2.2.2.2.2.2.2.2.2.2.2.1
        = (rowN arg3 19 (lt64 19 rfl)).view.writes (Elt F) f3 [⟨Rect.whole S512, kernelRun.sl.dma20 c i xt fh hx⟩] from by unfold kernelRun; rfl).trans
      (writes_whole c arg3 19 (lt64 19 rfl) f3 _)) e

/-- Row 20 after the body. -/
theorem row_value_20 (e : Fin 512) :
    arg3.view.read (Elt F) ((kernelRun c i arg3 harg3 xt fh hx f3).1.2.2.2.2.2.2.2.2.2.2.2.2.2.2.2.2.2.2.2.2.1) (ix2 (⟨20, lt64 20 rfl⟩ : Fin 64) e)
      = rowsOf c i xt fh (ix2 (⟨20, lt64 20 rfl⟩ : Fin 64) e) :=
  row_value_of c i arg3 harg3 xt fh hx f3 _ 20 (lt64 20 rfl) (k0_off41 i) _ _ (k0_off41_eq i) _ _ rfl
    ((show (kernelRun c i arg3 harg3 xt fh hx f3).1.2.2.2.2.2.2.2.2.2.2.2.2.2.2.2.2.2.2.2.2.1
        = (rowN arg3 20 (lt64 20 rfl)).view.writes (Elt F) f3 [⟨Rect.whole S512, kernelRun.sl.dma21 c i xt fh hx⟩] from by unfold kernelRun; rfl).trans
      (writes_whole c arg3 20 (lt64 20 rfl) f3 _)) e

/-- Row 21 after the body. -/
theorem row_value_21 (e : Fin 512) :
    arg3.view.read (Elt F) ((kernelRun c i arg3 harg3 xt fh hx f3).1.2.2.2.2.2.2.2.2.2.2.2.2.2.2.2.2.2.2.2.2.2.1) (ix2 (⟨21, lt64 21 rfl⟩ : Fin 64) e)
      = rowsOf c i xt fh (ix2 (⟨21, lt64 21 rfl⟩ : Fin 64) e) :=
  row_value_of c i arg3 harg3 xt fh hx f3 _ 21 (lt64 21 rfl) (k0_off43 i) _ _ (k0_off43_eq i) _ _ rfl
    ((show (kernelRun c i arg3 harg3 xt fh hx f3).1.2.2.2.2.2.2.2.2.2.2.2.2.2.2.2.2.2.2.2.2.2.1
        = (rowN arg3 21 (lt64 21 rfl)).view.writes (Elt F) f3 [⟨Rect.whole S512, kernelRun.sl.dma22 c i xt fh hx⟩] from by unfold kernelRun; rfl).trans
      (writes_whole c arg3 21 (lt64 21 rfl) f3 _)) e

/-- Row 22 after the body. -/
theorem row_value_22 (e : Fin 512) :
    arg3.view.read (Elt F) ((kernelRun c i arg3 harg3 xt fh hx f3).1.2.2.2.2.2.2.2.2.2.2.2.2.2.2.2.2.2.2.2.2.2.2.1) (ix2 (⟨22, lt64 22 rfl⟩ : Fin 64) e)
      = rowsOf c i xt fh (ix2 (⟨22, lt64 22 rfl⟩ : Fin 64) e) :=
  row_value_of c i arg3 harg3 xt fh hx f3 _ 22 (lt64 22 rfl) (k0_off45 i) _ _ (k0_off45_eq i) _ _ rfl
    ((show (kernelRun c i arg3 harg3 xt fh hx f3).1.2.2.2.2.2.2.2.2.2.2.2.2.2.2.2.2.2.2.2.2.2.2.1
        = (rowN arg3 22 (lt64 22 rfl)).view.writes (Elt F) f3 [⟨Rect.whole S512, kernelRun.sl.dma23 c i xt fh hx⟩] from by unfold kernelRun; rfl).trans
      (writes_whole c arg3 22 (lt64 22 rfl) f3 _)) e

/-- Row 23 after the body. -/
theorem row_value_23 (e : Fin 512) :
    arg3.view.read (Elt F) ((kernelRun c i arg3 harg3 xt fh hx f3).1.2.2.2.2.2.2.2.2.2.2.2.2.2.2.2.2.2.2.2.2.2.2.2.1) (ix2 (⟨23, lt64 23 rfl⟩ : Fin 64) e)
      = rowsOf c i xt fh (ix2 (⟨23, lt64 23 rfl⟩ : Fin 64) e) :=
  row_value_of c i arg3 harg3 xt fh hx f3 _ 23 (lt64 23 rfl) (k0_off47 i) _ _ (k0_off47_eq i) _ _ rfl
    ((show (kernelRun c i arg3 harg3 xt fh hx f3).1.2.2.2.2.2.2.2.2.2.2.2.2.2.2.2.2.2.2.2.2.2.2.2.1
        = (rowN arg3 23 (lt64 23 rfl)).view.writes (Elt F) f3 [⟨Rect.whole S512, kernelRun.sl.dma24 c i xt fh hx⟩] from by unfold kernelRun; rfl).trans
      (writes_whole c arg3 23 (lt64 23 rfl) f3 _)) e

/-- Row 24 after the body. -/
theorem row_value_24 (e : Fin 512) :
    arg3.view.read (Elt F) ((kernelRun c i arg3 harg3 xt fh hx f3).1.2.2.2.2.2.2.2.2.2.2.2.2.2.2.2.2.2.2.2.2.2.2.2.2.1) (ix2 (⟨24, lt64 24 rfl⟩ : Fin 64) e)
      = rowsOf c i xt fh (ix2 (⟨24, lt64 24 rfl⟩ : Fin 64) e) :=
  row_value_of c i arg3 harg3 xt fh hx f3 _ 24 (lt64 24 rfl) (k0_off49 i) _ _ (k0_off49_eq i) _ _ rfl
    ((show (kernelRun c i arg3 harg3 xt fh hx f3).1.2.2.2.2.2.2.2.2.2.2.2.2.2.2.2.2.2.2.2.2.2.2.2.2.1
        = (rowN arg3 24 (lt64 24 rfl)).view.writes (Elt F) f3 [⟨Rect.whole S512, kernelRun.sl.dma25 c i xt fh hx⟩] from by unfold kernelRun; rfl).trans
      (writes_whole c arg3 24 (lt64 24 rfl) f3 _)) e

/-- Row 25 after the body. -/
theorem row_value_25 (e : Fin 512) :
    arg3.view.read (Elt F) ((kernelRun c i arg3 harg3 xt fh hx f3).1.2.2.2.2.2.2.2.2.2.2.2.2.2.2.2.2.2.2.2.2.2.2.2.2.2.1) (ix2 (⟨25, lt64 25 rfl⟩ : Fin 64) e)
      = rowsOf c i xt fh (ix2 (⟨25, lt64 25 rfl⟩ : Fin 64) e) :=
  row_value_of c i arg3 harg3 xt fh hx f3 _ 25 (lt64 25 rfl) (k0_off51 i) _ _ (k0_off51_eq i) _ _ rfl
    ((show (kernelRun c i arg3 harg3 xt fh hx f3).1.2.2.2.2.2.2.2.2.2.2.2.2.2.2.2.2.2.2.2.2.2.2.2.2.2.1
        = (rowN arg3 25 (lt64 25 rfl)).view.writes (Elt F) f3 [⟨Rect.whole S512, kernelRun.sl.dma26 c i xt fh hx⟩] from by unfold kernelRun; rfl).trans
      (writes_whole c arg3 25 (lt64 25 rfl) f3 _)) e

/-- Row 26 after the body. -/
theorem row_value_26 (e : Fin 512) :
    arg3.view.read (Elt F) ((kernelRun c i arg3 harg3 xt fh hx f3).1.2.2.2.2.2.2.2.2.2.2.2.2.2.2.2.2.2.2.2.2.2.2.2.2.2.2.1) (ix2 (⟨26, lt64 26 rfl⟩ : Fin 64) e)
      = rowsOf c i xt fh (ix2 (⟨26, lt64 26 rfl⟩ : Fin 64) e) :=
  row_value_of c i arg3 harg3 xt fh hx f3 _ 26 (lt64 26 rfl) (k0_off53 i) _ _ (k0_off53_eq i) _ _ rfl
    ((show (kernelRun c i arg3 harg3 xt fh hx f3).1.2.2.2.2.2.2.2.2.2.2.2.2.2.2.2.2.2.2.2.2.2.2.2.2.2.2.1
        = (rowN arg3 26 (lt64 26 rfl)).view.writes (Elt F) f3 [⟨Rect.whole S512, kernelRun.sl.dma27 c i xt fh hx⟩] from by unfold kernelRun; rfl).trans
      (writes_whole c arg3 26 (lt64 26 rfl) f3 _)) e

/-- Row 27 after the body. -/
theorem row_value_27 (e : Fin 512) :
    arg3.view.read (Elt F) ((kernelRun c i arg3 harg3 xt fh hx f3).1.2.2.2.2.2.2.2.2.2.2.2.2.2.2.2.2.2.2.2.2.2.2.2.2.2.2.2.1) (ix2 (⟨27, lt64 27 rfl⟩ : Fin 64) e)
      = rowsOf c i xt fh (ix2 (⟨27, lt64 27 rfl⟩ : Fin 64) e) :=
  row_value_of c i arg3 harg3 xt fh hx f3 _ 27 (lt64 27 rfl) (k0_off55 i) _ _ (k0_off55_eq i) _ _ rfl
    ((show (kernelRun c i arg3 harg3 xt fh hx f3).1.2.2.2.2.2.2.2.2.2.2.2.2.2.2.2.2.2.2.2.2.2.2.2.2.2.2.2.1
        = (rowN arg3 27 (lt64 27 rfl)).view.writes (Elt F) f3 [⟨Rect.whole S512, kernelRun.sl.dma28 c i xt fh hx⟩] from by unfold kernelRun; rfl).trans
      (writes_whole c arg3 27 (lt64 27 rfl) f3 _)) e

/-- Row 28 after the body. -/
theorem row_value_28 (e : Fin 512) :
    arg3.view.read (Elt F) ((kernelRun c i arg3 harg3 xt fh hx f3).1.2.2.2.2.2.2.2.2.2.2.2.2.2.2.2.2.2.2.2.2.2.2.2.2.2.2.2.2.1) (ix2 (⟨28, lt64 28 rfl⟩ : Fin 64) e)
      = rowsOf c i xt fh (ix2 (⟨28, lt64 28 rfl⟩ : Fin 64) e) :=
  row_value_of c i arg3 harg3 xt fh hx f3 _ 28 (lt64 28 rfl) (k0_off57 i) _ _ (k0_off57_eq i) _ _ rfl
    ((show (kernelRun c i arg3 harg3 xt fh hx f3).1.2.2.2.2.2.2.2.2.2.2.2.2.2.2.2.2.2.2.2.2.2.2.2.2.2.2.2.2.1
        = (rowN arg3 28 (lt64 28 rfl)).view.writes (Elt F) f3 [⟨Rect.whole S512, kernelRun.sl.dma29 c i xt fh hx⟩] from by unfold kernelRun; rfl).trans
      (writes_whole c arg3 28 (lt64 28 rfl) f3 _)) e

/-- Row 29 after the body. -/
theorem row_value_29 (e : Fin 512) :
    arg3.view.read (Elt F) ((kernelRun c i arg3 harg3 xt fh hx f3).1.2.2.2.2.2.2.2.2.2.2.2.2.2.2.2.2.2.2.2.2.2.2.2.2.2.2.2.2.2.1) (ix2 (⟨29, lt64 29 rfl⟩ : Fin 64) e)
      = rowsOf c i xt fh (ix2 (⟨29, lt64 29 rfl⟩ : Fin 64) e) :=
  row_value_of c i arg3 harg3 xt fh hx f3 _ 29 (lt64 29 rfl) (k0_off59 i) _ _ (k0_off59_eq i) _ _ rfl
    ((show (kernelRun c i arg3 harg3 xt fh hx f3).1.2.2.2.2.2.2.2.2.2.2.2.2.2.2.2.2.2.2.2.2.2.2.2.2.2.2.2.2.2.1
        = (rowN arg3 29 (lt64 29 rfl)).view.writes (Elt F) f3 [⟨Rect.whole S512, kernelRun.sl.dma30 c i xt fh hx⟩] from by unfold kernelRun; rfl).trans
      (writes_whole c arg3 29 (lt64 29 rfl) f3 _)) e

/-- Row 30 after the body. -/
theorem row_value_30 (e : Fin 512) :
    arg3.view.read (Elt F) ((kernelRun c i arg3 harg3 xt fh hx f3).1.2.2.2.2.2.2.2.2.2.2.2.2.2.2.2.2.2.2.2.2.2.2.2.2.2.2.2.2.2.2.1) (ix2 (⟨30, lt64 30 rfl⟩ : Fin 64) e)
      = rowsOf c i xt fh (ix2 (⟨30, lt64 30 rfl⟩ : Fin 64) e) :=
  row_value_of c i arg3 harg3 xt fh hx f3 _ 30 (lt64 30 rfl) (k0_off61 i) _ _ (k0_off61_eq i) _ _ rfl
    ((show (kernelRun c i arg3 harg3 xt fh hx f3).1.2.2.2.2.2.2.2.2.2.2.2.2.2.2.2.2.2.2.2.2.2.2.2.2.2.2.2.2.2.2.1
        = (rowN arg3 30 (lt64 30 rfl)).view.writes (Elt F) f3 [⟨Rect.whole S512, kernelRun.sl.dma31 c i xt fh hx⟩] from by unfold kernelRun; rfl).trans
      (writes_whole c arg3 30 (lt64 30 rfl) f3 _)) e

/-- Row 31 after the body. -/
theorem row_value_31 (e : Fin 512) :
    arg3.view.read (Elt F) ((kernelRun c i arg3 harg3 xt fh hx f3).1.2.2.2.2.2.2.2.2.2.2.2.2.2.2.2.2.2.2.2.2.2.2.2.2.2.2.2.2.2.2.2.1) (ix2 (⟨31, lt64 31 rfl⟩ : Fin 64) e)
      = rowsOf c i xt fh (ix2 (⟨31, lt64 31 rfl⟩ : Fin 64) e) :=
  row_value_of c i arg3 harg3 xt fh hx f3 _ 31 (lt64 31 rfl) (k0_off63 i) _ _ (k0_off63_eq i) _ _ rfl
    ((show (kernelRun c i arg3 harg3 xt fh hx f3).1.2.2.2.2.2.2.2.2.2.2.2.2.2.2.2.2.2.2.2.2.2.2.2.2.2.2.2.2.2.2.2.1
        = (rowN arg3 31 (lt64 31 rfl)).view.writes (Elt F) f3 [⟨Rect.whole S512, kernelRun.sl.dma32 c i xt fh hx⟩] from by unfold kernelRun; rfl).trans
      (writes_whole c arg3 31 (lt64 31 rfl) f3 _)) e

/-- Row 32 after the body. -/
theorem row_value_32 (e : Fin 512) :
    arg3.view.read (Elt F) ((kernelRun c i arg3 harg3 xt fh hx f3).1.2.2.2.2.2.2.2.2.2.2.2.2.2.2.2.2.2.2.2.2.2.2.2.2.2.2.2.2.2.2.2.2.1) (ix2 (⟨32, lt64 32 rfl⟩ : Fin 64) e)
      = rowsOf c i xt fh (ix2 (⟨32, lt64 32 rfl⟩ : Fin 64) e) :=
  row_value_of c i arg3 harg3 xt fh hx f3 _ 32 (lt64 32 rfl) (k0_off65 i) _ _ (k0_off65_eq i) _ _ rfl
    ((show (kernelRun c i arg3 harg3 xt fh hx f3).1.2.2.2.2.2.2.2.2.2.2.2.2.2.2.2.2.2.2.2.2.2.2.2.2.2.2.2.2.2.2.2.2.1
        = (rowN arg3 32 (lt64 32 rfl)).view.writes (Elt F) f3 [⟨Rect.whole S512, kernelRun.sl.dma33 c i xt fh hx⟩] from by unfold kernelRun; rfl).trans
      (writes_whole c arg3 32 (lt64 32 rfl) f3 _)) e

/-- Row 33 after the body. -/
theorem row_value_33 (e : Fin 512) :
    arg3.view.read (Elt F) ((kernelRun c i arg3 harg3 xt fh hx f3).1.2.2.2.2.2.2.2.2.2.2.2.2.2.2.2.2.2.2.2.2.2.2.2.2.2.2.2.2.2.2.2.2.2.1) (ix2 (⟨33, lt64 33 rfl⟩ : Fin 64) e)
      = rowsOf c i xt fh (ix2 (⟨33, lt64 33 rfl⟩ : Fin 64) e) :=
  row_value_of c i arg3 harg3 xt fh hx f3 _ 33 (lt64 33 rfl) (k0_off67 i) _ _ (k0_off67_eq i) _ _ rfl
    ((show (kernelRun c i arg3 harg3 xt fh hx f3).1.2.2.2.2.2.2.2.2.2.2.2.2.2.2.2.2.2.2.2.2.2.2.2.2.2.2.2.2.2.2.2.2.2.1
        = (rowN arg3 33 (lt64 33 rfl)).view.writes (Elt F) f3 [⟨Rect.whole S512, kernelRun.sl.dma34 c i xt fh hx⟩] from by unfold kernelRun; rfl).trans
      (writes_whole c arg3 33 (lt64 33 rfl) f3 _)) e

/-- Row 34 after the body. -/
theorem row_value_34 (e : Fin 512) :
    arg3.view.read (Elt F) ((kernelRun c i arg3 harg3 xt fh hx f3).1.2.2.2.2.2.2.2.2.2.2.2.2.2.2.2.2.2.2.2.2.2.2.2.2.2.2.2.2.2.2.2.2.2.2.1) (ix2 (⟨34, lt64 34 rfl⟩ : Fin 64) e)
      = rowsOf c i xt fh (ix2 (⟨34, lt64 34 rfl⟩ : Fin 64) e) :=
  row_value_of c i arg3 harg3 xt fh hx f3 _ 34 (lt64 34 rfl) (k0_off69 i) _ _ (k0_off69_eq i) _ _ rfl
    ((show (kernelRun c i arg3 harg3 xt fh hx f3).1.2.2.2.2.2.2.2.2.2.2.2.2.2.2.2.2.2.2.2.2.2.2.2.2.2.2.2.2.2.2.2.2.2.2.1
        = (rowN arg3 34 (lt64 34 rfl)).view.writes (Elt F) f3 [⟨Rect.whole S512, kernelRun.sl.dma35 c i xt fh hx⟩] from by unfold kernelRun; rfl).trans
      (writes_whole c arg3 34 (lt64 34 rfl) f3 _)) e

/-- Row 35 after the body. -/
theorem row_value_35 (e : Fin 512) :
    arg3.view.read (Elt F) ((kernelRun c i arg3 harg3 xt fh hx f3).1.2.2.2.2.2.2.2.2.2.2.2.2.2.2.2.2.2.2.2.2.2.2.2.2.2.2.2.2.2.2.2.2.2.2.2.1) (ix2 (⟨35, lt64 35 rfl⟩ : Fin 64) e)
      = rowsOf c i xt fh (ix2 (⟨35, lt64 35 rfl⟩ : Fin 64) e) :=
  row_value_of c i arg3 harg3 xt fh hx f3 _ 35 (lt64 35 rfl) (k0_off71 i) _ _ (k0_off71_eq i) _ _ rfl
    ((show (kernelRun c i arg3 harg3 xt fh hx f3).1.2.2.2.2.2.2.2.2.2.2.2.2.2.2.2.2.2.2.2.2.2.2.2.2.2.2.2.2.2.2.2.2.2.2.2.1
        = (rowN arg3 35 (lt64 35 rfl)).view.writes (Elt F) f3 [⟨Rect.whole S512, kernelRun.sl.dma36 c i xt fh hx⟩] from by unfold kernelRun; rfl).trans
      (writes_whole c arg3 35 (lt64 35 rfl) f3 _)) e

/-- Row 36 after the body. -/
theorem row_value_36 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.1) (ix2 (⟨36, lt64 36 rfl⟩ : Fin 64) e)
      = rowsOf c i xt fh (ix2 (⟨36, lt64 36 rfl⟩ : Fin 64) e) :=
  row_value_of c i arg3 harg3 xt fh hx f3 _ 36 (lt64 36 rfl) (k0_off73 i) _ _ (k0_off73_eq i) _ _ rfl
    ((show (kernelRun c i arg3 harg3 xt fh hx f3).1.2.2.2.2.2.2.2.2.2.2.2.2.2.2.2.2.2.2.2.2.2.2.2.2.2.2.2.2.2.2.2.2.2.2.2.2.1
        = (rowN arg3 36 (lt64 36 rfl)).view.writes (Elt F) f3 [⟨Rect.whole S512, kernelRun.sl.dma37 c i xt fh hx⟩] from by unfold kernelRun; rfl).trans
      (writes_whole c arg3 36 (lt64 36 rfl) f3 _)) e

/-- Row 37 after the body. -/
theorem row_value_37 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.1) (ix2 (⟨37, lt64 37 rfl⟩ : Fin 64) e)
      = rowsOf c i xt fh (ix2 (⟨37, lt64 37 rfl⟩ : Fin 64) e) :=
  row_value_of c i arg3 harg3 xt fh hx f3 _ 37 (lt64 37 rfl) (k0_off75 i) _ _ (k0_off75_eq i) _ _ rfl
    ((show (kernelRun c i arg3 harg3 xt fh hx f3).1.2.2.2.2.2.2.2.2.2.2.2.2.2.2.2.2.2.2.2.2.2.2.2.2.2.2.2.2.2.2.2.2.2.2.2.2.2.1
        = (rowN arg3 37 (lt64 37 rfl)).view.writes (Elt F) f3 [⟨Rect.whole S512, kernelRun.sl.dma38 c i xt fh hx⟩] from by unfold kernelRun; rfl).trans
      (writes_whole c arg3 37 (lt64 37 rfl) f3 _)) e

/-- Row 38 after the body. -/
theorem row_value_38 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.1) (ix2 (⟨38, lt64 38 rfl⟩ : Fin 64) e)
      = rowsOf c i xt fh (ix2 (⟨38, lt64 38 rfl⟩ : Fin 64) e) :=
  row_value_of c i arg3 harg3 xt fh hx f3 _ 38 (lt64 38 rfl) (k0_off77 i) _ _ (k0_off77_eq i) _ _ rfl
    ((show (kernelRun c i arg3 harg3 xt fh hx f3).1.2.2.2.2.2.2.2.2.2.2.2.2.2.2.2.2.2.2.2.2.2.2.2.2.2.2.2.2.2.2.2.2.2.2.2.2.2.2.1
        = (rowN arg3 38 (lt64 38 rfl)).view.writes (Elt F) f3 [⟨Rect.whole S512, kernelRun.sl.dma39 c i xt fh hx⟩] from by unfold kernelRun; rfl).trans
      (writes_whole c arg3 38 (lt64 38 rfl) f3 _)) e

/-- Row 39 after the body. -/
theorem row_value_39 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.1) (ix2 (⟨39, lt64 39 rfl⟩ : Fin 64) e)
      = rowsOf c i xt fh (ix2 (⟨39, lt64 39 rfl⟩ : Fin 64) e) :=
  row_value_of c i arg3 harg3 xt fh hx f3 _ 39 (lt64 39 rfl) (k0_off79 i) _ _ (k0_off79_eq i) _ _ rfl
    ((show (kernelRun c i arg3 harg3 xt fh hx f3).1.2.2.2.2.2.2.2.2.2.2.2.2.2.2.2.2.2.2.2.2.2.2.2.2.2.2.2.2.2.2.2.2.2.2.2.2.2.2.2.1
        = (rowN arg3 39 (lt64 39 rfl)).view.writes (Elt F) f3 [⟨Rect.whole S512, kernelRun.sl.dma40 c i xt fh hx⟩] from by unfold kernelRun; rfl).trans
      (writes_whole c arg3 39 (lt64 39 rfl) f3 _)) e

/-- Row 40 after the body. -/
theorem row_value_40 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.1) (ix2 (⟨40, lt64 40 rfl⟩ : Fin 64) e)
      = rowsOf c i xt fh (ix2 (⟨40, lt64 40 rfl⟩ : Fin 64) e) :=
  row_value_of c i arg3 harg3 xt fh hx f3 _ 40 (lt64 40 rfl) (k0_off81 i) _ _ (k0_off81_eq i) _ _ rfl
    ((show (kernelRun c i arg3 harg3 xt fh hx f3).1.2.2.2.2.2.2.2.2.2.2.2.2.2.2.2.2.2.2.2.2.2.2.2.2.2.2.2.2.2.2.2.2.2.2.2.2.2.2.2.2.1
        = (rowN arg3 40 (lt64 40 rfl)).view.writes (Elt F) f3 [⟨Rect.whole S512, kernelRun.sl.dma41 c i xt fh hx⟩] from by unfold kernelRun; rfl).trans
      (writes_whole c arg3 40 (lt64 40 rfl) f3 _)) e

/-- Row 41 after the body. -/
theorem row_value_41 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.1) (ix2 (⟨41, lt64 41 rfl⟩ : Fin 64) e)
      = rowsOf c i xt fh (ix2 (⟨41, lt64 41 rfl⟩ : Fin 64) e) :=
  row_value_of c i arg3 harg3 xt fh hx f3 _ 41 (lt64 41 rfl) (k0_off83 i) _ _ (k0_off83_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.1
        = (rowN arg3 41 (lt64 41 rfl)).view.writes (Elt F) f3 [⟨Rect.whole S512, kernelRun.sl.dma42 c i xt fh hx⟩] from by unfold kernelRun; rfl).trans
      (writes_whole c arg3 41 (lt64 41 rfl) f3 _)) e

/-- Row 42 after the body. -/
theorem row_value_42 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.1) (ix2 (⟨42, lt64 42 rfl⟩ : Fin 64) e)
      = rowsOf c i xt fh (ix2 (⟨42, lt64 42 rfl⟩ : Fin 64) e) :=
  row_value_of c i arg3 harg3 xt fh hx f3 _ 42 (lt64 42 rfl) (k0_off85 i) _ _ (k0_off85_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.1
        = (rowN arg3 42 (lt64 42 rfl)).view.writes (Elt F) f3 [⟨Rect.whole S512, kernelRun.sl.dma43 c i xt fh hx⟩] from by unfold kernelRun; rfl).trans
      (writes_whole c arg3 42 (lt64 42 rfl) f3 _)) e

/-- Row 43 after the body. -/
theorem row_value_43 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.1) (ix2 (⟨43, lt64 43 rfl⟩ : Fin 64) e)
      = rowsOf c i xt fh (ix2 (⟨43, lt64 43 rfl⟩ : Fin 64) e) :=
  row_value_of c i arg3 harg3 xt fh hx f3 _ 43 (lt64 43 rfl) (k0_off87 i) _ _ (k0_off87_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.1
        = (rowN arg3 43 (lt64 43 rfl)).view.writes (Elt F) f3 [⟨Rect.whole S512, kernelRun.sl.dma44 c i xt fh hx⟩] from by unfold kernelRun; rfl).trans
      (writes_whole c arg3 43 (lt64 43 rfl) f3 _)) e

/-- Row 44 after the body. -/
theorem row_value_44 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.1) (ix2 (⟨44, lt64 44 rfl⟩ : Fin 64) e)
      = rowsOf c i xt fh (ix2 (⟨44, lt64 44 rfl⟩ : Fin 64) e) :=
  row_value_of c i arg3 harg3 xt fh hx f3 _ 44 (lt64 44 rfl) (k0_off89 i) _ _ (k0_off89_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.1
        = (rowN arg3 44 (lt64 44 rfl)).view.writes (Elt F) f3 [⟨Rect.whole S512, kernelRun.sl.dma45 c i xt fh hx⟩] from by unfold kernelRun; rfl).trans
      (writes_whole c arg3 44 (lt64 44 rfl) f3 _)) e

/-- Row 45 after the body. -/
theorem row_value_45 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.1) (ix2 (⟨45, lt64 45 rfl⟩ : Fin 64) e)
      = rowsOf c i xt fh (ix2 (⟨45, lt64 45 rfl⟩ : Fin 64) e) :=
  row_value_of c i arg3 harg3 xt fh hx f3 _ 45 (lt64 45 rfl) (k0_off91 i) _ _ (k0_off91_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.1
        = (rowN arg3 45 (lt64 45 rfl)).view.writes (Elt F) f3 [⟨Rect.whole S512, kernelRun.sl.dma46 c i xt fh hx⟩] from by unfold kernelRun; rfl).trans
      (writes_whole c arg3 45 (lt64 45 rfl) f3 _)) e

/-- Row 46 after the body. -/
theorem row_value_46 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.1) (ix2 (⟨46, lt64 46 rfl⟩ : Fin 64) e)
      = rowsOf c i xt fh (ix2 (⟨46, lt64 46 rfl⟩ : Fin 64) e) :=
  row_value_of c i arg3 harg3 xt fh hx f3 _ 46 (lt64 46 rfl) (k0_off93 i) _ _ (k0_off93_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.1
        = (rowN arg3 46 (lt64 46 rfl)).view.writes (Elt F) f3 [⟨Rect.whole S512, kernelRun.sl.dma47 c i xt fh hx⟩] from by unfold kernelRun; rfl).trans
      (writes_whole c arg3 46 (lt64 46 rfl) f3 _)) e

/-- Row 47 after the body. -/
theorem row_value_47 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.1) (ix2 (⟨47, lt64 47 rfl⟩ : Fin 64) e)
      = rowsOf c i xt fh (ix2 (⟨47, lt64 47 rfl⟩ : Fin 64) e) :=
  row_value_of c i arg3 harg3 xt fh hx f3 _ 47 (lt64 47 rfl) (k0_off95 i) _ _ (k0_off95_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.1
        = (rowN arg3 47 (lt64 47 rfl)).view.writes (Elt F) f3 [⟨Rect.whole S512, kernelRun.sl.dma48 c i xt fh hx⟩] from by unfold kernelRun; rfl).trans
      (writes_whole c arg3 47 (lt64 47 rfl) f3 _)) e

/-- Row 48 after the body. -/
theorem row_value_48 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.1) (ix2 (⟨48, lt64 48 rfl⟩ : Fin 64) e)
      = rowsOf c i xt fh (ix2 (⟨48, lt64 48 rfl⟩ : Fin 64) e) :=
  row_value_of c i arg3 harg3 xt fh hx f3 _ 48 (lt64 48 rfl) (k0_off97 i) _ _ (k0_off97_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.1
        = (rowN arg3 48 (lt64 48 rfl)).view.writes (Elt F) f3 [⟨Rect.whole S512, kernelRun.sl.dma49 c i xt fh hx⟩] from by unfold kernelRun; rfl).trans
      (writes_whole c arg3 48 (lt64 48 rfl) f3 _)) e

/-- Row 49 after the body. -/
theorem row_value_49 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.1) (ix2 (⟨49, lt64 49 rfl⟩ : Fin 64) e)
      = rowsOf c i xt fh (ix2 (⟨49, lt64 49 rfl⟩ : Fin 64) e) :=
  row_value_of c i arg3 harg3 xt fh hx f3 _ 49 (lt64 49 rfl) (k0_off99 i) _ _ (k0_off99_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.1
        = (rowN arg3 49 (lt64 49 rfl)).view.writes (Elt F) f3 [⟨Rect.whole S512, kernelRun.sl.dma50 c i xt fh hx⟩] from by unfold kernelRun; rfl).trans
      (writes_whole c arg3 49 (lt64 49 rfl) f3 _)) e

/-- Row 50 after the body. -/
theorem row_value_50 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.1) (ix2 (⟨50, lt64 50 rfl⟩ : Fin 64) e)
      = rowsOf c i xt fh (ix2 (⟨50, lt64 50 rfl⟩ : Fin 64) e) :=
  row_value_of c i arg3 harg3 xt fh hx f3 _ 50 (lt64 50 rfl) (k0_off101 i) _ _ (k0_off101_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.1
        = (rowN arg3 50 (lt64 50 rfl)).view.writes (Elt F) f3 [⟨Rect.whole S512, kernelRun.sl.dma51 c i xt fh hx⟩] from by unfold kernelRun; rfl).trans
      (writes_whole c arg3 50 (lt64 50 rfl) f3 _)) e

/-- Row 51 after the body. -/
theorem row_value_51 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.1) (ix2 (⟨51, lt64 51 rfl⟩ : Fin 64) e)
      = rowsOf c i xt fh (ix2 (⟨51, lt64 51 rfl⟩ : Fin 64) e) :=
  row_value_of c i arg3 harg3 xt fh hx f3 _ 51 (lt64 51 rfl) (k0_off103 i) _ _ (k0_off103_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.1
        = (rowN arg3 51 (lt64 51 rfl)).view.writes (Elt F) f3 [⟨Rect.whole S512, kernelRun.sl.dma52 c i xt fh hx⟩] from by unfold kernelRun; rfl).trans
      (writes_whole c arg3 51 (lt64 51 rfl) f3 _)) e

/-- Row 52 after the body. -/
theorem row_value_52 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.1) (ix2 (⟨52, lt64 52 rfl⟩ : Fin 64) e)
      = rowsOf c i xt fh (ix2 (⟨52, lt64 52 rfl⟩ : Fin 64) e) :=
  row_value_of c i arg3 harg3 xt fh hx f3 _ 52 (lt64 52 rfl) (k0_off105 i) _ _ (k0_off105_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.1
        = (rowN arg3 52 (lt64 52 rfl)).view.writes (Elt F) f3 [⟨Rect.whole S512, kernelRun.sl.dma53 c i xt fh hx⟩] from by unfold kernelRun; rfl).trans
      (writes_whole c arg3 52 (lt64 52 rfl) f3 _)) e

/-- Row 53 after the body. -/
theorem row_value_53 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.1) (ix2 (⟨53, lt64 53 rfl⟩ : Fin 64) e)
      = rowsOf c i xt fh (ix2 (⟨53, lt64 53 rfl⟩ : Fin 64) e) :=
  row_value_of c i arg3 harg3 xt fh hx f3 _ 53 (lt64 53 rfl) (k0_off107 i) _ _ (k0_off107_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.1
        = (rowN arg3 53 (lt64 53 rfl)).view.writes (Elt F) f3 [⟨Rect.whole S512, kernelRun.sl.dma54 c i xt fh hx⟩] from by unfold kernelRun; rfl).trans
      (writes_whole c arg3 53 (lt64 53 rfl) f3 _)) e

/-- Row 54 after the body. -/
theorem row_value_54 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.1) (ix2 (⟨54, lt64 54 rfl⟩ : Fin 64) e)
      = rowsOf c i xt fh (ix2 (⟨54, lt64 54 rfl⟩ : Fin 64) e) :=
  row_value_of c i arg3 harg3 xt fh hx f3 _ 54 (lt64 54 rfl) (k0_off109 i) _ _ (k0_off109_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.1
        = (rowN arg3 54 (lt64 54 rfl)).view.writes (Elt F) f3 [⟨Rect.whole S512, kernelRun.sl.dma55 c i xt fh hx⟩] from by unfold kernelRun; rfl).trans
      (writes_whole c arg3 54 (lt64 54 rfl) f3 _)) e

/-- Row 55 after the body. -/
theorem row_value_55 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.1) (ix2 (⟨55, lt64 55 rfl⟩ : Fin 64) e)
      = rowsOf c i xt fh (ix2 (⟨55, lt64 55 rfl⟩ : Fin 64) e) :=
  row_value_of c i arg3 harg3 xt fh hx f3 _ 55 (lt64 55 rfl) (k0_off111 i) _ _ (k0_off111_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.1
        = (rowN arg3 55 (lt64 55 rfl)).view.writes (Elt F) f3 [⟨Rect.whole S512, kernelRun.sl.dma56 c i xt fh hx⟩] from by unfold kernelRun; rfl).trans
      (writes_whole c arg3 55 (lt64 55 rfl) f3 _)) e

/-- Row 56 after the body. -/
theorem row_value_56 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.1) (ix2 (⟨56, lt64 56 rfl⟩ : Fin 64) e)
      = rowsOf c i xt fh (ix2 (⟨56, lt64 56 rfl⟩ : Fin 64) e) :=
  row_value_of c i arg3 harg3 xt fh hx f3 _ 56 (lt64 56 rfl) (k0_off113 i) _ _ (k0_off113_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.1
        = (rowN arg3 56 (lt64 56 rfl)).view.writes (Elt F) f3 [⟨Rect.whole S512, kernelRun.sl.dma57 c i xt fh hx⟩] from by unfold kernelRun; rfl).trans
      (writes_whole c arg3 56 (lt64 56 rfl) f3 _)) e

/-- Row 57 after the body. -/
theorem row_value_57 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.1) (ix2 (⟨57, lt64 57 rfl⟩ : Fin 64) e)
      = rowsOf c i xt fh (ix2 (⟨57, lt64 57 rfl⟩ : Fin 64) e) :=
  row_value_of c i arg3 harg3 xt fh hx f3 _ 57 (lt64 57 rfl) (k0_off115 i) _ _ (k0_off115_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.1
        = (rowN arg3 57 (lt64 57 rfl)).view.writes (Elt F) f3 [⟨Rect.whole S512, kernelRun.sl.dma58 c i xt fh hx⟩] from by unfold kernelRun; rfl).trans
      (writes_whole c arg3 57 (lt64 57 rfl) f3 _)) e

/-- Row 58 after the body. -/
theorem row_value_58 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.2.1) (ix2 (⟨58, lt64 58 rfl⟩ : Fin 64) e)
      = rowsOf c i xt fh (ix2 (⟨58, lt64 58 rfl⟩ : Fin 64) e) :=
  row_value_of c i arg3 harg3 xt fh hx f3 _ 58 (lt64 58 rfl) (k0_off117 i) _ _ (k0_off117_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.2.1
        = (rowN arg3 58 (lt64 58 rfl)).view.writes (Elt F) f3 [⟨Rect.whole S512, kernelRun.sl.dma59 c i xt fh hx⟩] from by unfold kernelRun; rfl).trans
      (writes_whole c arg3 58 (lt64 58 rfl) f3 _)) e

/-- Row 59 after the body. -/
theorem row_value_59 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.2.2.1) (ix2 (⟨59, lt64 59 rfl⟩ : Fin 64) e)
      = rowsOf c i xt fh (ix2 (⟨59, lt64 59 rfl⟩ : Fin 64) e) :=
  row_value_of c i arg3 harg3 xt fh hx f3 _ 59 (lt64 59 rfl) (k0_off119 i) _ _ (k0_off119_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.2.2.1
        = (rowN arg3 59 (lt64 59 rfl)).view.writes (Elt F) f3 [⟨Rect.whole S512, kernelRun.sl.dma60 c i xt fh hx⟩] from by unfold kernelRun; rfl).trans
      (writes_whole c arg3 59 (lt64 59 rfl) f3 _)) e

/-- Row 60 after the body. -/
theorem row_value_60 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.2.2.2.1) (ix2 (⟨60, lt64 60 rfl⟩ : Fin 64) e)
      = rowsOf c i xt fh (ix2 (⟨60, lt64 60 rfl⟩ : Fin 64) e) :=
  row_value_of c i arg3 harg3 xt fh hx f3 _ 60 (lt64 60 rfl) (k0_off121 i) _ _ (k0_off121_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.2.2.2.1
        = (rowN arg3 60 (lt64 60 rfl)).view.writes (Elt F) f3 [⟨Rect.whole S512, kernelRun.sl.dma61 c i xt fh hx⟩] from by unfold kernelRun; rfl).trans
      (writes_whole c arg3 60 (lt64 60 rfl) f3 _)) e

/-- Row 61 after the body. -/
theorem row_value_61 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1) (ix2 (⟨61, lt64 61 rfl⟩ : Fin 64) e)
      = rowsOf c i xt fh (ix2 (⟨61, lt64 61 rfl⟩ : Fin 64) e) :=
  row_value_of c i arg3 harg3 xt fh hx f3 _ 61 (lt64 61 rfl) (k0_off123 i) _ _ (k0_off123_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.2.2.2.2.1
        = (rowN arg3 61 (lt64 61 rfl)).view.writes (Elt F) f3 [⟨Rect.whole S512, kernelRun.sl.dma62 c i xt fh hx⟩] from by unfold kernelRun; rfl).trans
      (writes_whole c arg3 61 (lt64 61 rfl) f3 _)) e

/-- Row 62 after the body. -/
theorem row_value_62 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1) (ix2 (⟨62, lt64 62 rfl⟩ : Fin 64) e)
      = rowsOf c i xt fh (ix2 (⟨62, lt64 62 rfl⟩ : Fin 64) e) :=
  row_value_of c i arg3 harg3 xt fh hx f3 _ 62 (lt64 62 rfl) (k0_off125 i) _ _ (k0_off125_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1
        = (rowN arg3 62 (lt64 62 rfl)).view.writes (Elt F) f3 [⟨Rect.whole S512, kernelRun.sl.dma63 c i xt fh hx⟩] from by unfold kernelRun; rfl).trans
      (writes_whole c arg3 62 (lt64 62 rfl) f3 _)) e

/-- Row 63 after the body. -/
theorem row_value_63 (e : Fin 512) :
    arg3.view.read (Elt F) ((kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2) (ix2 (⟨63, lt64 63 rfl⟩ : Fin 64) e)
      = rowsOf c i xt fh (ix2 (⟨63, lt64 63 rfl⟩ : Fin 64) e) :=
  row_value_of c i arg3 harg3 xt fh hx f3 _ 63 (lt64 63 rfl) (k0_off127 i) _ _ (k0_off127_eq i) _ _ rfl
    ((show (kernelRun c i arg3 harg3 xt fh hx f3).1.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2
        = (rowN arg3 63 (lt64 63 rfl)).view.writes (Elt F) f3 [⟨Rect.whole S512, kernelRun.sl.dma64 c i xt fh hx⟩] from by unfold kernelRun; rfl).trans
      (writes_whole c arg3 63 (lt64 63 rfl) f3 _)) e

end Cert.KernelIdeal.Gather

end
-- ==== Proof.KernelIdealFrame.lean ====
/-
  The frame of the row-gather program: every weakly fair execution of @main terminates, nothing faults, and the two
  argument arrays end as they began — for every memory whose table of row numbers names rows of the matrix.

  @main is: two host operations (the column of row numbers flattened to a table placed in scalar memory; the matrix
  transposed, so that a row number names a contiguous row), the launch of the kernel over 256 grid points, and one host
  operation after it (the result given a unit middle axis). At a grid point the kernel reads 64 row numbers from the
  table, starts 64 copies — row `y[64 t + j]` of the transposed matrix into row `j` of the output block's staging
  buffer, each on a semaphore of its own — and waits for the 64. Nothing is in flight between points. So the launch's
  invariant is: the 64 semaphores at zero, the transposed matrix whole at the contents the launch found (it is only
  read), the table's read-only half. Within a point the matrix is held as one read share per semaphore, since the 64
  copies read it at once (two of them the same row, when a row number repeats); the staging buffer is split into its 64
  rows, each lent to its copy and handed back holding the matrix row the table names for it; the rows join into the
  buffer overwritten whole, so what the block holds after the point does not depend on what it held before.
-/
import proofs.«148027_j64802466562285_1_alg».proof.Proof.KernelIdealRowValue
import Idealize.ShloMosaic.Lib.Pipeline.FrameSuffix

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- The buffers' contents when the region is entered: after the two host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the host operation after it, at the contents the operations before it leave. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-- The one buffer the kernel moves by itself: the transposed matrix. -/
def H0 : Finset (Ref sig .tc) := {main_v1}
theorem H0_sub : H0 ⊆ Pipeline.restRefsP sig pre0 spec0 := by decide

/-- The host operation after the region touches the region's output array and the final result: neither is the
    transposed matrix. -/
theorem sfx_sub : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  rcases hops with rfl
  simp only [hostOps1, List.mem_cons, List.mem_nil_iff, or_false] at hop
  rcases hop with rfl
  rw [StableHlo.reshape_bufs]
  intro b hb
  simp only [Finset.mem_insert, Finset.mem_singleton] at hb
  unfold Pipeline.tailRefsBut
  rcases hb with rfl | rfl
  · exact Finset.mem_map_of_mem _ (by decide)
  · exact Finset.mem_map_of_mem _ (by decide)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes the final result only, which is not the region's output array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- No host operation before the region writes an argument array: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-! ## The table of row numbers -/

/-- The table's contents when the region is entered (the program runs on one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No index map reads the table: every contents is admissible. -/
abbrev adm : (pcfg0 (F := F)).Adm := ⟨tbl m, (trivial : ok0 (tbl m))⟩
abbrev cfgM : Pipeline.Cfg sig Λ₀ := cfg0 (adm m)

/-- The side condition of the table's contents: every word names a row of the 128000-row matrix. -/
def TblOk : Prop :=
  ∀ (R : LoadRect S16384) (j : R.shape.Idx), BitVec.toNat (tbM.view.readAt (Elt F) R (tbl m 0) j : BitVec 32) < 128000

/-- The table's read-only half the region hands the body. -/
theorem PhiT_eq (c : Dev nD) : (Pipeline.ΦT pre0 (tbl m) c : sProp 𝕄) = iprop(tbPt c (tbl m 0)) := by
  unfold Pipeline.ΦT Pipeline.prefHeld
  rw [show (Finset.univ : Finset (Fin 1)) = {(0 : Fin 1)} from by decide, bigSep_singleton]
  rfl

/-! ## The kernel's own semaphores and the matrix it reads -/

abbrev osem0 : Fin 64 → SemLoc sig := fun j => (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44, SemLoc.dma 45, SemLoc.dma 46, SemLoc.dma 47, SemLoc.dma 48, SemLoc.dma 49, SemLoc.dma 50, SemLoc.dma 51, SemLoc.dma 52, SemLoc.dma 53, SemLoc.dma 54, SemLoc.dma 55, SemLoc.dma 56, SemLoc.dma 57, SemLoc.dma 58, SemLoc.dma 59, SemLoc.dma 60, SemLoc.dma 61, SemLoc.dma 62, SemLoc.dma 63, SemLoc.dma 64, SemLoc.dma 65] : Fin 64 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] (by decide) (by decide)]; rfl
/-- The matrix whole, at the full share. -/
abbrev hbPt (c : Dev nD) (f : HbBuf (F := F) c) : sProp 𝕄 := hbM.view.loc (c : Thread nD τ) ↦{fullShare} f
theorem hbmPts_eq (c : Dev nD) :
    (bigSep H0 (fun b => ((c : Thread nD τ).loc b) ↦{fullShare} V m c b) : sProp 𝕄) = iprop(hbPt c (V m c main_v1)) := by
  rw [BI.bigSep_eq_bigSepL_of_eq [main_v1] (by decide) (by decide)]; rfl
/-- The launch's invariant, conjunct by conjunct: no scoped buffer but the staging buffers, the generator register, the 64
    semaphores at zero, the matrix whole. -/
theorem PhiD_eq (c : Dev nD) :
    (Pipeline.ΦD osem0 spec0 H0 (V m) c : sProp 𝕄)
      = iprop((BI.emp : sProp 𝕄) ∗ (∃ r, prngReg c r) ∗ iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0) ∗ iprop(hbPt c (V m c main_v1))) := by
  rw [Pipeline.ΦD_eq, scopedRest0_eq, ownSems_eq, hbmPts_eq]

/-! ## What the body leaves in the output block's staging buffer -/

/-- The output window's current staging memref at point `t`, as the pipeline passes it, and its wholeness. -/
abbrev ms (t : Fin (cfgM m).N) : Memref sig .tc .vmem S64x512 .f32 := spec0_0.stage ((cfgM m).slots t 0)
abbrev hs (t : Fin (cfgM m).N) : (ms m t).IsWhole := hstage0_0 (((cfgM m).slots t 0).cast nbuf0_0)
/-- The kernel body at point `t`, on what the pipeline calls it with. -/
abbrev bodyAt (t : Fin (cfgM m).N) : Prog (TpuEff nD τ sig (Elt F) Λ₀ .tc) PUnit :=
  cc0__gather_kernel (grid0.coords t) tbM htbM hbM (Memref.isWhole_whole _) (ms m t) (hs m t) cc0_scratch0

/-- What the staging buffer holds after the body at grid coordinate `i`: its entry `(j, e)` is the matrix at row
    `table[64 i + j]`, column `e`. -/
def outAt (c : Dev nD) (i : grid0.Coords) (arg3 : Memref sig .tc .vmem S64x512 .f32) (harg3 : arg3.IsWhole)
    (xt : TbBuf (F := F) c) (fh : HbBuf (F := F) c)
    (hx : ∀ (R : LoadRect S16384) (j : R.shape.Idx), BitVec.toNat (tbM.view.readAt (Elt F) R xt j : BitVec 32) < 128000) :
    Vec F S64x512 .f32 :=
  rowsOf c i xt fh

/-- What the output block's staging buffer holds after the body at point `t`. -/
def outsAt (hT : TblOk m) (c : Dev nD) (t : Fin (cfgM m).N) : Vec F S64x512 .f32 :=
  outAt c (grid0.coords t) (ms m t) (hs m t) (tbl m 0) (V m c main_v1) hT

/-! ## The pipeline's proof data -/

/-- The arrays as the region finds them; after the body at point `t` the output's buffer at `outsAt`; the invariant: the
    64 semaphores at zero, the matrix whole at its entry contents, the table's read-only half; nothing owed; full shares. -/
def dats (hT : TblOk m) (_ : Fin 1) (c : Dev nD) : Dat τ (Elt F) Unit ℕ (Pipeline.UD sig nD τ) ℕ (cfgM m) c where
  A w := V m c (Pipeline.arrRef spec0 w)
  after w t := match w with
    | ⟨0, _⟩ => (outsAt m hT c t)
  Φ _ := iprop(Pipeline.ΦD osem0 spec0 H0 (V m) c ∗ Pipeline.ΦT pre0 (tbl m) c)
  q _ := fullShare
  owed _ := 0

theorem A_eq (hT : TblOk m) (c : Dev nD) (w : Fin (cfgM m).W) : (dats m hT 0 c).A w = V m c (Pipeline.arrRef spec0 w) := by
  dsimp only [dats]
theorem after0 (hT : TblOk m) (c : Dev nD) (t : Fin (cfgM m).N) : (dats m hT 0 c).after 0 t = (outsAt m hT c t) := by
  dsimp only [dats]; try rfl

/-! ## The body obligation, at a generic point -/

def bodyPre (hT : TblOk m) (c : Dev nD) (t : Fin (cfgM m).N) : sProp 𝕄 :=
  iprop((dats m hT 0 c).Φ t.castSucc ∗ (dats m hT 0 c).owesAt () t.castSucc
    ∗ (∃ d, owns (c : Thread nD τ) (ms m t) fullShare ((dats m hT 0 c).before 0 t d)))

def bodyPost (hT : TblOk m) (c : Dev nD) (t : Fin (cfgM m).N) : sProp 𝕄 :=
  iprop((dats m hT 0 c).Φ t.succ ∗ (dats m hT 0 c).owesAt () t.succ
    ∗ owns (c : Thread nD τ) (ms m t) fullShare ((dats m hT 0 c).after 0 t))

/-- The matrix at the full share is the share that stays behind and one read share per number below 66 (the semaphores are
    numbers 2 to 65; the shares numbered 0 and 1 are lent to no one). -/
theorem hb_split (c : Dev nD) (f : HbBuf (F := F) c) :
    (hbPt c f : sProp 𝕄) ⊣⊢ iprop((hbM.view.loc (c : Thread nD τ) ↦{Transfers.shareDrop fullShare 66} f) ∗ hbTok c 0 f ∗ hbTok c 1 f ∗ hbTok c 2 f ∗ hbTok c 3 f ∗ hbTok c 4 f ∗ hbTok c 5 f ∗ hbTok c 6 f ∗ hbTok c 7 f ∗ hbTok c 8 f ∗ hbTok c 9 f ∗ hbTok c 10 f ∗ hbTok c 11 f ∗ hbTok c 12 f ∗ hbTok c 13 f ∗ hbTok c 14 f ∗ hbTok c 15 f ∗ hbTok c 16 f ∗ hbTok c 17 f ∗ hbTok c 18 f ∗ hbTok c 19 f ∗ hbTok c 20 f ∗ hbTok c 21 f ∗ hbTok c 22 f ∗ hbTok c 23 f ∗ hbTok c 24 f ∗ hbTok c 25 f ∗ hbTok c 26 f ∗ hbTok c 27 f ∗ hbTok c 28 f ∗ hbTok c 29 f ∗ hbTok c 30 f ∗ hbTok c 31 f ∗ hbTok c 32 f ∗ hbTok c 33 f ∗ hbTok c 34 f ∗ hbTok c 35 f ∗ hbTok c 36 f ∗ hbTok c 37 f ∗ hbTok c 38 f ∗ hbTok c 39 f ∗ hbTok c 40 f ∗ hbTok c 41 f ∗ hbTok c 42 f ∗ hbTok c 43 f ∗ hbTok c 44 f ∗ hbTok c 45 f ∗ hbTok c 46 f ∗ hbTok c 47 f ∗ hbTok c 48 f ∗ hbTok c 49 f ∗ hbTok c 50 f ∗ hbTok c 51 f ∗ hbTok c 52 f ∗ hbTok c 53 f ∗ hbTok c 54 f ∗ hbTok c 55 f ∗ hbTok c 56 f ∗ hbTok c 57 f ∗ hbTok c 58 f ∗ hbTok c 59 f ∗ hbTok c 60 f ∗ hbTok c 61 f ∗ hbTok c 62 f ∗ hbTok c 63 f ∗ hbTok c 64 f ∗ hbTok c 65 f) := by
  have h := Transfers.pointsTo_toks_range (Ix := Unit) (Name := ℕ) (U := Pipeline.UD sig nD τ) (Lvl := ℕ) (nD := nD) (τ := τ) (sig := sig) (Val := Elt F)
    (ℓ := hbM.view.loc (c : Thread nD τ)) (S := Finset.univ) (f := f) fullShare 66
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65] (by decide) (by decide)] at h
  exact h

set_option maxHeartbeats 8000000 in
/-- The body at any point. The invariant hands it the 64 semaphores at zero, the matrix (split into its read shares for
    the run and joined again after it) and the table's half; the staging buffer is split into its 64 rows; the run
    applies; each row comes back holding the matrix row the table names for it, so each is the row of ONE contents — the
    buffer overwritten whole by those rows — and the 64 rows join into the buffer at that contents. -/
theorem sound_body (hT : TblOk m) (c : Dev nD) (t : Fin (cfgM m).N) :
    bodyPre m hT c t ⊢ wp frame (wpE (defs₀ (F := F)) Variants.none c none) Set.univ (bodyAt m t) (fun _ => bodyPost m hT c t) := by
  unfold bodyPre bodyPost bodyAt
  rw [show (dats m hT 0 c).Φ t.succ = (dats m hT 0 c).Φ t.castSucc from rfl, after0]
  rw [show (dats m hT 0 c).Φ t.castSucc = iprop(Pipeline.ΦD osem0 spec0 H0 (V m) c ∗ Pipeline.ΦT pre0 (tbl m) c) from rfl, PhiD_eq, PhiT_eq]
  unfold Dat.owesAt Pipeline.owesWithin
  rw [show (dats m hT 0 c).owed t.castSucc = 0 from rfl, show (dats m hT 0 c).owed t.succ = 0 from rfl]
  unfold outsAt outAt
  unfold owns
  iintro ⟨⟨⟨He, Hg, ⟨Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63, Hq64, Hq65⟩, Hh⟩, HT⟩, ⟨%W, -, HW⟩, ⟨%d0, %f0, -, H0⟩⟩
  ihave Hh' := (hb_split c (V m c main_v1)).1 $$ Hh
  icases Hh' with ⟨Hdrop, Hh0, Hh1, Hh2, Hh3, Hh4, Hh5, Hh6, Hh7, Hh8, Hh9, Hh10, Hh11, Hh12, Hh13, Hh14, Hh15, Hh16, Hh17, Hh18, Hh19, Hh20, Hh21, Hh22, Hh23, Hh24, Hh25, Hh26, Hh27, Hh28, Hh29, Hh30, Hh31, Hh32, Hh33, Hh34, Hh35, Hh36, Hh37, Hh38, Hh39, Hh40, Hh41, Hh42, Hh43, Hh44, Hh45, Hh46, Hh47, Hh48, Hh49, Hh50, Hh51, Hh52, Hh53, Hh54, Hh55, Hh56, Hh57, Hh58, Hh59, Hh60, Hh61, Hh62, Hh63, Hh64, Hh65⟩
  ihave H0' := (rows_split c (ms m t) f0).1 $$ H0
  icases H0' with ⟨Hr0, Hr1, Hr2, Hr3, Hr4, Hr5, Hr6, Hr7, Hr8, Hr9, Hr10, Hr11, Hr12, Hr13, Hr14, Hr15, Hr16, Hr17, Hr18, Hr19, Hr20, Hr21, Hr22, Hr23, Hr24, Hr25, Hr26, Hr27, Hr28, Hr29, Hr30, Hr31, Hr32, Hr33, Hr34, Hr35, Hr36, Hr37, Hr38, Hr39, Hr40, Hr41, Hr42, Hr43, Hr44, Hr45, Hr46, Hr47, Hr48, Hr49, Hr50, Hr51, Hr52, Hr53, Hr54, Hr55, Hr56, Hr57, Hr58, Hr59, Hr60, Hr61, Hr62, Hr63⟩
  iapply ((kernelRun c (grid0.coords t) (ms m t) (hs m t) (tbl m 0) (V m c main_v1) hT f0).2 W _)
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  isplitl [Hr14]; · iexact Hr14
  isplitl [Hr15]; · iexact Hr15
  isplitl [Hr16]; · iexact Hr16
  isplitl [Hr17]; · iexact Hr17
  isplitl [Hr18]; · iexact Hr18
  isplitl [Hr19]; · iexact Hr19
  isplitl [Hr20]; · iexact Hr20
  isplitl [Hr21]; · iexact Hr21
  isplitl [Hr22]; · iexact Hr22
  isplitl [Hr23]; · iexact Hr23
  isplitl [Hr24]; · iexact Hr24
  isplitl [Hr25]; · iexact Hr25
  isplitl [Hr26]; · iexact Hr26
  isplitl [Hr27]; · iexact Hr27
  isplitl [Hr28]; · iexact Hr28
  isplitl [Hr29]; · iexact Hr29
  isplitl [Hr30]; · iexact Hr30
  isplitl [Hr31]; · iexact Hr31
  isplitl [Hr32]; · iexact Hr32
  isplitl [Hr33]; · iexact Hr33
  isplitl [Hr34]; · iexact Hr34
  isplitl [Hr35]; · iexact Hr35
  isplitl [Hr36]; · iexact Hr36
  isplitl [Hr37]; · iexact Hr37
  isplitl [Hr38]; · iexact Hr38
  isplitl [Hr39]; · iexact Hr39
  isplitl [Hr40]; · iexact Hr40
  isplitl [Hr41]; · iexact Hr41
  isplitl [Hr42]; · iexact Hr42
  isplitl [Hr43]; · iexact Hr43
  isplitl [Hr44]; · iexact Hr44
  isplitl [Hr45]; · iexact Hr45
  isplitl [Hr46]; · iexact Hr46
  isplitl [Hr47]; · iexact Hr47
  isplitl [Hr48]; · iexact Hr48
  isplitl [Hr49]; · iexact Hr49
  isplitl [Hr50]; · iexact Hr50
  isplitl [Hr51]; · iexact Hr51
  isplitl [Hr52]; · iexact Hr52
  isplitl [Hr53]; · iexact Hr53
  isplitl [Hr54]; · iexact Hr54
  isplitl [Hr55]; · iexact Hr55
  isplitl [Hr56]; · iexact Hr56
  isplitl [Hr57]; · iexact Hr57
  isplitl [Hr58]; · iexact Hr58
  isplitl [Hr59]; · iexact Hr59
  isplitl [Hr60]; · iexact Hr60
  isplitl [Hr61]; · iexact Hr61
  isplitl [Hr62]; · iexact Hr62
  isplitl [Hr63]; · iexact Hr63
  isplitl [HT]; · iexact HT
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hq33]; · iexact Hq33
  isplitl [Hq34]; · iexact Hq34
  isplitl [Hq35]; · iexact Hq35
  isplitl [Hq36]; · iexact Hq36
  isplitl [Hq37]; · iexact Hq37
  isplitl [Hq38]; · iexact Hq38
  isplitl [Hq39]; · iexact Hq39
  isplitl [Hq40]; · iexact Hq40
  isplitl [Hq41]; · iexact Hq41
  isplitl [Hq42]; · iexact Hq42
  isplitl [Hq43]; · iexact Hq43
  isplitl [Hq44]; · iexact Hq44
  isplitl [Hq45]; · iexact Hq45
  isplitl [Hq46]; · iexact Hq46
  isplitl [Hq47]; · iexact Hq47
  isplitl [Hq48]; · iexact Hq48
  isplitl [Hq49]; · iexact Hq49
  isplitl [Hq50]; · iexact Hq50
  isplitl [Hq51]; · iexact Hq51
  isplitl [Hq52]; · iexact Hq52
  isplitl [Hq53]; · iexact Hq53
  isplitl [Hq54]; · iexact Hq54
  isplitl [Hq55]; · iexact Hq55
  isplitl [Hq56]; · iexact Hq56
  isplitl [Hq57]; · iexact Hq57
  isplitl [Hq58]; · iexact Hq58
  isplitl [Hq59]; · iexact Hq59
  isplitl [Hq60]; · iexact Hq60
  isplitl [Hq61]; · iexact Hq61
  isplitl [Hq62]; · iexact Hq62
  isplitl [Hq63]; · iexact Hq63
  isplitl [Hq64]; · iexact Hq64
  isplitl [Hq65]; · iexact Hq65
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hh10]; · iexact Hh10
  isplitl [Hh11]; · iexact Hh11
  isplitl [Hh12]; · iexact Hh12
  isplitl [Hh13]; · iexact Hh13
  isplitl [Hh14]; · iexact Hh14
  isplitl [Hh15]; · iexact Hh15
  isplitl [Hh16]; · iexact Hh16
  isplitl [Hh17]; · iexact Hh17
  isplitl [Hh18]; · iexact Hh18
  isplitl [Hh19]; · iexact Hh19
  isplitl [Hh20]; · iexact Hh20
  isplitl [Hh21]; · iexact Hh21
  isplitl [Hh22]; · iexact Hh22
  isplitl [Hh23]; · iexact Hh23
  isplitl [Hh24]; · iexact Hh24
  isplitl [Hh25]; · iexact Hh25
  isplitl [Hh26]; · iexact Hh26
  isplitl [Hh27]; · iexact Hh27
  isplitl [Hh28]; · iexact Hh28
  isplitl [Hh29]; · iexact Hh29
  isplitl [Hh30]; · iexact Hh30
  isplitl [Hh31]; · iexact Hh31
  isplitl [Hh32]; · iexact Hh32
  isplitl [Hh33]; · iexact Hh33
  isplitl [Hh34]; · iexact Hh34
  isplitl [Hh35]; · iexact Hh35
  isplitl [Hh36]; · iexact Hh36
  isplitl [Hh37]; · iexact Hh37
  isplitl [Hh38]; · iexact Hh38
  isplitl [Hh39]; · iexact Hh39
  isplitl [Hh40]; · iexact Hh40
  isplitl [Hh41]; · iexact Hh41
  isplitl [Hh42]; · iexact Hh42
  isplitl [Hh43]; · iexact Hh43
  isplitl [Hh44]; · iexact Hh44
  isplitl [Hh45]; · iexact Hh45
  isplitl [Hh46]; · iexact Hh46
  isplitl [Hh47]; · iexact Hh47
  isplitl [Hh48]; · iexact Hh48
  isplitl [Hh49]; · iexact Hh49
  isplitl [Hh50]; · iexact Hh50
  isplitl [Hh51]; · iexact Hh51
  isplitl [Hh52]; · iexact Hh52
  isplitl [Hh53]; · iexact Hh53
  isplitl [Hh54]; · iexact Hh54
  isplitl [Hh55]; · iexact Hh55
  isplitl [Hh56]; · iexact Hh56
  isplitl [Hh57]; · iexact Hh57
  isplitl [Hh58]; · iexact Hh58
  isplitl [Hh59]; · iexact Hh59
  isplitl [Hh60]; · iexact Hh60
  isplitl [Hh61]; · iexact Hh61
  isplitl [Hh62]; · iexact Hh62
  isplitl [Hh63]; · iexact Hh63
  isplitl [Hh64]; · iexact Hh64
  isplitl [Hh65]; · iexact Hh65
  isplitl [HW]; · iexact HW
  iintro ⟨Hr0, Hr1, Hr2, Hr3, Hr4, Hr5, Hr6, Hr7, Hr8, Hr9, Hr10, Hr11, Hr12, Hr13, Hr14, Hr15, Hr16, Hr17, Hr18, Hr19, Hr20, Hr21, Hr22, Hr23, Hr24, Hr25, Hr26, Hr27, Hr28, Hr29, Hr30, Hr31, Hr32, Hr33, Hr34, Hr35, Hr36, Hr37, Hr38, Hr39, Hr40, Hr41, Hr42, Hr43, Hr44, Hr45, Hr46, Hr47, Hr48, Hr49, Hr50, Hr51, Hr52, Hr53, Hr54, Hr55, Hr56, Hr57, Hr58, Hr59, Hr60, Hr61, Hr62, Hr63, HT, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63, Hq64, Hq65, Hh2, Hh3, Hh4, Hh5, Hh6, Hh7, Hh8, Hh9, Hh10, Hh11, Hh12, Hh13, Hh14, Hh15, Hh16, Hh17, Hh18, Hh19, Hh20, Hh21, Hh22, Hh23, Hh24, Hh25, Hh26, Hh27, Hh28, Hh29, Hh30, Hh31, Hh32, Hh33, Hh34, Hh35, Hh36, Hh37, Hh38, Hh39, Hh40, Hh41, Hh42, Hh43, Hh44, Hh45, Hh46, Hh47, Hh48, Hh49, Hh50, Hh51, Hh52, Hh53, Hh54, Hh55, Hh56, Hh57, Hh58, Hh59, Hh60, Hh61, Hh62, Hh63, Hh64, Hh65, ⟨%W', HW'⟩⟩
  ihave Hr0 := (row_congr c (ms m t) 0 (lt64 0 rfl) _ ((ms m t).view.write (Elt F) f0 (rowsOf c (grid0.coords t) (tbl m 0) (V m c main_v1)) Finset.univ) (fun e => (row_value_0 c (grid0.coords t) (ms m t) (hs m t) (tbl m 0) (V m c main_v1) hT f0 e).trans (congrFun (read_write_all c (ms m t) f0 _) _).symm)) $$ Hr0
  ihave Hr1 := (row_congr c (ms m t) 1 (lt64 1 rfl) _ ((ms m t).view.write (Elt F) f0 (rowsOf c (grid0.coords t) (tbl m 0) (V m c main_v1)) Finset.univ) (fun e => (row_value_1 c (grid0.coords t) (ms m t) (hs m t) (tbl m 0) (V m c main_v1) hT f0 e).trans (congrFun (read_write_all c (ms m t) f0 _) _).symm)) $$ Hr1
  ihave Hr2 := (row_congr c (ms m t) 2 (lt64 2 rfl) _ ((ms m t).view.write (Elt F) f0 (rowsOf c (grid0.coords t) (tbl m 0) (V m c main_v1)) Finset.univ) (fun e => (row_value_2 c (grid0.coords t) (ms m t) (hs m t) (tbl m 0) (V m c main_v1) hT f0 e).trans (congrFun (read_write_all c (ms m t) f0 _) _).symm)) $$ Hr2
  ihave Hr3 := (row_congr c (ms m t) 3 (lt64 3 rfl) _ ((ms m t).view.write (Elt F) f0 (rowsOf c (grid0.coords t) (tbl m 0) (V m c main_v1)) Finset.univ) (fun e => (row_value_3 c (grid0.coords t) (ms m t) (hs m t) (tbl m 0) (V m c main_v1) hT f0 e).trans (congrFun (read_write_all c (ms m t) f0 _) _).symm)) $$ Hr3
  ihave Hr4 := (row_congr c (ms m t) 4 (lt64 4 rfl) _ ((ms m t).view.write (Elt F) f0 (rowsOf c (grid0.coords t) (tbl m 0) (V m c main_v1)) Finset.univ) (fun e => (row_value_4 c (grid0.coords t) (ms m t) (hs m t) (tbl m 0) (V m c main_v1) hT f0 e).trans (congrFun (read_write_all c (ms m t) f0 _) _).symm)) $$ Hr4
  ihave Hr5 := (row_congr c (ms m t) 5 (lt64 5 rfl) _ ((ms m t).view.write (Elt F) f0 (rowsOf c (grid0.coords t) (tbl m 0) (V m c main_v1)) Finset.univ) (fun e => (row_value_5 c (grid0.coords t) (ms m t) (hs m t) (tbl m 0) (V m c main_v1) hT f0 e).trans (congrFun (read_write_all c (ms m t) f0 _) _).symm)) $$ Hr5
  ihave Hr6 := (row_congr c (ms m t) 6 (lt64 6 rfl) _ ((ms m t).view.write (Elt F) f0 (rowsOf c (grid0.coords t) (tbl m 0) (V m c main_v1)) Finset.univ) (fun e => (row_value_6 c (grid0.coords t) (ms m t) (hs m t) (tbl m 0) (V m c main_v1) hT f0 e).trans (congrFun (read_write_all c (ms m t) f0 _) _).symm)) $$ Hr6
  ihave Hr7 := (row_congr c (ms m t) 7 (lt64 7 rfl) _ ((ms m t).view.write (Elt F) f0 (rowsOf c (grid0.coords t) (tbl m 0) (V m c main_v1)) Finset.univ) (fun e => (row_value_7 c (grid0.coords t) (ms m t) (hs m t) (tbl m 0) (V m c main_v1) hT f0 e).trans (congrFun (read_write_all c (ms m t) f0 _) _).symm)) $$ Hr7
  ihave Hr8 := (row_congr c (ms m t) 8 (lt64 8 rfl) _ ((ms m t).view.write (Elt F) f0 (rowsOf c (grid0.coords t) (tbl m 0) (V m c main_v1)) Finset.univ) (fun e => (row_value_8 c (grid0.coords t) (ms m t) (hs m t) (tbl m 0) (V m c main_v1) hT f0 e).trans (congrFun (read_write_all c (ms m t) f0 _) _).symm)) $$ Hr8
  ihave Hr9 := (row_congr c (ms m t) 9 (lt64 9 rfl) _ ((ms m t).view.write (Elt F) f0 (rowsOf c (grid0.coords t) (tbl m 0) (V m c main_v1)) Finset.univ) (fun e => (row_value_9 c (grid0.coords t) (ms m t) (hs m t) (tbl m 0) (V m c main_v1) hT f0 e).trans (congrFun (read_write_all c (ms m t) f0 _) _).symm)) $$ Hr9
  ihave Hr10 := (row_congr c (ms m t) 10 (lt64 10 rfl) _ ((ms m t).view.write (Elt F) f0 (rowsOf c (grid0.coords t) (tbl m 0) (V m c main_v1)) Finset.univ) (fun e => (row_value_10 c (grid0.coords t) (ms m t) (hs m t) (tbl m 0) (V m c main_v1) hT f0 e).trans (congrFun (read_write_all c (ms m t) f0 _) _).symm)) $$ Hr10
  ihave Hr11 := (row_congr c (ms m t) 11 (lt64 11 rfl) _ ((ms m t).view.write (Elt F) f0 (rowsOf c (grid0.coords t) (tbl m 0) (V m c main_v1)) Finset.univ) (fun e => (row_value_11 c (grid0.coords t) (ms m t) (hs m t) (tbl m 0) (V m c main_v1) hT f0 e).trans (congrFun (read_write_all c (ms m t) f0 _) _).symm)) $$ Hr11
  ihave Hr12 := (row_congr c (ms m t) 12 (lt64 12 rfl) _ ((ms m t).view.write (Elt F) f0 (rowsOf c (grid0.coords t) (tbl m 0) (V m c main_v1)) Finset.univ) (fun e => (row_value_12 c (grid0.coords t) (ms m t) (hs m t) (tbl m 0) (V m c main_v1) hT f0 e).trans (congrFun (read_write_all c (ms m t) f0 _) _).symm)) $$ Hr12
  ihave Hr13 := (row_congr c (ms m t) 13 (lt64 13 rfl) _ ((ms m t).view.write (Elt F) f0 (rowsOf c (grid0.coords t) (tbl m 0) (V m c main_v1)) Finset.univ) (fun e => (row_value_13 c (grid0.coords t) (ms m t) (hs m t) (tbl m 0) (V m c main_v1) hT f0 e).trans (congrFun (read_write_all c (ms m t) f0 _) _).symm)) $$ Hr13
  ihave Hr14 := (row_congr c (ms m t) 14 (lt64 14 rfl) _ ((ms m t).view.write (Elt F) f0 (rowsOf c (grid0.coords t) (tbl m 0) (V m c main_v1)) Finset.univ) (fun e => (row_value_14 c (grid0.coords t) (ms m t) (hs m t) (tbl m 0) (V m c main_v1) hT f0 e).trans (congrFun (read_write_all c (ms m t) f0 _) _).symm)) $$ Hr14
  ihave Hr15 := (row_congr c (ms m t) 15 (lt64 15 rfl) _ ((ms m t).view.write (Elt F) f0 (rowsOf c (grid0.coords t) (tbl m 0) (V m c main_v1)) Finset.univ) (fun e => (row_value_15 c (grid0.coords t) (ms m t) (hs m t) (tbl m 0) (V m c main_v1) hT f0 e).trans (congrFun (read_write_all c (ms m t) f0 _) _).symm)) $$ Hr15
  ihave Hr16 := (row_congr c (ms m t) 16 (lt64 16 rfl) _ ((ms m t).view.write (Elt F) f0 (rowsOf c (grid0.coords t) (tbl m 0) (V m c main_v1)) Finset.univ) (fun e => (row_value_16 c (grid0.coords t) (ms m t) (hs m t) (tbl m 0) (V m c main_v1) hT f0 e).trans (congrFun (read_write_all c (ms m t) f0 _) _).symm)) $$ Hr16
  ihave Hr17 := (row_congr c (ms m t) 17 (lt64 17 rfl) _ ((ms m t).view.write (Elt F) f0 (rowsOf c (grid0.coords t) (tbl m 0) (V m c main_v1)) Finset.univ) (fun e => (row_value_17 c (grid0.coords t) (ms m t) (hs m t) (tbl m 0) (V m c main_v1) hT f0 e).trans (congrFun (read_write_all c (ms m t) f0 _) _).symm)) $$ Hr17
  ihave Hr18 := (row_congr c (ms m t) 18 (lt64 18 rfl) _ ((ms m t).view.write (Elt F) f0 (rowsOf c (grid0.coords t) (tbl m 0) (V m c main_v1)) Finset.univ) (fun e => (row_value_18 c (grid0.coords t) (ms m t) (hs m t) (tbl m 0) (V m c main_v1) hT f0 e).trans (congrFun (read_write_all c (ms m t) f0 _) _).symm)) $$ Hr18
  ihave Hr19 := (row_congr c (ms m t) 19 (lt64 19 rfl) _ ((ms m t).view.write (Elt F) f0 (rowsOf c (grid0.coords t) (tbl m 0) (V m c main_v1)) Finset.univ) (fun e => (row_value_19 c (grid0.coords t) (ms m t) (hs m t) (tbl m 0) (V m c main_v1) hT f0 e).trans (congrFun (read_write_all c (ms m t) f0 _) _).symm)) $$ Hr19
  ihave Hr20 := (row_congr c (ms m t) 20 (lt64 20 rfl) _ ((ms m t).view.write (Elt F) f0 (rowsOf c (grid0.coords t) (tbl m 0) (V m c main_v1)) Finset.univ) (fun e => (row_value_20 c (grid0.coords t) (ms m t) (hs m t) (tbl m 0) (V m c main_v1) hT f0 e).trans (congrFun (read_write_all c (ms m t) f0 _) _).symm)) $$ Hr20
  ihave Hr21 := (row_congr c (ms m t) 21 (lt64 21 rfl) _ ((ms m t).view.write (Elt F) f0 (rowsOf c (grid0.coords t) (tbl m 0) (V m c main_v1)) Finset.univ) (fun e => (row_value_21 c (grid0.coords t) (ms m t) (hs m t) (tbl m 0) (V m c main_v1) hT f0 e).trans (congrFun (read_write_all c (ms m t) f0 _) _).symm)) $$ Hr21
  ihave Hr22 := (row_congr c (ms m t) 22 (lt64 22 rfl) _ ((ms m t).view.write (Elt F) f0 (rowsOf c (grid0.coords t) (tbl m 0) (V m c main_v1)) Finset.univ) (fun e => (row_value_22 c (grid0.coords t) (ms m t) (hs m t) (tbl m 0) (V m c main_v1) hT f0 e).trans (congrFun (read_write_all c (ms m t) f0 _) _).symm)) $$ Hr22
  ihave Hr23 := (row_congr c (ms m t) 23 (lt64 23 rfl) _ ((ms m t).view.write (Elt F) f0 (rowsOf c (grid0.coords t) (tbl m 0) (V m c main_v1)) Finset.univ) (fun e => (row_value_23 c (grid0.coords t) (ms m t) (hs m t) (tbl m 0) (V m c main_v1) hT f0 e).trans (congrFun (read_write_all c (ms m t) f0 _) _).symm)) $$ Hr23
  ihave Hr24 := (row_congr c (ms m t) 24 (lt64 24 rfl) _ ((ms m t).view.write (Elt F) f0 (rowsOf c (grid0.coords t) (tbl m 0) (V m c main_v1)) Finset.univ) (fun e => (row_value_24 c (grid0.coords t) (ms m t) (hs m t) (tbl m 0) (V m c main_v1) hT f0 e).trans (congrFun (read_write_all c (ms m t) f0 _) _).symm)) $$ Hr24
  ihave Hr25 := (row_congr c (ms m t) 25 (lt64 25 rfl) _ ((ms m t).view.write (Elt F) f0 (rowsOf c (grid0.coords t) (tbl m 0) (V m c main_v1)) Finset.univ) (fun e => (row_value_25 c (grid0.coords t) (ms m t) (hs m t) (tbl m 0) (V m c main_v1) hT f0 e).trans (congrFun (read_write_all c (ms m t) f0 _) _).symm)) $$ Hr25
  ihave Hr26 := (row_congr c (ms m t) 26 (lt64 26 rfl) _ ((ms m t).view.write (Elt F) f0 (rowsOf c (grid0.coords t) (tbl m 0) (V m c main_v1)) Finset.univ) (fun e => (row_value_26 c (grid0.coords t) (ms m t) (hs m t) (tbl m 0) (V m c main_v1) hT f0 e).trans (congrFun (read_write_all c (ms m t) f0 _) _).symm)) $$ Hr26
  ihave Hr27 := (row_congr c (ms m t) 27 (lt64 27 rfl) _ ((ms m t).view.write (Elt F) f0 (rowsOf c (grid0.coords t) (tbl m 0) (V m c main_v1)) Finset.univ) (fun e => (row_value_27 c (grid0.coords t) (ms m t) (hs m t) (tbl m 0) (V m c main_v1) hT f0 e).trans (congrFun (read_write_all c (ms m t) f0 _) _).symm)) $$ Hr27
  ihave Hr28 := (row_congr c (ms m t) 28 (lt64 28 rfl) _ ((ms m t).view.write (Elt F) f0 (rowsOf c (grid0.coords t) (tbl m 0) (V m c main_v1)) Finset.univ) (fun e => (row_value_28 c (grid0.coords t) (ms m t) (hs m t) (tbl m 0) (V m c main_v1) hT f0 e).trans (congrFun (read_write_all c (ms m t) f0 _) _).symm)) $$ Hr28
  ihave Hr29 := (row_congr c (ms m t) 29 (lt64 29 rfl) _ ((ms m t).view.write (Elt F) f0 (rowsOf c (grid0.coords t) (tbl m 0) (V m c main_v1)) Finset.univ) (fun e => (row_value_29 c (grid0.coords t) (ms m t) (hs m t) (tbl m 0) (V m c main_v1) hT f0 e).trans (congrFun (read_write_all c (ms m t) f0 _) _).symm)) $$ Hr29
  ihave Hr30 := (row_congr c (ms m t) 30 (lt64 30 rfl) _ ((ms m t).view.write (Elt F) f0 (rowsOf c (grid0.coords t) (tbl m 0) (V m c main_v1)) Finset.univ) (fun e => (row_value_30 c (grid0.coords t) (ms m t) (hs m t) (tbl m 0) (V m c main_v1) hT f0 e).trans (congrFun (read_write_all c (ms m t) f0 _) _).symm)) $$ Hr30
  ihave Hr31 := (row_congr c (ms m t) 31 (lt64 31 rfl) _ ((ms m t).view.write (Elt F) f0 (rowsOf c (grid0.coords t) (tbl m 0) (V m c main_v1)) Finset.univ) (fun e => (row_value_31 c (grid0.coords t) (ms m t) (hs m t) (tbl m 0) (V m c main_v1) hT f0 e).trans (congrFun (read_write_all c (ms m t) f0 _) _).symm)) $$ Hr31
  ihave Hr32 := (row_congr c (ms m t) 32 (lt64 32 rfl) _ ((ms m t).view.write (Elt F) f0 (rowsOf c (grid0.coords t) (tbl m 0) (V m c main_v1)) Finset.univ) (fun e => (row_value_32 c (grid0.coords t) (ms m t) (hs m t) (tbl m 0) (V m c main_v1) hT f0 e).trans (congrFun (read_write_all c (ms m t) f0 _) _).symm)) $$ Hr32
  ihave Hr33 := (row_congr c (ms m t) 33 (lt64 33 rfl) _ ((ms m t).view.write (Elt F) f0 (rowsOf c (grid0.coords t) (tbl m 0) (V m c main_v1)) Finset.univ) (fun e => (row_value_33 c (grid0.coords t) (ms m t) (hs m t) (tbl m 0) (V m c main_v1) hT f0 e).trans (congrFun (read_write_all c (ms m t) f0 _) _).symm)) $$ Hr33
  ihave Hr34 := (row_congr c (ms m t) 34 (lt64 34 rfl) _ ((ms m t).view.write (Elt F) f0 (rowsOf c (grid0.coords t) (tbl m 0) (V m c main_v1)) Finset.univ) (fun e => (row_value_34 c (grid0.coords t) (ms m t) (hs m t) (tbl m 0) (V m c main_v1) hT f0 e).trans (congrFun (read_write_all c (ms m t) f0 _) _).symm)) $$ Hr34
  ihave Hr35 := (row_congr c (ms m t) 35 (lt64 35 rfl) _ ((ms m t).view.write (Elt F) f0 (rowsOf c (grid0.coords t) (tbl m 0) (V m c main_v1)) Finset.univ) (fun e => (row_value_35 c (grid0.coords t) (ms m t) (hs m t) (tbl m 0) (V m c main_v1) hT f0 e).trans (congrFun (read_write_all c (ms m t) f0 _) _).symm)) $$ Hr35
  ihave Hr36 := (row_congr c (ms m t) 36 (lt64 36 rfl) _ ((ms m t).view.write (Elt F) f0 (rowsOf c (grid0.coords t) (tbl m 0) (V m c main_v1)) Finset.univ) (fun e => (row_value_36 c (grid0.coords t) (ms m t) (hs m t) (tbl m 0) (V m c main_v1) hT f0 e).trans (congrFun (read_write_all c (ms m t) f0 _) _).symm)) $$ Hr36
  ihave Hr37 := (row_congr c (ms m t) 37 (lt64 37 rfl) _ ((ms m t).view.write (Elt F) f0 (rowsOf c (grid0.coords t) (tbl m 0) (V m c main_v1)) Finset.univ) (fun e => (row_value_37 c (grid0.coords t) (ms m t) (hs m t) (tbl m 0) (V m c main_v1) hT f0 e).trans (congrFun (read_write_all c (ms m t) f0 _) _).symm)) $$ Hr37
  ihave Hr38 := (row_congr c (ms m t) 38 (lt64 38 rfl) _ ((ms m t).view.write (Elt F) f0 (rowsOf c (grid0.coords t) (tbl m 0) (V m c main_v1)) Finset.univ) (fun e => (row_value_38 c (grid0.coords t) (ms m t) (hs m t) (tbl m 0) (V m c main_v1) hT f0 e).trans (congrFun (read_write_all c (ms m t) f0 _) _).symm)) $$ Hr38
  ihave Hr39 := (row_congr c (ms m t) 39 (lt64 39 rfl) _ ((ms m t).view.write (Elt F) f0 (rowsOf c (grid0.coords t) (tbl m 0) (V m c main_v1)) Finset.univ) (fun e => (row_value_39 c (grid0.coords t) (ms m t) (hs m t) (tbl m 0) (V m c main_v1) hT f0 e).trans (congrFun (read_write_all c (ms m t) f0 _) _).symm)) $$ Hr39
  ihave Hr40 := (row_congr c (ms m t) 40 (lt64 40 rfl) _ ((ms m t).view.write (Elt F) f0 (rowsOf c (grid0.coords t) (tbl m 0) (V m c main_v1)) Finset.univ) (fun e => (row_value_40 c (grid0.coords t) (ms m t) (hs m t) (tbl m 0) (V m c main_v1) hT f0 e).trans (congrFun (read_write_all c (ms m t) f0 _) _).symm)) $$ Hr40
  ihave Hr41 := (row_congr c (ms m t) 41 (lt64 41 rfl) _ ((ms m t).view.write (Elt F) f0 (rowsOf c (grid0.coords t) (tbl m 0) (V m c main_v1)) Finset.univ) (fun e => (row_value_41 c (grid0.coords t) (ms m t) (hs m t) (tbl m 0) (V m c main_v1) hT f0 e).trans (congrFun (read_write_all c (ms m t) f0 _) _).symm)) $$ Hr41
  ihave Hr42 := (row_congr c (ms m t) 42 (lt64 42 rfl) _ ((ms m t).view.write (Elt F) f0 (rowsOf c (grid0.coords t) (tbl m 0) (V m c main_v1)) Finset.univ) (fun e => (row_value_42 c (grid0.coords t) (ms m t) (hs m t) (tbl m 0) (V m c main_v1) hT f0 e).trans (congrFun (read_write_all c (ms m t) f0 _) _).symm)) $$ Hr42
  ihave Hr43 := (row_congr c (ms m t) 43 (lt64 43 rfl) _ ((ms m t).view.write (Elt F) f0 (rowsOf c (grid0.coords t) (tbl m 0) (V m c main_v1)) Finset.univ) (fun e => (row_value_43 c (grid0.coords t) (ms m t) (hs m t) (tbl m 0) (V m c main_v1) hT f0 e).trans (congrFun (read_write_all c (ms m t) f0 _) _).symm)) $$ Hr43
  ihave Hr44 := (row_congr c (ms m t) 44 (lt64 44 rfl) _ ((ms m t).view.write (Elt F) f0 (rowsOf c (grid0.coords t) (tbl m 0) (V m c main_v1)) Finset.univ) (fun e => (row_value_44 c (grid0.coords t) (ms m t) (hs m t) (tbl m 0) (V m c main_v1) hT f0 e).trans (congrFun (read_write_all c (ms m t) f0 _) _).symm)) $$ Hr44
  ihave Hr45 := (row_congr c (ms m t) 45 (lt64 45 rfl) _ ((ms m t).view.write (Elt F) f0 (rowsOf c (grid0.coords t) (tbl m 0) (V m c main_v1)) Finset.univ) (fun e => (row_value_45 c (grid0.coords t) (ms m t) (hs m t) (tbl m 0) (V m c main_v1) hT f0 e).trans (congrFun (read_write_all c (ms m t) f0 _) _).symm)) $$ Hr45
  ihave Hr46 := (row_congr c (ms m t) 46 (lt64 46 rfl) _ ((ms m t).view.write (Elt F) f0 (rowsOf c (grid0.coords t) (tbl m 0) (V m c main_v1)) Finset.univ) (fun e => (row_value_46 c (grid0.coords t) (ms m t) (hs m t) (tbl m 0) (V m c main_v1) hT f0 e).trans (congrFun (read_write_all c (ms m t) f0 _) _).symm)) $$ Hr46
  ihave Hr47 := (row_congr c (ms m t) 47 (lt64 47 rfl) _ ((ms m t).view.write (Elt F) f0 (rowsOf c (grid0.coords t) (tbl m 0) (V m c main_v1)) Finset.univ) (fun e => (row_value_47 c (grid0.coords t) (ms m t) (hs m t) (tbl m 0) (V m c main_v1) hT f0 e).trans (congrFun (read_write_all c (ms m t) f0 _) _).symm)) $$ Hr47
  ihave Hr48 := (row_congr c (ms m t) 48 (lt64 48 rfl) _ ((ms m t).view.write (Elt F) f0 (rowsOf c (grid0.coords t) (tbl m 0) (V m c main_v1)) Finset.univ) (fun e => (row_value_48 c (grid0.coords t) (ms m t) (hs m t) (tbl m 0) (V m c main_v1) hT f0 e).trans (congrFun (read_write_all c (ms m t) f0 _) _).symm)) $$ Hr48
  ihave Hr49 := (row_congr c (ms m t) 49 (lt64 49 rfl) _ ((ms m t).view.write (Elt F) f0 (rowsOf c (grid0.coords t) (tbl m 0) (V m c main_v1)) Finset.univ) (fun e => (row_value_49 c (grid0.coords t) (ms m t) (hs m t) (tbl m 0) (V m c main_v1) hT f0 e).trans (congrFun (read_write_all c (ms m t) f0 _) _).symm)) $$ Hr49
  ihave Hr50 := (row_congr c (ms m t) 50 (lt64 50 rfl) _ ((ms m t).view.write (Elt F) f0 (rowsOf c (grid0.coords t) (tbl m 0) (V m c main_v1)) Finset.univ) (fun e => (row_value_50 c (grid0.coords t) (ms m t) (hs m t) (tbl m 0) (V m c main_v1) hT f0 e).trans (congrFun (read_write_all c (ms m t) f0 _) _).symm)) $$ Hr50
  ihave Hr51 := (row_congr c (ms m t) 51 (lt64 51 rfl) _ ((ms m t).view.write (Elt F) f0 (rowsOf c (grid0.coords t) (tbl m 0) (V m c main_v1)) Finset.univ) (fun e => (row_value_51 c (grid0.coords t) (ms m t) (hs m t) (tbl m 0) (V m c main_v1) hT f0 e).trans (congrFun (read_write_all c (ms m t) f0 _) _).symm)) $$ Hr51
  ihave Hr52 := (row_congr c (ms m t) 52 (lt64 52 rfl) _ ((ms m t).view.write (Elt F) f0 (rowsOf c (grid0.coords t) (tbl m 0) (V m c main_v1)) Finset.univ) (fun e => (row_value_52 c (grid0.coords t) (ms m t) (hs m t) (tbl m 0) (V m c main_v1) hT f0 e).trans (congrFun (read_write_all c (ms m t) f0 _) _).symm)) $$ Hr52
  ihave Hr53 := (row_congr c (ms m t) 53 (lt64 53 rfl) _ ((ms m t).view.write (Elt F) f0 (rowsOf c (grid0.coords t) (tbl m 0) (V m c main_v1)) Finset.univ) (fun e => (row_value_53 c (grid0.coords t) (ms m t) (hs m t) (tbl m 0) (V m c main_v1) hT f0 e).trans (congrFun (read_write_all c (ms m t) f0 _) _).symm)) $$ Hr53
  ihave Hr54 := (row_congr c (ms m t) 54 (lt64 54 rfl) _ ((ms m t).view.write (Elt F) f0 (rowsOf c (grid0.coords t) (tbl m 0) (V m c main_v1)) Finset.univ) (fun e => (row_value_54 c (grid0.coords t) (ms m t) (hs m t) (tbl m 0) (V m c main_v1) hT f0 e).trans (congrFun (read_write_all c (ms m t) f0 _) _).symm)) $$ Hr54
  ihave Hr55 := (row_congr c (ms m t) 55 (lt64 55 rfl) _ ((ms m t).view.write (Elt F) f0 (rowsOf c (grid0.coords t) (tbl m 0) (V m c main_v1)) Finset.univ) (fun e => (row_value_55 c (grid0.coords t) (ms m t) (hs m t) (tbl m 0) (V m c main_v1) hT f0 e).trans (congrFun (read_write_all c (ms m t) f0 _) _).symm)) $$ Hr55
  ihave Hr56 := (row_congr c (ms m t) 56 (lt64 56 rfl) _ ((ms m t).view.write (Elt F) f0 (rowsOf c (grid0.coords t) (tbl m 0) (V m c main_v1)) Finset.univ) (fun e => (row_value_56 c (grid0.coords t) (ms m t) (hs m t) (tbl m 0) (V m c main_v1) hT f0 e).trans (congrFun (read_write_all c (ms m t) f0 _) _).symm)) $$ Hr56
  ihave Hr57 := (row_congr c (ms m t) 57 (lt64 57 rfl) _ ((ms m t).view.write (Elt F) f0 (rowsOf c (grid0.coords t) (tbl m 0) (V m c main_v1)) Finset.univ) (fun e => (row_value_57 c (grid0.coords t) (ms m t) (hs m t) (tbl m 0) (V m c main_v1) hT f0 e).trans (congrFun (read_write_all c (ms m t) f0 _) _).symm)) $$ Hr57
  ihave Hr58 := (row_congr c (ms m t) 58 (lt64 58 rfl) _ ((ms m t).view.write (Elt F) f0 (rowsOf c (grid0.coords t) (tbl m 0) (V m c main_v1)) Finset.univ) (fun e => (row_value_58 c (grid0.coords t) (ms m t) (hs m t) (tbl m 0) (V m c main_v1) hT f0 e).trans (congrFun (read_write_all c (ms m t) f0 _) _).symm)) $$ Hr58
  ihave Hr59 := (row_congr c (ms m t) 59 (lt64 59 rfl) _ ((ms m t).view.write (Elt F) f0 (rowsOf c (grid0.coords t) (tbl m 0) (V m c main_v1)) Finset.univ) (fun e => (row_value_59 c (grid0.coords t) (ms m t) (hs m t) (tbl m 0) (V m c main_v1) hT f0 e).trans (congrFun (read_write_all c (ms m t) f0 _) _).symm)) $$ Hr59
  ihave Hr60 := (row_congr c (ms m t) 60 (lt64 60 rfl) _ ((ms m t).view.write (Elt F) f0 (rowsOf c (grid0.coords t) (tbl m 0) (V m c main_v1)) Finset.univ) (fun e => (row_value_60 c (grid0.coords t) (ms m t) (hs m t) (tbl m 0) (V m c main_v1) hT f0 e).trans (congrFun (read_write_all c (ms m t) f0 _) _).symm)) $$ Hr60
  ihave Hr61 := (row_congr c (ms m t) 61 (lt64 61 rfl) _ ((ms m t).view.write (Elt F) f0 (rowsOf c (grid0.coords t) (tbl m 0) (V m c main_v1)) Finset.univ) (fun e => (row_value_61 c (grid0.coords t) (ms m t) (hs m t) (tbl m 0) (V m c main_v1) hT f0 e).trans (congrFun (read_write_all c (ms m t) f0 _) _).symm)) $$ Hr61
  ihave Hr62 := (row_congr c (ms m t) 62 (lt64 62 rfl) _ ((ms m t).view.write (Elt F) f0 (rowsOf c (grid0.coords t) (tbl m 0) (V m c main_v1)) Finset.univ) (fun e => (row_value_62 c (grid0.coords t) (ms m t) (hs m t) (tbl m 0) (V m c main_v1) hT f0 e).trans (congrFun (read_write_all c (ms m t) f0 _) _).symm)) $$ Hr62
  ihave Hr63 := (row_congr c (ms m t) 63 (lt64 63 rfl) _ ((ms m t).view.write (Elt F) f0 (rowsOf c (grid0.coords t) (tbl m 0) (V m c main_v1)) Finset.univ) (fun e => (row_value_63 c (grid0.coords t) (ms m t) (hs m t) (tbl m 0) (V m c main_v1) hT f0 e).trans (congrFun (read_write_all c (ms m t) f0 _) _).symm)) $$ Hr63
  isplitl [He Hg Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hdrop Hh0 Hh1 Hh2 Hh3 Hh4 Hh5 Hh6 Hh7 Hh8 Hh9 Hh10 Hh11 Hh12 Hh13 Hh14 Hh15 Hh16 Hh17 Hh18 Hh19 Hh20 Hh21 Hh22 Hh23 Hh24 Hh25 Hh26 Hh27 Hh28 Hh29 Hh30 Hh31 Hh32 Hh33 Hh34 Hh35 Hh36 Hh37 Hh38 Hh39 Hh40 Hh41 Hh42 Hh43 Hh44 Hh45 Hh46 Hh47 Hh48 Hh49 Hh50 Hh51 Hh52 Hh53 Hh54 Hh55 Hh56 Hh57 Hh58 Hh59 Hh60 Hh61 Hh62 Hh63 Hh64 Hh65 HT]
  · isplitl [He Hg Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hdrop Hh0 Hh1 Hh2 Hh3 Hh4 Hh5 Hh6 Hh7 Hh8 Hh9 Hh10 Hh11 Hh12 Hh13 Hh14 Hh15 Hh16 Hh17 Hh18 Hh19 Hh20 Hh21 Hh22 Hh23 Hh24 Hh25 Hh26 Hh27 Hh28 Hh29 Hh30 Hh31 Hh32 Hh33 Hh34 Hh35 Hh36 Hh37 Hh38 Hh39 Hh40 Hh41 Hh42 Hh43 Hh44 Hh45 Hh46 Hh47 Hh48 Hh49 Hh50 Hh51 Hh52 Hh53 Hh54 Hh55 Hh56 Hh57 Hh58 Hh59 Hh60 Hh61 Hh62 Hh63 Hh64 Hh65]
    · isplitl [He]; · iexact He
      isplitl [Hg]; · iexact Hg
      isplitl [Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52 Hq53 Hq54 Hq55 Hq56 Hq57 Hq58 Hq59 Hq60 Hq61 Hq62 Hq63 Hq64 Hq65]
      · isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        isplitl [Hq23]; · iexact Hq23
        isplitl [Hq24]; · iexact Hq24
        isplitl [Hq25]; · iexact Hq25
        isplitl [Hq26]; · iexact Hq26
        isplitl [Hq27]; · iexact Hq27
        isplitl [Hq28]; · iexact Hq28
        isplitl [Hq29]; · iexact Hq29
        isplitl [Hq30]; · iexact Hq30
        isplitl [Hq31]; · iexact Hq31
        isplitl [Hq32]; · iexact Hq32
        isplitl [Hq33]; · iexact Hq33
        isplitl [Hq34]; · iexact Hq34
        isplitl [Hq35]; · iexact Hq35
        isplitl [Hq36]; · iexact Hq36
        isplitl [Hq37]; · iexact Hq37
        isplitl [Hq38]; · iexact Hq38
        isplitl [Hq39]; · iexact Hq39
        isplitl [Hq40]; · iexact Hq40
        isplitl [Hq41]; · iexact Hq41
        isplitl [Hq42]; · iexact Hq42
        isplitl [Hq43]; · iexact Hq43
        isplitl [Hq44]; · iexact Hq44
        isplitl [Hq45]; · iexact Hq45
        isplitl [Hq46]; · iexact Hq46
        isplitl [Hq47]; · iexact Hq47
        isplitl [Hq48]; · iexact Hq48
        isplitl [Hq49]; · iexact Hq49
        isplitl [Hq50]; · iexact Hq50
        isplitl [Hq51]; · iexact Hq51
        isplitl [Hq52]; · iexact Hq52
        isplitl [Hq53]; · iexact Hq53
        isplitl [Hq54]; · iexact Hq54
        isplitl [Hq55]; · iexact Hq55
        isplitl [Hq56]; · iexact Hq56
        isplitl [Hq57]; · iexact Hq57
        isplitl [Hq58]; · iexact Hq58
        isplitl [Hq59]; · iexact Hq59
        isplitl [Hq60]; · iexact Hq60
        isplitl [Hq61]; · iexact Hq61
        isplitl [Hq62]; · iexact Hq62
        isplitl [Hq63]; · iexact Hq63
        isplitl [Hq64]; · iexact Hq64
        iexact Hq65
      iapply (hb_split c (V m c main_v1)).2
      isplitl [Hdrop]; · iexact Hdrop
      isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      isplitl [Hh7]; · iexact Hh7
      isplitl [Hh8]; · iexact Hh8
      isplitl [Hh9]; · iexact Hh9
      isplitl [Hh10]; · iexact Hh10
      isplitl [Hh11]; · iexact Hh11
      isplitl [Hh12]; · iexact Hh12
      isplitl [Hh13]; · iexact Hh13
      isplitl [Hh14]; · iexact Hh14
      isplitl [Hh15]; · iexact Hh15
      isplitl [Hh16]; · iexact Hh16
      isplitl [Hh17]; · iexact Hh17
      isplitl [Hh18]; · iexact Hh18
      isplitl [Hh19]; · iexact Hh19
      isplitl [Hh20]; · iexact Hh20
      isplitl [Hh21]; · iexact Hh21
      isplitl [Hh22]; · iexact Hh22
      isplitl [Hh23]; · iexact Hh23
      isplitl [Hh24]; · iexact Hh24
      isplitl [Hh25]; · iexact Hh25
      isplitl [Hh26]; · iexact Hh26
      isplitl [Hh27]; · iexact Hh27
      isplitl [Hh28]; · iexact Hh28
      isplitl [Hh29]; · iexact Hh29
      isplitl [Hh30]; · iexact Hh30
      isplitl [Hh31]; · iexact Hh31
      isplitl [Hh32]; · iexact Hh32
      isplitl [Hh33]; · iexact Hh33
      isplitl [Hh34]; · iexact Hh34
      isplitl [Hh35]; · iexact Hh35
      isplitl [Hh36]; · iexact Hh36
      isplitl [Hh37]; · iexact Hh37
      isplitl [Hh38]; · iexact Hh38
      isplitl [Hh39]; · iexact Hh39
      isplitl [Hh40]; · iexact Hh40
      isplitl [Hh41]; · iexact Hh41
      isplitl [Hh42]; · iexact Hh42
      isplitl [Hh43]; · iexact Hh43
      isplitl [Hh44]; · iexact Hh44
      isplitl [Hh45]; · iexact Hh45
      isplitl [Hh46]; · iexact Hh46
      isplitl [Hh47]; · iexact Hh47
      isplitl [Hh48]; · iexact Hh48
      isplitl [Hh49]; · iexact Hh49
      isplitl [Hh50]; · iexact Hh50
      isplitl [Hh51]; · iexact Hh51
      isplitl [Hh52]; · iexact Hh52
      isplitl [Hh53]; · iexact Hh53
      isplitl [Hh54]; · iexact Hh54
      isplitl [Hh55]; · iexact Hh55
      isplitl [Hh56]; · iexact Hh56
      isplitl [Hh57]; · iexact Hh57
      isplitl [Hh58]; · iexact Hh58
      isplitl [Hh59]; · iexact Hh59
      isplitl [Hh60]; · iexact Hh60
      isplitl [Hh61]; · iexact Hh61
      isplitl [Hh62]; · iexact Hh62
      isplitl [Hh63]; · iexact Hh63
      isplitl [Hh64]; · iexact Hh64
      iexact Hh65
    iexact HT
  isplitl [HW']
  · iexists W'; isplitr; · ipureintro; exact fun _ _ => Or.inl trivial
    iexact HW'
  iexists ((ms m t).view.write (Elt F) f0 (rowsOf c (grid0.coords t) (tbl m 0) (V m c main_v1)) Finset.univ); isplitr
  · ipureintro; exact read_write_all c (ms m t) f0 _
  iapply (rows_split c (ms m t) _).2
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  isplitl [Hr14]; · iexact Hr14
  isplitl [Hr15]; · iexact Hr15
  isplitl [Hr16]; · iexact Hr16
  isplitl [Hr17]; · iexact Hr17
  isplitl [Hr18]; · iexact Hr18
  isplitl [Hr19]; · iexact Hr19
  isplitl [Hr20]; · iexact Hr20
  isplitl [Hr21]; · iexact Hr21
  isplitl [Hr22]; · iexact Hr22
  isplitl [Hr23]; · iexact Hr23
  isplitl [Hr24]; · iexact Hr24
  isplitl [Hr25]; · iexact Hr25
  isplitl [Hr26]; · iexact Hr26
  isplitl [Hr27]; · iexact Hr27
  isplitl [Hr28]; · iexact Hr28
  isplitl [Hr29]; · iexact Hr29
  isplitl [Hr30]; · iexact Hr30
  isplitl [Hr31]; · iexact Hr31
  isplitl [Hr32]; · iexact Hr32
  isplitl [Hr33]; · iexact Hr33
  isplitl [Hr34]; · iexact Hr34
  isplitl [Hr35]; · iexact Hr35
  isplitl [Hr36]; · iexact Hr36
  isplitl [Hr37]; · iexact Hr37
  isplitl [Hr38]; · iexact Hr38
  isplitl [Hr39]; · iexact Hr39
  isplitl [Hr40]; · iexact Hr40
  isplitl [Hr41]; · iexact Hr41
  isplitl [Hr42]; · iexact Hr42
  isplitl [Hr43]; · iexact Hr43
  isplitl [Hr44]; · iexact Hr44
  isplitl [Hr45]; · iexact Hr45
  isplitl [Hr46]; · iexact Hr46
  isplitl [Hr47]; · iexact Hr47
  isplitl [Hr48]; · iexact Hr48
  isplitl [Hr49]; · iexact Hr49
  isplitl [Hr50]; · iexact Hr50
  isplitl [Hr51]; · iexact Hr51
  isplitl [Hr52]; · iexact Hr52
  isplitl [Hr53]; · iexact Hr53
  isplitl [Hr54]; · iexact Hr54
  isplitl [Hr55]; · iexact Hr55
  isplitl [Hr56]; · iexact Hr56
  isplitl [Hr57]; · iexact Hr57
  isplitl [Hr58]; · iexact Hr58
  isplitl [Hr59]; · iexact Hr59
  isplitl [Hr60]; · iexact Hr60
  isplitl [Hr61]; · iexact Hr61
  isplitl [Hr62]; · iexact Hr62
  iexact Hr63

/-- The library's body obligation, at every point. -/
theorem body_obligation (hT : TblOk m) (c : Dev nD) : BodyObligation (dats (F := F) m hT 0 c) (defs₀ (F := F)) Variants.none () Set.univ := fun t => by
  rw [bigSep_W0, bigSep_W0]
  exact sound_body m hT c t

/-! ## The run and the frame -/

set_option backward.isDefEq.respectTransparency.types false in
/-- From any memory with zero counters whose table names rows of the matrix: every weakly fair execution of @main
    terminates, the region's output array at what the proof data say, every other unscoped buffer at what the host
    operation after the region leaves. -/
theorem run_main (hT : TblOk m) : θ_run defs (onTc (τ := τ) (main (F := F))) (s₀ m ρ)
    (Pipeline.FramePost (Pipeline.pin pcfgs fun _ => adm m) (dats m hT) 0
      (Pipeline.afterTail pcfgs (fun _ => adm m) (dats m hT) 0 (V0 m) [hostOps1])) :=
  Pipeline.θ_run_frameP_dma_around pcfgs (fun _ => adm m) (dats m hT) (0 : Fin 1) launch0 osem0 defs₀ Variants.none ownSemFacts0 H0 H0_sub m ρ main
    (hbody := fun c => (body_obligation m hT c).loose) (hshare := fun c => (dats m hT 0 c).share_full fun _ => rfl)
    (howed := fun _ _ => rfl) (V₀ := V0 m) (opss := [hostOps1]) (hsub := sfx_sub) (hfresh := sfx_fresh) (hkeep := sfx_keeps)
    (hmain := hmain m Variants.none) (hA := A_eq m hT) (hpf := V_pre m)
    (hin := fun _ => .rfl)
    (hout := fun c => (show iprop(Pipeline.ΦD osem0 spec0 H0 (V m) c ∗ Pipeline.ΦT pre0 (tbl m) c) ⊢ Pipeline.ΦD osem0 spec0 H0 (V m) c from by
      iintro ⟨HD, -⟩; iexact HD))

/-- The host operation after the region writes neither argument array: each ends as the region found it, as launched. -/
theorem W_main_arg0 (hT : TblOk m) (c : Dev nD) :
    Pipeline.afterTail pcfgs (fun _ => adm m) (dats m hT) 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (hT : TblOk m) (c : Dev nD) :
    Pipeline.afterTail pcfgs (fun _ => adm m) (dats m hT) 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- THE FRAME, for every memory whose table names rows of the matrix. -/
theorem frame (hT : TblOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (show ∀ w : Fin 1, (spec0 w).arr.view.ref ≠ main_arg0 from by decide))).trans (W_main_arg0 m hT c),
     ((h c).2 main_arg1 (Pipeline.mem_restRefs_of main_arg1 (by decide) (show ∀ w : Fin 1, (spec0 w).arr.view.ref ≠ main_arg1 from by decide))).trans (W_main_arg1 m hT c)⟩) (run_main m ρ hT)

end Cert.KernelIdeal.Gather

end
-- ==== Proof.KernelIdealGlue.lean ====
/-
  The kernel program's host operations around its region, read at an index.

  Before the region @main reshapes the column of row numbers `y : [16384, 1]` to the table `[16384]` and
  transposes the matrix `W : [512, 128000]` to `[128000, 512]`; after it @main reshapes the region's output
  `[16384, 512]` to `[16384, 1, 512]`.  Read at an index: the table at `i` is `y[i, 0]`; row `r` of the
  transposed matrix at column `e` is `W[e, r]`; the final reshape at `(b, 0, e)` is the region's output at
  `(b, e)`.  A reshape keeps the row-major position, and each of the three index pairs has the same one.
-/
import proofs.«148027_j64802466562285_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Glue

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]

/-- The buffers' contents when the region is entered: after the two host operations before it. -/
abbrev V0 (m : (ℓ : Loc nD τ sig) → Buf (Elt F) ℓ) (c : Dev nD) : Valuation τ sig (Elt F) :=
  StableHlo.after (List.flatten [hostOps0]) (fun b => m (c, b))

/-- The table of row numbers at the region's entry is the first argument reshaped to rank one. -/
theorem table_eq (m : (ℓ : Loc nD τ sig) → Buf (Elt F) ℓ) (c : Dev nD) :
    (V0 m c (Proc.devRef .tc main_v0) : S16384.Idx → Elt F .i32)
      = shapeCast S16384 (m ((c.tc : Thread nD τ).loc main_arg0)) shapeCasts_S16384x1_S16384 := by
  show StableHlo.after hostOps0 (fun b => m (c, b)) (Proc.devRef .tc main_v0) = _
  after_results
  rfl

/-- The table at `i` is the first argument at `(i, 0)`: both indices have row-major position `i`. -/
theorem table_apply (m : (ℓ : Loc nD τ sig) → Buf (Elt F) ℓ) (c : Dev nD) (i : Fin 16384) :
    (V0 m c (Proc.devRef .tc main_v0) : S16384.Idx → Elt F .i32) (ix1 i)
      = m ((c.tc : Thread nD τ).loc main_arg0) (ix2 i (0 : Fin 1)) := by
  rw [table_eq]
  refine shapeCast_apply _ _ (ix1 i) (ix2 i (0 : Fin 1)) ?_
  rw [Shape.rowMajor_val_two, Shape.rowMajor_val_one]
  show i.val * 1 + 0 = i.val
  omega

/-- The second window's array at the region's entry is the second argument transposed. -/
theorem rows_eq (m : (ℓ : Loc nD τ sig) → Buf (Elt F) ℓ) (c : Dev nD) :
    (V0 m c (Proc.devRef .tc main_v1) : S128000x512.Idx → Elt F .f32)
      = transpose S128000x512 [1, 0] (m ((c.tc : Thread nD τ).loc main_arg1)) transposes_S512x128000_S128000x512_1_0 := by
  show StableHlo.after hostOps0 (fun b => m (c, b)) (Proc.devRef .tc main_v1) = _
  after_results

/-- Row `r` of the transposed matrix at column `e` is the second argument at `(e, r)`. -/
theorem rows_apply (m : (ℓ : Loc nD τ sig) → Buf (Elt F) ℓ) (c : Dev nD) (r : Fin 128000) (e : Fin 512) :
    (V0 m c (Proc.devRef .tc main_v1) : S128000x512.Idx → Elt F .f32) (ix2 r e)
      = m ((c.tc : Thread nD τ).loc main_arg1) (ix2 e r) := by
  rw [rows_eq]
  exact transpose_ix2_apply _ _ r e

/-- After the one host operation that follows the region, the result buffer is the region's output reshaped
    to rank three. -/
theorem tail_eq (X : Valuation τ sig (Elt F)) :
    (StableHlo.after (List.flatten [hostOps1]) X (Proc.devRef .tc main_v3) : S16384x1x512.Idx → Elt F .f32)
      = shapeCast S16384x1x512 (X (Proc.devRef .tc main_v2)) shapeCasts_S16384x512_S16384x1x512 := by
  show StableHlo.after hostOps1 X (Proc.devRef .tc main_v3) = _
  after_results
  rfl

/-- The final reshape at `(b, 0, e)` is the region's output at `(b, e)`: both indices have row-major
    position `512 b + e`. -/
theorem tail_apply (X : Valuation τ sig (Elt F)) (b : Fin 16384) (e : Fin 512) :
    (StableHlo.after (List.flatten [hostOps1]) X (Proc.devRef .tc main_v3) : S16384x1x512.Idx → Elt F .f32)
        (ix3 b (0 : Fin 1) e)
      = X (Proc.devRef .tc main_v2) (ix2 b e) := by
  rw [tail_eq]
  refine shapeCast_apply _ _ (ix3 b (0 : Fin 1) e) (ix2 b e) ?_
  rw [Shape.rowMajor_val_two, Shape.rowMajor_val_three]
  show b.val * 512 + e.val = (b.val * 1 + 0) * 512 + e.val
  omega

end Cert.KernelIdeal.Glue

end
-- ==== Proof.KernelIdealTable.lean ====
/-
  The index range, carried to the table of row numbers the kernel reads.

  At the region's entry the table `[16384]` is the first argument `y : [16384, 1]` reshaped, so its word at `i`
  is `y[i, 0]`; under the precondition every entry of `y`, read unsigned, is below 128000; and a load through the
  whole table's view at a rectangle reads, at each index of the rectangle, the table's word at the index the
  rectangle places there.  So every word such a load reads is below 128000: it names a row of the 128000-row matrix.
-/
import proofs.«148027_j64802466562285_1_alg».proof.Proof.KernelIdealGlue
import proofs.«148027_j64802466562285_1_alg».proof.Proof.PreRange

noncomputable section

namespace Cert.KernelIdeal.Glue

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]
variable [Cert.Pre_finite_inputs.Facts]

/-- Under the precondition every word of the table at the region's entry, read unsigned, is below 128000:
    the word at `i` is `y[i, 0]`, and every entry of `y` is. -/
theorem table_lt (m : (ℓ : Loc nD τ sig) → Buf (Elt F) ℓ) (c : Dev nD)
    (h : Cert.Pre_finite_inputs.fn (F := F) (m ((c.tc : Thread nD τ).loc main_arg0)) (m ((c.tc : Thread nD τ).loc main_arg1)) = fun _ => 1#1)
    (x : S16384.Idx) :
    BitVec.toNat ((V0 m c (Proc.devRef .tc main_v0) : S16384.Idx → Elt F .i32) x : BitVec 32) < 128000 := by
  obtain ⟨i, rfl⟩ : ∃ i : Fin 16384, x = ix1 i := ⟨x 0, eq_ix1 x⟩
  rw [table_apply]
  exact Cert.PreRange.index_lt _ _ h _

/-- Every word a load through the whole table's view reads at a rectangle is below 128000: the load reads the
    table's contents at the index the rectangle places at `j`. -/
theorem table_rows (m : (ℓ : Loc nD τ sig) → Buf (Elt F) ℓ) (c : Dev nD)
    (h : Cert.Pre_finite_inputs.fn (F := F) (m ((c.tc : Thread nD τ).loc main_arg0)) (m ((c.tc : Thread nD τ).loc main_arg1)) = fun _ => 1#1)
    (R : LoadRect S16384) (j : R.shape.Idx) :
    BitVec.toNat ((Memref.whole main_v0 : Memref sig .tc .smem S16384 .i32).view.readAt (Elt F) R (V0 m c (Proc.devRef .tc main_v0)) j : BitVec 32) < 128000 :=
  table_lt m c h (R.idx j)

end Cert.KernelIdeal.Glue

end
-- ==== Proof.RefRun.lean ====
/-
  The reference program's run and its result read at an index.

  The reference's @main is a straight line of host operations once its two outlined functions are
  unfolded at their call sites: the transpose of the table, then the index arithmetic of the row
  lookup (a wrap of negative indices, a range test, the gather, and a final select against a
  constant for indices out of range).  `val` is the composed pure term of the two argument arrays;
  `run` says every weakly fair execution ends with the result buffer at `val` and the arguments
  unchanged; `val_apply` reads `val` at an index under the index range `0 ≤ y < 128000`.
-/
import proofs.«148027_j64802466562285_1_alg».proof.ReferenceIdeal
import proofs.«148027_j64802466562285_1_alg».proof.Proof.Gen.ReferenceIdeal
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.Lib.Affine
import Idealize.ShloMosaic.PureOps.Reduce

noncomputable section

namespace Cert.ReferenceIdeal.RefRun

open Cert.ReferenceIdeal Idealize.ShloMosaic Idealize.ShloMosaic.TcCoe Idealize.SL.Sem Idealize.ShloMosaic.StableHlo

variable [Cert.ReferenceIdeal.Facts]
open Cert.ReferenceIdeal.Facts₀

variable {F : FTy → Type} [FloatOps F]

/-! ## The composed term -/

/-- Negative indices wrapped once by the table's length: `y + 128000` where `y < 0`, else `y`. -/
def wrap (y : IVec S16384x1 32) : IVec S16384x1 32 :=
  select (cmpi .slt y (broadcastInDim S16384x1 ![] bcast_S_S16384x1 (constantI S_ 32 0#32)))
    (addi y (broadcastInDim S16384x1 ![] bcast_S_S16384x1 (constantI S_ 32 128000#32))) y

/-- The wrapped indices as the gather's start-index table: a trailing unit axis holds the one coordinate. -/
def idx (y : IVec S16384x1 32) : IVec S16384x1x1 32 :=
  broadcastInDim S16384x1x1 ![0, 1] bcast_S16384x1_S16384x1x1_0_1 (wrap y)

/-- The range test `0 ≤ i ∧ i ≤ 127999` of each start index, folded by `and` over the unit axis. -/
def inRange (y : IVec S16384x1 32) : IVec S16384x1 1 :=
  Host.reduce IntOp.andi
    (andi (cmpi .sge (idx y) (broadcastInDim S16384x1x1 ![] bcast_S_S16384x1x1 (constantI S_ 32 0#32)))
      (cmpi .sle (idx y)
        (broadcastInDim S16384x1x1 ![0, 1, 2] bcast_S1x1x1_S16384x1x1_0_1_2
          (broadcastInDim S1x1x1 ![2] bcast_S1_S1x1x1_2 (constantI S1 32 127999#32)))))
    (constantI S_ 1 1#1) reducesTo_S16384x1x1_S16384x1_d2 h_S_

/-- The reference's result as the operations' composed pure term of the two argument arrays:
    the rows of the transposed table gathered at the wrapped indices where those are in range,
    the constant `0x7FC00000` elsewhere. -/
def val (y : IVec S16384x1 32) (W : FVec F S512x128000 .f32) : FVec F S16384x1x512 .f32 :=
  select (broadcastInDim S16384x1x512 ![0, 1] bcast_S16384x1_S16384x1x512_0_1 (inRange y))
    (Host.gather gather_S128000x512_S16384x1x1_S16384x1x512_2_0_n_n_0_2_1512
      (transpose S128000x512 [1, 0] W transposes_S512x128000_S128000x512_1_0) (idx y))
    (broadcastInDim S16384x1x512 ![] bcast_S_S16384x1x512 (constant S_ .f32 0x7FC00000#32))

/-! ## The run -/

/-- @main's twenty-four operations in order, the calls unfolded: the transpose; then the row lookup's
    twenty-two into its call's buffers, the wrap's select (the inner call's one operation) among them. -/
abbrev ops : List (HloOp τ sig (Elt F)) :=
  [ unary main_arg1 main_v0 ((transpose S128000x512 [1, 0] · transposes_S512x128000_S128000x512_1_0) : (⟨S512x128000, .f32⟩ : BufTy).Contents (Elt F) → (⟨S128000x512, .f32⟩ : BufTy).Contents (Elt F)),
    TRef.nullary main_call0.c (constantI S_ 32 0#32),
    TRef.unary main_call0.c main_call0.v0 (broadcastInDim S16384x1 ![] bcast_S_S16384x1),
    TRef.binary (.of main_arg0) main_call0.v0 main_call0.v1 (cmpi .slt),
    TRef.nullary main_call0.c_0 (constantI S_ 32 128000#32),
    TRef.unary main_call0.c_0 main_call0.v2 (broadcastInDim S16384x1 ![] bcast_S_S16384x1),
    TRef.binary (.of main_arg0) main_call0.v2 main_call0.v3 addi,
    TRef.ternary main_call0.v1 main_call0.v3 (.of main_arg0) main_call0.call0.v0 select,
    TRef.unary main_call0.call0.v0 main_call0.v5 (broadcastInDim S16384x1x1 ![0, 1] bcast_S16384x1_S16384x1x1_0_1),
    TRef.nullary main_call0.c_1 (constantI S1 32 127999#32),
    TRef.nullary main_call0.c_2 (constantI S_ 32 0#32),
    TRef.unary main_call0.c_2 main_call0.v6 (broadcastInDim S16384x1x1 ![] bcast_S_S16384x1x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x1x1 ![0, 1, 2] bcast_S1x1x1_S16384x1x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1x1_S16384x1_d2 h_S_),
    TRef.binary (.of main_v0) main_call0.v5 main_call0.v13 (fun x i => Host.gather gather_S128000x512_S16384x1x1_S16384x1x512_2_0_n_n_0_2_1512 x i),
    TRef.unary main_call0.v12 main_call0.v14 (broadcastInDim S16384x1x512 ![0, 1] bcast_S16384x1_S16384x1x512_0_1),
    TRef.nullary main_call0.cst (constant S_ .f32 0x7FC00000#32),
    TRef.unary main_call0.cst main_call0.v15 (broadcastInDim S16384x1x512 ![] bcast_S_S16384x1x512),
    TRef.ternary main_call0.v14 main_call0.v13 main_call0.v15 main_call0.v16 select ]

-- twenty-four binds re-associated
set_option maxRecDepth 1024 in
/-- @main is that straight line: the two functions' definitions unfolded at their calls, both sides are one
    chain of `hlo` steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..⟩

-- the reduction and the gather are folds and searches over their operands' elements: the equation below never
-- looks inside them, so they stay folded while the valuation's chain of results is opened
attribute [local irreducible] Host.reduce Host.gather in
/-- The fold at the result buffer is `val` of the valuation at the two argument buffers: each operation's
    result at its own buffer is its function's value, at any other buffer what was there. -/
theorem out_eq (V : Valuation τ sig (Elt F)) :
    after ops V (main_v1 : DevRef τ sig) = val (V (main_arg0 : DevRef τ sig)) (V (main_arg1 : DevRef τ sig)) := by
  after_results
  rfl

/-- No operation writes the first argument's buffer. -/
theorem arg0_eq (V : Valuation τ sig (Elt F)) :
    after ops V (main_arg0 : DevRef τ sig) = V (main_arg0 : DevRef τ sig) := by
  after_results

/-- No operation writes the second argument's buffer. -/
theorem arg1_eq (V : Valuation τ sig (Elt F)) :
    after ops V (main_arg1 : DevRef τ sig) = V (main_arg1 : DevRef τ sig) := by
  after_results

/-- On every device, for any float values, from any memory with zero counters: every weakly fair execution of
    @main terminates with the result buffer at `val` of the arguments' launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v1) = val (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v1).trans (out_eq _), (h c main_arg0).trans (arg0_eq _),
      (h c main_arg1).trans (arg1_eq _)⟩)
    (run_seq scopedRefs_eq scopedSems_eq defs main (fun _ => ops) main_eq (fun _ => ops_sub) m ρ)

/-! ## The result read at an index -/

open Idealize.ShloMosaic.ValueIdx

/-- A 32-bit word below 128000 read signed is the number it is read unsigned: its sign bit is clear. -/
theorem toInt_of_lt {v : BitVec 32} (h : v.toNat < 128000) : v.toInt = (v.toNat : Int) :=
  BitVec.toInt_eq_toNat_of_lt (by omega)

/-- An index that is not negative is not wrapped. -/
theorem wrap_apply (y : IVec S16384x1 32) (i : S16384x1.Idx) (h : (y i).toNat < 128000) : wrap y i = y i := by
  show Scalar.select (IntOp.cmpi .slt (y i) (broadcastInDim S16384x1 ![] bcast_S_S16384x1 (constantI S_ 32 0#32) i)) _ _ = _
  rw [broadcastInDim_scalar_apply]
  show (if IntOp.cmpi .slt (y i) 0#32 = 1#1 then _ else _) = _
  rw [if_neg]
  rw [IntOp.cmpi_slt, toInt_of_lt h]
  show ¬ ((y i).toNat : Int) < 0
  omega

/-- The start-index table at `(b, 0, c)` is the wrapped index of row `b`. -/
theorem idx_apply (y : IVec S16384x1 32) (i : S16384x1x1.Idx) : idx y i = wrap y (ix2 (i 0) (0 : Fin 1)) :=
  broadcastInDim_apply _ _ _ _ _ fun a => match a with | ⟨0, _⟩ => rfl | ⟨1, _⟩ => rfl

/-- A left fold by `and` from 1 over one-bit words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = (1#1 : BitVec 1) from by decide]
    exact foldl_andi_one f l fun n hn => h n (List.mem_cons_of_mem _ hn)

/-- Under the index range every start index passes the range test, so its fold by `and` is 1. -/
theorem inRange_eq_one (y : IVec S16384x1 32) (hy : ∀ i, (y i).toNat < 128000) (j : S16384x1.Idx) :
    inRange y j = 1#1 := by
  unfold inRange
  rw [Host.reduce_eq_foldl]
  refine foldl_andi_one _ _ fun i _ => ?_
  show IntOp.andi (IntOp.cmpi .sge (idx y i) (broadcastInDim S16384x1x1 ![] bcast_S_S16384x1x1 (constantI S_ 32 0#32) i))
      (IntOp.cmpi .sle (idx y i)
        (broadcastInDim S16384x1x1 ![0, 1, 2] bcast_S1x1x1_S16384x1x1_0_1_2
          (broadcastInDim S1x1x1 ![2] bcast_S1_S1x1x1_2 (constantI S1 32 127999#32)) i)) = 1#1
  rw [broadcastInDim_scalar_apply, idx_apply, wrap_apply y _ (hy _), IntOp.andi_eq_one, IntOp.cmpi_sge, IntOp.cmpi_sle,
    toInt_of_lt (hy _)]
  have := hy (ix2 (i 0) (0 : Fin 1))
  constructor
  · show ((0#32 : BitVec 32).toInt) ≤ _
    rw [show (0#32 : BitVec 32).toInt = 0 from by decide]; omega
  · show _ ≤ (127999#32 : BitVec 32).toInt
    rw [show (127999#32 : BitVec 32).toInt = 127999 from by decide]; omega

local notation "G" => gather_S128000x512_S16384x1x1_S16384x1x512_2_0_n_n_0_2_1512

/-- The row lookup read at `(b, 0, e)`: the operand's row at the start index `i[b, 0, 0]`, read signed and
    clamped into `[0, 127999]`, at column `e`. The one collapsed axis takes the clamped start index, the
    other axis the result's offset coordinate. -/
theorem gather_apply {α : Type} (x : S128000x512.Idx → α) (i : IVec S16384x1x1 32) (b : Fin 16384) (e : Fin 512) :
    Host.gather G x i (ix3 b (0 : Fin 1) e)
      = x (ix2 ⟨min (i (ix3 b (0 : Fin 1) (0 : Fin 1))).toInt.toNat (128000 - 1), by omega⟩ e) := by
  unfold Host.gather
  congr 1
  funext a
  refine Fin.ext ?_
  match a with
  | ⟨0, _⟩ =>
    show GatherDims.start G (ix3 b (0 : Fin 1) e) i 0 + GatherDims.batchCoord G (ix3 b (0 : Fin 1) e) 0 + GatherDims.offCoord G (ix3 b (0 : Fin 1) e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (GatherDims.startIndexMap G) from List.mem_singleton.mpr rfl)]
    have hsi : GatherDims.siIdx G (ix3 b (0 : Fin 1) e) ⟨List.idxOf (0 : Fin 2) (GatherDims.startIndexMap G),
        List.idxOf_lt_length_iff.2 (List.mem_singleton.mpr rfl)⟩ = ix3 b (0 : Fin 1) (0 : Fin 1) := by
      funext c; refine Fin.ext ?_
      match c with
      | ⟨0, _⟩ => rfl
      | ⟨1, _⟩ => rfl
      | ⟨2, _⟩ => rfl
    rw [hsi]
    rfl
  | ⟨1, _⟩ =>
    show GatherDims.start G (ix3 b (0 : Fin 1) e) i 1 + GatherDims.batchCoord G (ix3 b (0 : Fin 1) e) 1 + GatherDims.offCoord G (ix3 b (0 : Fin 1) e) 1 = e.val
    rw [GatherDims.batchCoord_eq_zero _ _ _ List.not_mem_nil]
    unfold GatherDims.start
    rw [dif_neg (show (1 : Fin 2) ∉ (GatherDims.startIndexMap G) from (show (1 : Fin 2) ∉ [(0 : Fin 2)] from by decide))]
    unfold GatherDims.offCoord
    rw [dif_pos ((GatherDims.mem_sKept _ _).mpr ⟨(show (1 : Fin 2) ∉ [(0 : Fin 2)] from by decide), List.not_mem_nil⟩)]
    have hk : S128000x512.kept ([(0 : Fin 2)] ++ []) = [(1 : Fin 2)] := by decide
    have aux : ∀ (od : List (Fin 3)) (l : List (Fin 2)), od = [2] → l = [1] →
        ∀ h : List.idxOf (1 : Fin 2) l < od.length, od[List.idxOf (1 : Fin 2) l]'h = 2 := by
      intro od l h1 h2; subst h1 h2; intro h; rfl
    rw [aux (GatherDims.offsetDims G) (GatherDims.sKept G) rfl hk]
    simp only [Nat.zero_add]

/-- Under the index range `0 ≤ y < 128000` the reference's result at `(b, 0, e)` is the table at
    `(e, y[b, 0])`: the index is not wrapped, passes the range test and is not clamped, and the transposed
    table's row `y[b, 0]`, column `e`, is the table's row `e`, column `y[b, 0]`. -/
theorem val_apply (y : IVec S16384x1 32) (W : FVec Ideal S512x128000 .f32) (hy : ∀ i, (y i).toNat < 128000)
    (b : Fin 16384) (e : Fin 512) :
    val (F := Ideal) y W (ix3 b (0 : Fin 1) e) = W (ix2 e ⟨(y (ix2 b (0 : Fin 1))).toNat, hy _⟩) := by
  unfold val
  rw [select_apply, broadcastInDim_apply _ _ (inRange y) _ (ix2 b (0 : Fin 1)) (fun a => match a with | ⟨0, _⟩ => rfl | ⟨1, _⟩ => rfl),
    inRange_eq_one y hy, select_one, gather_apply, transpose_ix2_apply]
  refine congrArg W (congrArg (ix2 e) (Fin.ext ?_))
  show min (idx y (ix3 b (0 : Fin 1) (0 : Fin 1))).toInt.toNat (128000 - 1) = (y (ix2 b (0 : Fin 1))).toNat
  rw [idx_apply, wrap_apply y _ (hy _), toInt_of_lt (hy _)]
  show min ((y (ix2 b (0 : Fin 1))).toNat : Int).toNat (128000 - 1) = (y (ix2 b (0 : Fin 1))).toNat
  have := hy (ix2 b (0 : Fin 1))
  rw [Int.toNat_natCast]; omega

end Cert.ReferenceIdeal.RefRun

end
-- ==== Proof.KernelIdealBlocks.lean ====
/-
  The kernel's output array from its blocks.

  The output window is the array `[16384, 512]` in 256 blocks of `[64, 512]`: the block of grid point `t` is
  rows `64 t … 64 t + 63`, all 512 columns (its index map sends `t` to block `(t, 0)` and does not read the
  prefetched table, so the table's contents stay a variable throughout).  Every point writes its block back
  (the next point's block index differs), and the blocks tile the array (row `r` lies in the block of point
  `r / 64`).  So when at every point the body leaves in the staging block the rows `64 t … 64 t + 63` of one
  function `row`, the array after the run is `fun i => row (i 0) (i 1)`.
-/
import proofs.«148027_j64802466562285_1_alg».proof.Proof.Gen.KernelIdeal.Launch
import Idealize.ShloMosaic.Lib.Pipeline.Value
import Idealize.ShloMosaic.Lib.Pipeline.Frame
import Idealize.ShloMosaic.Lib.ValueIdx

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

/-- The output's index map, decided over the grid's 256 points: point `t` holds block `t` of the rows and
    the one block of the columns. -/
theorem index_closed : ∀ t : Fin grid0.N, cc0_transform_1 (grid0.coords t) (0 : Fin 2) = t.val
    ∧ cc0_transform_1 (grid0.coords t) (1 : Fin 2) = 0 := by
  decide +kernel

/-- The same of the window at any admissible contents of the prefetched table: the output's index map does
    not read the table. -/
theorem index_facts (a : (pcfg0 (F := F)).Adm) (t : Fin (cfg0 a).N) :
    ((cfg0 a).win 0).index t (0 : Fin 2) = t.val ∧ ((cfg0 a).win 0).index t (1 : Fin 2) = 0 :=
  index_closed t

/-- The grid has 256 points, at any admissible contents of the table. -/
theorem N_eq (a : (pcfg0 (F := F)).Adm) : (cfg0 a).N = 256 := N_0

/-- The output window is written back at every point: its block index at the next point differs. -/
theorem flush_all (a : (pcfg0 (F := F)).Adm) (t : Fin (cfg0 a).N) : ((cfg0 a).win 0).flush t = true := by
  unfold Pipeline.Window.flush
  have hN : (cfg0 a).N = 256 := N_0
  have hN' : (cfg0 a).grid.N = 256 := N_0
  have hout : ((cfg0 a).win 0).isOut = true := rfl
  rw [hout, Bool.true_and, Bool.or_eq_true, decide_eq_true_eq, decide_eq_true_eq]
  by_cases hlast : t.val + 1 = (cfg0 a).grid.N
  · exact Or.inl hlast
  · refine Or.inr ⟨by have := t.isLt; omega, fun he => ?_⟩
    have h1 : ((cfg0 a).win 0).index ⟨t.val + 1, by have := t.isLt; omega⟩ (0 : Fin 2) = t.val + 1 :=
      (index_facts a ⟨t.val + 1, by have := t.isLt; omega⟩).1
    have h0 : ((cfg0 a).win 0).index t (0 : Fin 2) = t.val := (index_facts a t).1
    have h2 : ((cfg0 a).win 0).index ⟨t.val + 1, by have := t.isLt; omega⟩ (0 : Fin 2) = ((cfg0 a).win 0).index t (0 : Fin 2) :=
      congrFun he (0 : Fin 2)
    omega

/-- An index of the array is in point `t`'s block iff each coordinate is in the block's range on its axis. -/
theorem mem_blk (a : (pcfg0 (F := F)).Adm) (t : Fin (cfg0 a).N) (i : S16384x512.Idx) :
    i ∈ (((cfg0 a).win 0).blk t).view.set ↔ ∀ b : Fin 2, ((cfg0 a).win 0).index t b * S64x512.size b ≤ (i b).val
      ∧ (i b).val < ((cfg0 a).win 0).index t b * S64x512.size b + S64x512.size b := by
  have hset : (((cfg0 a).win 0).blk t).view.set = (((cfg0 a).win 0).rect t).set :=
    View.set_slice_whole main_v2 (((cfg0 a).win 0).rect t)
  exact (Eq.to_iff (congrArg (fun X => i ∈ X) hset)).trans Rect.mem_set_unit

/-- The blocks tile the array: row `r` is in the block of point `r / 64`. -/
theorem cover (a : (pcfg0 (F := F)).Adm) (i : S16384x512.Idx) :
    ∃ t : Fin (cfg0 a).N, ((cfg0 a).win 0).flush t = true ∧ i ∈ (((cfg0 a).win 0).blk t).view.set := by
  have hi0 : (i 0).val < 16384 := (i 0).isLt
  have hi1 : (i 1).val < 512 := (i 1).isLt
  have hN : (cfg0 a).N = 256 := N_0
  refine ⟨⟨(i 0).val / 64, by rw [hN]; omega⟩, flush_all a _, ?_⟩
  rw [mem_blk]
  intro b
  obtain ⟨e0, e1⟩ := index_facts a ⟨(i 0).val / 64, by rw [hN]; omega⟩
  match b with
  | ⟨0, _⟩ =>
    show ((cfg0 a).win 0).index _ (0 : Fin 2) * 64 ≤ (i 0).val ∧ (i 0).val < ((cfg0 a).win 0).index _ (0 : Fin 2) * 64 + 64
    rw [e0]; show (i 0).val / 64 * 64 ≤ (i 0).val ∧ (i 0).val < (i 0).val / 64 * 64 + 64; omega
  | ⟨1, _⟩ =>
    show ((cfg0 a).win 0).index _ (1 : Fin 2) * 512 ≤ (i 1).val ∧ (i 1).val < ((cfg0 a).win 0).index _ (1 : Fin 2) * 512 + 512
    rw [e1]; omega

/-- What point `t` writes back is block `t` of the array whose entry at `(r, e)` is `row r e`: the block's
    entry `(j, e)` sits at row `64 t + j`, column `e` of the array. -/
theorem flushed_eq (a : (pcfg0 (F := F)).Adm) (c : Dev nD)
    (dat : Pipeline.Dat τ (Elt F) Unit ℕ (Pipeline.UD sig nD τ) ℕ (cfg0 a) c)
    (row : Fin 16384 → Fin 512 → Elt F .f32)
    (hafter : ∀ (t : Fin (cfg0 a).N) (j : Fin 64) (e : Fin 512) (hb : 64 * t.val + j.val < 16384),
        (dat.after 0 t : S64x512.Idx → Elt F .f32) (ix2 j e) = row ⟨64 * t.val + j.val, hb⟩ e)
    (t : Fin (cfg0 a).N) :
    dat.flushed 0 t = (((cfg0 a).win 0).blk t).view.read (Elt F) (fun i : S16384x512.Idx => row (i 0) (i 1)) := by
  refine funext fun (x : S64x512.Idx) => ?_
  obtain ⟨e0, e1⟩ := index_facts a t
  have hx0 : (x 0).val < 64 := (x 0).isLt
  have hx1 : (x 1).val < 512 := (x 1).isLt
  have ht : t.val < 256 := lt_of_lt_of_eq t.isLt (N_eq a)
  have hb : 64 * t.val + (x 0).val < 16384 := by omega
  show (dat.after 0 t : S64x512.Idx → Elt F .f32) (((cfg0 a).win 0).xinj ((cfg0 a).grid.coords t) x)
      = row ((((cfg0 a).win 0).blk t).view.emb x (0 : Fin 2)) ((((cfg0 a).win 0).blk t).view.emb x (1 : Fin 2))
  have e : ((cfg0 a).win 0).xinj ((cfg0 a).grid.coords t) x
      = ix2 (⟨(x 0).val, hx0⟩ : Fin 64) (⟨(x 1).val, hx1⟩ : Fin 512) := by
    funext b; match b with | ⟨0, _⟩ => rfl | ⟨1, _⟩ => rfl
  rw [e, hafter t ⟨(x 0).val, hx0⟩ ⟨(x 1).val, hx1⟩ hb]
  congr 1
  · apply Fin.ext
    show 64 * t.val + (x 0).val = ((cfg0 a).win 0).index t (0 : Fin 2) * 64 + 1 * (x 0).val
    rw [e0]; omega
  · apply Fin.ext
    show (x 1).val = ((cfg0 a).win 0).index t (1 : Fin 2) * 512 + 1 * (x 1).val
    rw [e1]; omega

/-- The output array from its blocks: when, at every point `t`, the body leaves in the output's staging block the
    rows `64 t … 64 t + 63` of one function `row`, the output array after the run is that function: every
    point writes its block back, and the 256 blocks tile the 16384 rows. -/
theorem arr_of_rows (a : (pcfg0 (F := F)).Adm) (c : Dev nD)
    (dat : Pipeline.Dat τ (Elt F) Unit ℕ (Pipeline.UD sig nD τ) ℕ (cfg0 a) c)
    (row : Fin 16384 → Fin 512 → Elt F .f32)
    (hafter : ∀ (t : Fin (cfg0 a).N) (j : Fin 64) (e : Fin 512) (hb : 64 * t.val + j.val < 16384),
        (dat.after 0 t : S64x512.Idx → Elt F .f32) (ix2 j e) = row ⟨64 * t.val + j.val, hb⟩ e) :
    (dat.arrAt 0 (cfg0 a).N : S16384x512.Idx → Elt F .f32) = fun i : S16384x512.Idx => row (i 0) (i 1) :=
  dat.arrAt_eq_of_cover 0 (fun i : S16384x512.Idx => row (i 0) (i 1))
    (fun t _ => flushed_eq a c dat row hafter t) (cover a)

end Cert.KernelIdeal.Blocks

end
-- ==== Proof.Gathered.lean ====
/-
  The one function both programs compute: at `(b, 0, e)` the entry `W[e, y[b, 0]]`.
-/
import proofs.«148027_j64802466562285_1_alg».proof.Proof.RefRun
import Idealize.ShloMosaic.Lib.ValueIdx

noncomputable section

namespace Cert.Gathered

open Idealize.ShloMosaic Idealize.ShloMosaic.ValueIdx

abbrev S16384x1 : Shape := ⟨2, ![16384, 1]⟩
abbrev S512x128000 : Shape := ⟨2, ![512, 128000]⟩
abbrev S16384x1x512 : Shape := ⟨3, ![16384, 1, 512]⟩

/-- Row `y[b, 0]` of the transposed matrix, laid at `(b, 0, ·)`: the entry at `(b, 0, e)` is `W[e, y[b, 0]]`. (A row number
    of 128000 or more reads the last row: the function is total, and under the precondition no row number is that large.) -/
def result {F : FTy → Type} (y : IVec S16384x1 32) (W : FVec F S512x128000 .f32) : FVec F S16384x1x512 .f32 :=
  fun i => W (ix2 (i 2) ⟨min (y (ix2 (i 0) (0 : Fin 1))).toNat 127999, by omega⟩)

/-- Under the index range the reference's result is that function. -/
theorem reference_eq [Cert.ReferenceIdeal.Facts] (y : IVec S16384x1 32) (W : FVec Ideal S512x128000 .f32) (hy : ∀ i, (y i).toNat < 128000) :
    Cert.ReferenceIdeal.RefRun.val (F := Ideal) y W = result y W := by
  funext i
  obtain ⟨b, z, e, rfl⟩ : ∃ (b : Fin 16384) (z : Fin 1) (e : Fin 512), i = ix3 b z e := ⟨i 0, i 1, i 2, eq_ix3 i⟩
  obtain rfl : z = 0 := Subsingleton.elim _ _
  rw [Cert.ReferenceIdeal.RefRun.val_apply y W hy b e]
  unfold result
  refine congrArg W (congrArg (ix2 e) (Fin.ext ?_))
  show (y (ix2 b (0 : Fin 1))).toNat = min (y (ix2 b (0 : Fin 1))).toNat 127999
  have := hy (ix2 b (0 : Fin 1)); omega

end Cert.Gathered

end
-- ==== Proof.KernelIdealValue.lean ====
/-
  The value of the kernel program's whole run: the result buffer holds `W[e, y[b, 0]]` at `(b, 0, e)`.
-/
import proofs.«148027_j64802466562285_1_alg».proof.Proof.KernelIdealFrame
import proofs.«148027_j64802466562285_1_alg».proof.Proof.KernelIdealGlue
import proofs.«148027_j64802466562285_1_alg».proof.Proof.KernelIdealBlocks
import proofs.«148027_j64802466562285_1_alg».proof.Proof.Gathered
import Idealize.ShloMosaic.Lib.Pipeline.Value
import Idealize.ShloMosaic.Lib.ValueIdx

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The value of the whole run

What the body leaves in the output block's staging buffer, row by row, is the one fact about the body used here
(`BodyRows`, a hypothesis of every statement below): after the body at grid coordinate `i`, row `j` of the staging
buffer is row number `table[64 i + j]` of the matrix it reads (a row number of 128000 or more reading the last row).
From it: the region's output array is, row by row, the matrix rows the table names; the host operation after the
region lays row `b` at `(b, 0, ·)`; the table at `b` is `y[b, 0]` and row `r` of the transposed matrix at column `e`
is `W[e, r]`. So the result at `(b, 0, e)` is `W[e, y[b, 0]]`. -/

section RunValue

open Idealize.ShloMosaic.ValueIdx

/-- ROW BY ROW, what the body leaves: after the body at grid coordinate `i`, the staging buffer's entry `(j, e)` is
    the matrix at row `table[64 i + j]` (capped at the last row), column `e`. -/
def BodyRows (F : FTy → Type) [FloatOps F] : Prop :=
  ∀ (c : Dev nD) (i : grid0.Coords) (arg3 : Memref sig .tc .vmem S64x512 .f32) (harg3 : arg3.IsWhole)
    (xt : TbBuf (F := F) c) (fh : HbBuf (F := F) c)
    (hx : ∀ (R : LoadRect S16384) (j : R.shape.Idx), BitVec.toNat (tbM.view.readAt (Elt F) R xt j : BitVec 32) < 128000)
    (j : Fin 64) (e : Fin 512) (hb : 64 * (i 0).val + j.val < 16384),
    outAt c i arg3 harg3 xt fh hx (ix2 j e)
      = (fh : S128000x512.Idx → Elt F .f32)
          (ix2 ⟨min (BitVec.toNat ((xt : S16384.Idx → Elt F .i32) (ix1 ⟨64 * (i 0).val + j.val, hb⟩) : BitVec 32)) 127999, by omega⟩ e)

/-- The body leaves, row by row, the matrix rows the table names: what the staging buffer holds after the body was
    defined as exactly those rows. -/
theorem body_rows : BodyRows F := by
  intro c i arg3 harg3 xt fh hx j e hb
  unfold outAt rowsOf
  refine congrArg (fh : S128000x512.Idx → Elt F .f32) ?_
  have h16 : min (64 * (i 0).val + j.val) 16383 = 64 * (i 0).val + j.val := by omega
  have hidx : (ix1 (⟨min (64 * (i 0).val + j.val) 16383, by omega⟩ : Fin 16384) : S16384.Idx) = ix1 ⟨64 * (i 0).val + j.val, hb⟩ :=
    congrArg ix1 (Fin.ext h16)
  funext a
  match a with
  | ⟨0, _⟩ =>
    refine Fin.ext ?_
    show min (BitVec.toNat ((xt : S16384.Idx → Elt F .i32) (ix1 ⟨min (64 * (i 0).val + j.val) 16383, by omega⟩) : BitVec 32)) 127999
      = min (BitVec.toNat ((xt : S16384.Idx → Elt F .i32) (ix1 ⟨64 * (i 0).val + j.val, hb⟩) : BitVec 32)) 127999
    rw [hidx]
  | ⟨1, _⟩ => rfl

/-- The one grid axis's coordinate of point `t` is `t` (decided over the 256 points). -/
theorem coord_eq : ∀ t : Fin grid0.N, (grid0.coords t (0 : Fin 1)).val = t.val := by decide +kernel

/-- The matrix row the table names for output row `r`, at column `e`: in terms of the region-entry contents. -/
def rowOf (c : Dev nD) (r : Fin 16384) (e : Fin 512) : Elt F .f32 :=
  (V m c main_v1 : S128000x512.Idx → Elt F .f32)
    (ix2 ⟨min (BitVec.toNat ((tbl m 0 : S16384.Idx → Elt F .i32) (ix1 r) : BitVec 32)) 127999, by omega⟩ e)

/-- At every point the body leaves rows `64 t … 64 t + 63` of `rowOf` in the output block's staging buffer. -/
theorem after_rows (hout : BodyRows F) (hT : TblOk m) (c : Dev nD) (t : Fin (cfgM m).N) (j : Fin 64) (e : Fin 512)
    (hb : 64 * t.val + j.val < 16384) :
    ((dats m hT 0 c).after 0 t : S64x512.Idx → Elt F .f32) (ix2 j e) = rowOf m c ⟨64 * t.val + j.val, hb⟩ e := by
  have hc : (grid0.coords t (0 : Fin 1)).val = t.val := coord_eq t
  rw [after0]
  unfold outsAt rowOf
  rw [hout c (grid0.coords t) (ms m t) (hs m t) (tbl m 0) (V m c main_v1) hT j e (by rw [hc]; exact hb)]
  simp only [hc]
  rfl

/-- The region's output array after the run: row `r` is the matrix row the table names for `r`. -/
theorem arr_rows (hout : BodyRows F) (hT : TblOk m) (c : Dev nD) :
    ((dats m hT 0 c).arrAt 0 (cfgM m).N : S16384x512.Idx → Elt F .f32) = fun i : S16384x512.Idx => rowOf m c (i 0) (i 1) :=
  Cert.KernelIdeal.Blocks.arr_of_rows (adm m) c (dats m hT 0 c) (rowOf m c) (after_rows m hout hT c)

/-- The matrix row the table names, in terms of the two arguments: the table at `b` is `y[b, 0]`, and row `r` of the
    transposed matrix at column `e` is `W[e, r]`. -/
theorem rowOf_eq (c : Dev nD) (b : Fin 16384) (e : Fin 512) :
    rowOf m c b e = Cert.Gathered.result (m ((c.tc : Thread nD τ).loc main_arg0)) (m ((c.tc : Thread nD τ).loc main_arg1)) (ix3 b (0 : Fin 1) e) := by
  obtain rfl : c = 0 := Subsingleton.elim _ _
  unfold rowOf Cert.Gathered.result
  rw [show (V m 0 main_v1 : S128000x512.Idx → Elt F .f32) = (Cert.KernelIdeal.Glue.V0 m 0 (Proc.devRef .tc main_v1)) from rfl,
    Cert.KernelIdeal.Glue.rows_apply]
  have ht : ((tbl m 0 : S16384.Idx → Elt F .i32) (ix1 b) : BitVec 32)
      = m (((0 : Dev nD).tc : Thread nD τ).loc main_arg0) (ix2 b (0 : Fin 1)) :=
    Cert.KernelIdeal.Glue.table_apply m 0 b
  simp only [ht]

/-- After the host operation that follows the region, the result buffer holds `W[e, y[b, 0]]` at `(b, 0, e)`. -/
theorem W_main_v3 (hout : BodyRows F) (hT : TblOk m) (c : Dev nD) :
    Pipeline.afterTail pcfgs (fun _ => adm m) (dats m hT) 0 (V0 m) [hostOps1] c main_v3
      = Cert.Gathered.result (m ((c.tc : Thread nD τ).loc main_arg0)) (m ((c.tc : Thread nD τ).loc main_arg1)) := by
  unfold Pipeline.afterTail
  funext i
  obtain ⟨b, z, e, rfl⟩ : ∃ (b : Fin 16384) (z : Fin 1) (e : Fin 512), i = ix3 b z e := ⟨i 0, i 1, i 2, eq_ix3 i⟩
  obtain rfl : z = 0 := Subsingleton.elim _ _
  refine (Cert.KernelIdeal.Glue.tail_apply (F := F) _ b e).trans ?_
  have harr := Pipeline.withArrays_arr (τ := τ) (Val := Elt F) spec0 (launch0 (F := F)).win.arr_inj c (V0 m c)
    (fun w => (dats m hT 0 c).arrAt w (cfgM m).N) 0
  refine (congrFun harr (ix2 b e)).trans ?_
  rw [arr_rows m hout hT c]
  exact rowOf_eq m c b e

/-- THE VALUE OF THE RUN, for every memory whose table names rows of the matrix: every weakly fair execution of @main
    terminates with the result buffer at `W[e, y[b, 0]]` at `(b, 0, e)` and the two argument arrays as they began. -/
theorem run_value (hout : BodyRows F) (hT : TblOk m) :
    θ_run defs (onTc (τ := τ) (main (F := F))) ⟨m, fun _ => 0, ρ⟩ (fun r => ∀ c : Dev nD,
      r.2.mem ((c.tc : Thread nD τ).loc main_v3) = Cert.Gathered.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v3 (Pipeline.mem_restRefs_of main_v3 (by decide) (show ∀ w : Fin 1, (spec0 w).arr.view.ref ≠ main_v3 from by decide))).trans (W_main_v3 m hout hT c),
     ((h c).2 main_arg0 (Pipeline.mem_restRefs_of main_arg0 (by decide) (show ∀ w : Fin 1, (spec0 w).arr.view.ref ≠ main_arg0 from by decide))).trans (W_main_arg0 m hT c),
     ((h c).2 main_arg1 (Pipeline.mem_restRefs_of main_arg1 (by decide) (show ∀ w : Fin 1, (spec0 w).arr.view.ref ≠ main_arg1 from by decide))).trans (W_main_arg1 m hT c)⟩) (run_main m ρ hT)

end RunValue

end Cert.KernelIdeal.Gather

end
-- ==== Proof.lean ====
/-
  The row gather `out[b, 0, :] = W[:, y[b, 0]]` of a 512 × 128000 matrix `W` by 16384 row numbers `y`, as a kernel that copies,
  at each of 256 grid points, 64 rows of the transposed matrix into a block of the output, against `take(Wᵀ, y, axis 0)`.

  The precondition says every entry of `W` is finite and every entry of `y` lies in [0, 128000). The second part is what the
  claims need: a row number outside that range names no row of the matrix, the kernel's copy of it has no source, and the
  reference fills the row with a not-a-number. Under it:
  * both kernel programs (at words, and at extended reals) run to the end without fault and leave `y` and `W` as they
    were — the table of row numbers the kernel reads is `y` flattened, so each word it reads names a row;
  * the reference runs to the end and leaves them as they were: it is a straight line of host operations;
  * nothing was rewritten to idealize the kernel, so there is nothing to preserve;
  * at extended reals both results are `W[e, y[b, 0]]` at `(b, 0, e)`: on the kernel's side the block of point `t` holds rows
    `y[64 t], …, y[64 t + 63]` of the transposed matrix and the 256 blocks tile the output; on the reference's side the
    wrapped index is the index, the range test passes, and the lookup reads row `y[b, 0]` of the transposed matrix.
  No arithmetic is done on the matrix entries by either program, so the finiteness of `W` is never used.
-/
import proofs.«148027_j64802466562285_1_alg».proof.Defs
import proofs.«148027_j64802466562285_1_alg».proof.Proof.KernelFrame
import proofs.«148027_j64802466562285_1_alg».proof.Proof.KernelTable
import proofs.«148027_j64802466562285_1_alg».proof.Proof.KernelIdealFrame
import proofs.«148027_j64802466562285_1_alg».proof.Proof.KernelIdealTable
import proofs.«148027_j64802466562285_1_alg».proof.Proof.RefRun
import proofs.«148027_j64802466562285_1_alg».proof.Proof.KernelIdealValue

noncomputable section

namespace Cert.Proof

open Idealize.ShloMosaic Idealize.ShloMosaic.TcCoe Idealize.SL.Sem

/-- Every word of the table the word-level kernel reads names a row: the table is `y` flattened. -/
theorem rows_named_p (m : (ℓ : Loc Cert.Kernel.nD Cert.Kernel.τ Cert.Kernel.sig) → Buf (Elt Bits) ℓ) (h : Cert.Pre_Kernel m) :
    Cert.Kernel.Gather.TblOk m :=
  fun R j => Cert.Kernel.Glue.table_rows m 0 (h 0) R j

/-- The same of the idealized kernel. -/
theorem rows_named_pi (m : (ℓ : Loc Cert.KernelIdeal.nD Cert.KernelIdeal.τ Cert.KernelIdeal.sig) → Buf (Elt Ideal) ℓ) (h : Cert.Pre_KernelIdeal m) :
    Cert.KernelIdeal.Gather.TblOk m :=
  fun R j => Cert.KernelIdeal.Glue.table_rows m 0 (h 0) R j

theorem frame_p : Cert.frame_Kernel := fun m ρ h => Cert.Kernel.Gather.frame m ρ (rows_named_p m h)
theorem frame_pi : Cert.frame_KernelIdeal := fun m ρ h => Cert.KernelIdeal.Gather.frame m ρ (rows_named_pi m h)
/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- At extended reals, from memories agreeing on `y` and `W`, the two runs end with one result. -/
theorem algebraic : Cert.algebraic_KernelIdeal_ReferenceIdeal := by
  intro m ρ m' ρ' hpre hagree
  refine ⟨_, Cert.KernelIdeal.Gather.run_value m ρ Cert.KernelIdeal.Gather.body_rows (rows_named_pi m hpre), ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.Gathered.reference_eq _ _ (Cert.PreRange.index_lt _ _ (hpre c))

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
